-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_33" .f32 0x3CF83E10#32 ((1 / 33 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x128 : Shape := ⟨2, ![100000, 128]⟩
abbrev S16384x1 : Shape := ⟨2, ![16384, 1]⟩
abbrev S16384x32 : Shape := ⟨2, ![16384, 32]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S16384x1 : S_.BroadcastsInDim S16384x1 (![] : Fin 0 → Fin S16384x1.rank)
  reducesTo_S16384x1_S_d0_1 : S16384x1.ReducesTo [0, 1] S_
  bcast_S_S16384x32 : S_.BroadcastsInDim S16384x32 (![] : Fin 0 → Fin S16384x32.rank)
  reducesTo_S16384x32_S_d0_1 : S16384x32.ReducesTo [0, 1] S_
  reducesTo_S_S_d : S_.ReducesTo [] S_

variable [Facts]

def fn_part1 {F : FTy → Type} [FloatOps F] (main_arg1 : IVec S16384x1 32) (main_arg2 : IVec S16384x32 32) (main_arg5 : IVec S_ 32) (main_v13 : IVec S_ 1) (main_v15 : IVec S16384x1 1) (main_c_5 : IVec S_ 32) : IVec S_ 1 :=
  let main_v16 : IVec S16384x1 32 := broadcastInDim S16384x1 ![] bcast_S_S16384x1 main_c_5
  let main_v17 : IVec S16384x1 1 := cmpi .sle main_arg1 main_v16
  let main_v18 : IVec S16384x1 1 := andi main_v15 main_v17
  let main_c_6 : IVec S_ 1 := constantI S_ 1 1#1
  let main_v19 : IVec S_ 1 := (fun x v => Host.reduce IntOp.andi x v reducesTo_S16384x1_S_d0_1 h_S_) main_v18 main_c_6
  let main_v20 : IVec S_ 1 := andi main_v13 main_v19
  let main_c_7 : IVec S_ 32 := constantI S_ 32 0#32
  let main_v21 : IVec S16384x32 32 := broadcastInDim S16384x32 ![] bcast_S_S16384x32 main_c_7
  let main_v22 : IVec S16384x32 1 := cmpi .sge main_arg2 main_v21
  let main_c_8 : IVec S_ 32 := constantI S_ 32 99999#32
  let main_v23 : IVec S16384x32 32 := broadcastInDim S16384x32 ![] bcast_S_S16384x32 main_c_8
  let main_v24 : IVec S16384x32 1 := cmpi .sle main_arg2 main_v23
  let main_v25 : IVec S16384x32 1 := andi main_v22 main_v24
  let main_c_9 : IVec S_ 1 := constantI S_ 1 1#1
  let main_v26 : IVec S_ 1 := (fun x v => Host.reduce IntOp.andi x v reducesTo_S16384x32_S_d0_1 h_S_) main_v25 main_c_9
  let main_v27 : IVec S_ 1 := andi main_v20 main_v26
  let main_c_10 : IVec S_ 32 := constantI S_ 32 0#32
  let main_v28 : IVec S_ 1 := cmpi .sge main_arg5 main_c_10
  let main_c_11 : IVec S_ 32 := constantI S_ 32 0#32
  let main_v29 : IVec S_ 1 := cmpi .sle main_arg5 main_c_11
  let main_v30 : IVec S_ 1 := andi main_v28 main_v29
  let main_c_12 : IVec S_ 1 := constantI S_ 1 1#1
  let main_v31 : IVec S_ 1 := (fun x v => Host.reduce IntOp.andi x v reducesTo_S_S_d h_S_) main_v30 main_c_12
  let main_v32 : IVec S_ 1 := andi main_v27 main_v31
  main_v32

def fn {F : FTy → Type} [FloatOps F] (main_arg0 : FVec F S100000x128 .f32) (main_arg1 : IVec S16384x1 32) (main_arg2 : IVec S16384x32 32) (main_arg3 : FVec F S100000x128 .f32) (main_arg4 : FVec F S128x128 .f32) (main_arg5 : IVec S_ 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_c_4 : IVec S_ 32 := constantI S_ 32 0#32
  let main_v14 : IVec S16384x1 32 := broadcastInDim S16384x1 ![] bcast_S_S16384x1 main_c_4
  let main_v15 : IVec S16384x1 1 := cmpi .sge main_arg1 main_v14
  let main_c_5 : IVec S_ 32 := constantI S_ 32 99999#32
  fn_part1 (F := F) main_arg1 main_arg2 main_arg5 main_v13 main_v15 main_c_5
-- ==== Kernel.lean ====
abbrev S100000x128 : Shape := ⟨2, ![100000, 128]⟩
abbrev S16384x1 : Shape := ⟨2, ![16384, 1]⟩
abbrev S16384x32 : Shape := ⟨2, ![16384, 32]⟩
abbrev S128x128 : Shape := ⟨2, ![128, 128]⟩
abbrev S_ : Shape := ⟨0, ![]⟩
abbrev S524288 : Shape := ⟨1, ![524288]⟩
abbrev S16384 : Shape := ⟨1, ![16384]⟩
abbrev S16384x128 : Shape := ⟨2, ![16384, 128]⟩
abbrev S512 : Shape := ⟨1, ![512]⟩
abbrev S128 : Shape := ⟨1, ![128]⟩
abbrev S1x16 : Shape := ⟨2, ![1, 16]⟩
abbrev S16 : Shape := ⟨1, ![16]⟩
abbrev S2048x128 : Shape := ⟨2, ![2048, 128]⟩

abbrev nBuf : Table → Nat
  | .hbm => 10
  | .local .tc .vmem => 5
  | .local .scVector .vmem => 6
  | _ => 0

abbrev bufTy : (tb : Table) → Fin (nBuf tb) → BufTy
  | .hbm, ⟨0, _⟩ => ⟨S100000x128, .f32⟩
  | .hbm, ⟨1, _⟩ => ⟨S16384x1, .i32⟩
  | .hbm, ⟨2, _⟩ => ⟨S16384x32, .i32⟩
  | .hbm, ⟨3, _⟩ => ⟨S100000x128, .f32⟩
  | .hbm, ⟨4, _⟩ => ⟨S128x128, .f32⟩
  | .hbm, ⟨5, _⟩ => ⟨S_, .i32⟩
  | .hbm, ⟨6, _⟩ => ⟨S524288, .i32⟩
  | .hbm, ⟨7, _⟩ => ⟨S16384, .i32⟩
  | .hbm, ⟨8, _⟩ => ⟨S16384x128, .f32⟩
  | .hbm, ⟨9, _⟩ => ⟨S16384x128, .f32⟩
  | .local .tc .vmem, ⟨0, _⟩ => ⟨S2048x128, .f32⟩
  | .local .tc .vmem, ⟨1, _⟩ => ⟨S2048x128, .f32⟩
  | .local .tc .vmem, ⟨2, _⟩ => ⟨S128x128, .f32⟩
  | .local .tc .vmem, ⟨3, _⟩ => ⟨S2048x128, .f32⟩
  | .local .tc .vmem, ⟨4, _⟩ => ⟨S2048x128, .f32⟩
  | .local .scVector .vmem, ⟨0, _⟩ => ⟨S16384, .i32⟩
  | .local .scVector .vmem, ⟨1, _⟩ => ⟨S512, .i32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0_scv : Ref sig .scVector := ⟨.hbm, 0, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c32_i32 : BitVec 32 := 32#32
  let v3 : BitVec 32 := Scalar.muli v2 c32_i32
  ![v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_off3 (k0_t1 : Fin k0_t1_loop.trips) : Fin 1 → Nat :=
  let c0_i32 : BitVec 32 := 0#32
  let c1_i32 : BitVec 32 := 1#32
  let arg15 : BitVec 32 := Scf.iv c0_i32 c1_i32 k0_t1
  let c128_i32 : BitVec 32 := 128#32
  let v5 : BitVec 32 := Scalar.muli arg15 c128_i32
  ![v5.toNat]
def k0_off4 (k0_t1 : Fin k0_t1_loop.trips) : Fin 1 → Nat :=
  let c0_i32 : BitVec 32 := 0#32
  let c1_i32 : BitVec 32 := 1#32
  let arg15 : BitVec 32 := Scf.iv c0_i32 c1_i32 k0_t1
  let c32_i32_5 : BitVec 32 := 32#32
  let v10 : BitVec 32 := Scalar.muli arg15 c32_i32_5
  let c0_i32_6 : BitVec 32 := 0#32
  let v11 : BitVec 32 := Scalar.addi v10 c0_i32_6
  let c128_i32_7 : BitVec 32 := 128#32
  let v12 : BitVec 32 := Scalar.muli v11 c128_i32_7
  ![v12.toNat]
@[reducible] def k0_t2_loop : Scf.Loop 32 :=
  let c0_i32_10 : BitVec 32 := 0#32
  let c16_i32 : BitVec 32 := 16#32
  let v15 : BitVec 32 := Scalar.addi c0_i32_10 c16_i32
  let c1_i32_11 : BitVec 32 := 1#32
  ⟨c0_i32_10, v15, c1_i32_11⟩
def k0_cond1 (k0_t2 : Fin k0_t2_loop.trips) : BitVec 1 :=
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let c0_i32_15 : BitVec 32 := 0#32
  let v19 : BitVec 32 := Scalar.addi v18 c0_i32_15
  let c31_i32 : BitVec 32 := 31#32
  let v20 : BitVec 1 := Scalar.cmpi .slt v19 c31_i32
  let v21 : BitVec 32 := Scalar.extui v20
  let c0_i32_16 : BitVec 32 := 0#32
  let v22 : BitVec 1 := Scalar.cmpi .ne v21 c0_i32_16
  v22

def k0_off5 (k0_t1 : Fin k0_t1_loop.trips) (k0_t2 : Fin k0_t2_loop.trips) : Fin 1 → Nat :=
  let c0_i32 : BitVec 32 := 0#32
  let c1_i32 : BitVec 32 := 1#32
  let arg15 : BitVec 32 := Scf.iv c0_i32 c1_i32 k0_t1
  let c32_i32_197 : BitVec 32 := 32#32
  let v519 : BitVec 32 := Scalar.muli arg15 c32_i32_197
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let c0_i32_15 : BitVec 32 := 0#32
  let v19 : BitVec 32 := Scalar.addi v18 c0_i32_15
  let c1_i32_196 : BitVec 32 := 1#32
  let v518 : BitVec 32 := Scalar.addi v19 c1_i32_196
  let v520 : BitVec 32 := Scalar.addi v519 v518
  let c128_i32_198 : BitVec 32 := 128#32
  let v521 : BitVec 32 := Scalar.muli v520 c128_i32_198
  ![v521.toNat]
def k0_off6 (k0_t1 : Fin k0_t1_loop.trips) (k0_t2 : Fin k0_t2_loop.trips) (c0_i32_15 : BitVec 32) : Fin 1 → Nat :=
  let c0_i32 : BitVec 32 := 0#32
  let c1_i32 : BitVec 32 := 1#32
  let arg15 : BitVec 32 := Scf.iv c0_i32 c1_i32 k0_t1
  let c32_i32_17 : BitVec 32 := 32#32
  let v23 : BitVec 32 := Scalar.muli arg15 c32_i32_17
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let v19 : BitVec 32 := Scalar.addi v18 c0_i32_15
  let v24 : BitVec 32 := Scalar.addi v23 v19
  let c128_i32_18 : BitVec 32 := 128#32
  let v25 : BitVec 32 := Scalar.muli v24 c128_i32_18
  ![v25.toNat]
def k0_off7 (k0_t2 : Fin k0_t2_loop.trips) (c0_i32_15 : BitVec 32) (c0_i32_22 : BitVec 32) : Fin 2 → Nat :=
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let v19 : BitVec 32 := Scalar.addi v18 c0_i32_15
  let c4_i32_21 : BitVec 32 := 4#32
  let v28 : BitVec 32 := Scalar.muli v19 c4_i32_21
  let v29 : BitVec 32 := Scalar.addi v28 c0_i32_22
  let v30 : Index := Scalar.indexCast v29
  let c0 : Index := 0#32
  ![v30.toNat, 0]
def k0_off8 (k0_t2 : Fin k0_t2_loop.trips) (c0_i32_15 : BitVec 32) (c0_i32_22 : BitVec 32) : Fin 2 → Nat :=
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let v19 : BitVec 32 := Scalar.addi v18 c0_i32_15
  let c4_i32_21 : BitVec 32 := 4#32
  let v28 : BitVec 32 := Scalar.muli v19 c4_i32_21
  let v29 : BitVec 32 := Scalar.addi v28 c0_i32_22
  let v33 : Index := Scalar.indexCast v29
  let c16 : Index := 16#32
  ![v33.toNat, 16]
def k0_off9 (k0_t2 : Fin k0_t2_loop.trips) (c0_i32_15 : BitVec 32) (c0_i32_22 : BitVec 32) : Fin 2 → Nat :=
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let v19 : BitVec 32 := Scalar.addi v18 c0_i32_15
  let c4_i32_21 : BitVec 32 := 4#32
  let v28 : BitVec 32 := Scalar.muli v19 c4_i32_21
  let v29 : BitVec 32 := Scalar.addi v28 c0_i32_22
  let v36 : Index := Scalar.indexCast v29
  let c32 : Index := 32#32
  ![v36.toNat, 32]
def k0_off10 (k0_t2 : Fin k0_t2_loop.trips) (c0_i32_15 : BitVec 32) (c0_i32_22 : BitVec 32) : Fin 2 → Nat :=
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let v19 : BitVec 32 := Scalar.addi v18 c0_i32_15
  let c4_i32_21 : BitVec 32 := 4#32
  let v28 : BitVec 32 := Scalar.muli v19 c4_i32_21
  let v29 : BitVec 32 := Scalar.addi v28 c0_i32_22
  let v39 : Index := Scalar.indexCast v29
  let c48 : Index := 48#32
  ![v39.toNat, 48]
def k0_off11 (k0_t2 : Fin k0_t2_loop.trips) (c0_i32_15 : BitVec 32) (c0_i32_22 : BitVec 32) : Fin 2 → Nat :=
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let v19 : BitVec 32 := Scalar.addi v18 c0_i32_15
  let c4_i32_21 : BitVec 32 := 4#32
  let v28 : BitVec 32 := Scalar.muli v19 c4_i32_21
  let v29 : BitVec 32 := Scalar.addi v28 c0_i32_22
  let v42 : Index := Scalar.indexCast v29
  let c64 : Index := 64#32
  ![v42.toNat, 64]
def k0_off12 (k0_t2 : Fin k0_t2_loop.trips) (c0_i32_15 : BitVec 32) (c0_i32_22 : BitVec 32) : Fin 2 → Nat :=
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let v19 : BitVec 32 := Scalar.addi v18 c0_i32_15
  let c4_i32_21 : BitVec 32 := 4#32
  let v28 : BitVec 32 := Scalar.muli v19 c4_i32_21
  let v29 : BitVec 32 := Scalar.addi v28 c0_i32_22
  let v45 : Index := Scalar.indexCast v29
  let c80 : Index := 80#32
  ![v45.toNat, 80]
def k0_off13 (k0_t2 : Fin k0_t2_loop.trips) (c0_i32_15 : BitVec 32) (c0_i32_22 : BitVec 32) : Fin 2 → Nat :=
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let v19 : BitVec 32 := Scalar.addi v18 c0_i32_15
  let c4_i32_21 : BitVec 32 := 4#32
  let v28 : BitVec 32 := Scalar.muli v19 c4_i32_21
  let v29 : BitVec 32 := Scalar.addi v28 c0_i32_22
  let v48 : Index := Scalar.indexCast v29
  let c96 : Index := 96#32
  ![v48.toNat, 96]
def k0_off14 (k0_t2 : Fin k0_t2_loop.trips) (c0_i32_15 : BitVec 32) (c0_i32_22 : BitVec 32) : Fin 2 → Nat :=
  let c2_i32_14 : BitVec 32 := 2#32
  let c0_i32_10 : BitVec 32 := 0#32
  let c1_i32_11 : BitVec 32 := 1#32
  let arg16 : BitVec 32 := Scf.iv c0_i32_10 c1_i32_11 k0_t2
  let v18 : BitVec 32 := Scalar.muli c2_i32_14 arg16
  let v19 : BitVec 32 := Scalar.addi v18 c0_i32_15
  let c4_i32_21 : BitVec 32 := 4#32
  let v28 : BitVec 32 := Scalar.muli v19 c4_i32_21
  let v29 : BitVec 32 := Scalar.addi v28 c0_i32_22
  let v51 : Index := Scalar.indexCast v29
  let c112 : Index := 112#32
  ![v51.toNat, 112]
@[reducible] def k0_t3_loop : Scf.Loop 32 :=
  let c0_i32_23 : BitVec 32 := 0#32
  let c32_i32_24 : BitVec 32 := 32#32
  let v54 : BitVec 32 := Scalar.addi c0_i32_23 c32_i32_24
  let c1_i32_25 : BitVec 32 := 1#32
  ⟨c0_i32_23, v54, c1_i32_25⟩
def k0_off15 (k0_t3 : Fin k0_t3_loop.trips) : Fin 2 → Nat :=
  let c0_i32_196 : BitVec 32 := 0#32
  let c0_i32_23 : BitVec 32 := 0#32
  let c1_i32_25 : BitVec 32 := 1#32
  let arg17 : BitVec 32 := Scf.iv c0_i32_23 c1_i32_25 k0_t3
  let v518 : BitVec 32 := Scalar.addi c0_i32_196 arg17
  let v519 : Index := Scalar.indexCast v518
  let c0_197 : Index := 0#32
  ![v519.toNat, 0]
def k0_off16 (k0_t3 : Fin k0_t3_loop.trips) : Fin 2 → Nat :=
  let c0_i32_198 : BitVec 32 := 0#32
  let c0_i32_23 : BitVec 32 := 0#32
  let c1_i32_25 : BitVec 32 := 1#32
  let arg17 : BitVec 32 := Scf.iv c0_i32_23 c1_i32_25 k0_t3
  let v523 : BitVec 32 := Scalar.addi c0_i32_198 arg17
  let v524 : Index := Scalar.indexCast v523
  let c16_199 : Index := 16#32
  ![v524.toNat, 16]
def k0_off17 (k0_t3 : Fin k0_t3_loop.trips) : Fin 2 → Nat :=
  let c0_i32_200 : BitVec 32 := 0#32
  let c0_i32_23 : BitVec 32 := 0#32
  let c1_i32_25 : BitVec 32 := 1#32
  let arg17 : BitVec 32 := Scf.iv c0_i32_23 c1_i32_25 k0_t3
  let v528 : BitVec 32 := Scalar.addi c0_i32_200 arg17
  let v529 : Index := Scalar.indexCast v528
  let c32_201 : Index := 32#32
  ![v529.toNat, 32]
def k0_off18 (k0_t3 : Fin k0_t3_loop.trips) : Fin 2 → Nat :=
  let c0_i32_202 : BitVec 32 := 0#32
  let c0_i32_23 : BitVec 32 := 0#32
  let c1_i32_25 : BitVec 32 := 1#32
  let arg17 : BitVec 32 := Scf.iv c0_i32_23 c1_i32_25 k0_t3
  let v533 : BitVec 32 := Scalar.addi c0_i32_202 arg17
  let v534 : Index := Scalar.indexCast v533
  let c48_203 : Index := 48#32
  ![v534.toNat, 48]
def k0_off19 (k0_t3 : Fin k0_t3_loop.trips) : Fin 2 → Nat :=
  let c0_i32_204 : BitVec 32 := 0#32
  let c0_i32_23 : BitVec 32 := 0#32
  let c1_i32_25 : BitVec 32 := 1#32
  let arg17 : BitVec 32 := Scf.iv c0_i32_23 c1_i32_25 k0_t3
  let v538 : BitVec 32 := Scalar.addi c0_i32_204 arg17
  let v539 : Index := Scalar.indexCast v538
  let c64_205 : Index := 64#32
  ![v539.toNat, 64]
def k0_off20 (k0_t3 : Fin k0_t3_loop.trips) : Fin 2 → Nat :=
  let c0_i32_206 : BitVec 32 := 0#32
  let c0_i32_23 : BitVec 32 := 0#32
  let c1_i32_25 : BitVec 32 := 1#32
  let arg17 : BitVec 32 := Scf.iv c0_i32_23 c1_i32_25 k0_t3
  let v543 : BitVec 32 := Scalar.addi c0_i32_206 arg17
  let v544 : Index := Scalar.indexCast v543
  let c80_207 : Index := 80#32
  ![v544.toNat, 80]
def k0_off21 (k0_t3 : Fin k0_t3_loop.trips) : Fin 2 → Nat :=
  let c0_i32_208 : BitVec 32 := 0#32
  let c0_i32_23 : BitVec 32 := 0#32
  let c1_i32_25 : BitVec 32 := 1#32
  let arg17 : BitVec 32 := Scf.iv c0_i32_23 c1_i32_25 k0_t3
  let v548 : BitVec 32 := Scalar.addi c0_i32_208 arg17
  let v549 : Index := Scalar.indexCast v548
  let c96_209 : Index := 96#32
  ![v549.toNat, 96]
def k0_off22 (k0_t3 : Fin k0_t3_loop.trips) : Fin 2 → Nat :=
  let c0_i32_210 : BitVec 32 := 0#32
  let c0_i32_23 : BitVec 32 := 0#32
  let c1_i32_25 : BitVec 32 := 1#32
  let arg17 : BitVec 32 := Scf.iv c0_i32_23 c1_i32_25 k0_t3
  let v553 : BitVec 32 := Scalar.addi c0_i32_210 arg17
  let v554 : Index := Scalar.indexCast v553
  let c112_211 : Index := 112#32
  ![v554.toNat, 112]
@[reducible] def k0_t4_loop : Scf.Loop 32 :=
  let c0_i32_45 : BitVec 32 := 0#32
  let c32_i32_46 : BitVec 32 := 32#32
  let v114 : BitVec 32 := Scalar.addi c0_i32_45 c32_i32_46
  let c1_i32_47 : BitVec 32 := 1#32
  ⟨c0_i32_45, v114, c1_i32_47⟩
def k0_off23 (k0_t4 : Fin k0_t4_loop.trips) : Fin 2 → Nat :=
  let c32_i32_196 : BitVec 32 := 32#32
  let c0_i32_45 : BitVec 32 := 0#32
  let c1_i32_47 : BitVec 32 := 1#32
  let arg17 : BitVec 32 := Scf.iv c0_i32_45 c1_i32_47 k0_t4
  let v518 : BitVec 32 := Scalar.addi c32_i32_196 arg17
  let v519 : Index := Scalar.indexCast v518
  let c0_197 : Index := 0#32
  ![v519.toNat, 0]
def k0_off24 (k0_t4 : Fin k0_t4_loop.trips) : Fin 2 → Nat :=
  let c32_i32_198 : BitVec 32 := 32#32
  let c0_i32_45 : BitVec 32 := 0#32
  let c1_i32_47 : BitVec 32 := 1#32
  let arg17 : BitVec 32 := Scf.iv c0_i32_45 c1_i32_47 k0_t4
  let v523 : BitVec 32 := Scalar.addi c32_i32_198 arg17
  let v524 : Index := Scalar.indexCast v523
  let c16_199 : Index := 16#32
  ![v524.toNat, 16]
def k0_off25 (k0_t4 : Fin k0_t4_loop.trips) : Fin 2 → Nat :=
  let c32_i32_200 : BitVec 32 := 32#32
  let c0_i32_45 : BitVec 32 := 0#32
  let c1_i32_47 : BitVec 32 := 1#32
  let arg17 : BitVec 32 := Scf.iv c0_i32_45 c1_i32_47 k0_t4
  let v528 : BitVec 32 := Scalar.addi c32_i32_200 arg17
  let v529 : Index := Scalar.indexCast v528
  let c32_201 : Index := 32#32
  ![v529.toNat, 32]
def k0_off26 (k0_t4 : Fin k0_t4_loop.trips) : Fin 2 → Nat :=
  let c32_i32_202 : BitVec 32 := 32#32
  let c0_i32_45 : BitVec 32 := 0#32
  let c1_i32_47 : BitVec 32 := 1#32
  let arg17 : BitVec 32 := Scf.iv c0_i32_45 c1_i32_47 k0_t4
  let v533 : BitVec 32 := Scalar.addi c32_i32_202 arg17
  let v534 : Index := Scalar.indexCast v533
  let c48_203 : Index := 48#32
  ![v534.toNat, 48]
def k0_off27 (k0_t4 : Fin k0_t4_loop.trips) : Fin 2 → Nat :=
  let c32_i32_204 : BitVec 32 := 32#32
  let c0_i32_45 : BitVec 32 := 0#32
  let c1_i32_47 : BitVec 32 := 1#32
  let arg17 : BitVec 32 := Scf.iv c0_i32_45 c1_i32_47 k0_t4
  let v538 : BitVec 32 := Scalar.addi c32_i32_204 arg17
  let v539 : Index := Scalar.indexCast v538
  let c64_205 : Index := 64#32
  ![v539.toNat, 64]
def k0_off28 (k0_t4 : Fin k0_t4_loop.trips) : Fin 2 → Nat :=
  let c32_i32_206 : BitVec 32 := 32#32
  let c0_i32_45 : BitVec 32 := 0#32
  let c1_i32_47 : BitVec 32 := 1#32
  let arg17 : BitVec 32 := Scf.iv c0_i32_45 c1_i32_47 k0_t4
  let v543 : BitVec 32 := Scalar.addi c32_i32_206 arg17
  let v544 : Index := Scalar.indexCast v543
  let c80_207 : Index := 80#32
  ![v544.toNat, 80]
def k0_off29 (k0_t4 : Fin k0_t4_loop.trips) : Fin 2 → Nat :=
  let c32_i32_208 : BitVec 32 := 32#32
  let c0_i32_45 : BitVec 32 := 0#32
  let c1_i32_47 : BitVec 32 := 1#32
  let arg17 : BitVec 32 := Scf.iv c0_i32_45 c1_i32_47 k0_t4
  let v548 : BitVec 32 := Scalar.addi c32_i32_208 arg17
  let v549 : Index := Scalar.indexCast v548
  let c96_209 : Index := 96#32
  ![v549.toNat, 96]
def k0_off30 (k0_t4 : Fin k0_t4_loop.trips) : Fin 2 → Nat :=
  let c32_i32_210 : BitVec 32 := 32#32
  let c0_i32_45 : BitVec 32 := 0#32
  let c1_i32_47 : BitVec 32 := 1#32
  let arg17 : BitVec 32 := Scf.iv c0_i32_45 c1_i32_47 k0_t4
  let v553 : BitVec 32 := Scalar.addi c32_i32_210 arg17
  let v554 : Index := Scalar.indexCast v553
  let c112_211 : Index := 112#32
  ![v554.toNat, 112]
@[reducible] def k0_t5_loop : Scf.Loop 32 :=
  let c0_i32_67 : BitVec 32 := 0#32
  let c32_i32_68 : BitVec 32 := 32#32
  let v174 : BitVec 32 := Scalar.addi c0_i32_67 c32_i32_68
  let c1_i32_69 : BitVec 32 := 1#32
  ⟨c0_i32_67, v174, c1_i32_69⟩
def k0_off31 (k0_t5 : Fin k0_t5_loop.trips) : Fin 2 → Nat :=
  let c64_i32 : BitVec 32 := 64#32
  let c0_i32_67 : BitVec 32 := 0#32
  let c1_i32_69 : BitVec 32 := 1#32
  let arg17 : BitVec 32 := Scf.iv c0_i32_67 c1_i32_69 k0_t5
  let v518 : BitVec 32 := Scalar.addi c64_i32 arg17
  let v519 : Index := Scalar.indexCast v518
  let c0_196 : Index := 0#32
  ![v519.toNat, 0]
def k0_off32 (k0_t5 : Fin k0_t5_loop.trips) : Fin 2 → Nat :=
  let c64_i32_197 : BitVec 32 := 64#32
  let c0_i32_67 : BitVec 32 := 0#32
  let c1_i32_69 : BitVec 32 := 1#32
  let arg17 : BitVec 32 := Scf.iv c0_i32_67 c1_i32_69 k0_t5
  let v523 : BitVec 32 := Scalar.addi c64_i32_197 arg17
  let v524 : Index := Scalar.indexCast v523
  let c16_198 : Index := 16#32
  ![v524.toNat, 16]
def k0_off33 (k0_t5 : Fin k0_t5_loop.trips) : Fin 2 → Nat :=
  let c64_i32_199 : BitVec 32 := 64#32
  let c0_i32_67 : BitVec 32 := 0#32
  let c1_i32_69 : BitVec 32 := 1#32
  let arg17 : BitVec 32 := Scf.iv c0_i32_67 c1_i32_69 k0_t5
  let v528 : BitVec 32 := Scalar.addi c64_i32_199 arg17
  let v529 : Index := Scalar.indexCast v528
  let c32_200 : Index := 32#32
  ![v529.toNat, 32]
def k0_off34 (k0_t5 : Fin k0_t5_loop.trips) : Fin 2 → Nat :=
  let c64_i32_201 : BitVec 32 := 64#32
  let c0_i32_67 : BitVec 32 := 0#32
  let c1_i32_69 : BitVec 32 := 1#32
  let arg17 : BitVec 32 := Scf.iv c0_i32_67 c1_i32_69 k0_t5
  let v533 : BitVec 32 := Scalar.addi c64_i32_201 arg17
  let v534 : Index := Scalar.indexCast v533
  let c48_202 : Index := 48#32
  ![v534.toNat, 48]
def k0_off35 (k0_t5 : Fin k0_t5_loop.trips) : Fin 2 → Nat :=
  let c64_i32_203 : BitVec 32 := 64#32
  let c0_i32_67 : BitVec 32 := 0#32
  let c1_i32_69 : BitVec 32 := 1#32
  let arg17 : BitVec 32 := Scf.iv c0_i32_67 c1_i32_69 k0_t5
  let v538 : BitVec 32 := Scalar.addi c64_i32_203 arg17
  let v539 : Index := Scalar.indexCast v538
  let c64_204 : Index := 64#32
  ![v539.toNat, 64]
def k0_off36 (k0_t5 : Fin k0_t5_loop.trips) : Fin 2 → Nat :=
  let c64_i32_205 : BitVec 32 := 64#32
  let c0_i32_67 : BitVec 32 := 0#32
  let c1_i32_69 : BitVec 32 := 1#32
  let arg17 : BitVec 32 := Scf.iv c0_i32_67 c1_i32_69 k0_t5
  let v543 : BitVec 32 := Scalar.addi c64_i32_205 arg17
  let v544 : Index := Scalar.indexCast v543
  let c80_206 : Index := 80#32
  ![v544.toNat, 80]
def k0_off37 (k0_t5 : Fin k0_t5_loop.trips) : Fin 2 → Nat :=
  let c64_i32_207 : BitVec 32 := 64#32
  let c0_i32_67 : BitVec 32 := 0#32
  let c1_i32_69 : BitVec 32 := 1#32
  let arg17 : BitVec 32 := Scf.iv c0_i32_67 c1_i32_69 k0_t5
  let v548 : BitVec 32 := Scalar.addi c64_i32_207 arg17
  let v549 : Index := Scalar.indexCast v548
  let c96_208 : Index := 96#32
  ![v549.toNat, 96]
def k0_off38 (k0_t5 : Fin k0_t5_loop.trips) : Fin 2 → Nat :=
  let c64_i32_209 : BitVec 32 := 64#32
  let c0_i32_67 : BitVec 32 := 0#32
  let c1_i32_69 : BitVec 32 := 1#32
  let arg17 : BitVec 32 := Scf.iv c0_i32_67 c1_i32_69 k0_t5
  let v553 : BitVec 32 := Scalar.addi c64_i32_209 arg17
  let v554 : Index := Scalar.indexCast v553
  let c112_210 : Index := 112#32
  ![v554.toNat, 112]
@[reducible] def k0_t6_loop : Scf.Loop 32 :=
  let c0_i32_88 : BitVec 32 := 0#32
  let c32_i32_89 : BitVec 32 := 32#32
  let v234 : BitVec 32 := Scalar.addi c0_i32_88 c32_i32_89
  let c1_i32_90 : BitVec 32 := 1#32
  ⟨c0_i32_88, v234, c1_i32_90⟩
def k0_off39 (k0_t6 : Fin k0_t6_loop.trips) : Fin 2 → Nat :=
  let c96_i32 : BitVec 32 := 96#32
  let c0_i32_88 : BitVec 32 := 0#32
  let c1_i32_90 : BitVec 32 := 1#32
  let arg17 : BitVec 32 := Scf.iv c0_i32_88 c1_i32_90 k0_t6
  let v518 : BitVec 32 := Scalar.addi c96_i32 arg17
  let v519 : Index := Scalar.indexCast v518
  let c0_196 : Index := 0#32
  ![v519.toNat, 0]
def k0_off40 (k0_t6 : Fin k0_t6_loop.trips) : Fin 2 → Nat :=
  let c96_i32_197 : BitVec 32 := 96#32
  let c0_i32_88 : BitVec 32 := 0#32
  let c1_i32_90 : BitVec 32 := 1#32
  let arg17 : BitVec 32 := Scf.iv c0_i32_88 c1_i32_90 k0_t6
  let v523 : BitVec 32 := Scalar.addi c96_i32_197 arg17
  let v524 : Index := Scalar.indexCast v523
  let c16_198 : Index := 16#32
  ![v524.toNat, 16]
def k0_off41 (k0_t6 : Fin k0_t6_loop.trips) : Fin 2 → Nat :=
  let c96_i32_199 : BitVec 32 := 96#32
  let c0_i32_88 : BitVec 32 := 0#32
  let c1_i32_90 : BitVec 32 := 1#32
  let arg17 : BitVec 32 := Scf.iv c0_i32_88 c1_i32_90 k0_t6
  let v528 : BitVec 32 := Scalar.addi c96_i32_199 arg17
  let v529 : Index := Scalar.indexCast v528
  let c32_200 : Index := 32#32
  ![v529.toNat, 32]
def k0_off42 (k0_t6 : Fin k0_t6_loop.trips) : Fin 2 → Nat :=
  let c96_i32_201 : BitVec 32 := 96#32
  let c0_i32_88 : BitVec 32 := 0#32
  let c1_i32_90 : BitVec 32 := 1#32
  let arg17 : BitVec 32 := Scf.iv c0_i32_88 c1_i32_90 k0_t6
  let v533 : BitVec 32 := Scalar.addi c96_i32_201 arg17
  let v534 : Index := Scalar.indexCast v533
  let c48_202 : Index := 48#32
  ![v534.toNat, 48]
def k0_off43 (k0_t6 : Fin k0_t6_loop.trips) : Fin 2 → Nat :=
  let c96_i32_203 : BitVec 32 := 96#32
  let c0_i32_88 : BitVec 32 := 0#32
  let c1_i32_90 : BitVec 32 := 1#32
  let arg17 : BitVec 32 := Scf.iv c0_i32_88 c1_i32_90 k0_t6
  let v538 : BitVec 32 := Scalar.addi c96_i32_203 arg17
  let v539 : Index := Scalar.indexCast v538
  let c64_204 : Index := 64#32
  ![v539.toNat, 64]
def k0_off44 (k0_t6 : Fin k0_t6_loop.trips) : Fin 2 → Nat :=
  let c96_i32_205 : BitVec 32 := 96#32
  let c0_i32_88 : BitVec 32 := 0#32
  let c1_i32_90 : BitVec 32 := 1#32
  let arg17 : BitVec 32 := Scf.iv c0_i32_88 c1_i32_90 k0_t6
  let v543 : BitVec 32 := Scalar.addi c96_i32_205 arg17
  let v544 : Index := Scalar.indexCast v543
  let c80_206 : Index := 80#32
  ![v544.toNat, 80]
def k0_off45 (k0_t6 : Fin k0_t6_loop.trips) : Fin 2 → Nat :=
  let c96_i32_207 : BitVec 32 := 96#32
  let c0_i32_88 : BitVec 32 := 0#32
  let c1_i32_90 : BitVec 32 := 1#32
  let arg17 : BitVec 32 := Scf.iv c0_i32_88 c1_i32_90 k0_t6
  let v548 : BitVec 32 := Scalar.addi c96_i32_207 arg17
  let v549 : Index := Scalar.indexCast v548
  let c96_208 : Index := 96#32
  ![v549.toNat, 96]
def k0_off46 (k0_t6 : Fin k0_t6_loop.trips) : Fin 2 → Nat :=
  let c96_i32_209 : BitVec 32 := 96#32
  let c0_i32_88 : BitVec 32 := 0#32
  let c1_i32_90 : BitVec 32 := 1#32
  let arg17 : BitVec 32 := Scf.iv c0_i32_88 c1_i32_90 k0_t6
  let v553 : BitVec 32 := Scalar.addi c96_i32_209 arg17
  let v554 : Index := Scalar.indexCast v553
  let c112_210 : Index := 112#32
  ![v554.toNat, 112]
def k0_cond2 (k0_t2 : Fin k0_t2_loop.trips) : BitVec 1 :=
  let c2_i32_100 : BitVec 32 := 2#32
  let c0_i32_10 : BitVec 32 := 0#32
  let c1_i32_11 : BitVec 32 := 1#32
  let arg16 : BitVec 32 := Scf.iv c0_i32_10 c1_i32_11 k0_t2
  let v268 : BitVec 32 := Scalar.muli c2_i32_100 arg16
  let c1_i32_101 : BitVec 32 := 1#32
  let v269 : BitVec 32 := Scalar.addi v268 c1_i32_101
  let c31_i32_102 : BitVec 32 := 31#32
  let v270 : BitVec 1 := Scalar.cmpi .slt v269 c31_i32_102
  let v271 : BitVec 32 := Scalar.extui v270
  let c0_i32_103 : BitVec 32 := 0#32
  let v272 : BitVec 1 := Scalar.cmpi .ne v271 c0_i32_103
  v272

def k0_off47 (k0_t1 : Fin k0_t1_loop.trips) (k0_t2 : Fin k0_t2_loop.trips) : Fin 1 → Nat :=
  let c0_i32 : BitVec 32 := 0#32
  let c1_i32 : BitVec 32 := 1#32
  let arg15 : BitVec 32 := Scf.iv c0_i32 c1_i32 k0_t1
  let c32_i32_197 : BitVec 32 := 32#32
  let v519 : BitVec 32 := Scalar.muli arg15 c32_i32_197
  let c2_i32_100 : BitVec 32 := 2#32
  let c0_i32_10 : BitVec 32 := 0#32
  let c1_i32_11 : BitVec 32 := 1#32
  let arg16 : BitVec 32 := Scf.iv c0_i32_10 c1_i32_11 k0_t2
  let v268 : BitVec 32 := Scalar.muli c2_i32_100 arg16
  let c1_i32_101 : BitVec 32 := 1#32
  let v269 : BitVec 32 := Scalar.addi v268 c1_i32_101
  let c1_i32_196 : BitVec 32 := 1#32
  let v518 : BitVec 32 := Scalar.addi v269 c1_i32_196
  let v520 : BitVec 32 := Scalar.addi v519 v518
  let c128_i32_198 : BitVec 32 := 128#32
  let v521 : BitVec 32 := Scalar.muli v520 c128_i32_198
  ![v521.toNat]
@[reducible] def k0_t7_loop : Scf.Loop 32 :=
  let c0_i32_118 : BitVec 32 := 0#32
  let c32_i32_119 : BitVec 32 := 32#32
  let v304 : BitVec 32 := Scalar.addi c0_i32_118 c32_i32_119
  let c1_i32_120 : BitVec 32 := 1#32
  ⟨c0_i32_118, v304, c1_i32_120⟩
def k0_off48 (k0_t7 : Fin k0_t7_loop.trips) : Fin 2 → Nat :=
  let c0_i32_196 : BitVec 32 := 0#32
  let c0_i32_118 : BitVec 32 := 0#32
  let c1_i32_120 : BitVec 32 := 1#32
  let arg17 : BitVec 32 := Scf.iv c0_i32_118 c1_i32_120 k0_t7
  let v518 : BitVec 32 := Scalar.addi c0_i32_196 arg17
  let v519 : Index := Scalar.indexCast v518
  let c0_197 : Index := 0#32
  ![v519.toNat, 0]
def k0_off49 (k0_t7 : Fin k0_t7_loop.trips) : Fin 2 → Nat :=
  let c0_i32_198 : BitVec 32 := 0#32
  let c0_i32_118 : BitVec 32 := 0#32
  let c1_i32_120 : BitVec 32 := 1#32
  let arg17 : BitVec 32 := Scf.iv c0_i32_118 c1_i32_120 k0_t7
  let v523 : BitVec 32 := Scalar.addi c0_i32_198 arg17
  let v524 : Index := Scalar.indexCast v523
  let c16_199 : Index := 16#32
  ![v524.toNat, 16]
def k0_off50 (k0_t7 : Fin k0_t7_loop.trips) : Fin 2 → Nat :=
  let c0_i32_200 : BitVec 32 := 0#32
  let c0_i32_118 : BitVec 32 := 0#32
  let c1_i32_120 : BitVec 32 := 1#32
  let arg17 : BitVec 32 := Scf.iv c0_i32_118 c1_i32_120 k0_t7
  let v528 : BitVec 32 := Scalar.addi c0_i32_200 arg17
  let v529 : Index := Scalar.indexCast v528
  let c32_201 : Index := 32#32
  ![v529.toNat, 32]
def k0_off51 (k0_t7 : Fin k0_t7_loop.trips) : Fin 2 → Nat :=
  let c0_i32_202 : BitVec 32 := 0#32
  let c0_i32_118 : BitVec 32 := 0#32
  let c1_i32_120 : BitVec 32 := 1#32
  let arg17 : BitVec 32 := Scf.iv c0_i32_118 c1_i32_120 k0_t7
  let v533 : BitVec 32 := Scalar.addi c0_i32_202 arg17
  let v534 : Index := Scalar.indexCast v533
  let c48_203 : Index := 48#32
  ![v534.toNat, 48]
def k0_off52 (k0_t7 : Fin k0_t7_loop.trips) : Fin 2 → Nat :=
  let c0_i32_204 : BitVec 32 := 0#32
  let c0_i32_118 : BitVec 32 := 0#32
  let c1_i32_120 : BitVec 32 := 1#32
  let arg17 : BitVec 32 := Scf.iv c0_i32_118 c1_i32_120 k0_t7
  let v538 : BitVec 32 := Scalar.addi c0_i32_204 arg17
  let v539 : Index := Scalar.indexCast v538
  let c64_205 : Index := 64#32
  ![v539.toNat, 64]
def k0_off53 (k0_t7 : Fin k0_t7_loop.trips) : Fin 2 → Nat :=
  let c0_i32_206 : BitVec 32 := 0#32
  let c0_i32_118 : BitVec 32 := 0#32
  let c1_i32_120 : BitVec 32 := 1#32
  let arg17 : BitVec 32 := Scf.iv c0_i32_118 c1_i32_120 k0_t7
  let v543 : BitVec 32 := Scalar.addi c0_i32_206 arg17
  let v544 : Index := Scalar.indexCast v543
  let c80_207 : Index := 80#32
  ![v544.toNat, 80]
def k0_off54 (k0_t7 : Fin k0_t7_loop.trips) : Fin 2 → Nat :=
  let c0_i32_208 : BitVec 32 := 0#32
  let c0_i32_118 : BitVec 32 := 0#32
  let c1_i32_120 : BitVec 32 := 1#32
  let arg17 : BitVec 32 := Scf.iv c0_i32_118 c1_i32_120 k0_t7
  let v548 : BitVec 32 := Scalar.addi c0_i32_208 arg17
  let v549 : Index := Scalar.indexCast v548
  let c96_209 : Index := 96#32
  ![v549.toNat, 96]
def k0_off55 (k0_t7 : Fin k0_t7_loop.trips) : Fin 2 → Nat :=
  let c0_i32_210 : BitVec 32 := 0#32
  let c0_i32_118 : BitVec 32 := 0#32
  let c1_i32_120 : BitVec 32 := 1#32
  let arg17 : BitVec 32 := Scf.iv c0_i32_118 c1_i32_120 k0_t7
  let v553 : BitVec 32 := Scalar.addi c0_i32_210 arg17
  let v554 : Index := Scalar.indexCast v553
  let c112_211 : Index := 112#32
  ![v554.toNat, 112]
@[reducible] def k0_t8_loop : Scf.Loop 32 :=
  let c0_i32_140 : BitVec 32 := 0#32
  let c32_i32_141 : BitVec 32 := 32#32
  let v364 : BitVec 32 := Scalar.addi c0_i32_140 c32_i32_141
  let c1_i32_142 : BitVec 32 := 1#32
  ⟨c0_i32_140, v364, c1_i32_142⟩
def k0_off56 (k0_t8 : Fin k0_t8_loop.trips) : Fin 2 → Nat :=
  let c32_i32_196 : BitVec 32 := 32#32
  let c0_i32_140 : BitVec 32 := 0#32
  let c1_i32_142 : BitVec 32 := 1#32
  let arg17 : BitVec 32 := Scf.iv c0_i32_140 c1_i32_142 k0_t8
  let v518 : BitVec 32 := Scalar.addi c32_i32_196 arg17
  let v519 : Index := Scalar.indexCast v518
  let c0_197 : Index := 0#32
  ![v519.toNat, 0]
def k0_off57 (k0_t8 : Fin k0_t8_loop.trips) : Fin 2 → Nat :=
  let c32_i32_198 : BitVec 32 := 32#32
  let c0_i32_140 : BitVec 32 := 0#32
  let c1_i32_142 : BitVec 32 := 1#32
  let arg17 : BitVec 32 := Scf.iv c0_i32_140 c1_i32_142 k0_t8
  let v523 : BitVec 32 := Scalar.addi c32_i32_198 arg17
  let v524 : Index := Scalar.indexCast v523
  let c16_199 : Index := 16#32
  ![v524.toNat, 16]
def k0_off58 (k0_t8 : Fin k0_t8_loop.trips) : Fin 2 → Nat :=
  let c32_i32_200 : BitVec 32 := 32#32
  let c0_i32_140 : BitVec 32 := 0#32
  let c1_i32_142 : BitVec 32 := 1#32
  let arg17 : BitVec 32 := Scf.iv c0_i32_140 c1_i32_142 k0_t8
  let v528 : BitVec 32 := Scalar.addi c32_i32_200 arg17
  let v529 : Index := Scalar.indexCast v528
  let c32_201 : Index := 32#32
  ![v529.toNat, 32]
def k0_off59 (k0_t8 : Fin k0_t8_loop.trips) : Fin 2 → Nat :=
  let c32_i32_202 : BitVec 32 := 32#32
  let c0_i32_140 : BitVec 32 := 0#32
  let c1_i32_142 : BitVec 32 := 1#32
  let arg17 : BitVec 32 := Scf.iv c0_i32_140 c1_i32_142 k0_t8
  let v533 : BitVec 32 := Scalar.addi c32_i32_202 arg17
  let v534 : Index := Scalar.indexCast v533
  let c48_203 : Index := 48#32
  ![v534.toNat, 48]
def k0_off60 (k0_t8 : Fin k0_t8_loop.trips) : Fin 2 → Nat :=
  let c32_i32_204 : BitVec 32 := 32#32
  let c0_i32_140 : BitVec 32 := 0#32
  let c1_i32_142 : BitVec 32 := 1#32
  let arg17 : BitVec 32 := Scf.iv c0_i32_140 c1_i32_142 k0_t8
  let v538 : BitVec 32 := Scalar.addi c32_i32_204 arg17
  let v539 : Index := Scalar.indexCast v538
  let c64_205 : Index := 64#32
  ![v539.toNat, 64]
def k0_off61 (k0_t8 : Fin k0_t8_loop.trips) : Fin 2 → Nat :=
  let c32_i32_206 : BitVec 32 := 32#32
  let c0_i32_140 : BitVec 32 := 0#32
  let c1_i32_142 : BitVec 32 := 1#32
  let arg17 : BitVec 32 := Scf.iv c0_i32_140 c1_i32_142 k0_t8
  let v543 : BitVec 32 := Scalar.addi c32_i32_206 arg17
  let v544 : Index := Scalar.indexCast v543
  let c80_207 : Index := 80#32
  ![v544.toNat, 80]
def k0_off62 (k0_t8 : Fin k0_t8_loop.trips) : Fin 2 → Nat :=
  let c32_i32_208 : BitVec 32 := 32#32
  let c0_i32_140 : BitVec 32 := 0#32
  let c1_i32_142 : BitVec 32 := 1#32
  let arg17 : BitVec 32 := Scf.iv c0_i32_140 c1_i32_142 k0_t8
  let v548 : BitVec 32 := Scalar.addi c32_i32_208 arg17
  let v549 : Index := Scalar.indexCast v548
  let c96_209 : Index := 96#32
  ![v549.toNat, 96]
def k0_off63 (k0_t8 : Fin k0_t8_loop.trips) : Fin 2 → Nat :=
  let c32_i32_210 : BitVec 32 := 32#32
  let c0_i32_140 : BitVec 32 := 0#32
  let c1_i32_142 : BitVec 32 := 1#32
  let arg17 : BitVec 32 := Scf.iv c0_i32_140 c1_i32_142 k0_t8
  let v553 : BitVec 32 := Scalar.addi c32_i32_210 arg17
  let v554 : Index := Scalar.indexCast v553
  let c112_211 : Index := 112#32
  ![v554.toNat, 112]
@[reducible] def k0_t9_loop : Scf.Loop 32 :=
  let c0_i32_162 : BitVec 32 := 0#32
  let c32_i32_163 : BitVec 32 := 32#32
  let v424 : BitVec 32 := Scalar.addi c0_i32_162 c32_i32_163
  let c1_i32_164 : BitVec 32 := 1#32
  ⟨c0_i32_162, v424, c1_i32_164⟩
def k0_off64 (k0_t9 : Fin k0_t9_loop.trips) : Fin 2 → Nat :=
  let c64_i32 : BitVec 32 := 64#32
  let c0_i32_162 : BitVec 32 := 0#32
  let c1_i32_164 : BitVec 32 := 1#32
  let arg17 : BitVec 32 := Scf.iv c0_i32_162 c1_i32_164 k0_t9
  let v518 : BitVec 32 := Scalar.addi c64_i32 arg17
  let v519 : Index := Scalar.indexCast v518
  let c0_196 : Index := 0#32
  ![v519.toNat, 0]
def k0_off65 (k0_t9 : Fin k0_t9_loop.trips) : Fin 2 → Nat :=
  let c64_i32_197 : BitVec 32 := 64#32
  let c0_i32_162 : BitVec 32 := 0#32
  let c1_i32_164 : BitVec 32 := 1#32
  let arg17 : BitVec 32 := Scf.iv c0_i32_162 c1_i32_164 k0_t9
  let v523 : BitVec 32 := Scalar.addi c64_i32_197 arg17
  let v524 : Index := Scalar.indexCast v523
  let c16_198 : Index := 16#32
  ![v524.toNat, 16]
def k0_off66 (k0_t9 : Fin k0_t9_loop.trips) : Fin 2 → Nat :=
  let c64_i32_199 : BitVec 32 := 64#32
  let c0_i32_162 : BitVec 32 := 0#32
  let c1_i32_164 : BitVec 32 := 1#32
  let arg17 : BitVec 32 := Scf.iv c0_i32_162 c1_i32_164 k0_t9
  let v528 : BitVec 32 := Scalar.addi c64_i32_199 arg17
  let v529 : Index := Scalar.indexCast v528
  let c32_200 : Index := 32#32
  ![v529.toNat, 32]
def k0_off67 (k0_t9 : Fin k0_t9_loop.trips) : Fin 2 → Nat :=
  let c64_i32_201 : BitVec 32 := 64#32
  let c0_i32_162 : BitVec 32 := 0#32
  let c1_i32_164 : BitVec 32 := 1#32
  let arg17 : BitVec 32 := Scf.iv c0_i32_162 c1_i32_164 k0_t9
  let v533 : BitVec 32 := Scalar.addi c64_i32_201 arg17
  let v534 : Index := Scalar.indexCast v533
  let c48_202 : Index := 48#32
  ![v534.toNat, 48]
def k0_off68 (k0_t9 : Fin k0_t9_loop.trips) : Fin 2 → Nat :=
  let c64_i32_203 : BitVec 32 := 64#32
  let c0_i32_162 : BitVec 32 := 0#32
  let c1_i32_164 : BitVec 32 := 1#32
  let arg17 : BitVec 32 := Scf.iv c0_i32_162 c1_i32_164 k0_t9
  let v538 : BitVec 32 := Scalar.addi c64_i32_203 arg17
  let v539 : Index := Scalar.indexCast v538
  let c64_204 : Index := 64#32
  ![v539.toNat, 64]
def k0_off69 (k0_t9 : Fin k0_t9_loop.trips) : Fin 2 → Nat :=
  let c64_i32_205 : BitVec 32 := 64#32
  let c0_i32_162 : BitVec 32 := 0#32
  let c1_i32_164 : BitVec 32 := 1#32
  let arg17 : BitVec 32 := Scf.iv c0_i32_162 c1_i32_164 k0_t9
  let v543 : BitVec 32 := Scalar.addi c64_i32_205 arg17
  let v544 : Index := Scalar.indexCast v543
  let c80_206 : Index := 80#32
  ![v544.toNat, 80]
def k0_off70 (k0_t9 : Fin k0_t9_loop.trips) : Fin 2 → Nat :=
  let c64_i32_207 : BitVec 32 := 64#32
  let c0_i32_162 : BitVec 32 := 0#32
  let c1_i32_164 : BitVec 32 := 1#32
  let arg17 : BitVec 32 := Scf.iv c0_i32_162 c1_i32_164 k0_t9
  let v548 : BitVec 32 := Scalar.addi c64_i32_207 arg17
  let v549 : Index := Scalar.indexCast v548
  let c96_208 : Index := 96#32
  ![v549.toNat, 96]
def k0_off71 (k0_t9 : Fin k0_t9_loop.trips) : Fin 2 → Nat :=
  let c64_i32_209 : BitVec 32 := 64#32
  let c0_i32_162 : BitVec 32 := 0#32
  let c1_i32_164 : BitVec 32 := 1#32
  let arg17 : BitVec 32 := Scf.iv c0_i32_162 c1_i32_164 k0_t9
  let v553 : BitVec 32 := Scalar.addi c64_i32_209 arg17
  let v554 : Index := Scalar.indexCast v553
  let c112_210 : Index := 112#32
  ![v554.toNat, 112]
@[reducible] def k0_t10_loop : Scf.Loop 32 :=
  let c0_i32_184 : BitVec 32 := 0#32
  let c32_i32_185 : BitVec 32 := 32#32
  let v484 : BitVec 32 := Scalar.addi c0_i32_184 c32_i32_185
  let c1_i32_186 : BitVec 32 := 1#32
  ⟨c0_i32_184, v484, c1_i32_186⟩
def k0_off72 (k0_t10 : Fin k0_t10_loop.trips) : Fin 2 → Nat :=
  let c96_i32 : BitVec 32 := 96#32
  let c0_i32_184 : BitVec 32 := 0#32
  let c1_i32_186 : BitVec 32 := 1#32
  let arg17 : BitVec 32 := Scf.iv c0_i32_184 c1_i32_186 k0_t10
  let v518 : BitVec 32 := Scalar.addi c96_i32 arg17
  let v519 : Index := Scalar.indexCast v518
  let c0_196 : Index := 0#32
  ![v519.toNat, 0]
def k0_off73 (k0_t10 : Fin k0_t10_loop.trips) : Fin 2 → Nat :=
  let c96_i32_197 : BitVec 32 := 96#32
  let c0_i32_184 : BitVec 32 := 0#32
  let c1_i32_186 : BitVec 32 := 1#32
  let arg17 : BitVec 32 := Scf.iv c0_i32_184 c1_i32_186 k0_t10
  let v523 : BitVec 32 := Scalar.addi c96_i32_197 arg17
  let v524 : Index := Scalar.indexCast v523
  let c16_198 : Index := 16#32
  ![v524.toNat, 16]
def k0_off74 (k0_t10 : Fin k0_t10_loop.trips) : Fin 2 → Nat :=
  let c96_i32_199 : BitVec 32 := 96#32
  let c0_i32_184 : BitVec 32 := 0#32
  let c1_i32_186 : BitVec 32 := 1#32
  let arg17 : BitVec 32 := Scf.iv c0_i32_184 c1_i32_186 k0_t10
  let v528 : BitVec 32 := Scalar.addi c96_i32_199 arg17
  let v529 : Index := Scalar.indexCast v528
  let c32_200 : Index := 32#32
  ![v529.toNat, 32]
def k0_off75 (k0_t10 : Fin k0_t10_loop.trips) : Fin 2 → Nat :=
  let c96_i32_201 : BitVec 32 := 96#32
  let c0_i32_184 : BitVec 32 := 0#32
  let c1_i32_186 : BitVec 32 := 1#32
  let arg17 : BitVec 32 := Scf.iv c0_i32_184 c1_i32_186 k0_t10
  let v533 : BitVec 32 := Scalar.addi c96_i32_201 arg17
  let v534 : Index := Scalar.indexCast v533
  let c48_202 : Index := 48#32
  ![v534.toNat, 48]
def k0_off76 (k0_t10 : Fin k0_t10_loop.trips) : Fin 2 → Nat :=
  let c96_i32_203 : BitVec 32 := 96#32
  let c0_i32_184 : BitVec 32 := 0#32
  let c1_i32_186 : BitVec 32 := 1#32
  let arg17 : BitVec 32 := Scf.iv c0_i32_184 c1_i32_186 k0_t10
  let v538 : BitVec 32 := Scalar.addi c96_i32_203 arg17
  let v539 : Index := Scalar.indexCast v538
  let c64_204 : Index := 64#32
  ![v539.toNat, 64]
def k0_off77 (k0_t10 : Fin k0_t10_loop.trips) : Fin 2 → Nat :=
  let c96_i32_205 : BitVec 32 := 96#32
  let c0_i32_184 : BitVec 32 := 0#32
  let c1_i32_186 : BitVec 32 := 1#32
  let arg17 : BitVec 32 := Scf.iv c0_i32_184 c1_i32_186 k0_t10
  let v543 : BitVec 32 := Scalar.addi c96_i32_205 arg17
  let v544 : Index := Scalar.indexCast v543
  let c80_206 : Index := 80#32
  ![v544.toNat, 80]
def k0_off78 (k0_t10 : Fin k0_t10_loop.trips) : Fin 2 → Nat :=
  let c96_i32_207 : BitVec 32 := 96#32
  let c0_i32_184 : BitVec 32 := 0#32
  let c1_i32_186 : BitVec 32 := 1#32
  let arg17 : BitVec 32 := Scf.iv c0_i32_184 c1_i32_186 k0_t10
  let v548 : BitVec 32 := Scalar.addi c96_i32_207 arg17
  let v549 : Index := Scalar.indexCast v548
  let c96_208 : Index := 96#32
  ![v549.toNat, 96]
def k0_off79 (k0_t10 : Fin k0_t10_loop.trips) : Fin 2 → Nat :=
  let c96_i32_209 : BitVec 32 := 96#32
  let c0_i32_184 : BitVec 32 := 0#32
  let c1_i32_186 : BitVec 32 := 1#32
  let arg17 : BitVec 32 := Scf.iv c0_i32_184 c1_i32_186 k0_t10
  let v553 : BitVec 32 := Scalar.addi c96_i32_209 arg17
  let v554 : Index := Scalar.indexCast v553
  let c112_210 : Index := 112#32
  ![v554.toNat, 112]
def k0_off80 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let c1_i32 : BitVec 32 := 1#32
  let arg15 : BitVec 32 := Scf.iv c0_i32 c1_i32 k0_t1
  let c128_i32_13 : BitVec 32 := 128#32
  let v16 : BitVec 32 := Scalar.muli arg15 c128_i32_13
  let v17 : BitVec 32 := Scalar.addi v2 v16
  let c0_i32_14_r2 : BitVec 32 := 0#32
  ![v17.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x32_S524288 : S16384x32.ShapeCasts S524288
  shapeCasts_S16384x1_S16384 : S16384x1.ShapeCasts S16384
  inb_S100000x128_S100000x128_0_0 : ∀ a, (![0, 0] : Fin 2 → Nat) a + S100000x128.size a ≤ S100000x128.size a
  gathers_S100000x128_S128x128 : S100000x128.Gathers 0 S128x128
  h_S1x16 : 0 < S1x16.numel
  shapeCasts_S1x16_S16 : S1x16.ShapeCasts S16
  shapeCasts_S16_S1x16 : S16.ShapeCasts S1x16
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  dot_S2048x128_S128x128_S2048x128_1_0_0_1_n_n_wf : DotDims.WF S2048x128 S128x128 S2048x128 [1] [0] [0] [1] [] []
  hcc0_scratch6 : 0 + S_.numel ≤ 11
  hcc0_scratch7 : 1 + S_.numel ≤ 11
  hcc0_scratch8 : 2 + S_.numel ≤ 11
  hcc0_scoped0 : 3 + S_.numel ≤ 11
  hcc0_scoped1 : 4 + S_.numel ≤ 11
  hcc0_scoped2 : 5 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16384.size a ≤ S524288.size a
  k0_off2_inb : ∀ i : grid0.Coords, ∀ a, (k0_off2 i) a + S512.size a ≤ S16384.size a
  k0_t1_ok : k0_t1_loop.OK
  k0_off3_inb : ∀ k0_t1 : Fin k0_t1_loop.trips, ∀ a, (k0_off3 k0_t1) a + S128.size a ≤ S512.size a
  k0_off4_inb : ∀ k0_t1 : Fin k0_t1_loop.trips, ∀ a, (k0_off4 k0_t1) a + S128.size a ≤ S16384.size a
  k0_t2_ok : k0_t2_loop.OK
  k0_off5_inb : ∀ (k0_t1 : Fin k0_t1_loop.trips) (k0_t2 : Fin k0_t2_loop.trips), ∀ (k0_h1 : k0_cond1 k0_t2 = 1#1), ∀ a, (k0_off5 k0_t1 k0_t2) a + S128.size a ≤ S16384.size a
  k0_off6_inb : ∀ (k0_t1 : Fin k0_t1_loop.trips) (k0_t2 : Fin k0_t2_loop.trips), ∀ (r : Fin 2), ∀ a, (k0_off6 k0_t1 k0_t2 (BitVec.ofNat 32 r.val)) a + S128.size a ≤ S16384.size a
  k0_off7_inb : ∀ k0_t2 : Fin k0_t2_loop.trips, ∀ (r₁ : Fin 2) (r₂ : Fin 4), ∀ a, (k0_off7 k0_t2 (BitVec.ofNat 32 r₁.val) (BitVec.ofNat 32 r₂.val)) a + S1x16.size a ≤ S128x128.size a
  k0_off8_inb : ∀ k0_t2 : Fin k0_t2_loop.trips, ∀ (r₁ : Fin 2) (r₂ : Fin 4), ∀ a, (k0_off8 k0_t2 (BitVec.ofNat 32 r₁.val) (BitVec.ofNat 32 r₂.val)) a + S1x16.size a ≤ S128x128.size a
  k0_off9_inb : ∀ k0_t2 : Fin k0_t2_loop.trips, ∀ (r₁ : Fin 2) (r₂ : Fin 4), ∀ a, (k0_off9 k0_t2 (BitVec.ofNat 32 r₁.val) (BitVec.ofNat 32 r₂.val)) a + S1x16.size a ≤ S128x128.size a
  k0_off10_inb : ∀ k0_t2 : Fin k0_t2_loop.trips, ∀ (r₁ : Fin 2) (r₂ : Fin 4), ∀ a, (k0_off10 k0_t2 (BitVec.ofNat 32 r₁.val) (BitVec.ofNat 32 r₂.val)) a + S1x16.size a ≤ S128x128.size a
  k0_off11_inb : ∀ k0_t2 : Fin k0_t2_loop.trips, ∀ (r₁ : Fin 2) (r₂ : Fin 4), ∀ a, (k0_off11 k0_t2 (BitVec.ofNat 32 r₁.val) (BitVec.ofNat 32 r₂.val)) a + S1x16.size a ≤ S128x128.size a
  k0_off12_inb : ∀ k0_t2 : Fin k0_t2_loop.trips, ∀ (r₁ : Fin 2) (r₂ : Fin 4), ∀ a, (k0_off12 k0_t2 (BitVec.ofNat 32 r₁.val) (BitVec.ofNat 32 r₂.val)) a + S1x16.size a ≤ S128x128.size a
  k0_off13_inb : ∀ k0_t2 : Fin k0_t2_loop.trips, ∀ (r₁ : Fin 2) (r₂ : Fin 4), ∀ a, (k0_off13 k0_t2 (BitVec.ofNat 32 r₁.val) (BitVec.ofNat 32 r₂.val)) a + S1x16.size a ≤ S128x128.size a
  k0_off14_inb : ∀ k0_t2 : Fin k0_t2_loop.trips, ∀ (r₁ : Fin 2) (r₂ : Fin 4), ∀ a, (k0_off14 k0_t2 (BitVec.ofNat 32 r₁.val) (BitVec.ofNat 32 r₂.val)) a + S1x16.size a ≤ S128x128.size a
  k0_t3_ok : k0_t3_loop.OK
  k0_off15_inb : ∀ k0_t3 : Fin k0_t3_loop.trips, ∀ a, (k0_off15 k0_t3) a + S1x16.size a ≤ S128x128.size a
  k0_off16_inb : ∀ k0_t3 : Fin k0_t3_loop.trips, ∀ a, (k0_off16 k0_t3) a + S1x16.size a ≤ S128x128.size a
  k0_off17_inb : ∀ k0_t3 : Fin k0_t3_loop.trips, ∀ a, (k0_off17 k0_t3) a + S1x16.size a ≤ S128x128.size a
  k0_off18_inb : ∀ k0_t3 : Fin k0_t3_loop.trips, ∀ a, (k0_off18 k0_t3) a + S1x16.size a ≤ S128x128.size a
  k0_off19_inb : ∀ k0_t3 : Fin k0_t3_loop.trips, ∀ a, (k0_off19 k0_t3) a + S1x16.size a ≤ S128x128.size a
  k0_off20_inb : ∀ k0_t3 : Fin k0_t3_loop.trips, ∀ a, (k0_off20 k0_t3) a + S1x16.size a ≤ S128x128.size a
  k0_off21_inb : ∀ k0_t3 : Fin k0_t3_loop.trips, ∀ a, (k0_off21 k0_t3) a + S1x16.size a ≤ S128x128.size a
  k0_off22_inb : ∀ k0_t3 : Fin k0_t3_loop.trips, ∀ a, (k0_off22 k0_t3) a + S1x16.size a ≤ S128x128.size a
  k0_t4_ok : k0_t4_loop.OK
  k0_off23_inb : ∀ k0_t4 : Fin k0_t4_loop.trips, ∀ a, (k0_off23 k0_t4) a + S1x16.size a ≤ S128x128.size a
  k0_off24_inb : ∀ k0_t4 : Fin k0_t4_loop.trips, ∀ a, (k0_off24 k0_t4) a + S1x16.size a ≤ S128x128.size a
  k0_off25_inb : ∀ k0_t4 : Fin k0_t4_loop.trips, ∀ a, (k0_off25 k0_t4) a + S1x16.size a ≤ S128x128.size a
  k0_off26_inb : ∀ k0_t4 : Fin k0_t4_loop.trips, ∀ a, (k0_off26 k0_t4) a + S1x16.size a ≤ S128x128.size a
  k0_off27_inb : ∀ k0_t4 : Fin k0_t4_loop.trips, ∀ a, (k0_off27 k0_t4) a + S1x16.size a ≤ S128x128.size a
  k0_off28_inb : ∀ k0_t4 : Fin k0_t4_loop.trips, ∀ a, (k0_off28 k0_t4) a + S1x16.size a ≤ S128x128.size a
  k0_off29_inb : ∀ k0_t4 : Fin k0_t4_loop.trips, ∀ a, (k0_off29 k0_t4) a + S1x16.size a ≤ S128x128.size a
  k0_off30_inb : ∀ k0_t4 : Fin k0_t4_loop.trips, ∀ a, (k0_off30 k0_t4) a + S1x16.size a ≤ S128x128.size a
  k0_t5_ok : k0_t5_loop.OK
  k0_off31_inb : ∀ k0_t5 : Fin k0_t5_loop.trips, ∀ a, (k0_off31 k0_t5) a + S1x16.size a ≤ S128x128.size a
  k0_off32_inb : ∀ k0_t5 : Fin k0_t5_loop.trips, ∀ a, (k0_off32 k0_t5) a + S1x16.size a ≤ S128x128.size a
  k0_off33_inb : ∀ k0_t5 : Fin k0_t5_loop.trips, ∀ a, (k0_off33 k0_t5) a + S1x16.size a ≤ S128x128.size a
  k0_off34_inb : ∀ k0_t5 : Fin k0_t5_loop.trips, ∀ a, (k0_off34 k0_t5) a + S1x16.size a ≤ S128x128.size a
  k0_off35_inb : ∀ k0_t5 : Fin k0_t5_loop.trips, ∀ a, (k0_off35 k0_t5) a + S1x16.size a ≤ S128x128.size a
  k0_off36_inb : ∀ k0_t5 : Fin k0_t5_loop.trips, ∀ a, (k0_off36 k0_t5) a + S1x16.size a ≤ S128x128.size a
  k0_off37_inb : ∀ k0_t5 : Fin k0_t5_loop.trips, ∀ a, (k0_off37 k0_t5) a + S1x16.size a ≤ S128x128.size a
  k0_off38_inb : ∀ k0_t5 : Fin k0_t5_loop.trips, ∀ a, (k0_off38 k0_t5) a + S1x16.size a ≤ S128x128.size a
  k0_t6_ok : k0_t6_loop.OK
  k0_off39_inb : ∀ k0_t6 : Fin k0_t6_loop.trips, ∀ a, (k0_off39 k0_t6) a + S1x16.size a ≤ S128x128.size a
  k0_off40_inb : ∀ k0_t6 : Fin k0_t6_loop.trips, ∀ a, (k0_off40 k0_t6) a + S1x16.size a ≤ S128x128.size a
  k0_off41_inb : ∀ k0_t6 : Fin k0_t6_loop.trips, ∀ a, (k0_off41 k0_t6) a + S1x16.size a ≤ S128x128.size a
  k0_off42_inb : ∀ k0_t6 : Fin k0_t6_loop.trips, ∀ a, (k0_off42 k0_t6) a + S1x16.size a ≤ S128x128.size a
  k0_off43_inb : ∀ k0_t6 : Fin k0_t6_loop.trips, ∀ a, (k0_off43 k0_t6) a + S1x16.size a ≤ S128x128.size a
  k0_off44_inb : ∀ k0_t6 : Fin k0_t6_loop.trips, ∀ a, (k0_off44 k0_t6) a + S1x16.size a ≤ S128x128.size a
  k0_off45_inb : ∀ k0_t6 : Fin k0_t6_loop.trips, ∀ a, (k0_off45 k0_t6) a + S1x16.size a ≤ S128x128.size a
  k0_off46_inb : ∀ k0_t6 : Fin k0_t6_loop.trips, ∀ a, (k0_off46 k0_t6) a + S1x16.size a ≤ S128x128.size a
  k0_off47_inb : ∀ (k0_t1 : Fin k0_t1_loop.trips) (k0_t2 : Fin k0_t2_loop.trips), ∀ (k0_h2 : k0_cond2 k0_t2 = 1#1), ∀ a, (k0_off47 k0_t1 k0_t2) a + S128.size a ≤ S16384.size a
  k0_t7_ok : k0_t7_loop.OK
  k0_off48_inb : ∀ k0_t7 : Fin k0_t7_loop.trips, ∀ a, (k0_off48 k0_t7) a + S1x16.size a ≤ S128x128.size a
  k0_off49_inb : ∀ k0_t7 : Fin k0_t7_loop.trips, ∀ a, (k0_off49 k0_t7) a + S1x16.size a ≤ S128x128.size a
  k0_off50_inb : ∀ k0_t7 : Fin k0_t7_loop.trips, ∀ a, (k0_off50 k0_t7) a + S1x16.size a ≤ S128x128.size a
  k0_off51_inb : ∀ k0_t7 : Fin k0_t7_loop.trips, ∀ a, (k0_off51 k0_t7) a + S1x16.size a ≤ S128x128.size a
  k0_off52_inb : ∀ k0_t7 : Fin k0_t7_loop.trips, ∀ a, (k0_off52 k0_t7) a + S1x16.size a ≤ S128x128.size a
  k0_off53_inb : ∀ k0_t7 : Fin k0_t7_loop.trips, ∀ a, (k0_off53 k0_t7) a + S1x16.size a ≤ S128x128.size a
  k0_off54_inb : ∀ k0_t7 : Fin k0_t7_loop.trips, ∀ a, (k0_off54 k0_t7) a + S1x16.size a ≤ S128x128.size a
  k0_off55_inb : ∀ k0_t7 : Fin k0_t7_loop.trips, ∀ a, (k0_off55 k0_t7) a + S1x16.size a ≤ S128x128.size a
  k0_t8_ok : k0_t8_loop.OK
  k0_off56_inb : ∀ k0_t8 : Fin k0_t8_loop.trips, ∀ a, (k0_off56 k0_t8) a + S1x16.size a ≤ S128x128.size a
  k0_off57_inb : ∀ k0_t8 : Fin k0_t8_loop.trips, ∀ a, (k0_off57 k0_t8) a + S1x16.size a ≤ S128x128.size a
  k0_off58_inb : ∀ k0_t8 : Fin k0_t8_loop.trips, ∀ a, (k0_off58 k0_t8) a + S1x16.size a ≤ S128x128.size a
  k0_off59_inb : ∀ k0_t8 : Fin k0_t8_loop.trips, ∀ a, (k0_off59 k0_t8) a + S1x16.size a ≤ S128x128.size a
  k0_off60_inb : ∀ k0_t8 : Fin k0_t8_loop.trips, ∀ a, (k0_off60 k0_t8) a + S1x16.size a ≤ S128x128.size a
  k0_off61_inb : ∀ k0_t8 : Fin k0_t8_loop.trips, ∀ a, (k0_off61 k0_t8) a + S1x16.size a ≤ S128x128.size a
  k0_off62_inb : ∀ k0_t8 : Fin k0_t8_loop.trips, ∀ a, (k0_off62 k0_t8) a + S1x16.size a ≤ S128x128.size a
  k0_off63_inb : ∀ k0_t8 : Fin k0_t8_loop.trips, ∀ a, (k0_off63 k0_t8) a + S1x16.size a ≤ S128x128.size a
  k0_t9_ok : k0_t9_loop.OK
  k0_off64_inb : ∀ k0_t9 : Fin k0_t9_loop.trips, ∀ a, (k0_off64 k0_t9) a + S1x16.size a ≤ S128x128.size a
  k0_off65_inb : ∀ k0_t9 : Fin k0_t9_loop.trips, ∀ a, (k0_off65 k0_t9) a + S1x16.size a ≤ S128x128.size a
  k0_off66_inb : ∀ k0_t9 : Fin k0_t9_loop.trips, ∀ a, (k0_off66 k0_t9) a + S1x16.size a ≤ S128x128.size a
  k0_off67_inb : ∀ k0_t9 : Fin k0_t9_loop.trips, ∀ a, (k0_off67 k0_t9) a + S1x16.size a ≤ S128x128.size a
  k0_off68_inb : ∀ k0_t9 : Fin k0_t9_loop.trips, ∀ a, (k0_off68 k0_t9) a + S1x16.size a ≤ S128x128.size a
  k0_off69_inb : ∀ k0_t9 : Fin k0_t9_loop.trips, ∀ a, (k0_off69 k0_t9) a + S1x16.size a ≤ S128x128.size a
  k0_off70_inb : ∀ k0_t9 : Fin k0_t9_loop.trips, ∀ a, (k0_off70 k0_t9) a + S1x16.size a ≤ S128x128.size a
  k0_off71_inb : ∀ k0_t9 : Fin k0_t9_loop.trips, ∀ a, (k0_off71 k0_t9) a + S1x16.size a ≤ S128x128.size a
  k0_t10_ok : k0_t10_loop.OK
  k0_off72_inb : ∀ k0_t10 : Fin k0_t10_loop.trips, ∀ a, (k0_off72 k0_t10) a + S1x16.size a ≤ S128x128.size a
  k0_off73_inb : ∀ k0_t10 : Fin k0_t10_loop.trips, ∀ a, (k0_off73 k0_t10) a + S1x16.size a ≤ S128x128.size a
  k0_off74_inb : ∀ k0_t10 : Fin k0_t10_loop.trips, ∀ a, (k0_off74 k0_t10) a + S1x16.size a ≤ S128x128.size a
  k0_off75_inb : ∀ k0_t10 : Fin k0_t10_loop.trips, ∀ a, (k0_off75 k0_t10) a + S1x16.size a ≤ S128x128.size a
  k0_off76_inb : ∀ k0_t10 : Fin k0_t10_loop.trips, ∀ a, (k0_off76 k0_t10) a + S1x16.size a ≤ S128x128.size a
  k0_off77_inb : ∀ k0_t10 : Fin k0_t10_loop.trips, ∀ a, (k0_off77 k0_t10) a + S1x16.size a ≤ S128x128.size a
  k0_off78_inb : ∀ k0_t10 : Fin k0_t10_loop.trips, ∀ a, (k0_off78 k0_t10) a + S1x16.size a ≤ S128x128.size a
  k0_off79_inb : ∀ k0_t10 : Fin k0_t10_loop.trips, ∀ a, (k0_off79 k0_t10) a + S1x16.size a ≤ S128x128.size a
  k0_off80_inb : ∀ (i : grid0.Coords) (k0_t1 : Fin k0_t1_loop.trips), ∀ a, (k0_off80 i k0_t1) a + S128x128.size a ≤ S16384x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scoped0 : DmaSems sig S_ := SemArray.consecutive 3 S_ hcc0_scoped0
abbrev cc0_scoped1 : DmaSems sig S_ := SemArray.consecutive 4 S_ hcc0_scoped1
abbrev cc0_scoped2 : DmaSems sig S_ := SemArray.consecutive 5 S_ hcc0_scoped2
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win1_0 : Pipeline.Window sig grid1 :=
  Pipeline.Window.ofSpec (Memref.whole main_v2) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S16384x1 : Shape := ⟨2, ![16384, 1]⟩
abbrev S16384x32 : Shape := ⟨2, ![16384, 32]⟩
abbrev S128x128 : Shape := ⟨2, ![128, 128]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S16384x1x128 : Shape := ⟨3, ![16384, 1, 128]⟩
abbrev S16384x32x1 : Shape := ⟨3, ![16384, 32, 1]⟩
abbrev S16384x32x128 : Shape := ⟨3, ![16384, 32, 128]⟩
abbrev S16384x33x128 : Shape := ⟨3, ![16384, 33, 128]⟩
abbrev S16384x128 : Shape := ⟨2, ![16384, 128]⟩

abbrev nBuf : Space → Nat
  | .hbm => 62
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16384x1, .i32⟩
  | .hbm, ⟨2, _⟩ => ⟨S16384x32, .i32⟩
  | .hbm, ⟨3, _⟩ => ⟨S100000x128, .f32⟩
  | .hbm, ⟨4, _⟩ => ⟨S128x128, .f32⟩
  | .hbm, ⟨5, _⟩ => ⟨S_, .i32⟩
  | .hbm, ⟨6, _⟩ => ⟨S_, .i32⟩
  | .hbm, ⟨7, _⟩ => ⟨S16384x1, .i32⟩
  | .hbm, ⟨8, _⟩ => ⟨S16384x1, .i1⟩
  | .hbm, ⟨9, _⟩ => ⟨S_, .i32⟩
  | .hbm, ⟨10, _⟩ => ⟨S16384x1, .i32⟩
  | .hbm, ⟨11, _⟩ => ⟨S16384x1, .i32⟩
  | .hbm, ⟨12, _⟩ => ⟨S16384x1, .i32⟩
  | .hbm, ⟨13, _⟩ => ⟨S16384x1x1, .i32⟩
  | .hbm, ⟨14, _⟩ => ⟨S1, .i32⟩
  | .hbm, ⟨15, _⟩ => ⟨S_, .i32⟩
  | .hbm, ⟨16, _⟩ => ⟨S16384x1x1, .i32⟩
  | .hbm, ⟨17, _⟩ => ⟨S16384x1x1, .i1⟩
  | .hbm, ⟨18, _⟩ => ⟨S1x1x1, .i32⟩
  | .hbm, ⟨19, _⟩ => ⟨S16384x1x1, .i32⟩
  | .hbm, ⟨20, _⟩ => ⟨S16384x1x1, .i1⟩
  | .hbm, ⟨21, _⟩ => ⟨S16384x1x1, .i1⟩
  | .hbm, ⟨22, _⟩ => ⟨S_, .i1⟩
  | .hbm, ⟨23, _⟩ => ⟨S16384x1, .i1⟩
  | .hbm, ⟨24, _⟩ => ⟨S16384x1x128, .f32⟩
  | .hbm, ⟨25, _⟩ => ⟨S16384x1x128, .i1⟩
  | .hbm, ⟨26, _⟩ => ⟨S_, .f32⟩
  | .hbm, ⟨27, _⟩ => ⟨S16384x1x128, .f32⟩
  | .hbm, ⟨28, _⟩ => ⟨S16384x1x128, .f32⟩
  | .hbm, ⟨29, _⟩ => ⟨S_, .i32⟩
  | .hbm, ⟨30, _⟩ => ⟨S16384x32, .i32⟩
  | .hbm, ⟨31, _⟩ => ⟨S16384x32, .i1⟩
  | .hbm, ⟨32, _⟩ => ⟨S_, .i32⟩
  | .hbm, ⟨33, _⟩ => ⟨S16384x32, .i32⟩
  | .hbm, ⟨34, _⟩ => ⟨S16384x32, .i32⟩
  | .hbm, ⟨35, _⟩ => ⟨S16384x32, .i32⟩
  | .hbm, ⟨36, _⟩ => ⟨S16384x32x1, .i32⟩
  | .hbm, ⟨37, _⟩ => ⟨S1, .i32⟩
  | .hbm, ⟨38, _⟩ => ⟨S_, .i32⟩
  | .hbm, ⟨39, _⟩ => ⟨S16384x32x1, .i32⟩
  | .hbm, ⟨40, _⟩ => ⟨S16384x32x1, .i1⟩
  | .hbm, ⟨41, _⟩ => ⟨S1x1x1, .i32⟩
  | .hbm, ⟨42, _⟩ => ⟨S16384x32x1, .i32⟩
  | .hbm, ⟨43, _⟩ => ⟨S16384x32x1, .i1⟩
  | .hbm, ⟨44, _⟩ => ⟨S16384x32x1, .i1⟩
  | .hbm, ⟨45, _⟩ => ⟨S_, .i1⟩
  | .hbm, ⟨46, _⟩ => ⟨S16384x32, .i1⟩
  | .hbm, ⟨47, _⟩ => ⟨S16384x32x128, .f32⟩
  | .hbm, ⟨48, _⟩ => ⟨S16384x32x128, .i1⟩
  | .hbm, ⟨49, _⟩ => ⟨S_, .f32⟩
  | .hbm, ⟨50, _⟩ => ⟨S16384x32x128, .f32⟩
  | .hbm, ⟨51, _⟩ => ⟨S16384x32x128, .f32⟩
  | .hbm, ⟨52, _⟩ => ⟨S16384x33x128, .f32⟩
  | .hbm, ⟨53, _⟩ => ⟨S_, .f32⟩
  | .hbm, ⟨54, _⟩ => ⟨S16384x128, .f32⟩
  | .hbm, ⟨55, _⟩ => ⟨S_, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S_, .f32⟩
  | .hbm, ⟨60, _⟩ => ⟨S16384x128, .f32⟩
  | .hbm, ⟨61, _⟩ => ⟨S16384x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_cst : Ref sig .tc := ⟨.hbm, 53, rfl⟩
abbrev main_v3 : Ref sig .tc := ⟨.hbm, 54, rfl⟩
abbrev main_cst_0 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_call2_cst : Ref sig .tc := ⟨.hbm, 59, rfl⟩
abbrev main_call2_v0 : Ref sig .tc := ⟨.hbm, 60, rfl⟩
abbrev main_v7 : Ref sig .tc := ⟨.hbm, 61, rfl⟩

abbrev nD : Nat := 1
abbrev τ : Topo := Topo.v7x

variable {F : FTy → Type} [FloatOps F]

class Facts₀ : Prop where
  bcast_S_S16384x1 : S_.BroadcastsInDim S16384x1 (![] : Fin 0 → Fin S16384x1.rank)
  bcast_S16384x1_S16384x1x1_0_1 : S16384x1.BroadcastsInDim S16384x1x1 (![0, 1] : Fin 2 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x128_0_1 : S16384x1.BroadcastsInDim S16384x1x128 (![0, 1] : Fin 2 → Fin S16384x1x128.rank)
  bcast_S_S16384x1x128 : S_.BroadcastsInDim S16384x1x128 (![] : Fin 0 → Fin S16384x1x128.rank)
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S1x1x1_S16384x32x1_0_1_2 : S1x1x1.BroadcastsInDim S16384x32x1 (![0, 1, 2] : Fin 3 → Fin S16384x32x1.rank)
  reducesTo_S16384x32x1_S16384x32_d2 : S16384x32x1.ReducesTo [2] S16384x32
  bcast_S16384x32_S16384x32x128_0_1 : S16384x32.BroadcastsInDim S16384x32x128 (![0, 1] : Fin 2 → Fin S16384x32x128.rank)
  bcast_S_S16384x32x128 : S_.BroadcastsInDim S16384x32x128 (![] : Fin 0 → Fin S16384x32x128.rank)
  concatenates_S16384x32x128_S16384x1x128_S16384x33x128_d1 : Shape.Concatenates [S16384x32x128, S16384x1x128] S16384x33x128 1
  reducesTo_S16384x33x128_S16384x128_d1 : S16384x33x128.ReducesTo [1] S16384x128
  bcast_S_S16384x128 : S_.BroadcastsInDim S16384x128 (![] : Fin 0 → Fin S16384x128.rank)
  gather_S100000x128_S16384x1x1_S16384x1x128_2_0_n_n_0_2_1128_wf : GatherDims.WF S100000x128 S16384x1x1 S16384x1x128 [2] [0] [] [0] [] 2 ![1, 128]
  gather_S100000x128_S16384x32x1_S16384x32x128_2_0_n_n_0_2_1128_wf : GatherDims.WF S100000x128 S16384x32x1 S16384x32x128 [2] [0] [] [0] [] 2 ![1, 128]
  dot_S16384x128_S128x128_S16384x128_1_0_0_1_n_n_wf : DotDims.WF S16384x128 S128x128 S16384x128 [1] [0] [0] [1] [] []

variable [Facts₀]

def gather_S100000x128_S16384x1x1_S16384x1x128_2_0_n_n_0_2_1128 : GatherDims S100000x128 S16384x1x1 S16384x1x128 where
  offsetDims := [2]
  collapsedSliceDims := [0]
  operandBatchingDims := []
  startIndicesBatchingDims := []
  startIndexMap := [0]
  indexVectorDim := 2
  sliceSizes := ![1, 128]
  wf := gather_S100000x128_S16384x1x1_S16384x1x128_2_0_n_n_0_2_1128_wf
def gather_S100000x128_S16384x32x1_S16384x32x128_2_0_n_n_0_2_1128 : GatherDims S100000x128 S16384x32x1 S16384x32x128 where
  offsetDims := [2]
  collapsedSliceDims := [0]
  operandBatchingDims := []
  startIndicesBatchingDims := []
  startIndexMap := [0]
  indexVectorDim := 2
  sliceSizes := ![1, 128]
  wf := gather_S100000x128_S16384x32x1_S16384x32x128_2_0_n_n_0_2_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.KISetup.lean ====
/-
  What every part of the idealized kernel's run shares: the program as the SparseCore launch theorem reads it
  (one vector-subcore call on 2 x 16 tiles, and one TensorCore pipeline after it), the resource algebra — the
  launch handshakes' rounds, the TensorCore pipeline's staging cells' rounds, the local transfers' counters — and
  the arrays' locations on a device.
-/
import proofs.«210776_g5076651344590_cont_8to1_c_706_2_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«210776_g5076651344590_cont_8to1_c_706_2_alg».proof.Proof.Gen.KernelIdeal
import proofs.«210776_g5076651344590_cont_8to1_c_706_2_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' label signature, lifted through the one TensorCore pipeline. -/
abbrev ΛP : Labels := Pipeline.Sig Λ₀ (Fin 1) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The kernels' body table, lifted through the pipeline. -/
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore pipeline's staging cells' rounds: the left half of the right factor. The local transfers'
    counters are found by instance in the right half. -/
def EP : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb
instance EP_landsIn : (EP : Emb UK 𝕄).LandsIn (upEmb : UEmb _ 𝕄) := by unfold EP; infer_instance

/-! ## The arrays on a device -/

/-- The table, the two index arrays as given, the weights; the flattened index arrays, the aggregate and the result. -/
abbrev featLoc (d : Dev nD) : Loc nD τ sig := (SparseCore.T d).loc main_arg0
abbrev nodeLoc (d : Dev nD) : Loc nD τ sig := (SparseCore.T d).loc main_arg1
abbrev nbrLoc (d : Dev nD) : Loc nD τ sig := (SparseCore.T d).loc main_arg2
abbrev rawLoc (d : Dev nD) : Loc nD τ sig := (SparseCore.T d).loc main_arg3
abbrev wtLoc (d : Dev nD) : Loc nD τ sig := (SparseCore.T d).loc main_arg4
abbrev iLoc (d : Dev nD) : Loc nD τ sig := (SparseCore.T d).loc main_arg5
abbrev nbrFlatLoc (d : Dev nD) : Loc nD τ sig := (SparseCore.T d).loc main_v0
abbrev nodeFlatLoc (d : Dev nD) : Loc nD τ sig := (SparseCore.T d).loc main_v1
abbrev sumsLoc (d : Dev nD) : Loc nD τ sig := (SparseCore.T d).loc main_v2
abbrev outLoc (d : Dev nD) : Loc nD τ sig := (SparseCore.T d).loc main_v3

end Cert.Proof.KI

end
-- ==== Proof.KITile.lean ====
/-
  One tile's geometry.  Tile `(c, s)` of the 2 x 16 grid works on batch rows `1024 s + 512 c … + 511`: it reads its
  16384 words of the flattened neighbour list and its 512 words of the flattened node list, and writes its 512 result
  rows as four chunks of 128 rows.  The slices are spelt exactly as the printed body slices them.
-/
import proofs.«210776_g5076651344590_cont_8to1_c_706_2_alg».proof.Proof.KISetup

noncomputable section

namespace Cert.Proof.KI

open Cert.KernelIdeal Cert.KernelIdeal.Gen

open Idealize.ShloMosaic
open Idealize.ShloMosaic.SparseCore (S V T)

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The SparseCore and the vector subcore a grid point runs on. -/
abbrev cV (L : grid0.Coords) : Fin τ.nSC := (L 0).castLE hcore0
abbrev jV (L : grid0.Coords) : Fin τ.nSub := (L 1).castLE hsub0

/-- The tile's words of the flattened neighbour list and of the flattened node list, in HBM. -/
abbrev nfSl (L : grid0.Coords) : Memref sig .scVector .hbm S16384 .i32 :=
  (Memref.whole main_v0_scv : Memref sig .scVector .hbm S524288 .i32).slice (Rect.unit (s := S524288) (k0_off1 L) S16384.size (k0_off1_inb L)) (fun _ => rfl)
abbrev ndSl (L : grid0.Coords) : Memref sig .scVector .hbm S512 .i32 :=
  (Memref.whole main_v1_scv : Memref sig .scVector .hbm S16384 .i32).slice (Rect.unit (s := S16384) (k0_off2 L) S512.size (k0_off2_inb L)) (fun _ => rfl)

/-- Chunk `k` (of four) of the tile's result rows, in HBM: rows `1024 s + 512 c + 128 k … + 127`. -/
abbrev outK (L : grid0.Coords) (k : Fin k0_t1_loop.trips) : Memref sig .scVector .hbm S128x128 .f32 :=
  (Memref.whole main_v2_scv : Memref sig .scVector .hbm S16384x128 .f32).slice (Rect.unit (s := S16384x128) (k0_off80 L k) S128x128.size (k0_off80_inb L k)) (fun _ => rfl)
/-- Its elements. -/
abbrev chunkSet (L : grid0.Coords) (k : Fin k0_t1_loop.trips) : Finset S16384x128.Idx := (outK L k).view.set

theorem trips1 : k0_t1_loop.trips = 4 := by decide

end Cert.Proof.KI

end
-- ==== Proof.KIShares.lean ====
/-
  How the launch divides the arrays among the thirty-two tiles, and puts them back.

  Read-only arrays are held whole by every tile, each at a share.  A share q is its two halves; halving n times, taking
  at each step the left half on an even number and the right half on an odd one and passing to the number's half,
  names 2^n shares by the numbers below 2^n, and a points-to at q is the points-tos at those shares, all at once
  (induction on n: the numbers below 2^(n+1) are 2a and 2a + 1 for a below 2^n).  Tile (c, i) takes share number
  i + 16 c of the thirty-two.

  The aggregate array is written: its 16384 rows are 128 parts of 128 rows, pairwise disjoint and covering the array.
  Tile (c, i) writes, as its chunk k, rows 1024 i + 512 c + 128 k onward: part number 8 i + 4 c + k; and
  (c, i, k) ↦ 8 i + 4 c + k is a bijection onto the numbers below 128.
-/
import proofs.«210776_g5076651344590_cont_8to1_c_706_2_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Shares: a share halved n times -/

/-- Share number j of the 2^n that n halvings of q give: the lowest binary digit of j chooses the half of q
    (0 the left, 1 the right), the remaining digits the share within that half. -/
def subShare : ℕ → PosShare TreeShare → ℕ → PosShare TreeShare
  | 0, q, _ => q
  | n + 1, q, j => subShare n (if j % 2 = 0 then q.left else q.right) (j / 2)

/-- The numbers below 2^(n+1) are b + 2a, for a below 2^n and b below 2. -/
def digitEquiv (n : ℕ) : Fin (2 ^ n) × Fin 2 ≃ Fin (2 ^ (n + 1)) := finProdFinEquiv.trans (finCongr (pow_succ 2 n).symm)

theorem digitEquiv_val (n : ℕ) (a : Fin (2 ^ n)) (b : Fin 2) : (digitEquiv n (a, b)).val = b.val + 2 * a.val := rfl

/-- A points-to at a share is the points-tos at its 2^n sub-shares, at once. -/
theorem pointsTo_subShares {ℓ : Loc nD τ sig} (I : Finset (Idx ℓ)) (f : Buf (Elt F) ℓ) (n : ℕ) :
    ∀ q : PosShare TreeShare,
      (ℓ ↦[I]{q} f : sProp 𝕄) = bigSep Finset.univ fun j : Fin (2 ^ n) => ℓ ↦[I]{subShare n q j.val} f := by
  induction n with
  | zero =>
    intro q
    haveI : Subsingleton (Fin (2 ^ 0)) := ⟨fun a b => Fin.ext (by have := a.isLt; have := b.isLt; omega)⟩
    exact (bigSep_univ_of_subsingleton (⟨0, by norm_num⟩ : Fin (2 ^ 0))
      (Φ := fun j : Fin (2 ^ 0) => (ℓ ↦[I]{subShare 0 q j.val} f : sProp 𝕄))).symm
  | succ n ih =>
    intro q
    have hq : (ℓ ↦[I]{q} f : sProp 𝕄) ⊣⊢ iprop((ℓ ↦[I]{q.left} f) ∗ ℓ ↦[I]{q.right} f) :=
      pointsTo_share (PosShare.mem_left_op_right q)
    rw [BI.equiv_iff.mp ⟨hq.1, hq.2⟩, ih q.left, ih q.right, ← bigSep_sep',
      bigSep_univ_equiv (digitEquiv n) (fun j : Fin (2 ^ (n + 1)) => (ℓ ↦[I]{subShare (n + 1) q j.val} f : sProp 𝕄)),
      bigSep_univ_prod]
    refine bigSep_congr fun a _ => ?_
    rw [bigSep_univ_two]
    have e0 : subShare (n + 1) q (digitEquiv n (a, 0)).val = subShare n q.left a.val := by
      rw [digitEquiv_val, subShare]
      have h1 : ((0 : Fin 2).val + 2 * a.val) % 2 = 0 := by show (0 + 2 * a.val) % 2 = 0; omega
      have h2 : ((0 : Fin 2).val + 2 * a.val) / 2 = a.val := by show (0 + 2 * a.val) / 2 = a.val; omega
      rw [if_pos h1, h2]
    have e1 : subShare (n + 1) q (digitEquiv n (a, 1)).val = subShare n q.right a.val := by
      rw [digitEquiv_val, subShare]
      have h1 : ¬ ((1 : Fin 2).val + 2 * a.val) % 2 = 0 := by show ¬ (1 + 2 * a.val) % 2 = 0; omega
      have h2 : ((1 : Fin 2).val + 2 * a.val) / 2 = a.val := by show (1 + 2 * a.val) / 2 = a.val; omega
      rw [if_neg h1, h2]
    rw [e0, e1]

/-- The thirty-two tiles as the numbers below 2^5: tile (c, i) is number i + 16 c. -/
def tileEquiv : Fin 2 × Fin 16 ≃ Fin (2 ^ 5) := finProdFinEquiv.trans (finCongr (by norm_num))

/-- Tile (c, i)'s share of a read-only array: one of the thirty-two that five halvings of the full share give. -/
def tileShare (c : Fin 2) (i : Fin 16) : PosShare TreeShare := subShare 5 fullShare (tileEquiv (c, i)).val

/-- A points-to at the full share is the thirty-two tiles' points-tos, at once. -/
theorem pts_tileShares {ℓ : Loc nD τ sig} (f : Buf (Elt F) ℓ) :
    (ℓ ↦{fullShare} f : sProp 𝕄)
      = bigSep Finset.univ fun c : Fin 2 => bigSep Finset.univ fun i : Fin 16 => ℓ ↦{tileShare c i} f := by
  rw [pointsTo_subShares Finset.univ f 5 fullShare,
    bigSep_univ_equiv tileEquiv (fun j : Fin (2 ^ 5) => (ℓ ↦{subShare 5 fullShare j.val} f : sProp 𝕄)), bigSep_univ_prod]
  rfl

/-! ## The aggregate array: 128 parts of 128 rows -/

local notation "sumsV" => (Memref.whole Cert.KernelIdeal.main_v2_scv : Memref Cert.KernelIdeal.sig Kind.scVector Space.hbm Cert.KernelIdeal.S16384x128 EltTy.f32)

theorem div128 : 128 ∣ S16384x128.size 0 := ⟨128, rfl⟩
/-- Part j of the aggregate array: rows 128 j … 128 j + 127. -/
abbrev rowPart (j : Fin 128) : Rect S16384x128 := Rect.part (s := S16384x128) (a₀ := 0) div128 j
/-- Its elements, through the tiles' name for the array. -/
abbrev partSet (j : Fin 128) : Finset S16384x128.Idx := ((sumsV).view.slice (rowPart j)).set

theorem partSet_eq (j : Fin 128) : partSet j = (rowPart j).set := by
  show ((View.whole (main_v2_scv : Ref sig .scVector)).slice (rowPart j)).set = _
  rw [View.set_slice]; exact Finset.map_refl

theorem parts_disjoint : ∀ i ∈ (Finset.univ : Finset (Fin 128)), ∀ j ∈ (Finset.univ : Finset (Fin 128)), i ≠ j → Disjoint (partSet i) (partSet j) :=
  fun i _ j _ h => by rw [partSet_eq, partSet_eq]; exact Rect.part_disjoint div128 h

theorem parts_cover : (Finset.univ : Finset (Fin 128)).biUnion partSet = Finset.univ :=
  (Finset.biUnion_congr rfl fun j _ => partSet_eq j).trans (Rect.biUnion_part div128)

/-- The aggregate array at the full share is its 128 parts, at once. -/
theorem pts_parts (d : Dev nD) (f : Buf (Elt F) (sumsLoc d)) :
    (sumsLoc d ↦{fullShare} f : sProp 𝕄) = bigSep Finset.univ fun j : Fin 128 => sumsLoc d ↦[partSet j]{fullShare} f := by
  rw [← pointsTo_biUnion Finset.univ (ℓ := sumsLoc d) partSet parts_disjoint, parts_cover]; try rfl

theorem chunk_lt (k : Fin k0_t1_loop.trips) : k.val < 4 := lt_of_lt_of_eq k.isLt trips1

/-- The part that tile (c, i) writes as its chunk k. -/
def chunkNo (c : Fin 2) (i : Fin 16) (k : Fin k0_t1_loop.trips) : Fin 128 :=
  ⟨8 * i.val + 4 * c.val + k.val, by have hk := chunk_lt k; omega⟩

/-- Tiles' chunks and parts correspond one to one. -/
def chunkEquiv : Fin 2 × (Fin 16 × Fin k0_t1_loop.trips) ≃ Fin 128 where
  toFun p := chunkNo p.1 p.2.1 p.2.2
  invFun j := (⟨(j.val / 4) % 2, by omega⟩, ⟨j.val / 8, by omega⟩, ⟨j.val % 4, by rw [trips1]; omega⟩)
  left_inv := fun ⟨c, i, k⟩ => by
    have hk := chunk_lt k
    refine Prod.ext (Fin.ext ?_) (Prod.ext (Fin.ext ?_) (Fin.ext ?_))
    · show ((8 * i.val + 4 * c.val + k.val) / 4) % 2 = c.val; omega
    · show (8 * i.val + 4 * c.val + k.val) / 8 = i.val; omega
    · show (8 * i.val + 4 * c.val + k.val) % 4 = k.val; omega
  right_inv := fun j => Fin.ext (by
    show 8 * (j.val / 8) + 4 * ((j.val / 4) % 2) + j.val % 4 = j.val; omega)

/-- The rectangle of tile (c, i)'s chunk k, as the tile slices it, is part 8 i + 4 c + k. -/
theorem chunkRect_eq (c : Fin 2) (i : Fin 16) (k : Fin k0_t1_loop.trips) :
    Rect.unit (s := S16384x128) (k0_off80 (coordsV c i) k) S128x128.size (k0_off80_inb (coordsV c i) k)
      = rowPart (chunkNo c i k) := by
  unfold rowPart Rect.part Rect.block
  congr 1 <;> funext a
  · rw [k0_off80_eq]
    match a with
    | 0 =>
      show 1024 * i.val + 512 * c.val + 128 * k.val = (8 * i.val + 4 * c.val + k.val) * (16384 / 128)
      omega
    | 1 => rfl
  · match a with
    | 0 => rfl
    | 1 => rfl

theorem chunkSet_eq (c : Fin 2) (i : Fin 16) (k : Fin k0_t1_loop.trips) :
    chunkSet (coordsV c i) k = partSet (chunkNo c i k) := by
  show ((sumsV).view.slice (Rect.unit (s := S16384x128) (k0_off80 (coordsV c i) k) S128x128.size (k0_off80_inb (coordsV c i) k))).set
    = ((sumsV).view.slice (rowPart (chunkNo c i k))).set
  rw [chunkRect_eq]

/-- The aggregate array at the full share is the tiles' chunks, at once: four for each of the thirty-two tiles. -/
theorem pts_chunks (d : Dev nD) (f : Buf (Elt F) (sumsLoc d)) :
    (sumsLoc d ↦{fullShare} f : sProp 𝕄)
      = bigSep Finset.univ fun c : Fin 2 => bigSep Finset.univ fun i : Fin 16 =>
          bigSep Finset.univ fun k : Fin k0_t1_loop.trips => sumsLoc d ↦[chunkSet (coordsV c i) k]{fullShare} f := by
  rw [pts_parts, bigSep_univ_equiv chunkEquiv (fun j : Fin 128 => (sumsLoc d ↦[partSet j]{fullShare} f : sProp 𝕄)), bigSep_univ_prod]
  refine bigSep_congr fun c _ => ?_
  rw [bigSep_univ_prod]
  refine bigSep_congr fun i _ => bigSep_congr fun k _ => ?_
  rw [chunkSet_eq]
  rfl

/-! ## The tiles' names for the arrays -/

/-- A tile's chunk of the aggregate array, named through the tile, is that element set of the device's array. -/
theorem pts_chunk_loc (d : Dev nD) (L : grid0.Coords) (k : Fin k0_t1_loop.trips) (f : Buf (Elt F) (sumsLoc d)) :
    ((outK L k).view.loc (V d (cV L) (jV L)) ↦[(outK L k).view.set]{fullShare} f : sProp 𝕄)
      = sumsLoc d ↦[chunkSet L k]{fullShare} f := rfl

local notation "featV" => (Memref.whole Cert.KernelIdeal.main_arg0_scv : Memref Cert.KernelIdeal.sig Kind.scVector Space.hbm Cert.KernelIdeal.S100000x128 EltTy.f32)
local notation "nbrV" => (Memref.whole Cert.KernelIdeal.main_v0_scv : Memref Cert.KernelIdeal.sig Kind.scVector Space.hbm Cert.KernelIdeal.S524288 EltTy.i32)
local notation "nodeV" => (Memref.whole Cert.KernelIdeal.main_v1_scv : Memref Cert.KernelIdeal.sig Kind.scVector Space.hbm Cert.KernelIdeal.S16384 EltTy.i32)

/-- The table, whole, named through a tile, is the device's table. -/
theorem pts_featV (d : Dev nD) (c : Fin τ.nSC) (i : Fin τ.nSub) (q : PosShare TreeShare) (f : Buf (Elt F) (featLoc d)) :
    ((featV).view.loc (V d c i) ↦{q} f : sProp 𝕄) = featLoc d ↦{q} f := rfl
/-- The flattened neighbour list, whole, named through a tile, is the device's. -/
theorem pts_nbrV (d : Dev nD) (c : Fin τ.nSC) (i : Fin τ.nSub) (q : PosShare TreeShare) (f : Buf (Elt F) (nbrFlatLoc d)) :
    ((nbrV).view.loc (V d c i) ↦{q} f : sProp 𝕄) = nbrFlatLoc d ↦{q} f := rfl
/-- The flattened node list, whole, named through a tile, is the device's. -/
theorem pts_nodeV (d : Dev nD) (c : Fin τ.nSC) (i : Fin τ.nSub) (q : PosShare TreeShare) (f : Buf (Elt F) (nodeFlatLoc d)) :
    ((nodeV).view.loc (V d c i) ↦{q} f : sProp 𝕄) = nodeFlatLoc d ↦{q} f := rfl

end Cert.Proof.KI

end
-- ==== Proof.Spec.lean ====
/-
  The mathematical statement both programs are compared against, over the extended reals.

  A batch row `b` names one table row through `node` and thirty-two through `nbr`. Its aggregate, lane by lane, is
  the node's row plus the neighbours' rows. The result is that aggregate's mean over the 33 rows, multiplied into
  the weight matrix and clipped below at zero.  Two spellings are given: `G`, dividing the aggregate by 33 before the
  matrix product, and `Gk`, scaling by 1/33 after the clip.  They agree when every table and weight entry is a real number
  (the scale moves across the finite sum by distributivity, and across the clip because 1/33 is positive).
-/
import Idealize.ShloMosaic.PureOps.Ideal
import Idealize.ShloMosaic.Lib.ValueIdx

noncomputable section

open scoped BigOperators

namespace Cert.Spec

open Idealize.ShloMosaic Idealize.ShloMosaic.ValueIdx

abbrev SFeat : Shape := ⟨2, ![100000, 128]⟩
abbrev SNode : Shape := ⟨2, ![16384, 1]⟩
abbrev SNbr : Shape := ⟨2, ![16384, 32]⟩
abbrev SWt : Shape := ⟨2, ![128, 128]⟩
abbrev SOut : Shape := ⟨2, ![16384, 128]⟩

/-- The table row a 32-bit index word names; clamped to the last row so that the function is total (an index
    in range names itself). -/
def rowOf (n : BitVec 32) : Fin 100000 := ⟨min n.toNat 99999, by omega⟩

theorem rowOf_val_of_lt {n : BitVec 32} (h : n.toNat < 100000) : (rowOf n).val = n.toNat := by
  unfold rowOf; simp only; omega

/-- Lane `k` of batch row `b`'s aggregate: the node's table row plus the thirty-two neighbours' rows. -/
def agg (feat : SFeat.Idx → EReal) (node : SNode.Idx → BitVec 32) (nbr : SNbr.Idx → BitVec 32)
    (b : Fin 16384) (k : Fin 128) : EReal :=
  feat (ix2 (rowOf (node (ix2 b (0 : Fin 1)))) k) + ∑ r : Fin 32, feat (ix2 (rowOf (nbr (ix2 b r))) k)

/-- The mean taken first: `max (Σ_k (agg b k / 33) · W k u) 0`. -/
def G2 (feat : SFeat.Idx → EReal) (node : SNode.Idx → BitVec 32) (nbr : SNbr.Idx → BitVec 32) (W : SWt.Idx → EReal)
    (b : Fin 16384) (u : Fin 128) : EReal :=
  max (∑ k : Fin 128, (agg feat node nbr b k / ((33 : ℝ) : EReal)) * W (ix2 k u)) 0

/-- The scale applied last: `max (Σ_k agg b k · W k u) 0 · (1/33)`. -/
def Gk2 (feat : SFeat.Idx → EReal) (node : SNode.Idx → BitVec 32) (nbr : SNbr.Idx → BitVec 32) (W : SWt.Idx → EReal)
    (b : Fin 16384) (u : Fin 128) : EReal :=
  max (∑ k : Fin 128, agg feat node nbr b k * W (ix2 k u)) 0 * ((1 / 33 : ℝ) : EReal)

/-- `G2` as a function of the result array's index. -/
def G (feat : SFeat.Idx → EReal) (node : SNode.Idx → BitVec 32) (nbr : SNbr.Idx → BitVec 32) (W : SWt.Idx → EReal) :
    SOut.Idx → EReal :=
  fun j => G2 feat node nbr W ⟨(j 0).val, idx2_lt0 j⟩ ⟨(j 1).val, idx2_lt1 j⟩

/-- `Gk2` as a function of the result array's index. -/
def Gk (feat : SFeat.Idx → EReal) (node : SNode.Idx → BitVec 32) (nbr : SNbr.Idx → BitVec 32) (W : SWt.Idx → EReal) :
    SOut.Idx → EReal :=
  fun j => Gk2 feat node nbr W ⟨(j 0).val, idx2_lt0 j⟩ ⟨(j 1).val, idx2_lt1 j⟩

end Cert.Spec

end
-- ==== Proof.KISums.lean ====
/-
  The aggregate as the tile computes it, for any float instance: lane `l` of batch row `b` starts at the node's
  table row and adds the thirty-two neighbours' rows one after the other, left to right.  Over the extended reals the
  order is immaterial and this is the specification's aggregate; over machine words it is this order and no other.
-/
import Idealize.ShloMosaic.PureOps.Vector
import Idealize.ShloMosaic.Lib.ValueIdx
import proofs.«210776_g5076651344590_cont_8to1_c_706_2_alg».proof.Proof.Spec

noncomputable section

namespace Cert.Proof.Sums

open Idealize.ShloMosaic Idealize.ShloMosaic.ValueIdx Cert.Spec

variable {F : FTy → Type} [FloatOps F]

abbrev SNodeFlat : Shape := ⟨1, ![16384]⟩
abbrev SNbrFlat : Shape := ⟨1, ![524288]⟩

/-- Position `32 b + r` of the flattened neighbour list. -/
def nbrPos (b : Fin 16384) (r : Fin 32) : Fin 524288 := ⟨32 * b.val + r.val, by omega⟩

/-- The partial aggregate after the first `n` neighbours (`n ≤ 32`): the node's row, then neighbours `0 … n-1`. -/
def partialSum (feat : SFeat.Idx → F .f32) (nd : SNodeFlat.Idx → BitVec 32) (nf : SNbrFlat.Idx → BitVec 32)
    (b : Fin 16384) (l : Fin 128) : ℕ → F .f32
  | 0 => feat (ix2 (rowOf (nd (ix1 b))) l)
  | n + 1 => if h : n < 32 then FloatOps.addf (partialSum feat nd nf b l n) (feat (ix2 (rowOf (nf (ix1 (nbrPos b ⟨n, h⟩)))) l))
             else partialSum feat nd nf b l n

/-- The aggregate array: all thirty-two neighbours added. -/
def sums (feat : SFeat.Idx → F .f32) (nd : SNodeFlat.Idx → BitVec 32) (nf : SNbrFlat.Idx → BitVec 32) : SOut.Idx → F .f32 :=
  fun j => partialSum feat nd nf ⟨(j 0).val, idx2_lt0 j⟩ ⟨(j 1).val, idx2_lt1 j⟩ 32

end Cert.Proof.Sums

end
-- ==== Proof.KIPay.lean ====
/-
  What the SparseCore call's handshakes carry.  The call takes, for each of the 32 tiles, a read share of the table and
  of the two flattened index lists and the tile's four chunks of the aggregate array; it brings them back with the chunks
  holding the aggregate.  The arrays' contents: the table as launched; the index lists flattened row-major from the
  launched `node` and `neighbours`; the aggregate as `Sums.sums` computes it.
-/
import proofs.«210776_g5076651344590_cont_8to1_c_706_2_alg».proof.Proof.KIShares
import proofs.«210776_g5076651344590_cont_8to1_c_706_2_alg».proof.Proof.KISums

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The flattened node list and neighbour list, as @main's two reshapes leave them. -/
def NDv (d : Dev nD) : Buf (Elt F) (nodeFlatLoc d) := shapeCast S16384 (m (nodeLoc d)) shapeCasts_S16384x1_S16384
def NFv (d : Dev nD) : Buf (Elt F) (nbrFlatLoc d) := shapeCast S524288 (m (nbrLoc d)) shapeCasts_S16384x32_S524288

variable [FloatOps F]

/-- The aggregate array the SparseCore call leaves. -/
def SUMSv (d : Dev nD) : Buf (Elt F) (sumsLoc d) := Cert.Proof.Sums.sums (m (featLoc d)) (NDv m d) (NFv m d)

/-- One tile's holdings, its chunks of the aggregate array at contents `fs`. -/
def tileRes (d : Dev nD) (c : Fin 2) (i : Fin 16) (fs : Buf (Elt F) (sumsLoc d)) : sProp 𝕄 :=
  iprop((featLoc d ↦{tileShare c i} m (featLoc d)) ∗ (nbrFlatLoc d ↦{tileShare c i} NFv m d) ∗ (nodeFlatLoc d ↦{tileShare c i} NDv m d)
    ∗ bigSep Finset.univ fun k : Fin k0_t1_loop.trips => sumsLoc d ↦[chunkSet (coordsV c i) k]{fullShare} fs)

/-- The certificate's payloads: SparseCore `c` takes its sixteen tiles' holdings and brings them back. -/
def P : (K (F := F)).Pay (nD := nD) (Val := Elt F) (Name := ℕ) (U := UU) where
  st := fun q d c => match q with | 0 => bigSep Finset.univ fun i : Fin 16 => tileRes m d (Fin.cast nCore_zero c) i (m (sumsLoc d))
  dn := fun q d c => match q with | 0 => bigSep Finset.univ fun i : Fin 16 => tileRes m d (Fin.cast nCore_zero c) i (SUMSv m d)
  go := fun q d c i => match q with | 0 => tileRes m d (Fin.cast nCore_zero c) (Fin.cast nSub_zero i) (m (sumsLoc d))
  td := fun q d c i => match q with | 0 => tileRes m d (Fin.cast nCore_zero c) (Fin.cast nSub_zero i) (SUMSv m d)
  x := fun _ _ => iprop(emp)

instance tileRes_storable (d : Dev nD) (c : Fin 2) (i : Fin 16) (fs : Buf (Elt F) (sumsLoc d)) :
    BI.Storable (upEmb : UEmb _ 𝕄) (tileRes m d c i fs) := by
  unfold tileRes; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- What the run asks of the launch memory: every word of the two index arrays names a table row. -/
def PreOK : Prop := ∀ d : Dev nD, (∀ z, (m (nodeLoc d) z).toNat < 100000) ∧ (∀ z, (m (nbrLoc d) z).toNat < 100000)

end Cert.Proof.KI

end
-- ==== Proof.KIMatmulBody.lean ====
/-
  The matrix-product kernel's body on whole staging buffers: from the two operand buffers at read contents and the
  result buffer at anything, it runs to its return leaving the operands as they were and the result buffer at one
  closed function of the two operand blocks — the single covering store's payload laid over the buffer.
-/
import proofs.«210776_g5076651344590_cont_8to1_c_706_2_alg».proof.Proof.KISetup
import proofs.«210776_g5076651344590_cont_8to1_c_706_2_alg».proof.Proof.Gen.KernelIdeal.Launch
import proofs.«210776_g5076651344590_cont_8to1_c_706_2_alg».proof.Proof.Gen.KernelIdeal.Points
import Idealize.ShloMosaic.Lib.Pipeline.FrameBody
import Idealize.ShloMosaic.Lib.Tactic

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- The whole of a 2048 x 128 buffer, and of a 128 x 128 one, as the body's loads and its store address them. -/
abbrev rBlk : Rect S2048x128 := Rect.unit (s := S2048x128) ![0, 0] S2048x128.size inb_S2048x128_S2048x128_0_0
abbrev rWt : Rect S128x128 := Rect.unit (s := S128x128) ![0, 0] S128x128.size inb_S128x128_S128x128_0_0

/-- What the body leaves in the result's staging buffer, from the two operand blocks: its one store as a piece. -/
def outBlk (x0 : Vec F S2048x128 .f32) (x1 : Vec F S128x128 .f32) : Vec F S2048x128 .f32 :=
  View.canon [⟨rBlk, k1_pay1 (View.ld x0 rBlk) (View.ld x1 rWt)⟩]

/-- The one store fills the buffer. -/
theorem cover_out (p0 : Vec F S2048x128 .f32) (y : S2048x128.Idx) :
    ∃ pc ∈ ([⟨rBlk, p0⟩] : List (View.Piece (Elt F) S2048x128 .f32)), y ∈ pc.1.set :=
  View.cover_of_tiled [⟨rBlk, p0⟩] S2048x128.size (by rfl) y

set_option maxHeartbeats 1000000 in
/-- The body on whole staging memrefs. -/
theorem sound_kernel (c : Dev nD) (E : Set ℕ) (i : grid1.Coords) (arg1 : Memref sig .tc .vmem S2048x128 .f32) (harg1 : arg1.IsWhole)
    (arg2 : Memref sig .tc .vmem S128x128 .f32) (harg2 : arg2.IsWhole) (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc1__mm_body i arg1 harg1 arg2 harg2 arg3 harg3) K := by
  simp only [cc1__mm_body_eq_skeleton]; unfold cc1__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.Proof.KI

end
-- ==== Proof.KIMatmulDat.lean ====
/-
  The matrix-product pipeline's proof data on one device: the three arrays at their entry contents (the aggregates,
  the weights, the result's array at anything); after the body at grid point t the two operand buffers at their
  blocks and the result's buffer at the body's closed function of them; nothing owed to another thread; the pairs the
  thread's waits have recorded kept at or below the first call's band of levels. And the body obligation at every
  point of the grid.
-/
import proofs.«210776_g5076651344590_cont_8to1_c_706_2_alg».proof.Proof.KIMatmulBody

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (X : FVec F S16384x128 .f32) (Wt : FVec F S128x128 .f32) (f₀ : FVec F S16384x128 .f32)

/-- The aggregates' block at point t, and the weights' (the whole array at every point). -/
def xBlk (t : Fin cfg1.N) : Vec F S2048x128 .f32 := ((cfg1.win 0).blk t).view.read (Elt F) X
def wBlk (t : Fin cfg1.N) : Vec F S128x128 .f32 := ((cfg1.win 1).blk t).view.read (Elt F) Wt

/-- The (own semaphore, index) pairs at or below the first call's band of levels. -/
def recBelow (d : Dev nD) : Set (SemLoc sig × HIx 1) := {p | (K (F := F)).lev ((T d : Thread nD τ), p.1) p.2 ≤ 8}

/-- The proof data. -/
def mmDat (d : Dev nD) : Dat τ (Elt F) (HIx 1) ℕ UU ℕ cfg1 d where
  A w := match w with
    | ⟨0, _⟩ => X
    | ⟨1, _⟩ => Wt
    | ⟨2, _⟩ => f₀
  after w t := match w with
    | ⟨0, _⟩ => xBlk X t
    | ⟨1, _⟩ => wBlk Wt t
    | ⟨2, _⟩ => outBlk (xBlk X t) (wBlk Wt t)
  Φ _ := Pipeline.scopedRest (Ix := HIx 1) (Name := ℕ) (U := UU) (Lvl := ℕ) (Val := Elt F) spec1 d
  q _ := fullShare
  owed _ := 0
  recorded _ := recBelow (F := F) d

theorem A_0 (d : Dev nD) : (mmDat X Wt f₀ d).A 0 = X := by dsimp only [mmDat]
theorem A_1 (d : Dev nD) : (mmDat X Wt f₀ d).A 1 = Wt := by dsimp only [mmDat]
theorem A_2 (d : Dev nD) : (mmDat X Wt f₀ d).A 2 = f₀ := by dsimp only [mmDat]
theorem after_0 (d : Dev nD) (t : Fin cfg1.N) : (mmDat X Wt f₀ d).after 0 t = xBlk X t := by dsimp only [mmDat]
theorem after_1 (d : Dev nD) (t : Fin cfg1.N) : (mmDat X Wt f₀ d).after 1 t = wBlk Wt t := by dsimp only [mmDat]
theorem after_2 (d : Dev nD) (t : Fin cfg1.N) : (mmDat X Wt f₀ d).after 2 t = outBlk (xBlk X t) (wBlk Wt t) := by dsimp only [mmDat]

/-- Each operand's current staging buffer holds its block at every point, fetched there or not. -/
theorem before_0 (d : Dev nD) (t : Fin cfg1.N) (e) : (mmDat X Wt f₀ d).before 0 t e = xBlk X t :=
  ((mmDat X Wt f₀ d).before_in_eq_fetched 0 rfl (fun _ => rfl) (fun _ _ _ => rfl)
    (fun t => by rw [after_0]; unfold Dat.blockOf xBlk; rw [A_0]; try rfl) t e).trans
    (by unfold Dat.fetched Dat.blockOf xBlk; rw [A_0]; try rfl)
theorem before_1 (d : Dev nD) (t : Fin cfg1.N) (e) : (mmDat X Wt f₀ d).before 1 t e = wBlk Wt t :=
  ((mmDat X Wt f₀ d).before_in_eq_fetched 1 rfl (fun _ => rfl) (fun _ _ _ => rfl)
    (fun t => by rw [after_1]; unfold Dat.blockOf wBlk; rw [A_1]; try rfl) t e).trans
    (by unfold Dat.fetched Dat.blockOf wBlk; rw [A_1]; try rfl)

/-- The body at any point. -/
theorem sound_body (d : Dev nD) (t : Fin cfg1.N) :
    iprop((mmDat X Wt f₀ d).Φ t.castSucc ∗ (mmDat X Wt f₀ d).owesAt none t.castSucc
        ∗ (∃ e, owns (d : Thread nD τ) (st1_0 t) fullShare ((mmDat X Wt f₀ d).before 0 t e))
        ∗ (∃ e, owns (d : Thread nD τ) (st1_1 t) fullShare ((mmDat X Wt f₀ d).before 1 t e))
        ∗ (∃ e, owns (d : Thread nD τ) (st1_2 t) fullShare ((mmDat X Wt f₀ d).before 2 t e)))
      ⊢ wp frame (wpE (defs₀ (F := F)) Variants.none d none) Set.univ (bodyAt1 t) (fun _ =>
        iprop((mmDat X Wt f₀ d).Φ t.succ ∗ (mmDat X Wt f₀ d).owesAt none t.succ
          ∗ owns (d : Thread nD τ) (st1_0 t) fullShare ((mmDat X Wt f₀ d).after 0 t)
          ∗ owns (d : Thread nD τ) (st1_1 t) fullShare ((mmDat X Wt f₀ d).after 1 t)
          ∗ owns (d : Thread nD τ) (st1_2 t) fullShare ((mmDat X Wt f₀ d).after 2 t))) := by
  unfold bodyAt1
  simp only [before_0, before_1]
  rw [show (mmDat X Wt f₀ d).Φ t.succ = (mmDat X Wt f₀ d).Φ t.castSucc from rfl,
    show (mmDat X Wt f₀ d).owesAt none t.succ = (mmDat X Wt f₀ d).owesAt none t.castSucc from rfl,
    after_0, after_1, after_2]
  iintro ⟨HΦ, Ho, ⟨%d0, H0⟩, ⟨%d1, H1⟩, ⟨%d2, H2⟩⟩
  iapply (sound_kernel d Set.univ _ _ _ _ _ _ _ (xBlk X t) (wBlk Wt t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (d : Dev nD) : BodyObligation (mmDat X Wt f₀ d) (defs₀ (F := F)) Variants.none none Set.univ := fun t => by
  rw [bigSep_W1, bigSep_W1]
  exact sound_body X Wt f₀ d t

end Cert.Proof.KI

end
-- ==== Proof.KIMatmulIdx.lean ====
/-
  The result array of the matrix-product pipeline as ONE function of the aggregates and the weights: rows
  2048·t … 2048·t + 2047 are the body's payload of the aggregates' row-block t and the weights. The windows'
  index maps in closed form (block t of the aggregates and of the result, the whole of the weights), where a
  block's element sits in its array, and that the eight result blocks tile the array — so the array after the
  run is that function.
-/
import proofs.«210776_g5076651344590_cont_8to1_c_706_2_alg».proof.Proof.KIMatmulDat
import Idealize.ShloMosaic.Lib.Pipeline.Value
import Idealize.ShloMosaic.Lib.ValueIdxCoords

set_option maxRecDepth 16384

noncomputable section

namespace Cert.Proof.KI

open Cert.KernelIdeal Cert.KernelIdeal.Gen

open Idealize.ShloMosaic Idealize.ShloMosaic.ValueIdx
open Idealize.ShloMosaic.TcCoe
open Idealize.ShloMosaic.SparseCore (T)
open Idealize.ShloMosaic.SparseCore.Cfg (HIx)
open Idealize.SL Idealize.SL.Sem
open Idealize.ShloMosaic.Pipeline (Dat Cfg Window)

variable {F : FTy → Type} [FloatOps F] [Named F]

/-! ## The index maps, in closed form -/

/-- Decided over the eight points: the aggregates' and the result's block index is the point, the weights' is zero. -/
theorem blockIndex_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

theorem lt_N (t : Fin cfg1.N) : t.val < 8 := by have := t.isLt; have h : cfg1.N = 8 := N_1; omega

/-- Where element j of the aggregates' block t sits in the array; -/
theorem emb_0 (t : Fin cfg1.N) (j : S2048x128.Idx) :
    ((cfg1.win 0).blk t).view.emb j = ix2 (⟨2048 * t.val + (j 0).val, by have := lt_N t; have := idx2_lt0 j; omega⟩ : Fin 16384) (j 1) := by
  obtain ⟨e0, e1, -, -, -, -⟩ := blockIndex_facts t
  funext a; apply Fin.ext
  match a with
  | ⟨0, _⟩ => show win1_0.index t (0 : Fin 2) * 2048 + 1 * (j 0).val = 2048 * t.val + (j 0).val; omega
  | ⟨1, _⟩ => show win1_0.index t (1 : Fin 2) * 128 + 1 * (j 1).val = (j 1).val; omega

/-- of the weights' one block; -/
theorem emb_1 (t : Fin cfg1.N) (j : S128x128.Idx) : ((cfg1.win 1).blk t).view.emb j = j := by
  obtain ⟨-, -, e0, e1, -, -⟩ := blockIndex_facts t
  funext a; apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- of the result's block t. -/
theorem emb_2 (t : Fin cfg1.N) (j : S2048x128.Idx) :
    ((cfg1.win 2).blk t).view.emb j = ix2 (⟨2048 * t.val + (j 0).val, by have := lt_N t; have := idx2_lt0 j; omega⟩ : Fin 16384) (j 1) := by
  obtain ⟨-, -, -, -, e0, e1⟩ := blockIndex_facts t
  funext a; apply Fin.ext
  match a with
  | ⟨0, _⟩ => show win1_2.index t (0 : Fin 2) * 2048 + 1 * (j 0).val = 2048 * t.val + (j 0).val; omega
  | ⟨1, _⟩ => show win1_2.index t (1 : Fin 2) * 128 + 1 * (j 1).val = (j 1).val; omega

/-! ## The result array as one function -/

/-- The grid point whose block holds row b, and the row's place in that block. -/
def ptOf (b : Fin 16384) : Fin cfg1.N := ⟨b.val / 2048, by have h : cfg1.N = 8 := N_1; have := b.isLt; omega⟩
def rowIn (b : Fin 16384) : Fin 2048 := ⟨b.val % 2048, Nat.mod_lt _ (by decide)⟩

variable (X : FVec F S16384x128 .f32) (Wt : FVec F S128x128 .f32) (f₀ : FVec F S16384x128 .f32)

/-- THE RESULT: at row b, lane u, the body's payload of the aggregates' block holding row b and the weights, at
    the row's place in the block. -/
def MM : FVec F S16384x128 .f32 := fun i =>
  k1_pay1 (xBlk X (ptOf ⟨(i 0).val, idx2_lt0 i⟩)) (wBlk Wt (ptOf ⟨(i 0).val, idx2_lt0 i⟩)) (ix2 (rowIn ⟨(i 0).val, idx2_lt0 i⟩) (⟨(i 1).val, idx2_lt1 i⟩ : Fin 128))

theorem zeroOffsets : (![0, 0] : Fin 2 → Nat) = fun _ => 0 := funext fun a => by fin_cases a <;> rfl

/-- What point t writes back is block t of the result function. -/
theorem flushed_eq (d : Dev nD) (t : Fin cfg1.N) :
    (mmDat X Wt f₀ d).flushed 2 t = ((cfg1.win 2).blk t).view.read (Elt F) (MM X Wt) := by
  show (cfg1.win 2).cut (grid1.coords t) ((mmDat X Wt f₀ d).after 2 t) = _
  rw [after_2]
  unfold outBlk
  rw [View.canon_unit_zero zeroOffsets]
  simp only [View.ld_unit_zero (S := S2048x128) zeroOffsets, View.ld_unit_zero (S := S128x128) zeroOffsets]
  funext j
  show k1_pay1 (xBlk X t) (wBlk Wt t) j = MM X Wt (((cfg1.win 2).blk t).view.emb j)
  rw [emb_2]
  unfold MM
  have hj0 := idx2_lt0 j
  have hpt : ptOf (⟨2048 * t.val + (j 0).val, by have := lt_N t; omega⟩ : Fin 16384) = t := by
    apply Fin.ext; show (2048 * t.val + (j 0).val) / 2048 = t.val; omega
  have hrow : rowIn (⟨2048 * t.val + (j 0).val, by have := lt_N t; omega⟩ : Fin 16384) = j 0 := by
    apply Fin.ext; show (2048 * t.val + (j 0).val) % 2048 = (j 0).val; omega
  simp only [ix2_0, ix2_1, Fin.eta, hpt, hrow]
  refine congrArg (k1_pay1 (xBlk X t) (wBlk Wt t)) ?_
  funext a
  match a with
  | ⟨0, _⟩ => rfl
  | ⟨1, _⟩ => rfl

/-- An index of the result's array is in point t's block iff its coordinates are in the block's ranges. -/
theorem mem_outBlock (t : Fin cfg1.N) (i : S16384x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v3).slice (win1_2.rect t)).set ↔ _
  rw [View.set_slice_whole, Rect.mem_set_unit]
  exact Iff.rfl

/-- The eight blocks tile the array. -/
theorem outBlocks_cover (i : S16384x128.Idx) : ∃ t : Fin cfg1.N, (cfg1.win 2).flush t = true ∧ i ∈ ((cfg1.win 2).blk t).view.set := by
  have hi0 := idx2_lt0 i
  have hi1 := idx2_lt1 i
  refine ⟨ptOf ⟨(i 0).val, hi0⟩, flush1_2 _, ?_⟩
  rw [mem_outBlock]
  obtain ⟨-, -, -, -, e0, e1⟩ := blockIndex_facts (ptOf ⟨(i 0).val, hi0⟩)
  have hp : (ptOf ⟨(i 0).val, hi0⟩).val = (i 0).val / 2048 := rfl
  intro a
  match a with
  | ⟨0, _⟩ => show win1_2.index _ (0 : Fin 2) * 2048 ≤ (i 0).val ∧ (i 0).val < win1_2.index _ (0 : Fin 2) * 2048 + 2048; omega
  | ⟨1, _⟩ => show win1_2.index _ (1 : Fin 2) * 128 ≤ (i 1).val ∧ (i 1).val < win1_2.index _ (1 : Fin 2) * 128 + 128; omega

/-- THE RESULT'S ARRAY after the run. -/
theorem arrAt_out (d : Dev nD) : (mmDat X Wt f₀ d).arrAt 2 cfg1.N = MM X Wt :=
  (mmDat X Wt f₀ d).arrAt_eq_of_cover 2 (MM X Wt) (fun t _ => flushed_eq X Wt f₀ d t) outBlocks_cover

/-- The operands' arrays are as they were. -/
theorem arrAt_sums (d : Dev nD) : (mmDat X Wt f₀ d).arrAt 0 cfg1.N = X :=
  ((mmDat X Wt f₀ d).arrAt_in 0 rfl _).trans (A_0 X Wt f₀ d)
theorem arrAt_wt (d : Dev nD) : (mmDat X Wt f₀ d).arrAt 1 cfg1.N = Wt :=
  ((mmDat X Wt f₀ d).arrAt_in 1 rfl _).trans (A_1 X Wt f₀ d)

end Cert.Proof.KI

end
-- ==== Proof.KIMatmulSeg.lean ====
/-
  The TensorCore's matrix-product region inside the SparseCore program: the pipeline's staging cells' ghost state as
  the launch deals it, the region as a record of its entry and exit entailments over the thread state "the three arrays,
  and what the thread owes", and its run under the program's extended body table — from the aggregates and the weights to
  the result array at one closed function of them.
-/
import proofs.«210776_g5076651344590_cont_8to1_c_706_2_alg».proof.Proof.KIMatmulIdx
import Idealize.ShloMosaic.Lib.Pipeline.Regions

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option Elab.async false

variable {F : FTy → Type} [FloatOps F] [Named F]

local notation "𝕄" => MT nD τ sig (HIx 1) (Elt F) ℕ UU ℕ

/-! ## The staging cells' ghost state -/

/-- The pipeline has no prefetched table. -/
abbrev adm : (p : Fin 1) → (pcfgs (F := F) p).Adm := fun p => (cfgs p).toPCfg_adm

/-- The launch element of the pipeline's rounds copy: the staging cells and the transfers the loop issues. -/
def uK₀ : UK := initOf (Pipeline.cells (nD := nD) (τ := τ) cfgs cellOf_inj) (Pipeline.launchToks (nD := nD) (τ := τ) cfgs cellOf_inj)

/-- What the region needs of the launch's ghost state on device d: its staging cells' launch states and the duty
    tokens of the transfers its loop issues. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- The launch funds it on every device at once. -/
theorem gd_fund : (BI.own ((EP (F := F)) uK₀) : sProp 𝕄) ⊢ iprop(|==> bigSep Finset.univ fun d : Dev nD => Gd (F := F) d) := by
  have h := Pipeline.fund_ghost (Ix := HIx 1) (Val := Elt F) (Name := ℕ) (U := UU) (Lvl := ℕ) (nD := nD) (τ := τ) cfgs (EP (F := F)) cellOf_inj
  have e : ∀ (Φ : Fin 1 → sProp 𝕄), bigSep Finset.univ Φ = Φ 0 := fun Φ => by
    rw [show (Finset.univ : Finset (Fin 1)) = {0} from rfl, BI.bigSep_singleton]
  refine h.trans ?_
  simp only [e]
  first
    | exact BI.Entails.refl _
    | (rw [← bigSep_sep']; exact BI.Entails.refl _)

/-! ## The region -/

/-- What the TensorCore owes after the one SparseCore call: nothing, its recorded pairs within the call's band. -/
def owesB (d : Dev nD) : sProp 𝕄 :=
  iprop(∃ W, ⌜(K (F := F)).WBelow (T d) W 8⌝ ∗ owes (T d : Thread nD τ) (0 : CellTallies nD τ sig (HIx 1)) W)

variable (X : FVec F S16384x128 .f32) (Wt : FVec F S128x128 .f32) (f₀ : FVec F S16384x128 .f32)

/-- The proof data as a family over the one pipeline. -/
def pdats : (p : Fin 1) → (c : Dev nD) → Dat τ (Elt F) (HIx 1) ℕ UU ℕ (Pipeline.pin (pcfgs (F := F)) adm p) c :=
  fun _ c => mmDat X Wt f₀ c

theorem share_eq (d : Dev nD) (w : Fin cfg1.W) : (pdats X Wt f₀ 0 d).share w = fullShare :=
  (pdats X Wt f₀ 0 d).share_full (fun _ => rfl) w

/-- The three arrays held whole are the pipeline's arrays. -/
theorem arrays_eq3 (d : Dev nD) (G : (w : Fin cfg1.W) → Buf (Elt F) ((cfg1.win w).arr.view.loc (d : Thread nD τ))) :
    (pdats X Wt f₀ 0 d).arrays G = iprop((sumsLoc d ↦{fullShare} G 0) ∗ (wtLoc d ↦{fullShare} G 1) ∗ (outLoc d ↦{fullShare} G 2)) := by
  rw [Pipeline.arrays_eq (Pipeline.pin (pcfgs (F := F)) adm) (pdats X Wt f₀) 0 d arr_whole1 (share_eq X Wt f₀ d) G, bigSep_W1]

variable (lv : GSem nD τ sig → HIx 1 → ℕ)

set_option backward.isDefEq.respectTransparency.types false in
/-- THE REGION over the thread state "the aggregates, the weights, the result's array, and the thread owing nothing". -/
def mmSeg : Pipeline.RegionSeg (pcfgs (F := F)) adm (pdats X Wt f₀) (none : HIx 1) defs₀ 𝒱₀ (K (F := F)).L lv 0 where
  win := winFacts1.to₀
  block_pos := block_pos1
  stage_whole := stage_whole1
  K := PEmpty
  osem k := k.elim
  ho := Pipeline.OwnSemFacts.none _
  hbody c := (body_obligation X Wt f₀ c).loose
  hwaits := Pipeline.hwaits_of_owed_zero _ _ _ _ _ lv 0 fun _ _ => rfl
  pre d := iprop((sumsLoc d ↦{fullShare} X) ∗ (wtLoc d ↦{fullShare} Wt) ∗ (outLoc d ↦{fullShare} f₀) ∗ owesB (F := F) d)
  post d := iprop((sumsLoc d ↦{fullShare} X) ∗ (wtLoc d ↦{fullShare} Wt) ∗ (outLoc d ↦{fullShare} MM X Wt) ∗ owesB (F := F) d)
  X _ := BI.emp
  Y _ := BI.emp
  Z _ := BI.emp
  hentry d := by
    rw [Pipeline.ownSems0_none, arrays_eq3]
    iintro ⟨⟨Hx, Hw, Ho, HO⟩, -, -⟩
    imodintro
    isplitl [Hx Hw Ho]
    · isplitl [Hx]; · iexact Hx
      isplitl [Hw]; · iexact Hw
      iexact Ho
    isplitr; · unfold Pipeline.prefHeld; rw [show (Finset.univ : Finset (Fin 0)) = ∅ from rfl, BI.bigSep_empty]; iempintro
    isplitl [HO]
    · unfold owesB Pipeline.Dat.owesAt Pipeline.owesWithin
      icases HO with ⟨%W, %hW, HO⟩; iexists W; isplitr
      · ipureintro; exact fun p hp => Or.inl (hW p hp)
      iexact HO
    isplitr <;> iempintro
  hin d := by
    rw [show (pdats X Wt f₀ 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none, show (pdats X Wt f₀ 0 d).Φ (Fin.last _) = Pipeline.scopedRest (Ix := HIx 1) (Name := ℕ) (U := UU) (Lvl := ℕ) (Val := Elt F) spec1 d from rfl]
    iintro Hr
    isplitr; · iempintro
    isplitr; · iempintro
    iexact Hr
  hexit d := by
    rw [arrays_eq3]
    iintro ⟨⟨Hx, Hw, Ho⟩, HO, -, -⟩
    imodintro
    rw [show (pdats X Wt f₀ 0 d).arrAt 0 (Pipeline.pin (pcfgs (F := F)) adm 0).N = X from arrAt_sums X Wt f₀ d,
      show (pdats X Wt f₀ 0 d).arrAt 1 (Pipeline.pin (pcfgs (F := F)) adm 0).N = Wt from arrAt_wt X Wt f₀ d,
      show (pdats X Wt f₀ 0 d).arrAt 2 (Pipeline.pin (pcfgs (F := F)) adm 0).N = MM X Wt from arrAt_out X Wt f₀ d]
    isplitl [Hx]; · iexact Hx
    isplitl [Hw]; · iexact Hw
    isplitl [Ho]; · iexact Ho
    unfold owesB Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ 8
        rw [SparseCore.Cfg.lev_none]; exact Nat.zero_le _
    iexact HO

end Cert.Proof.KI

end
-- ==== Proof.KIMatmul.lean ====
/-
  The TensorCore's matrix-product call as it stands in the program, under the extended body table: from the level
  facts, the region boundary, the aggregates and the weights held whole, the result's array at anything, the thread
  owing nothing and the staging cells' ghost state, the call runs to the boundary with the operands as they were and
  the result's array at the one closed function of them.
-/
import proofs.«210776_g5076651344590_cont_8to1_c_706_2_alg».proof.Proof.KIMatmulSeg
import Idealize.ShloMosaic.Lib.SparseCore.Threads

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option Elab.async false

variable {F : FTy → Type} [FloatOps F] [Named F]

local notation "𝕄" => MT nD τ sig (HIx 1) (Elt F) ℕ UU ℕ

/-- The thread state the call leaves. -/
def mmPost (d : Dev nD) (X : FVec F S16384x128 .f32) (Wt : FVec F S128x128 .f32) : sProp 𝕄 :=
  iprop(boundary (T d : Thread nD τ) ∗ (sumsLoc d ↦{fullShare} X) ∗ (wtLoc d ↦{fullShare} Wt) ∗ (outLoc d ↦{fullShare} MM X Wt) ∗ owesB (F := F) d)

/-- The region's two thread states, spelt out. -/
theorem mmSeg_pre (lv : GSem nD τ sig → HIx 1 → ℕ) (d : Dev nD) (X : FVec F S16384x128 .f32) (Wt : FVec F S128x128 .f32) (f₀ : FVec F S16384x128 .f32) :
    (mmSeg X Wt f₀ lv).pre d = iprop((sumsLoc d ↦{fullShare} X) ∗ (wtLoc d ↦{fullShare} Wt) ∗ (outLoc d ↦{fullShare} f₀) ∗ owesB (F := F) d) := rfl
theorem mmSeg_post (lv : GSem nD τ sig → HIx 1 → ℕ) (d : Dev nD) (X : FVec F S16384x128 .f32) (Wt : FVec F S128x128 .f32) (f₀ : FVec F S16384x128 .f32) :
    (mmSeg X Wt f₀ lv).post d = iprop((sumsLoc d ↦{fullShare} X) ∗ (wtLoc d ↦{fullShare} Wt) ∗ (outLoc d ↦{fullShare} MM X Wt) ∗ owesB (F := F) d) := rfl

set_option backward.isDefEq.respectTransparency.types false in
/-- THE CALL. -/
theorem mm_region (lv : GSem nD τ sig → HIx 1 → ℕ) (d : Dev nD) (X : FVec F S16384x128 .f32) (Wt : FVec F S128x128 .f32) (Φ : PUnit → sProp 𝕄) :
    iprop(levAts (K (F := F)).L lv ∗ boundary (T d : Thread nD τ) ∗ (sumsLoc d ↦{fullShare} X) ∗ (wtLoc d ↦{fullShare} Wt)
        ∗ (∃ f : FVec F S16384x128 .f32, outLoc d ↦{fullShare} f) ∗ owesB (F := F) d ∗ Gd (F := F) d
        ∗ (mmPost d X Wt -∗ Φ ⟨⟩))
      ⊢ wp frame (wpE ((K (F := F)).defs D) 𝒱 (T d) none) Set.univ
          (Prog.lift (.customCall (SparseCore.inner (Pipeline.entry (0 : Fin 1))) ())) Φ := by
  refine BIBase.Entails.trans ?_ ((K (F := F)).wp_liftProg D 𝒱 (T d) Set.univ none
    (Prog.lift (.customCall (Pipeline.entry (0 : Fin 1)) ())) Φ)
  unfold Gd
  iintro ⟨#Hla, Hbd, Hx, Hw, ⟨%f₀, Ho⟩, HO, ⟨Hg, Ht⟩, Hk⟩
  have hwp := Pipeline.RegionSeg.wp (pcfgs (F := F)) adm (pdats X Wt f₀) (none : HIx 1) cellOf_inj (EP (F := F)) defs₀ 𝒱₀ (K (F := F)).L lv
    (mmSeg X Wt f₀ lv) d none (fun _ h => nomatch h) (fun _ => .ret ⟨⟩) Φ
  rw [mmSeg_pre, mmSeg_post] at hwp
  iapply hwp
  isplitl [Hk]
  · iintro ⟨Hbd, Hpost⟩
    rw [wp_ret]; imodintro
    iapply Hk
    unfold mmPost
    isplitl [Hbd]; · iexact Hbd
    iexact Hpost
  isplitl [Hbd]; · iexact Hbd
  isplitl [Hx Hw Ho HO]
  · isplitl [Hx]; · iexact Hx
    isplitl [Hw]; · iexact Hw
    isplitl [Ho]; · iexact Ho
    iexact HO
  isplitr; · iexact Hla
  isplitl [Hg]; · iexact Hg
  iexact Ht

/-- info: 'Cert.Proof.KI.mm_region' depends on axioms: [propext, Classical.choice, Quot.sound] -/
#guard_msgs in #print axioms mm_region

end Cert.Proof.KI

end
-- ==== Proof.KILaunchElem.lean ====
/-
  The launch of the idealized kernel, first part: how a SparseCore's operands are its sixteen tiles' holdings (by
  construction of the payloads), and the launch element of the ghost state — the handshakes' rounds, the TensorCore
  pipeline's staging cells' rounds, and no counter.
-/
import proofs.«210776_g5076651344590_cont_8to1_c_706_2_alg».proof.Proof.KIPay
import proofs.«210776_g5076651344590_cont_8to1_c_706_2_alg».proof.Proof.KIMatmul

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ)

/-! ## A SparseCore's operands are its tiles' -/

/-- Conjoined over the call's sixteen tasks is conjoined over the sixteen tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Conjoined over the call's two SparseCores is conjoined over the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => tileRes m d (Fin.cast nCore_zero c) i (m (sumsLoc d))) ⊢ |={Set.univ}=> iprop(
      (bigSep Finset.univ fun i : Fin ((K (F := F)).nSub 0) => tileRes m d (Fin.cast nCore_zero c) (Fin.cast nSub_zero i) (m (sumsLoc d)))
      ∗ ((bigSep Finset.univ fun i : Fin ((K (F := F)).nSub 0) => tileRes m d (Fin.cast nCore_zero c) (Fin.cast nSub_zero i) (SUMSv m d))
          -∗ bigSep Finset.univ fun i : Fin 16 => tileRes m d (Fin.cast nCore_zero c) i (SUMSv m d)))
  rw [bigSep_tasks (F := F) (fun i => tileRes m d (Fin.cast nCore_zero c) i (m (sumsLoc d))),
    bigSep_tasks (F := F) (fun i => tileRes m d (Fin.cast nCore_zero c) i (SUMSv m d))]
  iintro H; imodintro
  isplitl [H]; · iexact H
  iintro H; iexact H

/-! ## The launch element -/

/-- The handshakes' rounds, the pipeline's staging cells' rounds, no counter. -/
def u₀ : UU := (initOf (K (F := F)).hsCells (K (F := F)).hsToks, (uK₀, 1))

/-- An element of the product algebra with units elsewhere is owned as its two rounds copies. -/
theorem ownU_split (a : UH) (b : UK) : (ownU ((a, (b, 1)) : UU) : sProp 𝕄) ⊢ iprop(BI.own (EH a) ∗ BI.own ((EP (F := F)) b)) := by
  have h1 := ownU_pair (nD := nD) (τ := τ) (sig := sig) (Ix := HIx 1) (Val := Elt F) (Name := ℕ) (Lvl := ℕ) a ((b, 1) : UK × Counters)
  have h2 := own_pair_emb (embR (nD := nD) (τ := τ) (sig := sig) (Ix := HIx 1) (Val := Elt F) (Name := ℕ) (Lvl := ℕ) (A := UH) (B := UK × Counters)) b (1 : Counters)
  refine h1.trans (sep_mono .rfl (h2.trans ?_))
  unfold EP
  exact sep_elim_left

theorem bigSep_emp' {I : Type} (s : Finset I) : (bigSep s fun _ => iprop(emp)) = (iprop(emp) : sProp 𝕄) := bigSep_emp_const s

/-- The launch element in the shape the launch theorem takes it. -/
theorem hu₀ : iprop(ownU (u₀ (F := F)) ∗ (P m).oxCred ∗ (K (F := F)).freeSems0)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro ⟨Hu, -, -⟩
  ihave Hsp := (ownU_split (F := F) (initOf (K (F := F)).hsCells (K (F := F)).hsToks) uK₀) $$ Hu
  icases Hsp with ⟨HH, HK⟩
  imod (gd_fund (F := F)) $$ HK with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KILaunchMain.lean ====
/-
  The launch of the idealized kernel, second part: @main on a device's TensorCore. The two index arrays are
  flattened (two host reshapes); the SparseCore call takes the table, the two flattened lists and the aggregate
  array, dealt to the thirty-two tiles, and brings them back with the aggregate computed; the matrix-product call
  turns the aggregate and the weights into the result. Every argument array ends as it was launched.
-/
import proofs.«210776_g5076651344590_cont_8to1_c_706_2_alg».proof.Proof.KILaunchElem

noncomputable section

namespace Cert.Proof.KI

open Cert.KernelIdeal Cert.KernelIdeal.Gen

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The TensorCore's arrays -/

/-- The ten arrays of @main, all unscoped, each held whole. -/
theorem unscopedBufs_eq (d : Dev nD) (W : (b : Ref sig .tc) → Buf (Elt F) ((d.tc : Thread nD τ).loc b)) :
    (unscopedBufs d W : sProp 𝕄) = iprop((featLoc d ↦{fullShare} W main_arg0) ∗ (nodeLoc d ↦{fullShare} W main_arg1) ∗ (nbrLoc d ↦{fullShare} W main_arg2)
      ∗ (rawLoc d ↦{fullShare} W main_arg3) ∗ (wtLoc d ↦{fullShare} W main_arg4) ∗ (iLoc d ↦{fullShare} W main_arg5)
      ∗ (nbrFlatLoc d ↦{fullShare} W main_v0) ∗ (nodeFlatLoc d ↦{fullShare} W main_v1) ∗ (sumsLoc d ↦{fullShare} W main_v2) ∗ (outLoc d ↦{fullShare} W main_v3)) := by
  unfold unscopedBufs
  rw [show (Finset.univ.filter fun b : Ref sig .tc => ¬ b.isScoped) = {main_arg0, main_arg1, main_arg2, main_arg3, main_arg4, main_arg5, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The two reshapes -/

abbrev nbr' : DevRef τ sig := Proc.devRef .tc (main_arg2 : Ref sig .tc)
abbrev nbrFlat' : DevRef τ sig := Proc.devRef .tc (main_v0 : Ref sig .tc)
abbrev node' : DevRef τ sig := Proc.devRef .tc (main_arg1 : Ref sig .tc)
abbrev nodeFlat' : DevRef τ sig := Proc.devRef .tc (main_v1 : Ref sig .tc)

abbrev opNbr : HloOp τ sig (Elt F) := StableHlo.reshape main_arg2 main_v0 rfl shapeCasts_S16384x32_S524288
abbrev opNode : HloOp τ sig (Elt F) := StableHlo.reshape main_arg1 main_v1 rfl shapeCasts_S16384x1_S16384

/-- The launch valuation. -/
def V0 (d : Dev nD) : Valuation τ sig (Elt F) := fun b => m (d, b)

theorem held_nbr (d : Dev nD) (W : Valuation τ sig (Elt F)) :
    (held (T d) ({nbr', nbrFlat'} : Finset (DevRef τ sig)) W : sProp 𝕄) = iprop((nbrLoc d ↦{fullShare} W nbr') ∗ (nbrFlatLoc d ↦{fullShare} W nbrFlat')) := by
  unfold held
  rw [SparseCore.bigSep_insert' (by decide), bigSep_singleton]
theorem held_node (d : Dev nD) (W : Valuation τ sig (Elt F)) :
    (held (T d) ({node', nodeFlat'} : Finset (DevRef τ sig)) W : sProp 𝕄) = iprop((nodeLoc d ↦{fullShare} W node') ∗ (nodeFlatLoc d ↦{fullShare} W nodeFlat')) := by
  unfold held
  rw [SparseCore.bigSep_insert' (by decide), bigSep_singleton]

theorem resNbr_src (d : Dev nD) : (opNbr (F := F)).result (V0 m d) nbr' = m (nbrLoc d) :=
  StableHlo.reshape_result_ne (x := main_arg2) (y := main_v0) rfl shapeCasts_S16384x32_S524288 _ _ (V0 m d) (r := main_arg2) (by decide)
theorem resNbr_dst (d : Dev nD) : (opNbr (F := F)).result (V0 m d) nbrFlat' = NFv m d :=
  StableHlo.reshape_result (x := main_arg2) (y := main_v0) rfl shapeCasts_S16384x32_S524288 _ _ (V0 m d)
theorem resNode_src (d : Dev nD) : (opNode (F := F)).result (V0 m d) node' = m (nodeLoc d) :=
  StableHlo.reshape_result_ne (x := main_arg1) (y := main_v1) rfl shapeCasts_S16384x1_S16384 _ _ (V0 m d) (r := main_arg1) (by decide)
theorem resNode_dst (d : Dev nD) : (opNode (F := F)).result (V0 m d) nodeFlat' = NDv m d :=
  StableHlo.reshape_result (x := main_arg1) (y := main_v1) rfl shapeCasts_S16384x1_S16384 _ _ (V0 m d)

theorem held_nbr_res (d : Dev nD) :
    (held (T d) ({nbr', nbrFlat'} : Finset (DevRef τ sig)) ((opNbr (F := F)).result (V0 m d)) : sProp 𝕄)
      = iprop((nbrLoc d ↦{fullShare} m (nbrLoc d)) ∗ (nbrFlatLoc d ↦{fullShare} NFv m d)) := by
  rw [held_nbr, resNbr_src, resNbr_dst]
theorem held_node_res (d : Dev nD) :
    (held (T d) ({node', nodeFlat'} : Finset (DevRef τ sig)) ((opNode (F := F)).result (V0 m d)) : sProp 𝕄)
      = iprop((nodeLoc d ↦{fullShare} m (nodeLoc d)) ∗ (nodeFlatLoc d ↦{fullShare} NDv m d)) := by
  rw [held_node, resNode_src, resNode_dst]

/-! ## What the SparseCore call takes and brings back -/

/-- The thirty-two tiles' holdings are the table, the two flattened lists and the aggregate array, held whole. -/
theorem tiles_eq (d : Dev nD) (fs : Buf (Elt F) (sumsLoc d)) :
    (bigSep Finset.univ fun c : Fin 2 => bigSep Finset.univ fun i : Fin 16 => tileRes m d c i fs)
      = iprop((featLoc d ↦{fullShare} m (featLoc d)) ∗ (nbrFlatLoc d ↦{fullShare} NFv m d) ∗ (nodeFlatLoc d ↦{fullShare} NDv m d)
          ∗ (sumsLoc d ↦{fullShare} fs)) := by
  unfold tileRes
  simp only [bigSep_sep']
  rw [← pts_tileShares, ← pts_tileShares, ← pts_tileShares, ← pts_chunks]

theorem st0_eq (d : Dev nD) : (bigSep Finset.univ fun c : Fin ((K (F := F)).nCore 0) => (P m).st 0 d c)
    = iprop((featLoc d ↦{fullShare} m (featLoc d)) ∗ (nbrFlatLoc d ↦{fullShare} NFv m d) ∗ (nodeFlatLoc d ↦{fullShare} NDv m d)
        ∗ (sumsLoc d ↦{fullShare} m (sumsLoc d))) := by
  show (bigSep Finset.univ fun c : Fin ((K (F := F)).nCore 0) =>
    (fun c' : Fin 2 => bigSep Finset.univ fun i : Fin 16 => tileRes m d c' i (m (sumsLoc d))) (Fin.cast nCore_zero c)) = _
  rw [bigSep_cores (F := F) (fun c' : Fin 2 => bigSep Finset.univ fun i : Fin 16 => tileRes m d c' i (m (sumsLoc d))), tiles_eq]
theorem dn0_eq (d : Dev nD) : (bigSep Finset.univ fun c : Fin ((K (F := F)).nCore 0) => (P m).dn 0 d c)
    = iprop((featLoc d ↦{fullShare} m (featLoc d)) ∗ (nbrFlatLoc d ↦{fullShare} NFv m d) ∗ (nodeFlatLoc d ↦{fullShare} NDv m d)
        ∗ (sumsLoc d ↦{fullShare} SUMSv m d)) := by
  show (bigSep Finset.univ fun c : Fin ((K (F := F)).nCore 0) =>
    (fun c' : Fin 2 => bigSep Finset.univ fun i : Fin 16 => tileRes m d c' i (SUMSv m d)) (Fin.cast nCore_zero c)) = _
  rw [bigSep_cores (F := F) (fun c' : Fin 2 => bigSep Finset.univ fun i : Fin 16 => tileRes m d c' i (SUMSv m d)), tiles_eq]

/-- After the one call the TensorCore owes nothing: its state is that, beside the handshakes' positions. -/
theorem tcSt_owes (d : Dev nD) : ∃ R : sProp 𝕄, (K (F := F)).tcSt EH d 1 = iprop(owesB (F := F) d ∗ R) :=
  ⟨_, by unfold SparseCore.Cfg.tcSt owesB; rw [(K (F := F)).Otc_end d le_rfl]⟩

/-! ## @main -/

/-- What @main leaves the claim: every argument array at its launch contents, the result at the product. -/
abbrev FIN (d : Dev nD) : sProp 𝕄 :=
  iprop((featLoc d ↦{fullShare} m (featLoc d)) ∗ (nodeLoc d ↦{fullShare} m (nodeLoc d)) ∗ (nbrLoc d ↦{fullShare} m (nbrLoc d))
    ∗ (rawLoc d ↦{fullShare} m (rawLoc d)) ∗ (wtLoc d ↦{fullShare} m (wtLoc d)) ∗ (iLoc d ↦{fullShare} m (iLoc d))
    ∗ (outLoc d ↦{fullShare} MM (SUMSv m d) (m (wtLoc d))))

theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_owes (F := F) d
  have hR' : (K (F := F)).tcSt EH d ((0 : Fin 1).val + 1) = iprop(owesB (F := F) d ∗ R) := hR
  unfold SparseCore.Cfg.tcRes
  rw [unscopedBufs_eq]
  simp only [main, wp_bind, wp_pure]
  iintro ⟨#Hctx, Hst, ⟨Hb, ⟨Hfeat, Hnode, Hnbr, Hraw, Hwt, Hi, Hnf, Hnd, Hsums, Hout⟩, -, -⟩, Hg⟩
  -- the neighbours' list flattened
  iapply (wp_hlo_within 𝒱 (SparseCore.T d) none Set.univ (op := opNbr) (S := {nbr', nbrFlat'}) (Finset.Subset.refl _) (V := V0 m d)) $$ [Hb Hnbr Hnf]
  · isplitl [Hb]; · iexact Hb
    rw [held_nbr]
    isplitl [Hnbr]; · iexact Hnbr
    iexact Hnf
  iintro ⟨Hb, Hheld⟩
  ihave Hh := (Entails.of_eq (held_nbr_res (F := F) m d)) $$ Hheld
  icases Hh with ⟨Hnbr, Hnf⟩
  rw [wp_ret]; imodintro
  -- the nodes' list flattened
  iapply (wp_hlo_within 𝒱 (SparseCore.T d) none Set.univ (op := opNode) (S := {node', nodeFlat'}) (Finset.Subset.refl _) (V := V0 m d)) $$ [Hb Hnode Hnd]
  · isplitl [Hb]; · iexact Hb
    rw [held_node]
    isplitl [Hnode]; · iexact Hnode
    iexact Hnd
  iintro ⟨Hb, Hheld⟩
  ihave Hh := (Entails.of_eq (held_node_res (F := F) m d)) $$ Hheld
  icases Hh with ⟨Hnode, Hnd⟩
  rw [wp_ret]; imodintro
  -- the SparseCore call
  iapply ((K (F := F)).wp_run (D (F := F)) 𝒱 (EH := EH) (P := P m) κ d 0) $$ [Hst Hfeat Hnf Hnd Hsums Hb Hnode Hnbr Hraw Hwt Hi Hout Hg]
  isplitr; · iexact Hctx
  isplitl [Hst]; · iexact Hst
  isplitl [Hfeat Hnf Hnd Hsums]
  · rw [st0_eq]
    isplitl [Hfeat]; · iexact Hfeat
    isplitl [Hnf]; · iexact Hnf
    isplitl [Hnd]; · iexact Hnd
    iexact Hsums
  iintro ⟨Hst, Hdn⟩
  ihave Hdn' := (Entails.of_eq (dn0_eq m d)) $$ Hdn
  icases Hdn' with ⟨Hfeat, -, -, Hsums⟩
  ihave Hst' := (Entails.of_eq hR') $$ Hst
  icases Hst' with ⟨HO, HR⟩
  ihave Hla := (SparseCore.Cfg.ctx_levAts κ) $$ Hctx
  -- the matrix product
  iapply (mm_region (F := F) (K (F := F)).lev d (SUMSv m d) (m (wtLoc d)) _)
  isplitl [Hla]; · iexact Hla
  isplitl [Hb]; · iexact Hb
  isplitl [Hsums]; · iexact Hsums
  isplitl [Hwt]; · iexact Hwt
  isplitl [Hout]; · iexists _; iexact Hout
  isplitl [HO]; · iexact HO
  isplitl [Hg]; · iexact Hg
  unfold mmPost
  iintro ⟨-, -, Hwt, Hout, HO⟩
  imodintro
  isplitl [HO HR]
  · rw [hR]
    isplitl [HO]; · iexact HO
    iexact HR
  isplitl [Hfeat]; · iexact Hfeat
  isplitl [Hnode]; · iexact Hnode
  isplitl [Hnbr]; · iexact Hnbr
  isplitl [Hraw]; · iexact Hraw
  isplitl [Hwt]; · iexact Hwt
  isplitl [Hi]; · iexact Hi
  iexact Hout

end Cert.Proof.KI

end
-- ==== Proof.KILaunch.lean ====
/-
  The launch of the idealized kernel, last part: what the final memory holds, and the run of the whole program —
  from any memory whose semaphore counters are zero, every weakly fair execution of the thirty-five threads per
  device terminates, and every final memory has the result array at the matrix-product function of the aggregate
  and the weights, and every argument array as it was.
-/
import proofs.«210776_g5076651344590_cont_8to1_c_706_2_alg».proof.Proof.KILaunchMain

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- An array held whole beside the state interpretation: the state's memory holds its contents. -/
theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr; · ipureintro; exact funext fun i => h i (Finset.mem_univ i)
  iexact HSI

/-- What the claim reads of a final state on device d. -/
def fq (d : Dev nD) (s' : Phys nD τ sig (Elt F)) : Prop :=
  s'.mem.mem (outLoc d) = MM (SUMSv m d) (m (wtLoc d)) ∧ s'.mem.mem (featLoc d) = m (featLoc d) ∧ s'.mem.mem (nodeLoc d) = m (nodeLoc d)
    ∧ s'.mem.mem (nbrLoc d) = m (nbrLoc d) ∧ s'.mem.mem (rawLoc d) = m (rawLoc d) ∧ s'.mem.mem (wtLoc d) = m (wtLoc d)
    ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hfeat, Hnode, Hnbr, Hraw, Hwt, Hi, Hout⟩, HSI⟩
  ihave H := (agree s' _ _) $$ [HSI Hout]
  · isplitl [HSI] <;> iassumption
  icases H with ⟨%h0, HSI⟩
  ihave H := (agree s' _ _) $$ [HSI Hfeat]
  · isplitl [HSI] <;> iassumption
  icases H with ⟨%h1, HSI⟩
  ihave H := (agree s' _ _) $$ [HSI Hnode]
  · isplitl [HSI] <;> iassumption
  icases H with ⟨%h2, HSI⟩
  ihave H := (agree s' _ _) $$ [HSI Hnbr]
  · isplitl [HSI] <;> iassumption
  icases H with ⟨%h3, HSI⟩
  ihave H := (agree s' _ _) $$ [HSI Hraw]
  · isplitl [HSI] <;> iassumption
  icases H with ⟨%h4, HSI⟩
  ihave H := (agree s' _ _) $$ [HSI Hwt]
  · isplitl [HSI] <;> iassumption
  icases H with ⟨%h5, HSI⟩
  ihave H := (agree s' _ _) $$ [HSI Hi]
  · isplitl [HSI] <;> iassumption
  icases H with ⟨%h6, -⟩
  ipureintro; exact ⟨h0, h1, h2, h3, h4, h5, h6⟩

/-! ## The program's run -/

def QC : PUnit × MemSt nD τ sig (Elt F) → Prop := fun r => ∀ c : Dev nD,
  r.2.mem (outLoc c) = MM (SUMSv m c) (m (wtLoc c)) ∧ r.2.mem (featLoc c) = m (featLoc c) ∧ r.2.mem (nodeLoc c) = m (nodeLoc c)
    ∧ r.2.mem (nbrLoc c) = m (nbrLoc c) ∧ r.2.mem (rawLoc c) = m (rawLoc c) ∧ r.2.mem (wtLoc c) = m (wtLoc c)
    ∧ r.2.mem (iLoc c) = m (iLoc c)

theorem run_main [∀ e, Nonempty (Elt F e)] (hpre : PreOK m) (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (Gd (F := F)) (FIN m) (u₀ (F := F)) (hu₀ m) (hmain m ρ) (fq m) (hfin m) (QC m) (fun _ h => h)

/-- info: 'Cert.Proof.KI.run_main' depends on axioms: [propext, Classical.choice, Quot.sound] -/
#guard_msgs in #print axioms run_main

end Cert.Proof.KI

end
-- ==== Proof.KIMatmulValue.lean ====
/-
  The result function of the matrix-product pipeline read at an index, on the extended reals: row b, lane u of it
  is the positive part of the inner product of the aggregates' row b with the weights' column u, times the
  reciprocal of thirty-three that the named constant denotes.
-/
import proofs.«210776_g5076651344590_cont_8to1_c_706_2_alg».proof.Proof.KIMatmulIdx
import Idealize.ShloMosaic.Lib.ValueIdx
import Idealize.ShloMosaic.Lib.ValueIdxCoords
import Idealize.ShloMosaic.Lib.Pipeline.Value
import Idealize.ShloMosaic.PureOps.IdealRules
import Idealize.ShloMosaic.PureOps.Ideal.Laws

set_option maxRecDepth 16384

noncomputable section

open scoped BigOperators

namespace Cert.Proof.KI

open Cert.KernelIdeal Cert.KernelIdeal.Gen

open Idealize.ShloMosaic Idealize.ShloMosaic.ValueIdx
open Idealize.ShloMosaic.TcCoe
open Idealize.SL Idealize.SL.Sem
open Idealize.ShloMosaic.Pipeline (Dat Cfg Window)

/-- The product's dimension numbers: rows by the contracted axis, times the contracted axis by columns. -/
abbrev DD : DotDims S2048x128 S128x128 S2048x128 := dot_S2048x128_S128x128_S2048x128_1_0_0_1_n_n

/-! ## The operand indices of the product, coordinate by coordinate -/

theorem lhs_0 (j : S2048x128.Idx) (k : DD.contr.Idx) : (DD.lhsIdx j k 0 : ℕ) = j 0 := by
  simp [DotDims.lhsIdx, DD, dot_S2048x128_S128x128_S2048x128_1_0_0_1_n_n]; rfl
theorem lhs_1 (j : S2048x128.Idx) (k : DD.contr.Idx) : (DD.lhsIdx j k 1 : ℕ) = k ⟨0, by decide⟩ := by
  simp [DotDims.lhsIdx, DD, dot_S2048x128_S128x128_S2048x128_1_0_0_1_n_n]; rfl
theorem rhs_0 (j : S2048x128.Idx) (k : DD.contr.Idx) : (DD.rhsIdx j k 0 : ℕ) = k ⟨0, by decide⟩ := by
  simp [DotDims.rhsIdx, DD, dot_S2048x128_S128x128_S2048x128_1_0_0_1_n_n]; rfl
theorem rhs_1 (j : S2048x128.Idx) (k : DD.contr.Idx) : (DD.rhsIdx j k 1 : ℕ) = j 1 := by
  simp [DotDims.rhsIdx, DD, dot_S2048x128_S128x128_S2048x128_1_0_0_1_n_n]; rfl

/-- The contracted axis has 128 positions. -/
abbrev cE : DD.contr.Idx ≃ Fin 128 := contrEquiv1 DD 128 rfl rfl

/-- The named constant denotes the reciprocal of thirty-three. -/
theorem inv_33 : Named.named (F := Ideal) Cert.KernelIdeal.κ "inv_33" (φ := .f32) 0x3CF83E10#32 = ((1 / 33 : ℝ) : EReal) :=
  IdealRules.named_const.ideal_named_scalar _ _ _ _ rfl

/-- The body's payload at row r, lane u of its block. -/
theorem pay_apply (x0 : Vec Ideal S2048x128 .f32) (x1 : Vec Ideal S128x128 .f32) (r : Fin 2048) (u : Fin 128) :
    k1_pay1 (F := Ideal) x0 x1 (ix2 r u) = max (∑ k : Fin 128, x0 (ix2 r k) * x1 (ix2 k u)) 0 * ((1 / 33 : ℝ) : EReal) := by
  unfold k1_pay1
  rw [mulf_apply, maximumf_apply, broadcast_apply, broadcast_apply, inv_33, shapeCast_self]
  simp only [matmul]
  rw [Ideal.matmul_constant_zero_apply]
  have h0 : (FloatOps.ofBits (F := Ideal) .f32 0x00000000#32 : Ideal .f32) = (0 : EReal) := Ideal.ofBits_zero_f32
  rw [show (Scalar.ofBits (F := Ideal) .f32 0x00000000#32 : Ideal .f32) = (0 : EReal) from h0, ← Equiv.sum_comp cE.symm]
  congr 2
  refine Finset.sum_congr rfl fun k _ => ?_
  have e1 : DD.lhsIdx (ix2 r u) (cE.symm k) = ix2 r k := by
    funext a; apply Fin.ext
    match a with
    | ⟨0, _⟩ => exact lhs_0 _ _
    | ⟨1, _⟩ => exact (lhs_1 _ _).trans (contrEquiv1_symm_val DD 128 rfl rfl k)
  have e2 : DD.rhsIdx (ix2 r u) (cE.symm k) = ix2 k u := by
    funext a; apply Fin.ext
    match a with
    | ⟨0, _⟩ => exact (rhs_0 _ _).trans (contrEquiv1_symm_val DD 128 rfl rfl k)
    | ⟨1, _⟩ => exact rhs_1 _ _
  rw [e1, e2]

/-- The aggregates' block t at row r, lane k is the array at row 2048·t + r; the weights' block is the array. -/
theorem xBlk_apply (X : FVec Ideal S16384x128 .f32) (t : Fin cfg1.N) (r : Fin 2048) (k : Fin 128) :
    xBlk X t (ix2 r k) = X (ix2 (⟨2048 * t.val + r.val, by have := lt_N t; have := r.isLt; omega⟩ : Fin 16384) k) := by
  show X (((cfg1.win 0).blk t).view.emb (ix2 r k)) = _
  rw [emb_0]
  rfl
theorem wBlk_apply (Wt : FVec Ideal S128x128 .f32) (t : Fin cfg1.N) (k u : Fin 128) : wBlk Wt t (ix2 k u) = Wt (ix2 k u) := by
  show Wt (((cfg1.win 1).blk t).view.emb (ix2 k u)) = _
  rw [emb_1]

/-- THE RESULT AT AN INDEX. -/
theorem MM_apply (X : FVec Ideal S16384x128 .f32) (Wt : FVec Ideal S128x128 .f32) (b : Fin 16384) (u : Fin 128) :
    MM X Wt (ix2 b u) = max (∑ k : Fin 128, X (ix2 b k) * Wt (ix2 k u)) 0 * ((1 / 33 : ℝ) : EReal) := by
  unfold MM
  simp only [ix2_0, ix2_1, Fin.eta]
  rw [pay_apply]
  congr 2
  refine Finset.sum_congr rfl fun k _ => ?_
  rw [xBlk_apply, wBlk_apply]
  congr 2
  funext a; apply Fin.ext
  match a with
  | ⟨0, _⟩ => show 2048 * (b.val / 2048) + b.val % 2048 = b.val; omega
  | ⟨1, _⟩ => rfl

end Cert.Proof.KI

end
-- ==== Proof.KISumsValue.lean ====
/-
  The aggregate as the tile computes it, over the extended reals, is the specification's aggregate.

  Over the extended reals the float addition is the addition of extended reals, so the left-to-right accumulation
  "node's row, then neighbours 0, 1, …, n-1" is the node's row plus the sum of the first n neighbours' rows (induction
  on n, one term joining the sum at each step).  The two index arrays reach the accumulation flattened in row-major
  order: position b of the flat node list is entry (b, 0) of the [16384, 1] array, and position 32 b + r of the flat
  neighbour list is entry (b, r) of the [16384, 32] array.  With all thirty-two neighbours added this is the
  specification's aggregate, term for term and in the same order.
-/
import proofs.«210776_g5076651344590_cont_8to1_c_706_2_alg».proof.Proof.KISums
import Idealize.ShloMosaic.PureOps.Ideal
import Idealize.ShloMosaic.Lib.Pipeline.Value

noncomputable section

open scoped BigOperators

namespace Cert.Proof.Sums

open Idealize.ShloMosaic Idealize.ShloMosaic.ValueIdx Cert.Spec

/-- The sum of the terms below n + 1 is the sum of the terms below n, plus term n. -/
theorem sum_lt_succ (g : Fin 32 → EReal) (n : ℕ) (hlt : n < 32) :
    (∑ r : Fin 32, if r.val < n + 1 then g r else 0) = (∑ r : Fin 32, if r.val < n then g r else 0) + g ⟨n, hlt⟩ := by
  have key : ∀ r : Fin 32, (if r.val < n + 1 then g r else 0)
      = (if r.val < n then g r else 0) + (if r = ⟨n, hlt⟩ then g r else 0) := by
    intro r
    by_cases h1 : r.val < n
    · have h2 : r ≠ ⟨n, hlt⟩ := fun e => by rw [e] at h1; exact Nat.lt_irrefl _ h1
      rw [if_pos h1, if_pos (Nat.lt_succ_of_lt h1), if_neg h2, add_zero]
    · by_cases h2 : r = ⟨n, hlt⟩
      · subst h2
        rw [if_neg h1, if_pos (Nat.lt_succ_self _), if_pos rfl, zero_add]
      · have h3 : ¬ r.val < n + 1 := fun h3 => h2 (Fin.ext (by show r.val = n; omega))
        rw [if_neg h1, if_neg h3, if_neg h2, add_zero]
  simp only [key, Finset.sum_add_distrib, Finset.sum_ite_eq', Finset.mem_univ, if_true]

/-- The partial aggregate over the extended reals: the node's row plus the first n neighbours' rows. -/
theorem partialSum_ideal (feat : SFeat.Idx → EReal) (nd : SNodeFlat.Idx → BitVec 32) (nf : SNbrFlat.Idx → BitVec 32)
    (b : Fin 16384) (l : Fin 128) (n : ℕ) (hn : n ≤ 32) :
    partialSum (F := Ideal) feat nd nf b l n
      = feat (ix2 (rowOf (nd (ix1 b))) l)
        + ∑ r : Fin 32, if r.val < n then feat (ix2 (rowOf (nf (ix1 (nbrPos b r)))) l) else 0 := by
  induction n with
  | zero => simp [partialSum]
  | succ n ih =>
    have hlt : n < 32 := by omega
    simp only [partialSum, dif_pos hlt]
    rw [Ideal.addf_def, ih (by omega), add_assoc,
      sum_lt_succ (fun r => feat (ix2 (rowOf (nf (ix1 (nbrPos b r)))) l)) n hlt]

/-- Position b of the flattened node list is entry (b, 0) of the node array. -/
theorem node_flat (node : SNode.Idx → BitVec 32) (h1 : SNode.ShapeCasts SNodeFlat) (b : Fin 16384) :
    shapeCast SNodeFlat node h1 (ix1 b) = node (ix2 b (0 : Fin 1)) :=
  shapeCast_apply node h1 _ _ (by
    rw [Shape.rowMajor_val_two, Shape.rowMajor_val_one]
    show b.val * 1 + 0 = b.val
    omega)

/-- Position 32 b + r of the flattened neighbour list is entry (b, r) of the neighbour array. -/
theorem nbr_flat (nbr : SNbr.Idx → BitVec 32) (h2 : SNbr.ShapeCasts SNbrFlat) (b : Fin 16384) (r : Fin 32) :
    shapeCast SNbrFlat nbr h2 (ix1 (nbrPos b r)) = nbr (ix2 b r) :=
  shapeCast_apply nbr h2 _ _ (by
    rw [Shape.rowMajor_val_two, Shape.rowMajor_val_one]
    show b.val * 32 + r.val = 32 * b.val + r.val
    omega)

/-- The aggregate array the tile computes, over the extended reals and on the flattened index arrays, is the
    specification's aggregate. -/
theorem sums_ideal (feat : SFeat.Idx → EReal) (node : SNode.Idx → BitVec 32) (nbr : SNbr.Idx → BitVec 32)
    (h1 : SNode.ShapeCasts SNodeFlat) (h2 : SNbr.ShapeCasts SNbrFlat) (b : Fin 16384) (l : Fin 128) :
    sums (F := Ideal) feat (shapeCast SNodeFlat node h1) (shapeCast SNbrFlat nbr h2) (ix2 b l)
      = agg feat node nbr b l := by
  show partialSum (F := Ideal) feat (shapeCast SNodeFlat node h1) (shapeCast SNbrFlat nbr h2) b l 32 = _
  rw [partialSum_ideal _ _ _ _ _ 32 (Nat.le_refl _), node_flat]
  unfold agg
  congr 1
  exact Finset.sum_congr rfl fun r _ => by rw [if_pos r.isLt, nbr_flat]

/-- The specification's scaled-last spelling, with the aggregate written as the tile's aggregate array. -/
theorem Gk_eq_sums (feat : SFeat.Idx → EReal) (node : SNode.Idx → BitVec 32) (nbr : SNbr.Idx → BitVec 32)
    (W : SWt.Idx → EReal) (h1 : SNode.ShapeCasts SNodeFlat) (h2 : SNbr.ShapeCasts SNbrFlat) (j : SOut.Idx) :
    Gk feat node nbr W j
      = max (∑ k : Fin 128,
            sums (F := Ideal) feat (shapeCast SNodeFlat node h1) (shapeCast SNbrFlat nbr h2)
                (ix2 (⟨(j 0).val, idx2_lt0 j⟩ : Fin 16384) k)
              * W (ix2 k (⟨(j 1).val, idx2_lt1 j⟩ : Fin 128))) 0
          * ((1 / 33 : ℝ) : EReal) := by
  simp only [sums_ideal]
  rfl

end Cert.Proof.Sums

end
-- ==== Proof.Law.lean ====
/-
  The two spellings of the specification agree on real data.

  When every table entry and every weight is a real number, each aggregate is a finite sum of reals, hence real.
  On reals, (x / 33) * w = (x * w) * (1/33); the common factor 1/33 leaves the finite sum by distributivity; and,
  being nonnegative, it leaves the clip: max (s * c) 0 = max s 0 * c for c >= 0.  The equalities are proved in the
  reals and carried to the extended reals through the coercion, which preserves sums, products, quotients and maxima.
-/
import proofs.«210776_g5076651344590_cont_8to1_c_706_2_alg».proof.Proof.Spec
import Mathlib.Data.EReal.Inv

noncomputable section

open scoped BigOperators

namespace Cert.Spec

open Idealize.ShloMosaic Idealize.ShloMosaic.ValueIdx

/-- The coercion of the reals into the extended reals preserves finite sums. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals preserves maxima (it is monotone). -/
theorem coe_max' (a b : ℝ) : ((max a b : ℝ) : EReal) = max (a : EReal) (b : EReal) :=
  EReal.coe_strictMono.monotone.map_max

/-- The aggregate of real data, as a real number. -/
def aggR (f : SFeat.Idx → ℝ) (node : SNode.Idx → BitVec 32) (nbr : SNbr.Idx → BitVec 32)
    (b : Fin 16384) (k : Fin 128) : ℝ :=
  f (ix2 (rowOf (node (ix2 b (0 : Fin 1)))) k) + ∑ r : Fin 32, f (ix2 (rowOf (nbr (ix2 b r))) k)

theorem agg_coe (f : SFeat.Idx → ℝ) (node : SNode.Idx → BitVec 32) (nbr : SNbr.Idx → BitVec 32)
    (b : Fin 16384) (k : Fin 128) :
    agg (fun i => (f i : EReal)) node nbr b k = ((aggR f node nbr b k : ℝ) : EReal) := by
  unfold agg aggR
  rw [EReal.coe_add, coe_finsum]

/-- The real identity: scaling by 1/33 after the clip equals dividing by 33 before the matrix product. -/
theorem real_law (a w : Fin 128 → ℝ) :
    max (∑ k : Fin 128, a k * w k) 0 * (1 / 33 : ℝ) = max (∑ k : Fin 128, (a k / 33) * w k) 0 := by
  have h : ∑ k : Fin 128, (a k / 33) * w k = (∑ k : Fin 128, a k * w k) * (1 / 33 : ℝ) := by
    rw [Finset.sum_mul]
    exact Finset.sum_congr rfl fun k _ => by ring
  rw [h, max_mul_of_nonneg _ _ (by norm_num : (0 : ℝ) ≤ 1 / 33), zero_mul]

theorem Gk2_eq_G2_coe (f : SFeat.Idx → ℝ) (node : SNode.Idx → BitVec 32) (nbr : SNbr.Idx → BitVec 32)
    (w : SWt.Idx → ℝ) (b : Fin 16384) (u : Fin 128) :
    Gk2 (fun i => (f i : EReal)) node nbr (fun i => (w i : EReal)) b u
      = G2 (fun i => (f i : EReal)) node nbr (fun i => (w i : EReal)) b u := by
  unfold Gk2 G2
  simp only [agg_coe]
  have hL : (∑ k : Fin 128, ((aggR f node nbr b k : ℝ) : EReal) * ((w (ix2 k u) : ℝ) : EReal))
      = ((∑ k : Fin 128, aggR f node nbr b k * w (ix2 k u) : ℝ) : EReal) := by
    rw [coe_finsum]; exact Finset.sum_congr rfl fun k _ => (EReal.coe_mul _ _).symm
  have hR : (∑ k : Fin 128, (((aggR f node nbr b k : ℝ) : EReal) / ((33 : ℝ) : EReal)) * ((w (ix2 k u) : ℝ) : EReal))
      = ((∑ k : Fin 128, (aggR f node nbr b k / 33) * w (ix2 k u) : ℝ) : EReal) := by
    rw [coe_finsum]
    exact Finset.sum_congr rfl fun k _ => by rw [EReal.coe_mul, EReal.coe_div]
  rw [hL, hR, ← EReal.coe_zero, ← coe_max', ← coe_max', ← EReal.coe_mul, real_law]

/-- On real data the two spellings of the specification are the same function. -/
theorem Gk_eq_G (feat : SFeat.Idx → EReal) (node : SNode.Idx → BitVec 32) (nbr : SNbr.Idx → BitVec 32)
    (W : SWt.Idx → EReal) (hf : ∀ i, feat i ≠ ⊤ ∧ feat i ≠ ⊥) (hW : ∀ i, W i ≠ ⊤ ∧ W i ≠ ⊥) :
    Gk feat node nbr W = G feat node nbr W := by
  obtain ⟨f, rfl⟩ : ∃ f : SFeat.Idx → ℝ, feat = fun i => (f i : EReal) :=
    ⟨fun i => (feat i).toReal, funext fun i => (EReal.coe_toReal (hf i).1 (hf i).2).symm⟩
  obtain ⟨w, rfl⟩ : ∃ w : SWt.Idx → ℝ, W = fun i => (w i : EReal) :=
    ⟨fun i => (W i).toReal, funext fun i => (EReal.coe_toReal (hW i).1 (hW i).2).symm⟩
  funext j
  exact Gk2_eq_G2_coe f node nbr w _ _

end Cert.Spec

end
-- ==== Proof.PreFacts.lean ====
/-
  What the precondition says, decoded.

  The precondition is a conjunction of seven "all" statements, each an and-reduction of an array of one-bit words to
  one word, and the claim states that the result is 1.  A conjunction word that is 1 had both operands 1; an
  and-reduction over every axis that is 1 met only 1s.  So each element comparison holds at every index:
    * |x| < +inf for every entry x of the table and of the weights: in the extended reals, max x (-x) < ⊤ says that x
      is neither ⊤ nor ⊥;
    * 0 <= v and v <= 99999, signed, for every index word v: a 32-bit word that is nonnegative as a signed number is
      its own unsigned value, which is then at most 99999.
-/
import proofs.«210776_g5076651344590_cont_8to1_c_706_2_alg».proof.Pre_input_domain
import Idealize.ShloMosaic.Lib.ReduceAll
import Idealize.ShloMosaic.Lib.ValueIdx
import Idealize.ShloMosaic.PureOps.Ideal

noncomputable section

namespace Cert.Proof.PreFacts

open Idealize.ShloMosaic Cert.Pre_input_domain

/-- The rank-0 shape has one index. -/
instance : Subsingleton S_.Idx := ⟨fun a b => funext fun d => d.elim0⟩

/-- A word in [0, 99999] as a signed number is below 100000 as an unsigned one. -/
theorem toNat_lt_of_range (v : BitVec 32) (h0 : IntOp.cmpi .sge v 0#32 = 1#1) (h1 : IntOp.cmpi .sle v 99999#32 = 1#1) :
    v.toNat < 100000 := by
  rw [IntOp.cmpi_sge] at h0
  rw [IntOp.cmpi_sle] at h1
  simp only [BitVec.toInt_eq_toNat_cond, BitVec.toNat_ofNat, Nat.reducePow, Nat.reduceMod] at h0 h1
  omega

/-- An extended real whose absolute value max x (-x) lies below ⊤ is neither ⊤ nor ⊥. -/
theorem finite_of_abs_lt (x : EReal) (h : max x (-x) < ⊤) : x ≠ ⊤ ∧ x ≠ ⊥ := by
  constructor
  · rintro rfl; simp at h
  · rintro rfl; simp at h

variable [Cert.Pre_input_domain.Facts]

/-- The seven conjuncts of the precondition, each at every index of its array. -/
theorem split {F : FTy → Type} [FloatOps F] (a0 : FVec F S100000x128 .f32) (a1 : IVec S16384x1 32)
    (a2 : IVec S16384x32 32) (a3 : FVec F S100000x128 .f32) (a4 : FVec F S128x128 .f32) (a5 : IVec S_ 32)
    (h : fn (F := F) a0 a1 a2 a3 a4 a5 = fun _ => 1#1) :
    (∀ i, FloatOps.cmpf .olt (FloatOps.hostAbsf (a0 i)) (FloatOps.ofBits (F := F) .f32 0x7F800000#32) = 1#1)
    ∧ (∀ i, FloatOps.cmpf .olt (FloatOps.hostAbsf (a4 i)) (FloatOps.ofBits (F := F) .f32 0x7F800000#32) = 1#1)
    ∧ (∀ j, (a1 j).toNat < 100000) ∧ (∀ j, (a2 j).toNat < 100000) := by
  have e := congrFun h ValueIdx.ix0
  dsimp only [fn, fn_part1] at e
  change IntOp.andi (IntOp.andi (IntOp.andi (IntOp.andi (IntOp.andi _ _) _) _) _) _ = 1#1 at e
  simp only [IntOp.andi_eq_one] at e
  obtain ⟨⟨⟨⟨⟨h0, -⟩, h4⟩, h1⟩, h2⟩, -⟩ := e
  refine ⟨fun i => Host.reduce_andi_all _ _ _ _ _ h0 i, fun i => Host.reduce_andi_all _ _ _ _ _ h4 i, fun j => ?_, fun j => ?_⟩
  · have q := Host.reduce_andi_all _ _ _ _ _ h1 j
    obtain ⟨q0, q1⟩ := IntOp.andi_eq_one.1 q
    exact toNat_lt_of_range _ q0 q1
  · have q := Host.reduce_andi_all _ _ _ _ _ h2 j
    obtain ⟨q0, q1⟩ := IntOp.andi_eq_one.1 q
    exact toNat_lt_of_range _ q0 q1

theorem inf_eq_top : Ideal.ofBits .f32 0x7F800000#32 = (⊤ : EReal) := by
  simp [Ideal.ofBits, Ideal.ieee]

/-- At the extended reals, the element comparison |x| < +inf says x is neither ⊤ nor ⊥. -/
theorem finite_of_cmp (x : Ideal .f32)
    (h : FloatOps.cmpf (F := Ideal) .olt (FloatOps.hostAbsf (F := Ideal) x) (FloatOps.ofBits (F := Ideal) .f32 0x7F800000#32) = 1#1) :
    x ≠ (⊤ : EReal) ∧ x ≠ (⊥ : EReal) := by
  change BitVec.ofBool (decide (max x (-x) < Ideal.ofBits .f32 0x7F800000#32)) = 1#1 at h
  rw [inf_eq_top] at h
  refine finite_of_abs_lt x ?_
  revert h
  by_cases hlt : max x (-x) < (⊤ : EReal)
  · exact fun _ => hlt
  · simp [hlt]

/-- Every node word names a row of the table. -/
theorem node_lt {F : FTy → Type} [FloatOps F] (a0 : FVec F S100000x128 .f32) (a1 : IVec S16384x1 32)
    (a2 : IVec S16384x32 32) (a3 : FVec F S100000x128 .f32) (a4 : FVec F S128x128 .f32) (a5 : IVec S_ 32)
    (h : fn (F := F) a0 a1 a2 a3 a4 a5 = fun _ => 1#1) : ∀ j, (a1 j).toNat < 100000 :=
  (split a0 a1 a2 a3 a4 a5 h).2.2.1

/-- Every neighbour word names a row of the table. -/
theorem nbr_lt {F : FTy → Type} [FloatOps F] (a0 : FVec F S100000x128 .f32) (a1 : IVec S16384x1 32)
    (a2 : IVec S16384x32 32) (a3 : FVec F S100000x128 .f32) (a4 : FVec F S128x128 .f32) (a5 : IVec S_ 32)
    (h : fn (F := F) a0 a1 a2 a3 a4 a5 = fun _ => 1#1) : ∀ j, (a2 j).toNat < 100000 :=
  (split a0 a1 a2 a3 a4 a5 h).2.2.2

/-- Every table entry is a real number. -/
theorem feat_fin (a0 : FVec Ideal S100000x128 .f32) (a1 : IVec S16384x1 32)
    (a2 : IVec S16384x32 32) (a3 : FVec Ideal S100000x128 .f32) (a4 : FVec Ideal S128x128 .f32) (a5 : IVec S_ 32)
    (h : fn (F := Ideal) a0 a1 a2 a3 a4 a5 = fun _ => 1#1) : ∀ i, a0 i ≠ (⊤ : EReal) ∧ a0 i ≠ (⊥ : EReal) :=
  fun i => finite_of_cmp _ ((split a0 a1 a2 a3 a4 a5 h).1 i)

/-- Every weight is a real number. -/
theorem wt_fin (a0 : FVec Ideal S100000x128 .f32) (a1 : IVec S16384x1 32)
    (a2 : IVec S16384x32 32) (a3 : FVec Ideal S100000x128 .f32) (a4 : FVec Ideal S128x128 .f32) (a5 : IVec S_ 32)
    (h : fn (F := Ideal) a0 a1 a2 a3 a4 a5 = fun _ => 1#1) : ∀ i, a4 i ≠ (⊤ : EReal) ∧ a4 i ≠ (⊥ : EReal) :=
  fun i => finite_of_cmp _ ((split a0 a1 a2 a3 a4 a5 h).2.1 i)

end Cert.Proof.PreFacts

end
-- ==== Proof.RefOps.lean ====
/- The reference program as a straight line of host operations: the list of its operations with the called
   functions' bodies written out at their call sites, and the equation between the program and that line. -/
import proofs.«210776_g5076651344590_cont_8to1_c_706_2_alg».proof.Proof.Gen.ReferenceIdeal
import Idealize.ShloMosaic.Lib.StableHlo.Run

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]
/-- The reference's operations in program order: the two lookups' bodies written out at their call sites
    (twenty-three each, the index select among them), the concatenation, the sum over the thirty-three rows,
    the division by 33, the product with the weights, and the three of the clip at zero. -/
abbrev ops : List (HloOp τ sig (Elt F)) :=
  [ TRef.nullary main_call0.c (constantI S_ 32 0#32),
    TRef.unary main_call0.c main_call0.v0 (broadcastInDim S16384x1 ![] bcast_S_S16384x1),
    TRef.binary (.of main_arg1) main_call0.v0 main_call0.v1 (cmpi .slt),
    TRef.nullary main_call0.c_0 (constantI S_ 32 100000#32),
    TRef.unary main_call0.c_0 main_call0.v2 (broadcastInDim S16384x1 ![] bcast_S_S16384x1),
    TRef.binary (.of main_arg1) main_call0.v2 main_call0.v3 addi,
    TRef.ternary main_call0.v1 main_call0.v3 (.of main_arg1) main_call0.call0.v0 select,
    TRef.unary main_call0.call0.v0 main_call0.v5 (broadcastInDim S16384x1x1 ![0, 1] bcast_S16384x1_S16384x1x1_0_1),
    TRef.nullary main_call0.c_1 (constantI S1 32 99999#32),
    TRef.nullary main_call0.c_2 (constantI S_ 32 0#32),
    TRef.unary main_call0.c_2 main_call0.v6 (broadcastInDim S16384x1x1 ![] bcast_S_S16384x1x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x1x1 ![0, 1, 2] bcast_S1x1x1_S16384x1x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1x1_S16384x1_d2 h_S_),
    TRef.binary (.of main_arg0) main_call0.v5 main_call0.v13 (fun x i => Host.gather gather_S100000x128_S16384x1x1_S16384x1x128_2_0_n_n_0_2_1128 x i),
    TRef.unary main_call0.v12 main_call0.v14 (broadcastInDim S16384x1x128 ![0, 1] bcast_S16384x1_S16384x1x128_0_1),
    TRef.nullary main_call0.cst (constant S_ .f32 0x7FC00000#32),
    TRef.unary main_call0.cst main_call0.v15 (broadcastInDim S16384x1x128 ![] bcast_S_S16384x1x128),
    TRef.ternary main_call0.v14 main_call0.v13 main_call0.v15 main_call0.v16 select,
    TRef.nullary main_call1.c (constantI S_ 32 0#32),
    TRef.unary main_call1.c main_call1.v0 (broadcastInDim S16384x32 ![] bcast_S_S16384x32),
    TRef.binary (.of main_arg2) main_call1.v0 main_call1.v1 (cmpi .slt),
    TRef.nullary main_call1.c_0 (constantI S_ 32 100000#32),
    TRef.unary main_call1.c_0 main_call1.v2 (broadcastInDim S16384x32 ![] bcast_S_S16384x32),
    TRef.binary (.of main_arg2) main_call1.v2 main_call1.v3 addi,
    TRef.ternary main_call1.v1 main_call1.v3 (.of main_arg2) main_call1.call0.v0 select,
    TRef.unary main_call1.call0.v0 main_call1.v5 (broadcastInDim S16384x32x1 ![0, 1] bcast_S16384x32_S16384x32x1_0_1),
    TRef.nullary main_call1.c_1 (constantI S1 32 99999#32),
    TRef.nullary main_call1.c_2 (constantI S_ 32 0#32),
    TRef.unary main_call1.c_2 main_call1.v6 (broadcastInDim S16384x32x1 ![] bcast_S_S16384x32x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x32x1 ![0, 1, 2] bcast_S1x1x1_S16384x32x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x32x1_S16384x32_d2 h_S_),
    TRef.binary (.of main_arg0) main_call1.v5 main_call1.v13 (fun x i => Host.gather gather_S100000x128_S16384x32x1_S16384x32x128_2_0_n_n_0_2_1128 x i),
    TRef.unary main_call1.v12 main_call1.v14 (broadcastInDim S16384x32x128 ![0, 1] bcast_S16384x32_S16384x32x128_0_1),
    TRef.nullary main_call1.cst (constant S_ .f32 0x7FC00000#32),
    TRef.unary main_call1.cst main_call1.v15 (broadcastInDim S16384x32x128 ![] bcast_S_S16384x32x128),
    TRef.ternary main_call1.v14 main_call1.v13 main_call1.v15 main_call1.v16 select,
    binary main_v1 main_v0 main_v2 ((fun a b => concatenate S16384x33x128 1 [⟨S16384x32x128, a⟩, ⟨S16384x1x128, b⟩] concatenates_S16384x32x128_S16384x1x128_S16384x33x128_d1) : (⟨S16384x32x128, .f32⟩ : BufTy).Contents (Elt F) → (⟨S16384x1x128, .f32⟩ : BufTy).Contents (Elt F) → (⟨S16384x33x128, .f32⟩ : BufTy).Contents (Elt F)),
    nullary main_cst (constant S_ .f32 0x00000000#32),
    binary main_v2 main_cst main_v3 ((fun x v => Host.reduceAdd x v reducesTo_S16384x33x128_S16384x128_d1 h_S_) : (⟨S16384x33x128, .f32⟩ : BufTy).Contents (Elt F) → (⟨S_, .f32⟩ : BufTy).Contents (Elt F) → (⟨S16384x128, .f32⟩ : BufTy).Contents (Elt F)),
    nullary main_cst_0 (constant S_ .f32 0x42040000#32),
    unary main_cst_0 main_v4 (broadcastInDim S16384x128 ![] bcast_S_S16384x128 : (⟨S_, .f32⟩ : BufTy).Contents (Elt F) → (⟨S16384x128, .f32⟩ : BufTy).Contents (Elt F)),
    binary main_v3 main_v4 main_v5 (Host.divf : (⟨S16384x128, .f32⟩ : BufTy).Contents (Elt F) → (⟨S16384x128, .f32⟩ : BufTy).Contents (Elt F) → (⟨S16384x128, .f32⟩ : BufTy).Contents (Elt F)),
    binary main_v5 main_arg4 main_v6 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    TRef.nullary main_call2.cst (constant S_ .f32 0x00000000#32),
    TRef.unary main_call2.cst main_call2.v0 (broadcastInDim S16384x128 ![] bcast_S_S16384x128),
    TRef.binary (.of main_v6) main_call2.v0 main_call2.v1 maximumf ]

set_option maxRecDepth 2048 in
/-- The program is that straight line: each called function's body at its call, the calls' buffer records at
    their fields, sequencing reassociated. -/
theorem main_eq (c : Dev nD) : main (F := F) c = seq ops := by
  simp only [main, fn_take.body, fn_take_0.body, fn_where.body, fn_where_1.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core's own references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., nullary_bufs_sub .., unary_bufs_sub .., binary_bufs_sub .., binary_bufs_sub .., nullary_bufs_sub .., unary_bufs_sub .., binary_bufs_sub ..⟩

end Cert.Proof.RefSide

end
-- ==== Proof.RefOut.lean ====
/- The value the reference's operations compose to, as a pure function of the four arrays it reads, built stage
   by stage: index fixing, the in-range mask, the row gather, the concatenation, the mean, the product, the clip. -/
import proofs.«210776_g5076651344590_cont_8to1_c_706_2_alg».proof.Proof.Gen.ReferenceIdeal

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

/-! ## The value the operations compose to, stage by stage -/

/-- The node lookup: the index with a negative one moved up by the table's row count. -/
def fixNode (i : IVec S16384x1 32) : IVec S16384x1 32 :=
  select (cmpi .slt i (broadcastInDim S16384x1 ![] bcast_S_S16384x1 (constantI S_ 32 0#32)))
    (addi i (broadcastInDim S16384x1 ![] bcast_S_S16384x1 (constantI S_ 32 100000#32))) i

/-- The node lookup: that index as a start vector of length one. -/
def startNode (i : IVec S16384x1 32) : IVec S16384x1x1 32 :=
  broadcastInDim S16384x1x1 ![0, 1] bcast_S16384x1_S16384x1x1_0_1 (fixNode i)

/-- The node lookup: the mask of the start vectors lying in [0, 99999]. -/
def maskNode (i : IVec S16384x1 32) : IVec S16384x1 1 :=
  Host.reduce IntOp.andi
    (andi (cmpi .sge (startNode i) (broadcastInDim S16384x1x1 ![] bcast_S_S16384x1x1 (constantI S_ 32 0#32)))
      (cmpi .sle (startNode i) (broadcastInDim S16384x1x1 ![0, 1, 2] bcast_S1x1x1_S16384x1x1_0_1_2
        (broadcastInDim S1x1x1 ![2] bcast_S1_S1x1x1_2 (constantI S1 32 99999#32)))))
    (constantI S_ 1 1#1) reducesTo_S16384x1x1_S16384x1_d2 h_S_

/-- The node lookup: the gathered rows where the mask holds, the not-a-number word elsewhere. -/
def takeNode (x : FVec F S100000x128 .f32) (i : IVec S16384x1 32) : FVec F S16384x1x128 .f32 :=
  select (broadcastInDim S16384x1x128 ![0, 1] bcast_S16384x1_S16384x1x128_0_1 (maskNode i))
    (Host.gather gather_S100000x128_S16384x1x1_S16384x1x128_2_0_n_n_0_2_1128 x (startNode i))
    (broadcastInDim S16384x1x128 ![] bcast_S_S16384x1x128 (constant S_ .f32 0x7FC00000#32))

/-- The neighbour lookup: the index with a negative one moved up by the table's row count. -/
def fixNbr (i : IVec S16384x32 32) : IVec S16384x32 32 :=
  select (cmpi .slt i (broadcastInDim S16384x32 ![] bcast_S_S16384x32 (constantI S_ 32 0#32)))
    (addi i (broadcastInDim S16384x32 ![] bcast_S_S16384x32 (constantI S_ 32 100000#32))) i

/-- The neighbour lookup: that index as a start vector of length one. -/
def startNbr (i : IVec S16384x32 32) : IVec S16384x32x1 32 :=
  broadcastInDim S16384x32x1 ![0, 1] bcast_S16384x32_S16384x32x1_0_1 (fixNbr i)

/-- The neighbour lookup: the mask of the start vectors lying in [0, 99999]. -/
def maskNbr (i : IVec S16384x32 32) : IVec S16384x32 1 :=
  Host.reduce IntOp.andi
    (andi (cmpi .sge (startNbr i) (broadcastInDim S16384x32x1 ![] bcast_S_S16384x32x1 (constantI S_ 32 0#32)))
      (cmpi .sle (startNbr i) (broadcastInDim S16384x32x1 ![0, 1, 2] bcast_S1x1x1_S16384x32x1_0_1_2
        (broadcastInDim S1x1x1 ![2] bcast_S1_S1x1x1_2 (constantI S1 32 99999#32)))))
    (constantI S_ 1 1#1) reducesTo_S16384x32x1_S16384x32_d2 h_S_

/-- The neighbour lookup: the gathered rows where the mask holds, the not-a-number word elsewhere. -/
def takeNbr (x : FVec F S100000x128 .f32) (i : IVec S16384x32 32) : FVec F S16384x32x128 .f32 :=
  select (broadcastInDim S16384x32x128 ![0, 1] bcast_S16384x32_S16384x32x128_0_1 (maskNbr i))
    (Host.gather gather_S100000x128_S16384x32x1_S16384x32x128_2_0_n_n_0_2_1128 x (startNbr i))
    (broadcastInDim S16384x32x128 ![] bcast_S_S16384x32x128 (constant S_ .f32 0x7FC00000#32))

/-- The thirty-two neighbour rows followed by the node row. -/
def rows (x : FVec F S100000x128 .f32) (i1 : IVec S16384x1 32) (i2 : IVec S16384x32 32) : FVec F S16384x33x128 .f32 :=
  concatenate S16384x33x128 1 [⟨S16384x32x128, takeNbr x i2⟩, ⟨S16384x1x128, takeNode x i1⟩]
    concatenates_S16384x32x128_S16384x1x128_S16384x33x128_d1

/-- The mean of the thirty-three rows: their sum from zero, divided by 33. -/
def mean (x : FVec F S100000x128 .f32) (i1 : IVec S16384x1 32) (i2 : IVec S16384x32 32) : FVec F S16384x128 .f32 :=
  Host.divf (Host.reduceAdd (rows x i1 i2) (constant S_ .f32 0x00000000#32) reducesTo_S16384x33x128_S16384x128_d1 h_S_)
    (broadcastInDim S16384x128 ![] bcast_S_S16384x128 (constant S_ .f32 0x42040000#32))

/-- The reference's result: the mean times the weights, clipped below at zero. -/
def RefOut (x : FVec F S100000x128 .f32) (i1 : IVec S16384x1 32) (i2 : IVec S16384x32 32) (w : FVec F S128x128 .f32) :
    FVec F S16384x128 .f32 :=
  maximumf (Host.dotGeneral dot_S16384x128_S128x128_S16384x128_1_0_0_1_n_n none (mean x i1 i2) w)
    (broadcastInDim S16384x128 ![] bcast_S_S16384x128 (constant S_ .f32 0x00000000#32))

end Cert.Proof.RefSide

end
-- ==== Proof.RefRun.lean ====
/- The reference program's run: every weakly fair execution terminates with the result buffer at the composed
   value `RefOut` of the arguments' launch contents and the six argument buffers unchanged. -/
import proofs.«210776_g5076651344590_cont_8to1_c_706_2_alg».proof.Proof.RefOps
import proofs.«210776_g5076651344590_cont_8to1_c_706_2_alg».proof.Proof.RefOut

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

section Fold
attribute [local irreducible] Host.reduce Host.gather Host.reduceAdd concatenate broadcastInDim
set_option maxRecDepth 8192
set_option maxHeartbeats 400000

/-- The fold of the operations at the result buffer is `RefOut` of the arguments' contents: each operation's
    result is read at the one buffer it writes, and the typed references' transports are the identity at
    literal references. -/
theorem out_eq (V : Valuation τ sig (Elt F)) :
    after ops V (main_v7 : DevRef τ sig)
      = RefOut (V (main_arg0 : DevRef τ sig)) (V (main_arg1 : DevRef τ sig)) (V (main_arg2 : DevRef τ sig))
          (V (main_arg4 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

end Fold

/-- On every device, from any memory with zero counters: every weakly fair execution of the reference terminates
    with its result at `RefOut` of the launch contents of the table, the two index arrays and the weights, and
    with every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = RefOut (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v7).trans (out_eq _), (h c main_arg0).trans (arg0_eq _), (h c main_arg1).trans (arg1_eq _),
      (h c main_arg2).trans (arg2_eq _), (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.Proof.RefSide

end
-- ==== Proof.RefIdx.lean ====
/- The integer side of the two lookups, for index words below the table's row count: the fixing select keeps the
   word, the start vector holds it, and the in-range mask holds everywhere. -/
import proofs.«210776_g5076651344590_cont_8to1_c_706_2_alg».proof.Proof.RefOut
import Idealize.ShloMosaic.Lib.ValueIdx
import Idealize.ShloMosaic.Lib.Pipeline.Value
import Idealize.ShloMosaic.PureOps.Reduce

noncomputable section

namespace Cert.Proof.RefSide

open Cert.ReferenceIdeal Cert.ReferenceIdeal.Gen Idealize.ShloMosaic Idealize.ShloMosaic.ValueIdx

/-! ## Words below the table's row count -/

/-- A word below 100000 reads the same signed as unsigned. -/
theorem toInt_of_lt {n : BitVec 32} (h : n.toNat < 100000) : n.toInt = (n.toNat : Int) := by
  rw [BitVec.toInt_eq_toNat_cond, if_pos (by omega)]

theorem cmpi_slt_zero {n : BitVec 32} (h : n.toNat < 100000) : IntOp.cmpi .slt n 0#32 = 0#1 := by
  have hi := toInt_of_lt h
  have : n.slt 0#32 = false := by
    simp only [BitVec.slt, hi, BitVec.toInt_zero, decide_eq_false_iff_not, not_lt]
    exact Int.natCast_nonneg _
  show BitVec.ofBool (n.slt 0#32) = 0#1
  rw [this]; rfl

theorem cmpi_sge_zero {n : BitVec 32} (h : n.toNat < 100000) : IntOp.cmpi .sge n 0#32 = 1#1 := by
  have hi := toInt_of_lt h
  have : (0#32).sle n = true := by
    simp only [BitVec.sle, hi, BitVec.toInt_zero, decide_eq_true_eq]
    exact Int.natCast_nonneg _
  show BitVec.ofBool ((0#32).sle n) = 1#1
  rw [this]; rfl

theorem cmpi_sle_last {n : BitVec 32} (h : n.toNat < 100000) : IntOp.cmpi .sle n 99999#32 = 1#1 := by
  have hi := toInt_of_lt h
  have h9 : (99999#32).toInt = 99999 := by decide
  have : n.sle 99999#32 = true := by
    simp only [BitVec.sle, hi, h9, decide_eq_true_eq]
    omega
  show BitVec.ofBool (n.sle 99999#32) = 1#1
  rw [this]; rfl

/-- A conjunction of ones from one is one. -/
theorem fold_andi_one {ι : Type} [DecidableEq ι] (s : Finset ι) (f : ι → BitVec 1) (hf : ∀ k, f k = 1#1) :
    s.fold IntOp.andi 1#1 f = 1#1 := by
  induction s using Finset.induction_on with
  | empty => rfl
  | insert a s ha ih => rw [Finset.fold_insert ha, ih, hf]; rfl

/-! ## The node lookup's indices, for index words below the row count -/

/-- An index word below the row count is not negative, so the fixing select keeps it. -/
theorem fixNode_apply (i : IVec S16384x1 32) (j : S16384x1.Idx) (h : (i j).toNat < 100000) : fixNode i j = i j := by
  show Scalar.select (IntOp.cmpi .slt (i j) 0#32) _ (i j) = i j
  rw [cmpi_slt_zero h, select_zero]

/-- Every start vector's one component is then below the row count. -/
theorem startNode_lt (i : IVec S16384x1 32) (h : ∀ j, (i j).toNat < 100000) (q : S16384x1x1.Idx) :
    (startNode i q).toNat < 100000 := by
  unfold startNode broadcastInDim
  rw [fixNode_apply i _ (h _)]; exact h _

/-- The start vector of batch position `(b, c)` holds that position's index word. -/
theorem startNode_apply (i : IVec S16384x1 32) (h : ∀ j, (i j).toNat < 100000) (b : Fin 16384) (c : Fin 1) (e : Fin 1) :
    startNode i (ix3 b c e) = i (ix2 b c) := by
  have e1 : startNode i (ix3 b c e) = fixNode i (ix2 b c) :=
    broadcastInDim_apply _ _ _ _ _ fun a => by
      match a with
      | ⟨0, _⟩ => rfl
      | ⟨1, _⟩ => show c.val = 0; omega
  rw [e1, fixNode_apply i _ (h _)]

/-- The in-range mask holds everywhere. -/
theorem maskNode_apply (i : IVec S16384x1 32) (h : ∀ j, (i j).toNat < 100000) (j : S16384x1.Idx) : maskNode i j = 1#1 := by
  unfold maskNode
  rw [Host.reduce_eq_fold_single IntOp.andi _ _ reducesTo_S16384x1x1_S16384x1_d2 (by decide) h_S_ j]
  refine fold_andi_one _ _ fun k => ?_
  show IntOp.andi (IntOp.cmpi .sge (startNode i _) 0#32) (IntOp.cmpi .sle (startNode i _) 99999#32) = 1#1
  rw [cmpi_sge_zero (startNode_lt i h _), cmpi_sle_last (startNode_lt i h _)]; rfl

/-! ## The neighbour lookup's indices, for index words below the row count -/

/-- An index word below the row count is not negative, so the fixing select keeps it. -/
theorem fixNbr_apply (i : IVec S16384x32 32) (j : S16384x32.Idx) (h : (i j).toNat < 100000) : fixNbr i j = i j := by
  show Scalar.select (IntOp.cmpi .slt (i j) 0#32) _ (i j) = i j
  rw [cmpi_slt_zero h, select_zero]

/-- Every start vector's one component is then below the row count. -/
theorem startNbr_lt (i : IVec S16384x32 32) (h : ∀ j, (i j).toNat < 100000) (q : S16384x32x1.Idx) :
    (startNbr i q).toNat < 100000 := by
  unfold startNbr broadcastInDim
  rw [fixNbr_apply i _ (h _)]; exact h _

/-- The start vector of batch position `(b, c)` holds that position's index word. -/
theorem startNbr_apply (i : IVec S16384x32 32) (h : ∀ j, (i j).toNat < 100000) (b : Fin 16384) (c : Fin 32) (e : Fin 1) :
    startNbr i (ix3 b c e) = i (ix2 b c) := by
  have e1 : startNbr i (ix3 b c e) = fixNbr i (ix2 b c) :=
    broadcastInDim_apply _ _ _ _ _ fun a => by
      match a with
      | ⟨0, _⟩ => rfl
      | ⟨1, _⟩ => rfl
  rw [e1, fixNbr_apply i _ (h _)]

/-- The in-range mask holds everywhere. -/
theorem maskNbr_apply (i : IVec S16384x32 32) (h : ∀ j, (i j).toNat < 100000) (j : S16384x32.Idx) : maskNbr i j = 1#1 := by
  unfold maskNbr
  rw [Host.reduce_eq_fold_single IntOp.andi _ _ reducesTo_S16384x32x1_S16384x32_d2 (by decide) h_S_ j]
  refine fold_andi_one _ _ fun k => ?_
  show IntOp.andi (IntOp.cmpi .sge (startNbr i _) 0#32) (IntOp.cmpi .sle (startNbr i _) 99999#32) = 1#1
  rw [cmpi_sge_zero (startNbr_lt i h _), cmpi_sle_last (startNbr_lt i h _)]; rfl

end Cert.Proof.RefSide

end
-- ==== Proof.RefGather.lean ====
/- A row gather read at an index: the operand `[N, D]`, start vectors of length one over a batch `[R, C]`, the
   row axis collapsed and the lane axis the one offset axis. Result element `(b, c, k)` is lane `k` of the row the
   start vector at `(b, c)` names, read signed and clamped into `[0, N - 1]`. -/
import Idealize.ShloMosaic.PureOps
import Idealize.ShloMosaic.Lib.ValueIdx

noncomputable section

namespace Cert.Proof.RefSide

open Idealize.ShloMosaic Idealize.ShloMosaic.ValueIdx

section RowGather
variable {α : Type}

/-- The dimension numbers of a row gather: offset axis 2, collapsed axis 0, start index map `[0]`, index vector
    axis 2, slices of one row by `D` lanes. -/
abbrev rowDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row gather at `(b, c, k)`: lane `k` of the row the start index at `(b, c, 0)` names, read signed and
    clamped into `[0, N - 1]`. -/
theorem gather_row_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (b : Fin R) (c : Fin C) (k : Fin D) :
    Host.gather (rowDims N D R C wf) x idx (ix3 b c k)
      = x (ix2 ⟨min (idx (ix3 b c (0 : Fin 1))).toInt.toNat (N - 1), by omega⟩ k) := by
  unfold Host.gather
  congr 1
  funext a
  refine Fin.ext ?_
  show (rowDims N D R C wf).start (ix3 b c k) idx a + (rowDims N D R C wf).batchCoord (ix3 b c k) a
      + (rowDims N D R C wf).offCoord (ix3 b c k) a = _
  rw [GatherDims.batchCoord_eq_zero _ _ _ List.not_mem_nil, Nat.add_zero]
  match a with
  | ⟨0, _⟩ =>
    show (rowDims N D R C wf).start (ix3 b c k) idx (0 : Fin 2) + (rowDims N D R C wf).offCoord (ix3 b c k) (0 : Fin 2)
      = min (idx (ix3 b c (0 : Fin 1))).toInt.toNat (N - 1)
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N D R C wf).startIndexMap from List.mem_singleton.mpr rfl)]
    have hsi : (rowDims N D R C wf).siIdx (ix3 b c k) ⟨List.idxOf (0 : Fin 2) (rowDims N D R C wf).startIndexMap,
        List.idxOf_lt_length_iff.2 (List.mem_singleton.mpr rfl)⟩ = ix3 b c (0 : Fin 1) := by
      funext d; refine Fin.ext ?_
      match d with
      | ⟨0, _⟩ => rfl
      | ⟨1, _⟩ => rfl
      | ⟨2, _⟩ => rfl
    rw [hsi]
    rfl
  | ⟨1, _⟩ =>
    have hs : (rowDims N D R C wf).start (ix3 b c k) idx (1 : Fin 2) = 0 := by
      unfold GatherDims.start
      rw [dif_neg (by decide : (1 : Fin 2) ∉ [(0 : Fin 2)])]
    have ho : (rowDims N D R C wf).offCoord (ix3 b c k) (1 : Fin 2) = k.val := by
      unfold GatherDims.offCoord
      rw [dif_pos ((GatherDims.mem_sKept _ _).mpr ⟨(by decide : (1 : Fin 2) ∉ [(0 : Fin 2)]), List.not_mem_nil⟩)]
      rfl
    show (rowDims N D R C wf).start (ix3 b c k) idx (1 : Fin 2) + (rowDims N D R C wf).offCoord (ix3 b c k) (1 : Fin 2) = k.val
    rw [hs, ho, Nat.zero_add]

end RowGather

end Cert.Proof.RefSide

end
-- ==== Proof.RefTake.lean ====
/- The two lookups and their concatenation read at an index, for index words below the table's row count: each
   gathered row is the table row its index word names, the first thirty-two rows of the concatenation the
   neighbours' and the last the node's. -/
import proofs.«210776_g5076651344590_cont_8to1_c_706_2_alg».proof.Proof.RefIdx
import proofs.«210776_g5076651344590_cont_8to1_c_706_2_alg».proof.Proof.RefGather
import proofs.«210776_g5076651344590_cont_8to1_c_706_2_alg».proof.Proof.Spec

noncomputable section

namespace Cert.Proof.RefSide

open Cert.ReferenceIdeal Cert.ReferenceIdeal.Gen Idealize.ShloMosaic Idealize.ShloMosaic.ValueIdx

variable {F : FTy → Type} [FloatOps F]

/-- The node lookup at `(b, c, k)`: lane `k` of the table row the index word at `(b, c)` names. -/
theorem takeNode_apply (x : FVec F S100000x128 .f32) (i : IVec S16384x1 32) (h : ∀ j, (i j).toNat < 100000)
    (b : Fin 16384) (c : Fin 1) (k : Fin 128) :
    takeNode x i (ix3 b c k) = x (ix2 (Cert.Spec.rowOf (i (ix2 b c))) k) := by
  unfold takeNode
  rw [select_apply]
  have hm : broadcastInDim S16384x1x128 ![0, 1] bcast_S16384x1_S16384x1x128_0_1 (maskNode i) (ix3 b c k) = 1#1 := by
    unfold broadcastInDim; exact maskNode_apply i h _
  rw [hm, select_one]
  have hg : gather_S100000x128_S16384x1x1_S16384x1x128_2_0_n_n_0_2_1128
      = rowDims 100000 128 16384 1 gather_S100000x128_S16384x1x1_S16384x1x128_2_0_n_n_0_2_1128_wf := rfl
  rw [hg, gather_row_apply (by decide)]
  refine congrArg x (congrArg (fun r => ix2 r k) (Fin.ext ?_))
  show min (startNode i (ix3 b c (0 : Fin 1))).toInt.toNat 99999 = min (i (ix2 b c)).toNat 99999
  rw [startNode_apply i h, toInt_of_lt (h _), Int.toNat_natCast]

/-- The neighbour lookup at `(b, c, k)`: lane `k` of the table row the index word at `(b, c)` names. -/
theorem takeNbr_apply (x : FVec F S100000x128 .f32) (i : IVec S16384x32 32) (h : ∀ j, (i j).toNat < 100000)
    (b : Fin 16384) (c : Fin 32) (k : Fin 128) :
    takeNbr x i (ix3 b c k) = x (ix2 (Cert.Spec.rowOf (i (ix2 b c))) k) := by
  unfold takeNbr
  rw [select_apply]
  have hm : broadcastInDim S16384x32x128 ![0, 1] bcast_S16384x32_S16384x32x128_0_1 (maskNbr i) (ix3 b c k) = 1#1 := by
    unfold broadcastInDim; exact maskNbr_apply i h _
  rw [hm, select_one]
  have hg : gather_S100000x128_S16384x32x1_S16384x32x128_2_0_n_n_0_2_1128
      = rowDims 100000 128 16384 32 gather_S100000x128_S16384x32x1_S16384x32x128_2_0_n_n_0_2_1128_wf := rfl
  rw [hg, gather_row_apply (by decide)]
  refine congrArg x (congrArg (fun r => ix2 r k) (Fin.ext ?_))
  show min (startNbr i (ix3 b c (0 : Fin 1))).toInt.toNat 99999 = min (i (ix2 b c)).toNat 99999
  rw [startNbr_apply i h, toInt_of_lt (h _), Int.toNat_natCast]

/-- Row `r < 32` of the concatenation is neighbour `r`'s table row. -/
theorem rows_apply_nbr (x : FVec F S100000x128 .f32) (i1 : IVec S16384x1 32) (i2 : IVec S16384x32 32)
    (h2 : ∀ j, (i2 j).toNat < 100000) (b : Fin 16384) (r : Fin 32) (k : Fin 128) :
    rows x i1 i2 (ix3 b (⟨r.val, by omega⟩ : Fin 33) k) = x (ix2 (Cert.Spec.rowOf (i2 (ix2 b r))) k) := by
  unfold rows
  rw [concatenate_pair_apply_left (t := S16384x33x128) (s₁ := S16384x32x128) (s₂ := S16384x1x128) (1 : Fin 3) (takeNbr x i2) (takeNode x i1) _
    (ix3 b (⟨r.val, by omega⟩ : Fin 33) k) rfl (ix3 b r k)
    (fun a => by
      match a with
      | ⟨0, _⟩ => rfl
      | ⟨1, _⟩ => rfl
      | ⟨2, _⟩ => rfl)]
  exact takeNbr_apply x i2 h2 b r k

/-- Row 32 of the concatenation is the node's table row. -/
theorem rows_apply_node (x : FVec F S100000x128 .f32) (i1 : IVec S16384x1 32) (i2 : IVec S16384x32 32)
    (h1 : ∀ j, (i1 j).toNat < 100000) (b : Fin 16384) (k : Fin 128) :
    rows x i1 i2 (ix3 b (32 : Fin 33) k) = x (ix2 (Cert.Spec.rowOf (i1 (ix2 b (0 : Fin 1)))) k) := by
  unfold rows
  rw [concatenate_pair_apply_right (t := S16384x33x128) (s₁ := S16384x32x128) (s₂ := S16384x1x128) (1 : Fin 3) (takeNbr x i2) (takeNode x i1) _
    (ix3 b (32 : Fin 33) k) rfl rfl (ix3 b (0 : Fin 1) k)
    (fun a ha => by
      match a with
      | ⟨0, _⟩ => rfl
      | ⟨1, _⟩ => exact absurd rfl ha
      | ⟨2, _⟩ => rfl)
    rfl]
  exact takeNode_apply x i1 h1 b 0 k

end Cert.Proof.RefSide

end
-- ==== Proof.RefValue.lean ====
/- The reference's value is the specification's `G`: for index words below the table's row count, the composed
   value of the reference's operations, read at each index over the extended reals, is the clipped product of the
   thirty-three-row mean with the weights. -/
import proofs.«210776_g5076651344590_cont_8to1_c_706_2_alg».proof.Proof.RefTake
import Idealize.ShloMosaic.PureOps.Ideal.Laws
import Idealize.ShloMosaic.Lib.StackMember

noncomputable section

open scoped BigOperators

namespace Cert.Proof.RefSide

open Cert.ReferenceIdeal Cert.ReferenceIdeal.Gen Idealize.ShloMosaic Idealize.ShloMosaic.ValueIdx

/-- The divisor's word denotes the real 33. -/
theorem ofBits_33 : Ideal.ofBits .f32 0x42040000#32 = ((33 : ℝ) : EReal) := by
  simp [Ideal.ofBits, Ideal.ieee, -EReal.coe_mul]; norm_num

set_option maxRecDepth 4096 in
/-- The thirty-three rows of the concatenation sum to the aggregate: the neighbours' rows come first and the
    node's last there, the node's first in the aggregate, and addition commutes. -/
theorem sum_rows (a0 : FVec Ideal S100000x128 .f32) (a1 : IVec S16384x1 32) (a2 : IVec S16384x32 32)
    (h1 : ∀ j, (a1 j).toNat < 100000) (h2 : ∀ j, (a2 j).toNat < 100000) (b : Fin 16384) (k : Fin 128) :
    ∑ r : Fin 33, rows a0 a1 a2 (ix3 b r k) = Cert.Spec.agg a0 a1 a2 b k := by
  refine (Fin.sum_univ_castSucc (n := 32) (fun r => rows a0 a1 a2 (ix3 b r k))).trans ?_
  refine (add_comm _ _).trans ?_
  unfold Cert.Spec.agg
  exact congrArg₂ (· + ·) (rows_apply_node a0 a1 a2 h1 b k)
    (Finset.sum_congr rfl fun r _ => rows_apply_nbr a0 a1 a2 h2 b r k)

/-- The mean at `(b, k)` is the aggregate divided by 33. -/
theorem mean_apply (a0 : FVec Ideal S100000x128 .f32) (a1 : IVec S16384x1 32) (a2 : IVec S16384x32 32)
    (h1 : ∀ j, (a1 j).toNat < 100000) (h2 : ∀ j, (a2 j).toNat < 100000) (b : Fin 16384) (k : Fin 128) :
    mean a0 a1 a2 (ix2 b k) = Cert.Spec.agg a0 a1 a2 b k / ((33 : ℝ) : EReal) := by
  have hred : S16384x33x128.Reduces [1] S16384x128 := by decide
  have hl : ∀ r : Fin 33, hred.lift (ix2 b k) r = ix3 b r k := fun r => by
    funext a; refine Fin.ext ?_
    match a with
    | ⟨0, _⟩ => rfl
    | ⟨1, _⟩ => rfl
    | ⟨2, _⟩ => rfl
  show Ideal.div (Ideal.hostReduceAdd reducesTo_S16384x33x128_S16384x128_d1 (rows a0 a1 a2)
      (Ideal.ofBits .f32 0x00000000#32) (ix2 b k)) (Ideal.ofBits .f32 0x42040000#32) = _
  rw [Ideal.hostReduceAdd_single _ hred, Ideal.ofBits_zero_f32, zero_add, ofBits_33, Ideal.div_coe (by norm_num)]
  have hs : ∑ r : Fin 33, rows a0 a1 a2 (hred.lift (ix2 b k) r) = Cert.Spec.agg a0 a1 a2 b k := by
    rw [← sum_rows a0 a1 a2 h1 h2 b k]
    exact Finset.sum_congr rfl fun r _ => by rw [hl r]
  rw [show (∑ r : Fin (S16384x33x128.size 1), rows a0 a1 a2 (hred.lift (ix2 b k) r)) = Cert.Spec.agg a0 a1 a2 b k from hs,
    one_div, EReal.coe_inv, div_eq_mul_inv]

/-- The reference's composed value is `G`. -/
theorem refOut_eq (a0 : FVec Ideal S100000x128 .f32) (a1 : IVec S16384x1 32) (a2 : IVec S16384x32 32)
    (a4 : FVec Ideal S128x128 .f32) (h1 : ∀ j, (a1 j).toNat < 100000) (h2 : ∀ j, (a2 j).toNat < 100000) :
    RefOut a0 a1 a2 a4 = Cert.Spec.G a0 a1 a2 a4 := by
  funext j
  obtain ⟨b, u, rfl⟩ : ∃ (b : Fin 16384) (u : Fin 128), j = ix2 b u := ⟨j 0, j 1, eq_ix2 j⟩
  have hd : dot_S16384x128_S128x128_S16384x128_1_0_0_1_n_n = DotDims.plain 16384 128 128 := rfl
  show max (Host.dotGeneral dot_S16384x128_S128x128_S16384x128_1_0_0_1_n_n none (mean a0 a1 a2) a4 (ix2 b u))
      (Ideal.ofBits .f32 0x00000000#32) = Cert.Spec.G2 a0 a1 a2 a4 b u
  rw [hd, StackMember.dotGeneral_plain_apply, Ideal.ofBits_zero_f32]
  unfold Cert.Spec.G2
  congr 1
  exact Finset.sum_congr rfl fun k _ => by rw [mean_apply a0 a1 a2 h1 h2 b k]

end Cert.Proof.RefSide

end
-- ==== Proof.KIClaims.lean ====
/-
  The claims about the idealized kernel and the idealized reference. The idealized kernel's run leaves its result
  at the matrix-product function of the aggregate array and the weights, which on the extended reals is the
  specification's scaled-last spelling, which on real data is the specification; the reference's run leaves the
  specification. The precondition gives what both need: index words that name table rows, real table and weights.
-/
import proofs.«210776_g5076651344590_cont_8to1_c_706_2_alg».proof.Proof.KILaunch
import proofs.«210776_g5076651344590_cont_8to1_c_706_2_alg».proof.Proof.KIMatmulValue
import proofs.«210776_g5076651344590_cont_8to1_c_706_2_alg».proof.Proof.KISumsValue
import proofs.«210776_g5076651344590_cont_8to1_c_706_2_alg».proof.Proof.Law
import proofs.«210776_g5076651344590_cont_8to1_c_706_2_alg».proof.Proof.PreFacts
import proofs.«210776_g5076651344590_cont_8to1_c_706_2_alg».proof.Proof.RefRun
import proofs.«210776_g5076651344590_cont_8to1_c_706_2_alg».proof.Proof.RefValue
import proofs.«210776_g5076651344590_cont_8to1_c_706_2_alg».proof.Proof.Gen.ReferenceIdeal
import proofs.«210776_g5076651344590_cont_8to1_c_706_2_alg».proof.Proof.Gen.Pre_input_domain
import proofs.«210776_g5076651344590_cont_8to1_c_706_2_alg».proof.Defs

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.Sem

/-- The tile's obligation, taken as given for every launch memory whose index words name table rows. -/
abbrev TileHyp : Prop :=
  ∀ m : (ℓ : Loc Cert.KernelIdeal.nD Cert.KernelIdeal.τ Cert.KernelIdeal.sig) → Buf (Elt Ideal) ℓ, PreOK m →
    (K (F := Ideal)).TileObl (D (F := Ideal)) 𝒱 (P m) v₀ 0

variable (m : (ℓ : Loc nD τ sig) → Buf (Elt Ideal) ℓ)

/-- The precondition says every index word names a table row. -/
theorem preOK (h : Cert.Pre_KernelIdeal m) : PreOK m := fun d =>
  ⟨Cert.Proof.PreFacts.node_lt _ _ _ _ _ _ (h d), Cert.Proof.PreFacts.nbr_lt _ _ _ _ _ _ (h d)⟩

/-- The kernel's result is the specification's scaled-last spelling of the launch arrays. -/
theorem MM_eq_Gk (d : Dev nD) :
    MM (F := Ideal) (SUMSv m d) (m (wtLoc d)) = Cert.Spec.Gk (m (featLoc d)) (m (nodeLoc d)) (m (nbrLoc d)) (m (wtLoc d)) := by
  funext j
  obtain ⟨b, u, rfl⟩ : ∃ (b : Fin 16384) (u : Fin 128), j = ix2 b u := ⟨j 0, j 1, eq_ix2 j⟩
  rw [MM_apply, Cert.Proof.Sums.Gk_eq_sums _ _ _ _ shapeCasts_S16384x1_S16384 shapeCasts_S16384x32_S524288]
  rfl

/-- On the precondition's data it is the specification. -/
theorem MM_eq_G (h : Cert.Pre_KernelIdeal m) (d : Dev nD) :
    MM (F := Ideal) (SUMSv m d) (m (wtLoc d)) = Cert.Spec.G (m (featLoc d)) (m (nodeLoc d)) (m (nbrLoc d)) (m (wtLoc d)) := by
  rw [MM_eq_Gk, Cert.Spec.Gk_eq_G _ _ _ _ (Cert.Proof.PreFacts.feat_fin _ _ _ _ _ _ (h d)) (Cert.Proof.PreFacts.wt_fin _ _ _ _ _ _ (h d))]

/-! ## The claims -/

theorem frame_KI (htileI : TileHyp) : Cert.frame_KernelIdeal := fun m g hpre =>
  (θ_run Cert.KernelIdeal.defs _ _).mono (fun _ h c => (h c).2)
    (run_main (F := Ideal) m g (preOK m hpre) (htileI m (preOK m hpre)))

theorem frame_RI : Cert.frame_ReferenceIdeal := fun m g _ =>
  (θ_run Cert.ReferenceIdeal.defs _ _).mono (fun _ h c => (h c).2) (Cert.Proof.RefSide.run (F := Ideal) m g)

/-- The ledger's one entry: the certificate's table gives "inv_33" the value 1/33, and the printed constant is that
    value on the extended reals. -/
theorem preserves : Cert.preserves_Kernel_KernelIdeal :=
  IdealRules.named_const.statement Cert.KernelIdeal.κ "inv_33" .f32 0x3CF83E10#32 ((1 / 33 : ℝ) : EReal) rfl

theorem algebraic (htileI : TileHyp) : Cert.algebraic_KernelIdeal_ReferenceIdeal := by
  intro m g m' g' hpre hagree
  have hok := preOK m hpre
  refine ⟨fun c => Cert.Spec.G (m (featLoc c)) (m (nodeLoc c)) (m (nbrLoc c)) (m (wtLoc c)), fun c => m (rawLoc c), ?_, ?_⟩
  · refine (θ_run Cert.KernelIdeal.defs _ _).mono (fun _ h c => ⟨(h c).1.trans (MM_eq_G m hpre c), (h c).2.2.2.2.1, (h c).2⟩)
      (run_main (F := Ideal) m g hok (htileI m hok))
  · refine (θ_run Cert.ReferenceIdeal.defs _ _).mono (fun _ h c => ⟨?_, ?_, (h c).2⟩) (Cert.Proof.RefSide.run (F := Ideal) m' g')
    · rw [(h c).1, (hagree c).1, (hagree c).2.1, (hagree c).2.2.1, (hagree c).2.2.2.2.1]
      exact Cert.Proof.RefSide.refOut_eq _ _ _ _ (hok c).1 (hok c).2
    · rw [(h c).2.2.2.2.1, (hagree c).2.2.2.1]

end Cert.Proof.KI

end
-- ==== Proof.KBSetup.lean ====
/-
  What every part of the idealized kernel's run shares: the program as the SparseCore launch theorem reads it
  (one vector-subcore call on 2 x 16 tiles, and one TensorCore pipeline after it), the resource algebra — the
  launch handshakes' rounds, the TensorCore pipeline's staging cells' rounds, the local transfers' counters — and
  the arrays' locations on a device.
-/
import proofs.«210776_g5076651344590_cont_8to1_c_706_2_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«210776_g5076651344590_cont_8to1_c_706_2_alg».proof.Proof.Gen.Kernel
import proofs.«210776_g5076651344590_cont_8to1_c_706_2_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' label signature, lifted through the one TensorCore pipeline. -/
abbrev ΛP : Labels := Pipeline.Sig Λ₀ (Fin 1) fun p => (pcfgs (F := F) p).Adm
/-- The one SparseCore call. -/
abbrev K : SparseCore.Cfg τ sig (ΛP (F := F)) 1 := sc (F := F)
theorem nCore_zero : (K (F := F)).nCore 0 = 2 := rfl
theorem nSub_zero : (K (F := F)).nSub 0 = 16 := rfl
/-- The kernels' body table, lifted through the pipeline. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

local notation "𝕄" => MT nD τ sig (HIx 1) (Elt F) ℕ UU ℕ

/-- The handshakes' rounds: the left factor. -/
abbrev EH : Emb UH (MT nD τ sig (HIx 1) (Elt F) ℕ UU ℕ) := embL
/-- The TensorCore pipeline's staging cells' rounds: the left half of the right factor. The local transfers'
    counters are found by instance in the right half. -/
def EP : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb
instance EP_landsIn : (EP : Emb UK 𝕄).LandsIn (upEmb : UEmb _ 𝕄) := by unfold EP; infer_instance

/-! ## The arrays on a device -/

/-- The table, the two index arrays as given, the weights; the flattened index arrays, the aggregate and the result. -/
abbrev featLoc (d : Dev nD) : Loc nD τ sig := (SparseCore.T d).loc main_arg0
abbrev nodeLoc (d : Dev nD) : Loc nD τ sig := (SparseCore.T d).loc main_arg1
abbrev nbrLoc (d : Dev nD) : Loc nD τ sig := (SparseCore.T d).loc main_arg2
abbrev rawLoc (d : Dev nD) : Loc nD τ sig := (SparseCore.T d).loc main_arg3
abbrev wtLoc (d : Dev nD) : Loc nD τ sig := (SparseCore.T d).loc main_arg4
abbrev iLoc (d : Dev nD) : Loc nD τ sig := (SparseCore.T d).loc main_arg5
abbrev nbrFlatLoc (d : Dev nD) : Loc nD τ sig := (SparseCore.T d).loc main_v0
abbrev nodeFlatLoc (d : Dev nD) : Loc nD τ sig := (SparseCore.T d).loc main_v1
abbrev sumsLoc (d : Dev nD) : Loc nD τ sig := (SparseCore.T d).loc main_v2
abbrev outLoc (d : Dev nD) : Loc nD τ sig := (SparseCore.T d).loc main_v3

end Cert.Proof.KB

end
-- ==== Proof.KBTile.lean ====
/-
  One tile's geometry.  Tile `(c, s)` of the 2 x 16 grid works on batch rows `1024 s + 512 c … + 511`: it reads its
  16384 words of the flattened neighbour list and its 512 words of the flattened node list, and writes its 512 result
  rows as four chunks of 128 rows.  The slices are spelt exactly as the printed body slices them.
-/
import proofs.«210776_g5076651344590_cont_8to1_c_706_2_alg».proof.Proof.KBSetup

noncomputable section

namespace Cert.Proof.KB

open Cert.Kernel Cert.Kernel.Gen

open Idealize.ShloMosaic
open Idealize.ShloMosaic.SparseCore (S V T)

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The SparseCore and the vector subcore a grid point runs on. -/
abbrev cV (L : grid0.Coords) : Fin τ.nSC := (L 0).castLE hcore0
abbrev jV (L : grid0.Coords) : Fin τ.nSub := (L 1).castLE hsub0

/-- The tile's words of the flattened neighbour list and of the flattened node list, in HBM. -/
abbrev nfSl (L : grid0.Coords) : Memref sig .scVector .hbm S16384 .i32 :=
  (Memref.whole main_v0_scv : Memref sig .scVector .hbm S524288 .i32).slice (Rect.unit (s := S524288) (k0_off1 L) S16384.size (k0_off1_inb L)) (fun _ => rfl)
abbrev ndSl (L : grid0.Coords) : Memref sig .scVector .hbm S512 .i32 :=
  (Memref.whole main_v1_scv : Memref sig .scVector .hbm S16384 .i32).slice (Rect.unit (s := S16384) (k0_off2 L) S512.size (k0_off2_inb L)) (fun _ => rfl)

/-- Chunk `k` (of four) of the tile's result rows, in HBM: rows `1024 s + 512 c + 128 k … + 127`. -/
abbrev outK (L : grid0.Coords) (k : Fin k0_t1_loop.trips) : Memref sig .scVector .hbm S128x128 .f32 :=
  (Memref.whole main_v2_scv : Memref sig .scVector .hbm S16384x128 .f32).slice (Rect.unit (s := S16384x128) (k0_off80 L k) S128x128.size (k0_off80_inb L k)) (fun _ => rfl)
/-- Its elements. -/
abbrev chunkSet (L : grid0.Coords) (k : Fin k0_t1_loop.trips) : Finset S16384x128.Idx := (outK L k).view.set

theorem trips1 : k0_t1_loop.trips = 4 := by decide

end Cert.Proof.KB

end
-- ==== Proof.KBShares.lean ====
/-
  How the launch divides the arrays among the thirty-two tiles, and puts them back.

  Read-only arrays are held whole by every tile, each at a share.  A share q is its two halves; halving n times, taking
  at each step the left half on an even number and the right half on an odd one and passing to the number's half,
  names 2^n shares by the numbers below 2^n, and a points-to at q is the points-tos at those shares, all at once
  (induction on n: the numbers below 2^(n+1) are 2a and 2a + 1 for a below 2^n).  Tile (c, i) takes share number
  i + 16 c of the thirty-two.

  The aggregate array is written: its 16384 rows are 128 parts of 128 rows, pairwise disjoint and covering the array.
  Tile (c, i) writes, as its chunk k, rows 1024 i + 512 c + 128 k onward: part number 8 i + 4 c + k; and
  (c, i, k) ↦ 8 i + 4 c + k is a bijection onto the numbers below 128.
-/
import proofs.«210776_g5076651344590_cont_8to1_c_706_2_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Shares: a share halved n times -/

/-- Share number j of the 2^n that n halvings of q give: the lowest binary digit of j chooses the half of q
    (0 the left, 1 the right), the remaining digits the share within that half. -/
def subShare : ℕ → PosShare TreeShare → ℕ → PosShare TreeShare
  | 0, q, _ => q
  | n + 1, q, j => subShare n (if j % 2 = 0 then q.left else q.right) (j / 2)

/-- The numbers below 2^(n+1) are b + 2a, for a below 2^n and b below 2. -/
def digitEquiv (n : ℕ) : Fin (2 ^ n) × Fin 2 ≃ Fin (2 ^ (n + 1)) := finProdFinEquiv.trans (finCongr (pow_succ 2 n).symm)

theorem digitEquiv_val (n : ℕ) (a : Fin (2 ^ n)) (b : Fin 2) : (digitEquiv n (a, b)).val = b.val + 2 * a.val := rfl

/-- A points-to at a share is the points-tos at its 2^n sub-shares, at once. -/
theorem pointsTo_subShares {ℓ : Loc nD τ sig} (I : Finset (Idx ℓ)) (f : Buf (Elt F) ℓ) (n : ℕ) :
    ∀ q : PosShare TreeShare,
      (ℓ ↦[I]{q} f : sProp 𝕄) = bigSep Finset.univ fun j : Fin (2 ^ n) => ℓ ↦[I]{subShare n q j.val} f := by
  induction n with
  | zero =>
    intro q
    haveI : Subsingleton (Fin (2 ^ 0)) := ⟨fun a b => Fin.ext (by have := a.isLt; have := b.isLt; omega)⟩
    exact (bigSep_univ_of_subsingleton (⟨0, by norm_num⟩ : Fin (2 ^ 0))
      (Φ := fun j : Fin (2 ^ 0) => (ℓ ↦[I]{subShare 0 q j.val} f : sProp 𝕄))).symm
  | succ n ih =>
    intro q
    have hq : (ℓ ↦[I]{q} f : sProp 𝕄) ⊣⊢ iprop((ℓ ↦[I]{q.left} f) ∗ ℓ ↦[I]{q.right} f) :=
      pointsTo_share (PosShare.mem_left_op_right q)
    rw [BI.equiv_iff.mp ⟨hq.1, hq.2⟩, ih q.left, ih q.right, ← bigSep_sep',
      bigSep_univ_equiv (digitEquiv n) (fun j : Fin (2 ^ (n + 1)) => (ℓ ↦[I]{subShare (n + 1) q j.val} f : sProp 𝕄)),
      bigSep_univ_prod]
    refine bigSep_congr fun a _ => ?_
    rw [bigSep_univ_two]
    have e0 : subShare (n + 1) q (digitEquiv n (a, 0)).val = subShare n q.left a.val := by
      rw [digitEquiv_val, subShare]
      have h1 : ((0 : Fin 2).val + 2 * a.val) % 2 = 0 := by show (0 + 2 * a.val) % 2 = 0; omega
      have h2 : ((0 : Fin 2).val + 2 * a.val) / 2 = a.val := by show (0 + 2 * a.val) / 2 = a.val; omega
      rw [if_pos h1, h2]
    have e1 : subShare (n + 1) q (digitEquiv n (a, 1)).val = subShare n q.right a.val := by
      rw [digitEquiv_val, subShare]
      have h1 : ¬ ((1 : Fin 2).val + 2 * a.val) % 2 = 0 := by show ¬ (1 + 2 * a.val) % 2 = 0; omega
      have h2 : ((1 : Fin 2).val + 2 * a.val) / 2 = a.val := by show (1 + 2 * a.val) / 2 = a.val; omega
      rw [if_neg h1, h2]
    rw [e0, e1]

/-- The thirty-two tiles as the numbers below 2^5: tile (c, i) is number i + 16 c. -/
def tileEquiv : Fin 2 × Fin 16 ≃ Fin (2 ^ 5) := finProdFinEquiv.trans (finCongr (by norm_num))

/-- Tile (c, i)'s share of a read-only array: one of the thirty-two that five halvings of the full share give. -/
def tileShare (c : Fin 2) (i : Fin 16) : PosShare TreeShare := subShare 5 fullShare (tileEquiv (c, i)).val

/-- A points-to at the full share is the thirty-two tiles' points-tos, at once. -/
theorem pts_tileShares {ℓ : Loc nD τ sig} (f : Buf (Elt F) ℓ) :
    (ℓ ↦{fullShare} f : sProp 𝕄)
      = bigSep Finset.univ fun c : Fin 2 => bigSep Finset.univ fun i : Fin 16 => ℓ ↦{tileShare c i} f := by
  rw [pointsTo_subShares Finset.univ f 5 fullShare,
    bigSep_univ_equiv tileEquiv (fun j : Fin (2 ^ 5) => (ℓ ↦{subShare 5 fullShare j.val} f : sProp 𝕄)), bigSep_univ_prod]
  rfl

/-! ## The aggregate array: 128 parts of 128 rows -/

local notation "sumsV" => (Memref.whole Cert.Kernel.main_v2_scv : Memref Cert.Kernel.sig Kind.scVector Space.hbm Cert.Kernel.S16384x128 EltTy.f32)

theorem div128 : 128 ∣ S16384x128.size 0 := ⟨128, rfl⟩
/-- Part j of the aggregate array: rows 128 j … 128 j + 127. -/
abbrev rowPart (j : Fin 128) : Rect S16384x128 := Rect.part (s := S16384x128) (a₀ := 0) div128 j
/-- Its elements, through the tiles' name for the array. -/
abbrev partSet (j : Fin 128) : Finset S16384x128.Idx := ((sumsV).view.slice (rowPart j)).set

theorem partSet_eq (j : Fin 128) : partSet j = (rowPart j).set := by
  show ((View.whole (main_v2_scv : Ref sig .scVector)).slice (rowPart j)).set = _
  rw [View.set_slice]; exact Finset.map_refl

theorem parts_disjoint : ∀ i ∈ (Finset.univ : Finset (Fin 128)), ∀ j ∈ (Finset.univ : Finset (Fin 128)), i ≠ j → Disjoint (partSet i) (partSet j) :=
  fun i _ j _ h => by rw [partSet_eq, partSet_eq]; exact Rect.part_disjoint div128 h

theorem parts_cover : (Finset.univ : Finset (Fin 128)).biUnion partSet = Finset.univ :=
  (Finset.biUnion_congr rfl fun j _ => partSet_eq j).trans (Rect.biUnion_part div128)

/-- The aggregate array at the full share is its 128 parts, at once. -/
theorem pts_parts (d : Dev nD) (f : Buf (Elt F) (sumsLoc d)) :
    (sumsLoc d ↦{fullShare} f : sProp 𝕄) = bigSep Finset.univ fun j : Fin 128 => sumsLoc d ↦[partSet j]{fullShare} f := by
  rw [← pointsTo_biUnion Finset.univ (ℓ := sumsLoc d) partSet parts_disjoint, parts_cover]; try rfl

theorem chunk_lt (k : Fin k0_t1_loop.trips) : k.val < 4 := lt_of_lt_of_eq k.isLt trips1

/-- The part that tile (c, i) writes as its chunk k. -/
def chunkNo (c : Fin 2) (i : Fin 16) (k : Fin k0_t1_loop.trips) : Fin 128 :=
  ⟨8 * i.val + 4 * c.val + k.val, by have hk := chunk_lt k; omega⟩

/-- Tiles' chunks and parts correspond one to one. -/
def chunkEquiv : Fin 2 × (Fin 16 × Fin k0_t1_loop.trips) ≃ Fin 128 where
  toFun p := chunkNo p.1 p.2.1 p.2.2
  invFun j := (⟨(j.val / 4) % 2, by omega⟩, ⟨j.val / 8, by omega⟩, ⟨j.val % 4, by rw [trips1]; omega⟩)
  left_inv := fun ⟨c, i, k⟩ => by
    have hk := chunk_lt k
    refine Prod.ext (Fin.ext ?_) (Prod.ext (Fin.ext ?_) (Fin.ext ?_))
    · show ((8 * i.val + 4 * c.val + k.val) / 4) % 2 = c.val; omega
    · show (8 * i.val + 4 * c.val + k.val) / 8 = i.val; omega
    · show (8 * i.val + 4 * c.val + k.val) % 4 = k.val; omega
  right_inv := fun j => Fin.ext (by
    show 8 * (j.val / 8) + 4 * ((j.val / 4) % 2) + j.val % 4 = j.val; omega)

/-- The rectangle of tile (c, i)'s chunk k, as the tile slices it, is part 8 i + 4 c + k. -/
theorem chunkRect_eq (c : Fin 2) (i : Fin 16) (k : Fin k0_t1_loop.trips) :
    Rect.unit (s := S16384x128) (k0_off80 (coordsV c i) k) S128x128.size (k0_off80_inb (coordsV c i) k)
      = rowPart (chunkNo c i k) := by
  unfold rowPart Rect.part Rect.block
  congr 1 <;> funext a
  · rw [k0_off80_eq]
    match a with
    | 0 =>
      show 1024 * i.val + 512 * c.val + 128 * k.val = (8 * i.val + 4 * c.val + k.val) * (16384 / 128)
      omega
    | 1 => rfl
  · match a with
    | 0 => rfl
    | 1 => rfl

theorem chunkSet_eq (c : Fin 2) (i : Fin 16) (k : Fin k0_t1_loop.trips) :
    chunkSet (coordsV c i) k = partSet (chunkNo c i k) := by
  show ((sumsV).view.slice (Rect.unit (s := S16384x128) (k0_off80 (coordsV c i) k) S128x128.size (k0_off80_inb (coordsV c i) k))).set
    = ((sumsV).view.slice (rowPart (chunkNo c i k))).set
  rw [chunkRect_eq]

/-- The aggregate array at the full share is the tiles' chunks, at once: four for each of the thirty-two tiles. -/
theorem pts_chunks (d : Dev nD) (f : Buf (Elt F) (sumsLoc d)) :
    (sumsLoc d ↦{fullShare} f : sProp 𝕄)
      = bigSep Finset.univ fun c : Fin 2 => bigSep Finset.univ fun i : Fin 16 =>
          bigSep Finset.univ fun k : Fin k0_t1_loop.trips => sumsLoc d ↦[chunkSet (coordsV c i) k]{fullShare} f := by
  rw [pts_parts, bigSep_univ_equiv chunkEquiv (fun j : Fin 128 => (sumsLoc d ↦[partSet j]{fullShare} f : sProp 𝕄)), bigSep_univ_prod]
  refine bigSep_congr fun c _ => ?_
  rw [bigSep_univ_prod]
  refine bigSep_congr fun i _ => bigSep_congr fun k _ => ?_
  rw [chunkSet_eq]
  rfl

/-! ## The tiles' names for the arrays -/

/-- A tile's chunk of the aggregate array, named through the tile, is that element set of the device's array. -/
theorem pts_chunk_loc (d : Dev nD) (L : grid0.Coords) (k : Fin k0_t1_loop.trips) (f : Buf (Elt F) (sumsLoc d)) :
    ((outK L k).view.loc (V d (cV L) (jV L)) ↦[(outK L k).view.set]{fullShare} f : sProp 𝕄)
      = sumsLoc d ↦[chunkSet L k]{fullShare} f := rfl

local notation "featV" => (Memref.whole Cert.Kernel.main_arg0_scv : Memref Cert.Kernel.sig Kind.scVector Space.hbm Cert.Kernel.S100000x128 EltTy.f32)
local notation "nbrV" => (Memref.whole Cert.Kernel.main_v0_scv : Memref Cert.Kernel.sig Kind.scVector Space.hbm Cert.Kernel.S524288 EltTy.i32)
local notation "nodeV" => (Memref.whole Cert.Kernel.main_v1_scv : Memref Cert.Kernel.sig Kind.scVector Space.hbm Cert.Kernel.S16384 EltTy.i32)

/-- The table, whole, named through a tile, is the device's table. -/
theorem pts_featV (d : Dev nD) (c : Fin τ.nSC) (i : Fin τ.nSub) (q : PosShare TreeShare) (f : Buf (Elt F) (featLoc d)) :
    ((featV).view.loc (V d c i) ↦{q} f : sProp 𝕄) = featLoc d ↦{q} f := rfl
/-- The flattened neighbour list, whole, named through a tile, is the device's. -/
theorem pts_nbrV (d : Dev nD) (c : Fin τ.nSC) (i : Fin τ.nSub) (q : PosShare TreeShare) (f : Buf (Elt F) (nbrFlatLoc d)) :
    ((nbrV).view.loc (V d c i) ↦{q} f : sProp 𝕄) = nbrFlatLoc d ↦{q} f := rfl
/-- The flattened node list, whole, named through a tile, is the device's. -/
theorem pts_nodeV (d : Dev nD) (c : Fin τ.nSC) (i : Fin τ.nSub) (q : PosShare TreeShare) (f : Buf (Elt F) (nodeFlatLoc d)) :
    ((nodeV).view.loc (V d c i) ↦{q} f : sProp 𝕄) = nodeFlatLoc d ↦{q} f := rfl

end Cert.Proof.KB

end
-- ==== Proof.KBPay.lean ====
/-
  What the SparseCore call's handshakes carry.  The call takes, for each of the 32 tiles, a read share of the table and
  of the two flattened index lists and the tile's four chunks of the aggregate array; it brings them back with the chunks
  holding the aggregate.  The arrays' contents: the table as launched; the index lists flattened row-major from the
  launched `node` and `neighbours`; the aggregate as `Sums.sums` computes it.
-/
import proofs.«210776_g5076651344590_cont_8to1_c_706_2_alg».proof.Proof.KBShares
import proofs.«210776_g5076651344590_cont_8to1_c_706_2_alg».proof.Proof.KISums

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-- The flattened node list and neighbour list, as @main's two reshapes leave them. -/
def NDv (d : Dev nD) : Buf (Elt F) (nodeFlatLoc d) := shapeCast S16384 (m (nodeLoc d)) shapeCasts_S16384x1_S16384
def NFv (d : Dev nD) : Buf (Elt F) (nbrFlatLoc d) := shapeCast S524288 (m (nbrLoc d)) shapeCasts_S16384x32_S524288

variable [FloatOps F]

/-- The aggregate array the SparseCore call leaves. -/
def SUMSv (d : Dev nD) : Buf (Elt F) (sumsLoc d) := Cert.Proof.Sums.sums (m (featLoc d)) (NDv m d) (NFv m d)

/-- One tile's holdings, its chunks of the aggregate array at contents `fs`. -/
def tileRes (d : Dev nD) (c : Fin 2) (i : Fin 16) (fs : Buf (Elt F) (sumsLoc d)) : sProp 𝕄 :=
  iprop((featLoc d ↦{tileShare c i} m (featLoc d)) ∗ (nbrFlatLoc d ↦{tileShare c i} NFv m d) ∗ (nodeFlatLoc d ↦{tileShare c i} NDv m d)
    ∗ bigSep Finset.univ fun k : Fin k0_t1_loop.trips => sumsLoc d ↦[chunkSet (coordsV c i) k]{fullShare} fs)

/-- The certificate's payloads: SparseCore `c` takes its sixteen tiles' holdings and brings them back. -/
def P : (K (F := F)).Pay (nD := nD) (Val := Elt F) (Name := ℕ) (U := UU) where
  st := fun q d c => match q with | 0 => bigSep Finset.univ fun i : Fin 16 => tileRes m d (Fin.cast nCore_zero c) i (m (sumsLoc d))
  dn := fun q d c => match q with | 0 => bigSep Finset.univ fun i : Fin 16 => tileRes m d (Fin.cast nCore_zero c) i (SUMSv m d)
  go := fun q d c i => match q with | 0 => tileRes m d (Fin.cast nCore_zero c) (Fin.cast nSub_zero i) (m (sumsLoc d))
  td := fun q d c i => match q with | 0 => tileRes m d (Fin.cast nCore_zero c) (Fin.cast nSub_zero i) (SUMSv m d)
  x := fun _ _ => iprop(emp)

instance tileRes_storable (d : Dev nD) (c : Fin 2) (i : Fin 16) (fs : Buf (Elt F) (sumsLoc d)) :
    BI.Storable (upEmb : UEmb _ 𝕄) (tileRes m d c i fs) := by
  unfold tileRes; infer_instance

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- What the run asks of the launch memory: every word of the two index arrays names a table row. -/
def PreOK : Prop := ∀ d : Dev nD, (∀ z, (m (nodeLoc d) z).toNat < 100000) ∧ (∀ z, (m (nbrLoc d) z).toNat < 100000)

end Cert.Proof.KB

end
-- ==== Proof.KBMatmulBody.lean ====
/-
  The matrix-product kernel's body on whole staging buffers: from the two operand buffers at read contents and the
  result buffer at anything, it runs to its return leaving the operands as they were and the result buffer at one
  closed function of the two operand blocks — the single covering store's payload laid over the buffer.
-/
import proofs.«210776_g5076651344590_cont_8to1_c_706_2_alg».proof.Proof.KBSetup
import proofs.«210776_g5076651344590_cont_8to1_c_706_2_alg».proof.Proof.Gen.Kernel.Launch
import proofs.«210776_g5076651344590_cont_8to1_c_706_2_alg».proof.Proof.Gen.Kernel.Points
import Idealize.ShloMosaic.Lib.Pipeline.FrameBody
import Idealize.ShloMosaic.Lib.Tactic

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The whole of a 2048 x 128 buffer, and of a 128 x 128 one, as the body's loads and its store address them. -/
abbrev rBlk : Rect S2048x128 := Rect.unit (s := S2048x128) ![0, 0] S2048x128.size inb_S2048x128_S2048x128_0_0
abbrev rWt : Rect S128x128 := Rect.unit (s := S128x128) ![0, 0] S128x128.size inb_S128x128_S128x128_0_0

/-- What the body leaves in the result's staging buffer, from the two operand blocks: its one store as a piece. -/
def outBlk (x0 : Vec F S2048x128 .f32) (x1 : Vec F S128x128 .f32) : Vec F S2048x128 .f32 :=
  View.canon [⟨rBlk, k1_pay1 (View.ld x0 rBlk) (View.ld x1 rWt)⟩]

/-- The one store fills the buffer. -/
theorem cover_out (p0 : Vec F S2048x128 .f32) (y : S2048x128.Idx) :
    ∃ pc ∈ ([⟨rBlk, p0⟩] : List (View.Piece (Elt F) S2048x128 .f32)), y ∈ pc.1.set :=
  View.cover_of_tiled [⟨rBlk, p0⟩] S2048x128.size (by rfl) y

set_option maxHeartbeats 1000000 in
/-- The body on whole staging memrefs. -/
theorem sound_kernel (c : Dev nD) (E : Set ℕ) (i : grid1.Coords) (arg1 : Memref sig .tc .vmem S2048x128 .f32) (harg1 : arg1.IsWhole)
    (arg2 : Memref sig .tc .vmem S128x128 .f32) (harg2 : arg2.IsWhole) (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ K ⟨⟩))
      ⊢ wp frame (wpE (defs₀ (F := F)) Variants.none c none) E (cc1__mm_body i arg1 harg1 arg2 harg2 arg3 harg3) K := by
  simp only [cc1__mm_body_eq_skeleton]; unfold cc1__mm_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.Proof.KB

end
-- ==== Proof.KBMatmulDat.lean ====
/-
  The matrix-product pipeline's proof data on one device: the three arrays at their entry contents (the aggregates,
  the weights, the result's array at anything); after the body at grid point t the two operand buffers at their
  blocks and the result's buffer at the body's closed function of them; nothing owed to another thread; the pairs the
  thread's waits have recorded kept at or below the first call's band of levels. And the body obligation at every
  point of the grid.
-/
import proofs.«210776_g5076651344590_cont_8to1_c_706_2_alg».proof.Proof.KBMatmulBody

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (X : FVec F S16384x128 .f32) (Wt : FVec F S128x128 .f32) (f₀ : FVec F S16384x128 .f32)

/-- The aggregates' block at point t, and the weights' (the whole array at every point). -/
def xBlk (t : Fin cfg1.N) : Vec F S2048x128 .f32 := ((cfg1.win 0).blk t).view.read (Elt F) X
def wBlk (t : Fin cfg1.N) : Vec F S128x128 .f32 := ((cfg1.win 1).blk t).view.read (Elt F) Wt

/-- The (own semaphore, index) pairs at or below the first call's band of levels. -/
def recBelow (d : Dev nD) : Set (SemLoc sig × HIx 1) := {p | (K (F := F)).lev ((T d : Thread nD τ), p.1) p.2 ≤ 8}

/-- The proof data. -/
def mmDat (d : Dev nD) : Dat τ (Elt F) (HIx 1) ℕ UU ℕ cfg1 d where
  A w := match w with
    | ⟨0, _⟩ => X
    | ⟨1, _⟩ => Wt
    | ⟨2, _⟩ => f₀
  after w t := match w with
    | ⟨0, _⟩ => xBlk X t
    | ⟨1, _⟩ => wBlk Wt t
    | ⟨2, _⟩ => outBlk (xBlk X t) (wBlk Wt t)
  Φ _ := Pipeline.scopedRest (Ix := HIx 1) (Name := ℕ) (U := UU) (Lvl := ℕ) (Val := Elt F) spec1 d
  q _ := fullShare
  owed _ := 0
  recorded _ := recBelow (F := F) d

theorem A_0 (d : Dev nD) : (mmDat X Wt f₀ d).A 0 = X := by dsimp only [mmDat]
theorem A_1 (d : Dev nD) : (mmDat X Wt f₀ d).A 1 = Wt := by dsimp only [mmDat]
theorem A_2 (d : Dev nD) : (mmDat X Wt f₀ d).A 2 = f₀ := by dsimp only [mmDat]
theorem after_0 (d : Dev nD) (t : Fin cfg1.N) : (mmDat X Wt f₀ d).after 0 t = xBlk X t := by dsimp only [mmDat]
theorem after_1 (d : Dev nD) (t : Fin cfg1.N) : (mmDat X Wt f₀ d).after 1 t = wBlk Wt t := by dsimp only [mmDat]
theorem after_2 (d : Dev nD) (t : Fin cfg1.N) : (mmDat X Wt f₀ d).after 2 t = outBlk (xBlk X t) (wBlk Wt t) := by dsimp only [mmDat]

/-- Each operand's current staging buffer holds its block at every point, fetched there or not. -/
theorem before_0 (d : Dev nD) (t : Fin cfg1.N) (e) : (mmDat X Wt f₀ d).before 0 t e = xBlk X t :=
  ((mmDat X Wt f₀ d).before_in_eq_fetched 0 rfl (fun _ => rfl) (fun _ _ _ => rfl)
    (fun t => by rw [after_0]; unfold Dat.blockOf xBlk; rw [A_0]; try rfl) t e).trans
    (by unfold Dat.fetched Dat.blockOf xBlk; rw [A_0]; try rfl)
theorem before_1 (d : Dev nD) (t : Fin cfg1.N) (e) : (mmDat X Wt f₀ d).before 1 t e = wBlk Wt t :=
  ((mmDat X Wt f₀ d).before_in_eq_fetched 1 rfl (fun _ => rfl) (fun _ _ _ => rfl)
    (fun t => by rw [after_1]; unfold Dat.blockOf wBlk; rw [A_1]; try rfl) t e).trans
    (by unfold Dat.fetched Dat.blockOf wBlk; rw [A_1]; try rfl)

/-- The body at any point. -/
theorem sound_body (d : Dev nD) (t : Fin cfg1.N) :
    iprop((mmDat X Wt f₀ d).Φ t.castSucc ∗ (mmDat X Wt f₀ d).owesAt none t.castSucc
        ∗ (∃ e, owns (d : Thread nD τ) (st1_0 t) fullShare ((mmDat X Wt f₀ d).before 0 t e))
        ∗ (∃ e, owns (d : Thread nD τ) (st1_1 t) fullShare ((mmDat X Wt f₀ d).before 1 t e))
        ∗ (∃ e, owns (d : Thread nD τ) (st1_2 t) fullShare ((mmDat X Wt f₀ d).before 2 t e)))
      ⊢ wp frame (wpE (defs₀ (F := F)) Variants.none d none) Set.univ (bodyAt1 t) (fun _ =>
        iprop((mmDat X Wt f₀ d).Φ t.succ ∗ (mmDat X Wt f₀ d).owesAt none t.succ
          ∗ owns (d : Thread nD τ) (st1_0 t) fullShare ((mmDat X Wt f₀ d).after 0 t)
          ∗ owns (d : Thread nD τ) (st1_1 t) fullShare ((mmDat X Wt f₀ d).after 1 t)
          ∗ owns (d : Thread nD τ) (st1_2 t) fullShare ((mmDat X Wt f₀ d).after 2 t))) := by
  unfold bodyAt1
  simp only [before_0, before_1]
  rw [show (mmDat X Wt f₀ d).Φ t.succ = (mmDat X Wt f₀ d).Φ t.castSucc from rfl,
    show (mmDat X Wt f₀ d).owesAt none t.succ = (mmDat X Wt f₀ d).owesAt none t.castSucc from rfl,
    after_0, after_1, after_2]
  iintro ⟨HΦ, Ho, ⟨%d0, H0⟩, ⟨%d1, H1⟩, ⟨%d2, H2⟩⟩
  iapply (sound_kernel d Set.univ _ _ _ _ _ _ _ (xBlk X t) (wBlk Wt t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (d : Dev nD) : BodyObligation (mmDat X Wt f₀ d) (defs₀ (F := F)) Variants.none none Set.univ := fun t => by
  rw [bigSep_W1, bigSep_W1]
  exact sound_body X Wt f₀ d t

end Cert.Proof.KB

end
-- ==== Proof.KBMatmulIdx.lean ====
/-
  The result array of the matrix-product pipeline as ONE function of the aggregates and the weights: rows
  2048·t … 2048·t + 2047 are the body's payload of the aggregates' row-block t and the weights. The windows'
  index maps in closed form (block t of the aggregates and of the result, the whole of the weights), where a
  block's element sits in its array, and that the eight result blocks tile the array — so the array after the
  run is that function.
-/
import proofs.«210776_g5076651344590_cont_8to1_c_706_2_alg».proof.Proof.KBMatmulDat
import Idealize.ShloMosaic.Lib.Pipeline.Value
import Idealize.ShloMosaic.Lib.ValueIdxCoords

set_option maxRecDepth 16384

noncomputable section

namespace Cert.Proof.KB

open Cert.Kernel Cert.Kernel.Gen

open Idealize.ShloMosaic Idealize.ShloMosaic.ValueIdx
open Idealize.ShloMosaic.TcCoe
open Idealize.ShloMosaic.SparseCore (T)
open Idealize.ShloMosaic.SparseCore.Cfg (HIx)
open Idealize.SL Idealize.SL.Sem
open Idealize.ShloMosaic.Pipeline (Dat Cfg Window)

variable {F : FTy → Type} [FloatOps F]

/-! ## The index maps, in closed form -/

/-- Decided over the eight points: the aggregates' and the result's block index is the point, the weights' is zero. -/
theorem blockIndex_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

theorem lt_N (t : Fin cfg1.N) : t.val < 8 := by have := t.isLt; have h : cfg1.N = 8 := N_1; omega

/-- Where element j of the aggregates' block t sits in the array; -/
theorem emb_0 (t : Fin cfg1.N) (j : S2048x128.Idx) :
    ((cfg1.win 0).blk t).view.emb j = ix2 (⟨2048 * t.val + (j 0).val, by have := lt_N t; have := idx2_lt0 j; omega⟩ : Fin 16384) (j 1) := by
  obtain ⟨e0, e1, -, -, -, -⟩ := blockIndex_facts t
  funext a; apply Fin.ext
  match a with
  | ⟨0, _⟩ => show win1_0.index t (0 : Fin 2) * 2048 + 1 * (j 0).val = 2048 * t.val + (j 0).val; omega
  | ⟨1, _⟩ => show win1_0.index t (1 : Fin 2) * 128 + 1 * (j 1).val = (j 1).val; omega

/-- of the weights' one block; -/
theorem emb_1 (t : Fin cfg1.N) (j : S128x128.Idx) : ((cfg1.win 1).blk t).view.emb j = j := by
  obtain ⟨-, -, e0, e1, -, -⟩ := blockIndex_facts t
  funext a; apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- of the result's block t. -/
theorem emb_2 (t : Fin cfg1.N) (j : S2048x128.Idx) :
    ((cfg1.win 2).blk t).view.emb j = ix2 (⟨2048 * t.val + (j 0).val, by have := lt_N t; have := idx2_lt0 j; omega⟩ : Fin 16384) (j 1) := by
  obtain ⟨-, -, -, -, e0, e1⟩ := blockIndex_facts t
  funext a; apply Fin.ext
  match a with
  | ⟨0, _⟩ => show win1_2.index t (0 : Fin 2) * 2048 + 1 * (j 0).val = 2048 * t.val + (j 0).val; omega
  | ⟨1, _⟩ => show win1_2.index t (1 : Fin 2) * 128 + 1 * (j 1).val = (j 1).val; omega

/-! ## The result array as one function -/

/-- The grid point whose block holds row b, and the row's place in that block. -/
def ptOf (b : Fin 16384) : Fin cfg1.N := ⟨b.val / 2048, by have h : cfg1.N = 8 := N_1; have := b.isLt; omega⟩
def rowIn (b : Fin 16384) : Fin 2048 := ⟨b.val % 2048, Nat.mod_lt _ (by decide)⟩

variable (X : FVec F S16384x128 .f32) (Wt : FVec F S128x128 .f32) (f₀ : FVec F S16384x128 .f32)

/-- THE RESULT: at row b, lane u, the body's payload of the aggregates' block holding row b and the weights, at
    the row's place in the block. -/
def MM : FVec F S16384x128 .f32 := fun i =>
  k1_pay1 (xBlk X (ptOf ⟨(i 0).val, idx2_lt0 i⟩)) (wBlk Wt (ptOf ⟨(i 0).val, idx2_lt0 i⟩)) (ix2 (rowIn ⟨(i 0).val, idx2_lt0 i⟩) (⟨(i 1).val, idx2_lt1 i⟩ : Fin 128))

theorem zeroOffsets : (![0, 0] : Fin 2 → Nat) = fun _ => 0 := funext fun a => by fin_cases a <;> rfl

/-- What point t writes back is block t of the result function. -/
theorem flushed_eq (d : Dev nD) (t : Fin cfg1.N) :
    (mmDat X Wt f₀ d).flushed 2 t = ((cfg1.win 2).blk t).view.read (Elt F) (MM X Wt) := by
  show (cfg1.win 2).cut (grid1.coords t) ((mmDat X Wt f₀ d).after 2 t) = _
  rw [after_2]
  unfold outBlk
  rw [View.canon_unit_zero zeroOffsets]
  simp only [View.ld_unit_zero (S := S2048x128) zeroOffsets, View.ld_unit_zero (S := S128x128) zeroOffsets]
  funext j
  show k1_pay1 (xBlk X t) (wBlk Wt t) j = MM X Wt (((cfg1.win 2).blk t).view.emb j)
  rw [emb_2]
  unfold MM
  have hj0 := idx2_lt0 j
  have hpt : ptOf (⟨2048 * t.val + (j 0).val, by have := lt_N t; omega⟩ : Fin 16384) = t := by
    apply Fin.ext; show (2048 * t.val + (j 0).val) / 2048 = t.val; omega
  have hrow : rowIn (⟨2048 * t.val + (j 0).val, by have := lt_N t; omega⟩ : Fin 16384) = j 0 := by
    apply Fin.ext; show (2048 * t.val + (j 0).val) % 2048 = (j 0).val; omega
  simp only [ix2_0, ix2_1, Fin.eta, hpt, hrow]
  refine congrArg (k1_pay1 (xBlk X t) (wBlk Wt t)) ?_
  funext a
  match a with
  | ⟨0, _⟩ => rfl
  | ⟨1, _⟩ => rfl

/-- An index of the result's array is in point t's block iff its coordinates are in the block's ranges. -/
theorem mem_outBlock (t : Fin cfg1.N) (i : S16384x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v3).slice (win1_2.rect t)).set ↔ _
  rw [View.set_slice_whole, Rect.mem_set_unit]
  exact Iff.rfl

/-- The eight blocks tile the array. -/
theorem outBlocks_cover (i : S16384x128.Idx) : ∃ t : Fin cfg1.N, (cfg1.win 2).flush t = true ∧ i ∈ ((cfg1.win 2).blk t).view.set := by
  have hi0 := idx2_lt0 i
  have hi1 := idx2_lt1 i
  refine ⟨ptOf ⟨(i 0).val, hi0⟩, flush1_2 _, ?_⟩
  rw [mem_outBlock]
  obtain ⟨-, -, -, -, e0, e1⟩ := blockIndex_facts (ptOf ⟨(i 0).val, hi0⟩)
  have hp : (ptOf ⟨(i 0).val, hi0⟩).val = (i 0).val / 2048 := rfl
  intro a
  match a with
  | ⟨0, _⟩ => show win1_2.index _ (0 : Fin 2) * 2048 ≤ (i 0).val ∧ (i 0).val < win1_2.index _ (0 : Fin 2) * 2048 + 2048; omega
  | ⟨1, _⟩ => show win1_2.index _ (1 : Fin 2) * 128 ≤ (i 1).val ∧ (i 1).val < win1_2.index _ (1 : Fin 2) * 128 + 128; omega

/-- THE RESULT'S ARRAY after the run. -/
theorem arrAt_out (d : Dev nD) : (mmDat X Wt f₀ d).arrAt 2 cfg1.N = MM X Wt :=
  (mmDat X Wt f₀ d).arrAt_eq_of_cover 2 (MM X Wt) (fun t _ => flushed_eq X Wt f₀ d t) outBlocks_cover

/-- The operands' arrays are as they were. -/
theorem arrAt_sums (d : Dev nD) : (mmDat X Wt f₀ d).arrAt 0 cfg1.N = X :=
  ((mmDat X Wt f₀ d).arrAt_in 0 rfl _).trans (A_0 X Wt f₀ d)
theorem arrAt_wt (d : Dev nD) : (mmDat X Wt f₀ d).arrAt 1 cfg1.N = Wt :=
  ((mmDat X Wt f₀ d).arrAt_in 1 rfl _).trans (A_1 X Wt f₀ d)

end Cert.Proof.KB

end
-- ==== Proof.KBMatmulSeg.lean ====
/-
  The TensorCore's matrix-product region inside the SparseCore program: the pipeline's staging cells' ghost state as
  the launch deals it, the region as a record of its entry and exit entailments over the thread state "the three arrays,
  and what the thread owes", and its run under the program's extended body table — from the aggregates and the weights to
  the result array at one closed function of them.
-/
import proofs.«210776_g5076651344590_cont_8to1_c_706_2_alg».proof.Proof.KBMatmulIdx
import Idealize.ShloMosaic.Lib.Pipeline.Regions

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option Elab.async false

variable {F : FTy → Type} [FloatOps F]

local notation "𝕄" => MT nD τ sig (HIx 1) (Elt F) ℕ UU ℕ

/-! ## The staging cells' ghost state -/

/-- The pipeline has no prefetched table. -/
abbrev adm : (p : Fin 1) → (pcfgs (F := F) p).Adm := fun p => (cfgs p).toPCfg_adm

/-- The launch element of the pipeline's rounds copy: the staging cells and the transfers the loop issues. -/
def uK₀ : UK := initOf (Pipeline.cells (nD := nD) (τ := τ) cfgs cellOf_inj) (Pipeline.launchToks (nD := nD) (τ := τ) cfgs cellOf_inj)

/-- What the region needs of the launch's ghost state on device d: its staging cells' launch states and the duty
    tokens of the transfers its loop issues. -/
def Gd (d : Dev nD) : sProp 𝕄 :=
  iprop(Pipeline.cellsGhost (Pipeline.pin (pcfgs (F := F)) adm) EP 0 d ∗ Pipeline.toksInit (Pipeline.pin (pcfgs (F := F)) adm) EP 0 d)

/-- The launch funds it on every device at once. -/
theorem gd_fund : (BI.own ((EP (F := F)) uK₀) : sProp 𝕄) ⊢ iprop(|==> bigSep Finset.univ fun d : Dev nD => Gd (F := F) d) := by
  have h := Pipeline.fund_ghost (Ix := HIx 1) (Val := Elt F) (Name := ℕ) (U := UU) (Lvl := ℕ) (nD := nD) (τ := τ) cfgs (EP (F := F)) cellOf_inj
  have e : ∀ (Φ : Fin 1 → sProp 𝕄), bigSep Finset.univ Φ = Φ 0 := fun Φ => by
    rw [show (Finset.univ : Finset (Fin 1)) = {0} from rfl, BI.bigSep_singleton]
  refine h.trans ?_
  simp only [e]
  first
    | exact BI.Entails.refl _
    | (rw [← bigSep_sep']; exact BI.Entails.refl _)

/-! ## The region -/

/-- What the TensorCore owes after the one SparseCore call: nothing, its recorded pairs within the call's band. -/
def owesB (d : Dev nD) : sProp 𝕄 :=
  iprop(∃ W, ⌜(K (F := F)).WBelow (T d) W 8⌝ ∗ owes (T d : Thread nD τ) (0 : CellTallies nD τ sig (HIx 1)) W)

variable (X : FVec F S16384x128 .f32) (Wt : FVec F S128x128 .f32) (f₀ : FVec F S16384x128 .f32)

/-- The proof data as a family over the one pipeline. -/
def pdats : (p : Fin 1) → (c : Dev nD) → Dat τ (Elt F) (HIx 1) ℕ UU ℕ (Pipeline.pin (pcfgs (F := F)) adm p) c :=
  fun _ c => mmDat X Wt f₀ c

theorem share_eq (d : Dev nD) (w : Fin cfg1.W) : (pdats X Wt f₀ 0 d).share w = fullShare :=
  (pdats X Wt f₀ 0 d).share_full (fun _ => rfl) w

/-- The three arrays held whole are the pipeline's arrays. -/
theorem arrays_eq3 (d : Dev nD) (G : (w : Fin cfg1.W) → Buf (Elt F) ((cfg1.win w).arr.view.loc (d : Thread nD τ))) :
    (pdats X Wt f₀ 0 d).arrays G = iprop((sumsLoc d ↦{fullShare} G 0) ∗ (wtLoc d ↦{fullShare} G 1) ∗ (outLoc d ↦{fullShare} G 2)) := by
  rw [Pipeline.arrays_eq (Pipeline.pin (pcfgs (F := F)) adm) (pdats X Wt f₀) 0 d arr_whole1 (share_eq X Wt f₀ d) G, bigSep_W1]

variable (lv : GSem nD τ sig → HIx 1 → ℕ)

set_option backward.isDefEq.respectTransparency.types false in
/-- THE REGION over the thread state "the aggregates, the weights, the result's array, and the thread owing nothing". -/
def mmSeg : Pipeline.RegionSeg (pcfgs (F := F)) adm (pdats X Wt f₀) (none : HIx 1) defs₀ 𝒱₀ (K (F := F)).L lv 0 where
  win := winFacts1.to₀
  block_pos := block_pos1
  stage_whole := stage_whole1
  K := PEmpty
  osem k := k.elim
  ho := Pipeline.OwnSemFacts.none _
  hbody c := (body_obligation X Wt f₀ c).loose
  hwaits := Pipeline.hwaits_of_owed_zero _ _ _ _ _ lv 0 fun _ _ => rfl
  pre d := iprop((sumsLoc d ↦{fullShare} X) ∗ (wtLoc d ↦{fullShare} Wt) ∗ (outLoc d ↦{fullShare} f₀) ∗ owesB (F := F) d)
  post d := iprop((sumsLoc d ↦{fullShare} X) ∗ (wtLoc d ↦{fullShare} Wt) ∗ (outLoc d ↦{fullShare} MM X Wt) ∗ owesB (F := F) d)
  X _ := BI.emp
  Y _ := BI.emp
  Z _ := BI.emp
  hentry d := by
    rw [Pipeline.ownSems0_none, arrays_eq3]
    iintro ⟨⟨Hx, Hw, Ho, HO⟩, -, -⟩
    imodintro
    isplitl [Hx Hw Ho]
    · isplitl [Hx]; · iexact Hx
      isplitl [Hw]; · iexact Hw
      iexact Ho
    isplitr; · unfold Pipeline.prefHeld; rw [show (Finset.univ : Finset (Fin 0)) = ∅ from rfl, BI.bigSep_empty]; iempintro
    isplitl [HO]
    · unfold owesB Pipeline.Dat.owesAt Pipeline.owesWithin
      icases HO with ⟨%W, %hW, HO⟩; iexists W; isplitr
      · ipureintro; exact fun p hp => Or.inl (hW p hp)
      iexact HO
    isplitr <;> iempintro
  hin d := by
    rw [show (pdats X Wt f₀ 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none, show (pdats X Wt f₀ 0 d).Φ (Fin.last _) = Pipeline.scopedRest (Ix := HIx 1) (Name := ℕ) (U := UU) (Lvl := ℕ) (Val := Elt F) spec1 d from rfl]
    iintro Hr
    isplitr; · iempintro
    isplitr; · iempintro
    iexact Hr
  hexit d := by
    rw [arrays_eq3]
    iintro ⟨⟨Hx, Hw, Ho⟩, HO, -, -⟩
    imodintro
    rw [show (pdats X Wt f₀ 0 d).arrAt 0 (Pipeline.pin (pcfgs (F := F)) adm 0).N = X from arrAt_sums X Wt f₀ d,
      show (pdats X Wt f₀ 0 d).arrAt 1 (Pipeline.pin (pcfgs (F := F)) adm 0).N = Wt from arrAt_wt X Wt f₀ d,
      show (pdats X Wt f₀ 0 d).arrAt 2 (Pipeline.pin (pcfgs (F := F)) adm 0).N = MM X Wt from arrAt_out X Wt f₀ d]
    isplitl [Hx]; · iexact Hx
    isplitl [Hw]; · iexact Hw
    isplitl [Ho]; · iexact Ho
    unfold owesB Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ 8
        rw [SparseCore.Cfg.lev_none]; exact Nat.zero_le _
    iexact HO

end Cert.Proof.KB

end
-- ==== Proof.KBMatmul.lean ====
/-
  The TensorCore's matrix-product call as it stands in the program, under the extended body table: from the level
  facts, the region boundary, the aggregates and the weights held whole, the result's array at anything, the thread
  owing nothing and the staging cells' ghost state, the call runs to the boundary with the operands as they were and
  the result's array at the one closed function of them.
-/
import proofs.«210776_g5076651344590_cont_8to1_c_706_2_alg».proof.Proof.KBMatmulSeg
import Idealize.ShloMosaic.Lib.SparseCore.Threads

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option Elab.async false

variable {F : FTy → Type} [FloatOps F]

local notation "𝕄" => MT nD τ sig (HIx 1) (Elt F) ℕ UU ℕ

/-- The thread state the call leaves. -/
def mmPost (d : Dev nD) (X : FVec F S16384x128 .f32) (Wt : FVec F S128x128 .f32) : sProp 𝕄 :=
  iprop(boundary (T d : Thread nD τ) ∗ (sumsLoc d ↦{fullShare} X) ∗ (wtLoc d ↦{fullShare} Wt) ∗ (outLoc d ↦{fullShare} MM X Wt) ∗ owesB (F := F) d)

/-- The region's two thread states, spelt out. -/
theorem mmSeg_pre (lv : GSem nD τ sig → HIx 1 → ℕ) (d : Dev nD) (X : FVec F S16384x128 .f32) (Wt : FVec F S128x128 .f32) (f₀ : FVec F S16384x128 .f32) :
    (mmSeg X Wt f₀ lv).pre d = iprop((sumsLoc d ↦{fullShare} X) ∗ (wtLoc d ↦{fullShare} Wt) ∗ (outLoc d ↦{fullShare} f₀) ∗ owesB (F := F) d) := rfl
theorem mmSeg_post (lv : GSem nD τ sig → HIx 1 → ℕ) (d : Dev nD) (X : FVec F S16384x128 .f32) (Wt : FVec F S128x128 .f32) (f₀ : FVec F S16384x128 .f32) :
    (mmSeg X Wt f₀ lv).post d = iprop((sumsLoc d ↦{fullShare} X) ∗ (wtLoc d ↦{fullShare} Wt) ∗ (outLoc d ↦{fullShare} MM X Wt) ∗ owesB (F := F) d) := rfl

set_option backward.isDefEq.respectTransparency.types false in
/-- THE CALL. -/
theorem mm_region (lv : GSem nD τ sig → HIx 1 → ℕ) (d : Dev nD) (X : FVec F S16384x128 .f32) (Wt : FVec F S128x128 .f32) (Φ : PUnit → sProp 𝕄) :
    iprop(levAts (K (F := F)).L lv ∗ boundary (T d : Thread nD τ) ∗ (sumsLoc d ↦{fullShare} X) ∗ (wtLoc d ↦{fullShare} Wt)
        ∗ (∃ f : FVec F S16384x128 .f32, outLoc d ↦{fullShare} f) ∗ owesB (F := F) d ∗ Gd (F := F) d
        ∗ (mmPost d X Wt -∗ Φ ⟨⟩))
      ⊢ wp frame (wpE ((K (F := F)).defs D) 𝒱 (T d) none) Set.univ
          (Prog.lift (.customCall (SparseCore.inner (Pipeline.entry (0 : Fin 1))) ())) Φ := by
  refine BIBase.Entails.trans ?_ ((K (F := F)).wp_liftProg D 𝒱 (T d) Set.univ none
    (Prog.lift (.customCall (Pipeline.entry (0 : Fin 1)) ())) Φ)
  unfold Gd
  iintro ⟨#Hla, Hbd, Hx, Hw, ⟨%f₀, Ho⟩, HO, ⟨Hg, Ht⟩, Hk⟩
  have hwp := Pipeline.RegionSeg.wp (pcfgs (F := F)) adm (pdats X Wt f₀) (none : HIx 1) cellOf_inj (EP (F := F)) defs₀ 𝒱₀ (K (F := F)).L lv
    (mmSeg X Wt f₀ lv) d none (fun _ h => nomatch h) (fun _ => .ret ⟨⟩) Φ
  rw [mmSeg_pre, mmSeg_post] at hwp
  iapply hwp
  isplitl [Hk]
  · iintro ⟨Hbd, Hpost⟩
    rw [wp_ret]; imodintro
    iapply Hk
    unfold mmPost
    isplitl [Hbd]; · iexact Hbd
    iexact Hpost
  isplitl [Hbd]; · iexact Hbd
  isplitl [Hx Hw Ho HO]
  · isplitl [Hx]; · iexact Hx
    isplitl [Hw]; · iexact Hw
    isplitl [Ho]; · iexact Ho
    iexact HO
  isplitr; · iexact Hla
  isplitl [Hg]; · iexact Hg
  iexact Ht

/-- info: 'Cert.Proof.KB.mm_region' depends on axioms: [propext, Classical.choice, Quot.sound] -/
#guard_msgs in #print axioms mm_region

end Cert.Proof.KB

end
-- ==== Proof.KBLaunchElem.lean ====
/-
  The launch of the idealized kernel, first part: how a SparseCore's operands are its sixteen tiles' holdings (by
  construction of the payloads), and the launch element of the ghost state — the handshakes' rounds, the TensorCore
  pipeline's staging cells' rounds, and no counter.
-/
import proofs.«210776_g5076651344590_cont_8to1_c_706_2_alg».proof.Proof.KBPay
import proofs.«210776_g5076651344590_cont_8to1_c_706_2_alg».proof.Proof.KBMatmul

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## A SparseCore's operands are its tiles' -/

/-- Conjoined over the call's sixteen tasks is conjoined over the sixteen tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Conjoined over the call's two SparseCores is conjoined over the two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => tileRes m d (Fin.cast nCore_zero c) i (m (sumsLoc d))) ⊢ |={Set.univ}=> iprop(
      (bigSep Finset.univ fun i : Fin ((K (F := F)).nSub 0) => tileRes m d (Fin.cast nCore_zero c) (Fin.cast nSub_zero i) (m (sumsLoc d)))
      ∗ ((bigSep Finset.univ fun i : Fin ((K (F := F)).nSub 0) => tileRes m d (Fin.cast nCore_zero c) (Fin.cast nSub_zero i) (SUMSv m d))
          -∗ bigSep Finset.univ fun i : Fin 16 => tileRes m d (Fin.cast nCore_zero c) i (SUMSv m d)))
  rw [bigSep_tasks (F := F) (fun i => tileRes m d (Fin.cast nCore_zero c) i (m (sumsLoc d))),
    bigSep_tasks (F := F) (fun i => tileRes m d (Fin.cast nCore_zero c) i (SUMSv m d))]
  iintro H; imodintro
  isplitl [H]; · iexact H
  iintro H; iexact H

/-! ## The launch element -/

/-- The handshakes' rounds, the pipeline's staging cells' rounds, no counter. -/
def u₀ : UU := (initOf (K (F := F)).hsCells (K (F := F)).hsToks, (uK₀, 1))

/-- An element of the product algebra with units elsewhere is owned as its two rounds copies. -/
theorem ownU_split (a : UH) (b : UK) : (ownU ((a, (b, 1)) : UU) : sProp 𝕄) ⊢ iprop(BI.own (EH a) ∗ BI.own ((EP (F := F)) b)) := by
  have h1 := ownU_pair (nD := nD) (τ := τ) (sig := sig) (Ix := HIx 1) (Val := Elt F) (Name := ℕ) (Lvl := ℕ) a ((b, 1) : UK × Counters)
  have h2 := own_pair_emb (embR (nD := nD) (τ := τ) (sig := sig) (Ix := HIx 1) (Val := Elt F) (Name := ℕ) (Lvl := ℕ) (A := UH) (B := UK × Counters)) b (1 : Counters)
  refine h1.trans (sep_mono .rfl (h2.trans ?_))
  unfold EP
  exact sep_elim_left

theorem bigSep_emp' {I : Type} (s : Finset I) : (bigSep s fun _ => iprop(emp)) = (iprop(emp) : sProp 𝕄) := bigSep_emp_const s

/-- The launch element in the shape the launch theorem takes it. -/
theorem hu₀ : iprop(ownU (u₀ (F := F)) ∗ (P m).oxCred ∗ (K (F := F)).freeSems0)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro ⟨Hu, -, -⟩
  ihave Hsp := (ownU_split (F := F) (initOf (K (F := F)).hsCells (K (F := F)).hsToks) uK₀) $$ Hu
  icases Hsp with ⟨HH, HK⟩
  imod (gd_fund (F := F)) $$ HK with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KBLaunchMain.lean ====
/-
  The launch of the idealized kernel, second part: @main on a device's TensorCore. The two index arrays are
  flattened (two host reshapes); the SparseCore call takes the table, the two flattened lists and the aggregate
  array, dealt to the thirty-two tiles, and brings them back with the aggregate computed; the matrix-product call
  turns the aggregate and the weights into the result. Every argument array ends as it was launched.
-/
import proofs.«210776_g5076651344590_cont_8to1_c_706_2_alg».proof.Proof.KBLaunchElem

noncomputable section

namespace Cert.Proof.KB

open Cert.Kernel Cert.Kernel.Gen

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays -/

/-- The ten arrays of @main, all unscoped, each held whole. -/
theorem unscopedBufs_eq (d : Dev nD) (W : (b : Ref sig .tc) → Buf (Elt F) ((d.tc : Thread nD τ).loc b)) :
    (unscopedBufs d W : sProp 𝕄) = iprop((featLoc d ↦{fullShare} W main_arg0) ∗ (nodeLoc d ↦{fullShare} W main_arg1) ∗ (nbrLoc d ↦{fullShare} W main_arg2)
      ∗ (rawLoc d ↦{fullShare} W main_arg3) ∗ (wtLoc d ↦{fullShare} W main_arg4) ∗ (iLoc d ↦{fullShare} W main_arg5)
      ∗ (nbrFlatLoc d ↦{fullShare} W main_v0) ∗ (nodeFlatLoc d ↦{fullShare} W main_v1) ∗ (sumsLoc d ↦{fullShare} W main_v2) ∗ (outLoc d ↦{fullShare} W main_v3)) := by
  unfold unscopedBufs
  rw [show (Finset.univ.filter fun b : Ref sig .tc => ¬ b.isScoped) = {main_arg0, main_arg1, main_arg2, main_arg3, main_arg4, main_arg5, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-! ## The two reshapes -/

abbrev nbr' : DevRef τ sig := Proc.devRef .tc (main_arg2 : Ref sig .tc)
abbrev nbrFlat' : DevRef τ sig := Proc.devRef .tc (main_v0 : Ref sig .tc)
abbrev node' : DevRef τ sig := Proc.devRef .tc (main_arg1 : Ref sig .tc)
abbrev nodeFlat' : DevRef τ sig := Proc.devRef .tc (main_v1 : Ref sig .tc)

abbrev opNbr : HloOp τ sig (Elt F) := StableHlo.reshape main_arg2 main_v0 rfl shapeCasts_S16384x32_S524288
abbrev opNode : HloOp τ sig (Elt F) := StableHlo.reshape main_arg1 main_v1 rfl shapeCasts_S16384x1_S16384

/-- The launch valuation. -/
def V0 (d : Dev nD) : Valuation τ sig (Elt F) := fun b => m (d, b)

theorem held_nbr (d : Dev nD) (W : Valuation τ sig (Elt F)) :
    (held (T d) ({nbr', nbrFlat'} : Finset (DevRef τ sig)) W : sProp 𝕄) = iprop((nbrLoc d ↦{fullShare} W nbr') ∗ (nbrFlatLoc d ↦{fullShare} W nbrFlat')) := by
  unfold held
  rw [SparseCore.bigSep_insert' (by decide), bigSep_singleton]
theorem held_node (d : Dev nD) (W : Valuation τ sig (Elt F)) :
    (held (T d) ({node', nodeFlat'} : Finset (DevRef τ sig)) W : sProp 𝕄) = iprop((nodeLoc d ↦{fullShare} W node') ∗ (nodeFlatLoc d ↦{fullShare} W nodeFlat')) := by
  unfold held
  rw [SparseCore.bigSep_insert' (by decide), bigSep_singleton]

theorem resNbr_src (d : Dev nD) : (opNbr (F := F)).result (V0 m d) nbr' = m (nbrLoc d) :=
  StableHlo.reshape_result_ne (x := main_arg2) (y := main_v0) rfl shapeCasts_S16384x32_S524288 _ _ (V0 m d) (r := main_arg2) (by decide)
theorem resNbr_dst (d : Dev nD) : (opNbr (F := F)).result (V0 m d) nbrFlat' = NFv m d :=
  StableHlo.reshape_result (x := main_arg2) (y := main_v0) rfl shapeCasts_S16384x32_S524288 _ _ (V0 m d)
theorem resNode_src (d : Dev nD) : (opNode (F := F)).result (V0 m d) node' = m (nodeLoc d) :=
  StableHlo.reshape_result_ne (x := main_arg1) (y := main_v1) rfl shapeCasts_S16384x1_S16384 _ _ (V0 m d) (r := main_arg1) (by decide)
theorem resNode_dst (d : Dev nD) : (opNode (F := F)).result (V0 m d) nodeFlat' = NDv m d :=
  StableHlo.reshape_result (x := main_arg1) (y := main_v1) rfl shapeCasts_S16384x1_S16384 _ _ (V0 m d)

theorem held_nbr_res (d : Dev nD) :
    (held (T d) ({nbr', nbrFlat'} : Finset (DevRef τ sig)) ((opNbr (F := F)).result (V0 m d)) : sProp 𝕄)
      = iprop((nbrLoc d ↦{fullShare} m (nbrLoc d)) ∗ (nbrFlatLoc d ↦{fullShare} NFv m d)) := by
  rw [held_nbr, resNbr_src, resNbr_dst]
theorem held_node_res (d : Dev nD) :
    (held (T d) ({node', nodeFlat'} : Finset (DevRef τ sig)) ((opNode (F := F)).result (V0 m d)) : sProp 𝕄)
      = iprop((nodeLoc d ↦{fullShare} m (nodeLoc d)) ∗ (nodeFlatLoc d ↦{fullShare} NDv m d)) := by
  rw [held_node, resNode_src, resNode_dst]

/-! ## What the SparseCore call takes and brings back -/

/-- The thirty-two tiles' holdings are the table, the two flattened lists and the aggregate array, held whole. -/
theorem tiles_eq (d : Dev nD) (fs : Buf (Elt F) (sumsLoc d)) :
    (bigSep Finset.univ fun c : Fin 2 => bigSep Finset.univ fun i : Fin 16 => tileRes m d c i fs)
      = iprop((featLoc d ↦{fullShare} m (featLoc d)) ∗ (nbrFlatLoc d ↦{fullShare} NFv m d) ∗ (nodeFlatLoc d ↦{fullShare} NDv m d)
          ∗ (sumsLoc d ↦{fullShare} fs)) := by
  unfold tileRes
  simp only [bigSep_sep']
  rw [← pts_tileShares, ← pts_tileShares, ← pts_tileShares, ← pts_chunks]

theorem st0_eq (d : Dev nD) : (bigSep Finset.univ fun c : Fin ((K (F := F)).nCore 0) => (P m).st 0 d c)
    = iprop((featLoc d ↦{fullShare} m (featLoc d)) ∗ (nbrFlatLoc d ↦{fullShare} NFv m d) ∗ (nodeFlatLoc d ↦{fullShare} NDv m d)
        ∗ (sumsLoc d ↦{fullShare} m (sumsLoc d))) := by
  show (bigSep Finset.univ fun c : Fin ((K (F := F)).nCore 0) =>
    (fun c' : Fin 2 => bigSep Finset.univ fun i : Fin 16 => tileRes m d c' i (m (sumsLoc d))) (Fin.cast nCore_zero c)) = _
  rw [bigSep_cores (F := F) (fun c' : Fin 2 => bigSep Finset.univ fun i : Fin 16 => tileRes m d c' i (m (sumsLoc d))), tiles_eq]
theorem dn0_eq (d : Dev nD) : (bigSep Finset.univ fun c : Fin ((K (F := F)).nCore 0) => (P m).dn 0 d c)
    = iprop((featLoc d ↦{fullShare} m (featLoc d)) ∗ (nbrFlatLoc d ↦{fullShare} NFv m d) ∗ (nodeFlatLoc d ↦{fullShare} NDv m d)
        ∗ (sumsLoc d ↦{fullShare} SUMSv m d)) := by
  show (bigSep Finset.univ fun c : Fin ((K (F := F)).nCore 0) =>
    (fun c' : Fin 2 => bigSep Finset.univ fun i : Fin 16 => tileRes m d c' i (SUMSv m d)) (Fin.cast nCore_zero c)) = _
  rw [bigSep_cores (F := F) (fun c' : Fin 2 => bigSep Finset.univ fun i : Fin 16 => tileRes m d c' i (SUMSv m d)), tiles_eq]

/-- After the one call the TensorCore owes nothing: its state is that, beside the handshakes' positions. -/
theorem tcSt_owes (d : Dev nD) : ∃ R : sProp 𝕄, (K (F := F)).tcSt EH d 1 = iprop(owesB (F := F) d ∗ R) :=
  ⟨_, by unfold SparseCore.Cfg.tcSt owesB; rw [(K (F := F)).Otc_end d le_rfl]⟩

/-! ## @main -/

/-- What @main leaves the claim: every argument array at its launch contents, the result at the product. -/
abbrev FIN (d : Dev nD) : sProp 𝕄 :=
  iprop((featLoc d ↦{fullShare} m (featLoc d)) ∗ (nodeLoc d ↦{fullShare} m (nodeLoc d)) ∗ (nbrLoc d ↦{fullShare} m (nbrLoc d))
    ∗ (rawLoc d ↦{fullShare} m (rawLoc d)) ∗ (wtLoc d ↦{fullShare} m (wtLoc d)) ∗ (iLoc d ↦{fullShare} m (iLoc d))
    ∗ (outLoc d ↦{fullShare} MM (SUMSv m d) (m (wtLoc d))))

theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_owes (F := F) d
  have hR' : (K (F := F)).tcSt EH d ((0 : Fin 1).val + 1) = iprop(owesB (F := F) d ∗ R) := hR
  unfold SparseCore.Cfg.tcRes
  rw [unscopedBufs_eq]
  simp only [main, wp_bind, wp_pure]
  iintro ⟨#Hctx, Hst, ⟨Hb, ⟨Hfeat, Hnode, Hnbr, Hraw, Hwt, Hi, Hnf, Hnd, Hsums, Hout⟩, -, -⟩, Hg⟩
  -- the neighbours' list flattened
  iapply (wp_hlo_within 𝒱 (SparseCore.T d) none Set.univ (op := opNbr) (S := {nbr', nbrFlat'}) (Finset.Subset.refl _) (V := V0 m d)) $$ [Hb Hnbr Hnf]
  · isplitl [Hb]; · iexact Hb
    rw [held_nbr]
    isplitl [Hnbr]; · iexact Hnbr
    iexact Hnf
  iintro ⟨Hb, Hheld⟩
  ihave Hh := (Entails.of_eq (held_nbr_res (F := F) m d)) $$ Hheld
  icases Hh with ⟨Hnbr, Hnf⟩
  rw [wp_ret]; imodintro
  -- the nodes' list flattened
  iapply (wp_hlo_within 𝒱 (SparseCore.T d) none Set.univ (op := opNode) (S := {node', nodeFlat'}) (Finset.Subset.refl _) (V := V0 m d)) $$ [Hb Hnode Hnd]
  · isplitl [Hb]; · iexact Hb
    rw [held_node]
    isplitl [Hnode]; · iexact Hnode
    iexact Hnd
  iintro ⟨Hb, Hheld⟩
  ihave Hh := (Entails.of_eq (held_node_res (F := F) m d)) $$ Hheld
  icases Hh with ⟨Hnode, Hnd⟩
  rw [wp_ret]; imodintro
  -- the SparseCore call
  iapply ((K (F := F)).wp_run (D (F := F)) 𝒱 (EH := EH) (P := P m) κ d 0) $$ [Hst Hfeat Hnf Hnd Hsums Hb Hnode Hnbr Hraw Hwt Hi Hout Hg]
  isplitr; · iexact Hctx
  isplitl [Hst]; · iexact Hst
  isplitl [Hfeat Hnf Hnd Hsums]
  · rw [st0_eq]
    isplitl [Hfeat]; · iexact Hfeat
    isplitl [Hnf]; · iexact Hnf
    isplitl [Hnd]; · iexact Hnd
    iexact Hsums
  iintro ⟨Hst, Hdn⟩
  ihave Hdn' := (Entails.of_eq (dn0_eq m d)) $$ Hdn
  icases Hdn' with ⟨Hfeat, -, -, Hsums⟩
  ihave Hst' := (Entails.of_eq hR') $$ Hst
  icases Hst' with ⟨HO, HR⟩
  ihave Hla := (SparseCore.Cfg.ctx_levAts κ) $$ Hctx
  -- the matrix product
  iapply (mm_region (F := F) (K (F := F)).lev d (SUMSv m d) (m (wtLoc d)) _)
  isplitl [Hla]; · iexact Hla
  isplitl [Hb]; · iexact Hb
  isplitl [Hsums]; · iexact Hsums
  isplitl [Hwt]; · iexact Hwt
  isplitl [Hout]; · iexists _; iexact Hout
  isplitl [HO]; · iexact HO
  isplitl [Hg]; · iexact Hg
  unfold mmPost
  iintro ⟨-, -, Hwt, Hout, HO⟩
  imodintro
  isplitl [HO HR]
  · rw [hR]
    isplitl [HO]; · iexact HO
    iexact HR
  isplitl [Hfeat]; · iexact Hfeat
  isplitl [Hnode]; · iexact Hnode
  isplitl [Hnbr]; · iexact Hnbr
  isplitl [Hraw]; · iexact Hraw
  isplitl [Hwt]; · iexact Hwt
  isplitl [Hi]; · iexact Hi
  iexact Hout

end Cert.Proof.KB

end
-- ==== Proof.KBLaunch.lean ====
/-
  The launch of the idealized kernel, last part: what the final memory holds, and the run of the whole program —
  from any memory whose semaphore counters are zero, every weakly fair execution of the thirty-five threads per
  device terminates, and every final memory has the result array at the matrix-product function of the aggregate
  and the weights, and every argument array as it was.
-/
import proofs.«210776_g5076651344590_cont_8to1_c_706_2_alg».proof.Proof.KBLaunchMain

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig (HIx 1) (Elt F) ℕ UU ℕ

variable (m : (ℓ : Loc nD τ sig) → Buf (Elt F) ℓ) (ρ : Dev nD → PrngReg)

/-- An array held whole beside the state interpretation: the state's memory holds its contents. -/
theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, Hp⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr; · ipureintro; exact funext fun i => h i (Finset.mem_univ i)
  iexact HSI

/-- What the claim reads of a final state on device d. -/
def fq (d : Dev nD) (s' : Phys nD τ sig (Elt F)) : Prop :=
  s'.mem.mem (outLoc d) = MM (SUMSv m d) (m (wtLoc d)) ∧ s'.mem.mem (featLoc d) = m (featLoc d) ∧ s'.mem.mem (nodeLoc d) = m (nodeLoc d)
    ∧ s'.mem.mem (nbrLoc d) = m (nbrLoc d) ∧ s'.mem.mem (rawLoc d) = m (rawLoc d) ∧ s'.mem.mem (wtLoc d) = m (wtLoc d)
    ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hfeat, Hnode, Hnbr, Hraw, Hwt, Hi, Hout⟩, HSI⟩
  ihave H := (agree s' _ _) $$ [HSI Hout]
  · isplitl [HSI] <;> iassumption
  icases H with ⟨%h0, HSI⟩
  ihave H := (agree s' _ _) $$ [HSI Hfeat]
  · isplitl [HSI] <;> iassumption
  icases H with ⟨%h1, HSI⟩
  ihave H := (agree s' _ _) $$ [HSI Hnode]
  · isplitl [HSI] <;> iassumption
  icases H with ⟨%h2, HSI⟩
  ihave H := (agree s' _ _) $$ [HSI Hnbr]
  · isplitl [HSI] <;> iassumption
  icases H with ⟨%h3, HSI⟩
  ihave H := (agree s' _ _) $$ [HSI Hraw]
  · isplitl [HSI] <;> iassumption
  icases H with ⟨%h4, HSI⟩
  ihave H := (agree s' _ _) $$ [HSI Hwt]
  · isplitl [HSI] <;> iassumption
  icases H with ⟨%h5, HSI⟩
  ihave H := (agree s' _ _) $$ [HSI Hi]
  · isplitl [HSI] <;> iassumption
  icases H with ⟨%h6, -⟩
  ipureintro; exact ⟨h0, h1, h2, h3, h4, h5, h6⟩

/-! ## The program's run -/

def QC : PUnit × MemSt nD τ sig (Elt F) → Prop := fun r => ∀ c : Dev nD,
  r.2.mem (outLoc c) = MM (SUMSv m c) (m (wtLoc c)) ∧ r.2.mem (featLoc c) = m (featLoc c) ∧ r.2.mem (nodeLoc c) = m (nodeLoc c)
    ∧ r.2.mem (nbrLoc c) = m (nbrLoc c) ∧ r.2.mem (rawLoc c) = m (rawLoc c) ∧ r.2.mem (wtLoc c) = m (wtLoc c)
    ∧ r.2.mem (iLoc c) = m (iLoc c)

theorem run_main [∀ e, Nonempty (Elt F e)] (hpre : PreOK m) (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (Gd (F := F)) (FIN m) (u₀ (F := F)) (hu₀ m) (hmain m ρ) (fq m) (hfin m) (QC m) (fun _ h => h)

/-- info: 'Cert.Proof.KB.run_main' depends on axioms: [propext, Classical.choice, Quot.sound] -/
#guard_msgs in #print axioms run_main

end Cert.Proof.KB

end
-- ==== Proof.KBClaims.lean ====
/-
  The frame claim of the program as printed, read at the bit-exact values: from any memory satisfying the
  precondition every weakly fair execution terminates and the six argument arrays end unchanged. It is the
  program's run with the result's value dropped; the precondition gives that every index word names a table row.
  The one thing taken as a hypothesis is the tile's body obligation.
-/
import proofs.«210776_g5076651344590_cont_8to1_c_706_2_alg».proof.Proof.KBLaunch
import proofs.«210776_g5076651344590_cont_8to1_c_706_2_alg».proof.Proof.PreFacts
import proofs.«210776_g5076651344590_cont_8to1_c_706_2_alg».proof.Proof.Gen.Pre_input_domain

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.Sem

/-- Under the precondition every node word and every neighbour word is below the table's row count. -/
theorem preOK_of_pre (m : (ℓ : Loc nD τ sig) → Buf (Elt Bits) ℓ) (h : Cert.Pre_Kernel m) : PreOK m :=
  fun d => ⟨Cert.Proof.PreFacts.node_lt _ _ _ _ _ _ (h d), Cert.Proof.PreFacts.nbr_lt _ _ _ _ _ _ (h d)⟩

/-- The frame claim, given the tile's body obligation for every memory whose index words are in range. -/
theorem frame_KB
    (htileB : ∀ m : (ℓ : Loc Cert.Kernel.nD Cert.Kernel.τ Cert.Kernel.sig) → Buf (Elt Bits) ℓ,
      PreOK m → (K (F := Bits)).TileObl (D (F := Bits)) 𝒱 (P m) v₀ 0) : Cert.frame_Kernel :=
  fun m g hpre =>
    (θ_run (Cert.Kernel.defs (F := Bits)) (Cert.Kernel.threads (F := Bits)) ⟨m, fun _ => 0, g⟩).mono
      (fun _ h c => (h c).2)
      (run_main (F := Bits) m g (preOK_of_pre m hpre) (htileB m (preOK_of_pre m hpre)))

end Cert.Proof.KB

end
-- ==== Proof.KILoads.lean ====
/-
  What a sixteen-lane load and store mean at an index, and the row-by-row accumulation.

  A load of a [1, 16] window at offsets (r, l0) of a 128 x 128 buffer, flattened to sixteen lanes, holds at lane x the
  buffer's entry (r, l0 + x); a sixteen-lane vector stored as a [1, 16] window holds lane x at (0, x).  Adding to a
  sixteen-lane accumulator the windows of rows row0, row0 + 1, … at lanes lane0 … lane0 + 15, one after the other, is,
  lane by lane, the left-to-right sum of the accumulator's start and those rows' entries.  When the start is the node's
  table row and the rows are the neighbours' table rows this is the tile's aggregate as the specification's partial sum
  spells it.
-/
import proofs.«210776_g5076651344590_cont_8to1_c_706_2_alg».proof.Proof.KITile
import proofs.«210776_g5076651344590_cont_8to1_c_706_2_alg».proof.Proof.KISums
import Idealize.ShloMosaic.Lib.ValueIdx
import Idealize.ShloMosaic.Lib.ValueLayout

noncomputable section

namespace Cert.Proof.KI

open Cert.KernelIdeal Cert.KernelIdeal.Gen

open Idealize.ShloMosaic Idealize.ShloMosaic.ValueIdx
open Idealize.ShloMosaic.SparseCore (S V T)
open Cert.Spec

variable {F : FTy → Type}

/-! ## A sixteen-lane window of a 128 x 128 array -/

/-- Lanes l0 … l0 + 15 of row r of a 128 x 128 array, as a sixteen-lane vector. -/
def rowVec (B : S128x128.Idx → Elt F .f32) (r l0 : ℕ) (hr : r < 128) (hl : l0 + 16 ≤ 128) : FVec F S16 .f32 :=
  fun j => B (ix2 (⟨r, hr⟩ : Fin 128) (⟨l0 + (j 0).val, by have : (j 0).val < 16 := (j 0).isLt; omega⟩ : Fin 128))

theorem win_row (o : Fin 2 → Nat) (ho : ∀ a, o a + S1x16.size a ≤ S128x128.size a) : o 0 < 128 := by
  have h : o 0 + 1 ≤ 128 := ho 0
  omega
theorem win_lanes (o : Fin 2 → Nat) (ho : ∀ a, o a + S1x16.size a ≤ S128x128.size a) : o 1 + 16 ≤ 128 := ho 1

/-- A [1, 16] window of a function on the 128 x 128 indices, flattened, holds at lane x the entry (o 0, o 1 + x). -/
theorem ld_fun (R : S128x128.Idx → Elt F .f32) (o : Fin 2 → Nat) (ho : ∀ a, o a + S1x16.size a ≤ S128x128.size a) (x : Fin 16) :
    shapeCast S16 (fun y : S1x16.Idx => R ((Rect.unit (s := S128x128) o S1x16.size ho).toLoadRect.idx y)) shapeCasts_S1x16_S16 (ix1 x)
      = R (ix2 (⟨o 0, win_row o ho⟩ : Fin 128) (⟨o 1 + x.val, by have := win_lanes o ho; have := x.isLt; omega⟩ : Fin 128)) := by
  rw [shapeCast_1a_a_apply]
  refine congrArg R ?_
  funext a
  apply Fin.ext
  match a with
  | ⟨0, _⟩ => show o 0 + 1 * 0 = o 0; omega
  | ⟨1, _⟩ => show o 1 + 1 * x.val = o 1 + x.val; omega

/-- The same, as a vector: the flattened window is the row's sixteen lanes. -/
theorem ld_fun_eq (R : S128x128.Idx → Elt F .f32) (o : Fin 2 → Nat) (ho : ∀ a, o a + S1x16.size a ≤ S128x128.size a) :
    shapeCast S16 (fun y : S1x16.Idx => R ((Rect.unit (s := S128x128) o S1x16.size ho).toLoadRect.idx y)) shapeCasts_S1x16_S16
      = rowVec R (o 0) (o 1) (win_row o ho) (win_lanes o ho) := by
  funext j
  obtain ⟨x, rfl⟩ : ∃ x : Fin 16, j = ix1 x := ⟨j 0, eq_ix1 j⟩
  rw [ld_fun]
  rfl

/-! ## The four scratch buffers the gathers fill -/

local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)

/-- A sixteen-lane load from the buffer at offsets (o 0, o 1) holds at lane x the buffer's entry (o 0, o 1 + x). -/
theorem ld_apply2 (B : S128x128.Idx → Elt F .f32) (o : Fin 2 → Nat) (ho : ∀ a, o a + S1x16.size a ≤ S128x128.size a) (x : Fin 16) :
    shapeCast S16 (View.readAt (Elt F) (b2V).view (Rect.unit (s := S128x128) o S1x16.size ho).toLoadRect B) shapeCasts_S1x16_S16 (ix1 x)
      = B (ix2 (⟨o 0, win_row o ho⟩ : Fin 128) (⟨o 1 + x.val, by have := win_lanes o ho; have := x.isLt; omega⟩ : Fin 128)) :=
  ld_fun B o ho x
theorem ld_apply3 (B : S128x128.Idx → Elt F .f32) (o : Fin 2 → Nat) (ho : ∀ a, o a + S1x16.size a ≤ S128x128.size a) (x : Fin 16) :
    shapeCast S16 (View.readAt (Elt F) (b3V).view (Rect.unit (s := S128x128) o S1x16.size ho).toLoadRect B) shapeCasts_S1x16_S16 (ix1 x)
      = B (ix2 (⟨o 0, win_row o ho⟩ : Fin 128) (⟨o 1 + x.val, by have := win_lanes o ho; have := x.isLt; omega⟩ : Fin 128)) :=
  ld_fun B o ho x
theorem ld_apply4 (B : S128x128.Idx → Elt F .f32) (o : Fin 2 → Nat) (ho : ∀ a, o a + S1x16.size a ≤ S128x128.size a) (x : Fin 16) :
    shapeCast S16 (View.readAt (Elt F) (b4V).view (Rect.unit (s := S128x128) o S1x16.size ho).toLoadRect B) shapeCasts_S1x16_S16 (ix1 x)
      = B (ix2 (⟨o 0, win_row o ho⟩ : Fin 128) (⟨o 1 + x.val, by have := win_lanes o ho; have := x.isLt; omega⟩ : Fin 128)) :=
  ld_fun B o ho x
theorem ld_apply5 (B : S128x128.Idx → Elt F .f32) (o : Fin 2 → Nat) (ho : ∀ a, o a + S1x16.size a ≤ S128x128.size a) (x : Fin 16) :
    shapeCast S16 (View.readAt (Elt F) (b5V).view (Rect.unit (s := S128x128) o S1x16.size ho).toLoadRect B) shapeCasts_S1x16_S16 (ix1 x)
      = B (ix2 (⟨o 0, win_row o ho⟩ : Fin 128) (⟨o 1 + x.val, by have := win_lanes o ho; have := x.isLt; omega⟩ : Fin 128)) :=
  ld_fun B o ho x

/-- The same loads as vectors: row o 0's lanes o 1 … o 1 + 15. -/
theorem ld_eq2 (B : S128x128.Idx → Elt F .f32) (o : Fin 2 → Nat) (ho : ∀ a, o a + S1x16.size a ≤ S128x128.size a) :
    shapeCast S16 (View.readAt (Elt F) (b2V).view (Rect.unit (s := S128x128) o S1x16.size ho).toLoadRect B) shapeCasts_S1x16_S16
      = rowVec B (o 0) (o 1) (win_row o ho) (win_lanes o ho) := ld_fun_eq B o ho
theorem ld_eq3 (B : S128x128.Idx → Elt F .f32) (o : Fin 2 → Nat) (ho : ∀ a, o a + S1x16.size a ≤ S128x128.size a) :
    shapeCast S16 (View.readAt (Elt F) (b3V).view (Rect.unit (s := S128x128) o S1x16.size ho).toLoadRect B) shapeCasts_S1x16_S16
      = rowVec B (o 0) (o 1) (win_row o ho) (win_lanes o ho) := ld_fun_eq B o ho
theorem ld_eq4 (B : S128x128.Idx → Elt F .f32) (o : Fin 2 → Nat) (ho : ∀ a, o a + S1x16.size a ≤ S128x128.size a) :
    shapeCast S16 (View.readAt (Elt F) (b4V).view (Rect.unit (s := S128x128) o S1x16.size ho).toLoadRect B) shapeCasts_S1x16_S16
      = rowVec B (o 0) (o 1) (win_row o ho) (win_lanes o ho) := ld_fun_eq B o ho
theorem ld_eq5 (B : S128x128.Idx → Elt F .f32) (o : Fin 2 → Nat) (ho : ∀ a, o a + S1x16.size a ≤ S128x128.size a) :
    shapeCast S16 (View.readAt (Elt F) (b5V).view (Rect.unit (s := S128x128) o S1x16.size ho).toLoadRect B) shapeCasts_S1x16_S16
      = rowVec B (o 0) (o 1) (win_row o ho) (win_lanes o ho) := ld_fun_eq B o ho

/-- A sixteen-lane vector spread as a [1, 16] window holds lane x at (0, x). -/
theorem st_apply (a : FVec F S16 .f32) (x : Fin 16) :
    (shapeCast S1x16 a shapeCasts_S16_S1x16) (ix2 (0 : Fin 1) x) = a (ix1 x) :=
  shapeCast_a_1a_apply a shapeCasts_S16_S1x16 0 x

/-! ## The accumulation over rows -/

variable [FloatOps F]

/-- The accumulator after the first n rows (n ≤ 32): a0, then row row0's lanes added, then row row0 + 1's, …. -/
def redFold (B : S128x128.Idx → Elt F .f32) (row0 lane0 : ℕ) (h : row0 + 32 ≤ 128) (hl : lane0 + 16 ≤ 128) (a0 : FVec F S16 .f32) :
    ℕ → FVec F S16 .f32
  | 0 => a0
  | n + 1 => if hn : n < 32 then addf (redFold B row0 lane0 h hl a0 n) (rowVec B (row0 + n) lane0 (by omega) hl)
             else redFold B row0 lane0 h hl a0 n

theorem redFold_zero (B : S128x128.Idx → Elt F .f32) (row0 lane0 : ℕ) (h : row0 + 32 ≤ 128) (hl : lane0 + 16 ≤ 128)
    (a0 : FVec F S16 .f32) : redFold B row0 lane0 h hl a0 0 = a0 := rfl

theorem redFold_succ (B : S128x128.Idx → Elt F .f32) (row0 lane0 : ℕ) (h : row0 + 32 ≤ 128) (hl : lane0 + 16 ≤ 128)
    (a0 : FVec F S16 .f32) (n : ℕ) (hn : n < 32) :
    redFold B row0 lane0 h hl a0 (n + 1) = addf (redFold B row0 lane0 h hl a0 n) (rowVec B (row0 + n) lane0 (by omega) hl) := by
  rw [redFold, dif_pos hn]

/-- Lane by lane: one more row's entry added on the right. -/
theorem redFold_succ_apply (B : S128x128.Idx → Elt F .f32) (row0 lane0 : ℕ) (h : row0 + 32 ≤ 128) (hl : lane0 + 16 ≤ 128)
    (a0 : FVec F S16 .f32) (n : ℕ) (hn : n < 32) (x : Fin 16) :
    redFold B row0 lane0 h hl a0 (n + 1) (ix1 x)
      = FloatOps.addf (redFold B row0 lane0 h hl a0 n (ix1 x))
          (B (ix2 (⟨row0 + n, by omega⟩ : Fin 128) (⟨lane0 + x.val, by have := x.isLt; omega⟩ : Fin 128))) := by
  rw [redFold_succ B row0 lane0 h hl a0 n hn]
  rfl

/-- When the accumulator starts at the node's table row and the buffer's rows are the neighbours' table rows, the
    accumulation is the tile's partial aggregate. -/
theorem redFold_partialSum (feat : SFeat.Idx → F .f32) (nd : Cert.Proof.Sums.SNodeFlat.Idx → BitVec 32)
    (nf : Cert.Proof.Sums.SNbrFlat.Idx → BitVec 32) (b : Fin 16384)
    (B : S128x128.Idx → Elt F .f32) (row0 lane0 : ℕ) (h : row0 + 32 ≤ 128) (hl : lane0 + 16 ≤ 128) (a0 : FVec F S16 .f32) (x : Fin 16)
    (ha : a0 (ix1 x) = feat (ix2 (rowOf (nd (ix1 b))) (⟨lane0 + x.val, by have := x.isLt; omega⟩ : Fin 128)))
    (hB : ∀ r : Fin 32, B (ix2 (⟨row0 + r.val, by have := r.isLt; omega⟩ : Fin 128) (⟨lane0 + x.val, by have := x.isLt; omega⟩ : Fin 128))
      = feat (ix2 (rowOf (nf (ix1 (Cert.Proof.Sums.nbrPos b r)))) (⟨lane0 + x.val, by have := x.isLt; omega⟩ : Fin 128))) :
    ∀ n, n ≤ 32 → redFold B row0 lane0 h hl a0 n (ix1 x)
      = Cert.Proof.Sums.partialSum feat nd nf b (⟨lane0 + x.val, by have := x.isLt; omega⟩ : Fin 128) n := by
  intro n
  induction n with
  | zero => intro _; exact ha
  | succ n ih =>
    intro hn
    have hlt : n < 32 := by omega
    rw [redFold_succ_apply B row0 lane0 h hl a0 n hlt x, ih (by omega), hB ⟨n, hlt⟩]
    simp only [Cert.Proof.Sums.partialSum, dif_pos hlt]

end Cert.Proof.KI

end
-- ==== Proof.KIWrites.lean ====
/-
  Reading back a buffer written by several stores.

  The contents a run of unmasked stores through rectangles leaves are named as a list of pieces, the last store first.
  Through the whole buffer's view a read is the contents themselves.  So: an element that some piece covers, when every
  piece's payload agrees with one function G on the piece's rectangle, holds G there, whatever the buffer held before;
  an element that no piece covers holds what the buffer held before.
-/
import proofs.«210776_g5076651344590_cont_8to1_c_706_2_alg».proof.Proof.KITile
import Idealize.ShloMosaic.Lib.Writes

noncomputable section

namespace Cert.Proof.KI

open Cert.KernelIdeal Cert.KernelIdeal.Gen

open Idealize.ShloMosaic
open Idealize.ShloMosaic.SparseCore (S V T)

variable {F : FTy → Type}

/-! ## Any whole buffer -/

/-- An element some piece covers, all pieces agreeing with G on their rectangles, holds G there. -/
theorem writes_hit_whole {sg : RefSig} {κ : Kind} (b : Ref sg κ) {Val : EltTy → Type} (f : b.ty.Contents Val)
    (G : b.ty.shape.Idx → Val b.ty.elt) (PL : List (View.Piece Val b.ty.shape b.ty.elt))
    (hG : ∀ p ∈ PL, ∀ x : p.1.shape.Idx, p.2 x = G (p.1.emb x)) (y : b.ty.shape.Idx) (hy : ∃ p ∈ PL, y ∈ p.1.set) :
    (View.whole b).writes Val f PL y = G y :=
  View.read_writes_apply_of_pieces (View.whole b) f G PL hG y hy

/-- An element no piece covers keeps what the buffer held. -/
theorem writes_miss_whole {sg : RefSig} {κ : Kind} (b : Ref sg κ) {Val : EltTy → Type} (f : b.ty.Contents Val)
    (PL : List (View.Piece Val b.ty.shape b.ty.elt)) (y : b.ty.shape.Idx) (hy : ∀ p ∈ PL, y ∉ p.1.set) :
    (View.whole b).writes Val f PL y = f y :=
  View.read_writes_apply_of_forall_not_mem (View.whole b) f y PL hy

/-! ## The 128 x 128 scratch buffers -/

local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)

theorem writes_hit2 (f G : S128x128.Idx → Elt F .f32) (PL : List (View.Piece (Elt F) S128x128 .f32))
    (hG : ∀ p ∈ PL, ∀ x : p.1.shape.Idx, p.2 x = G (p.1.emb x)) (y : S128x128.Idx) (hy : ∃ p ∈ PL, y ∈ p.1.set) :
    (b2V).view.writes (Elt F) f PL y = G y := writes_hit_whole cc0_scratch2 f G PL hG y hy
theorem writes_hit3 (f G : S128x128.Idx → Elt F .f32) (PL : List (View.Piece (Elt F) S128x128 .f32))
    (hG : ∀ p ∈ PL, ∀ x : p.1.shape.Idx, p.2 x = G (p.1.emb x)) (y : S128x128.Idx) (hy : ∃ p ∈ PL, y ∈ p.1.set) :
    (b3V).view.writes (Elt F) f PL y = G y := writes_hit_whole cc0_scratch3 f G PL hG y hy
theorem writes_hit4 (f G : S128x128.Idx → Elt F .f32) (PL : List (View.Piece (Elt F) S128x128 .f32))
    (hG : ∀ p ∈ PL, ∀ x : p.1.shape.Idx, p.2 x = G (p.1.emb x)) (y : S128x128.Idx) (hy : ∃ p ∈ PL, y ∈ p.1.set) :
    (b4V).view.writes (Elt F) f PL y = G y := writes_hit_whole cc0_scratch4 f G PL hG y hy
theorem writes_hit5 (f G : S128x128.Idx → Elt F .f32) (PL : List (View.Piece (Elt F) S128x128 .f32))
    (hG : ∀ p ∈ PL, ∀ x : p.1.shape.Idx, p.2 x = G (p.1.emb x)) (y : S128x128.Idx) (hy : ∃ p ∈ PL, y ∈ p.1.set) :
    (b5V).view.writes (Elt F) f PL y = G y := writes_hit_whole cc0_scratch5 f G PL hG y hy

theorem writes_miss2 (f : S128x128.Idx → Elt F .f32) (PL : List (View.Piece (Elt F) S128x128 .f32)) (y : S128x128.Idx)
    (hy : ∀ p ∈ PL, y ∉ p.1.set) : (b2V).view.writes (Elt F) f PL y = f y := writes_miss_whole cc0_scratch2 f PL y hy
theorem writes_miss3 (f : S128x128.Idx → Elt F .f32) (PL : List (View.Piece (Elt F) S128x128 .f32)) (y : S128x128.Idx)
    (hy : ∀ p ∈ PL, y ∉ p.1.set) : (b3V).view.writes (Elt F) f PL y = f y := writes_miss_whole cc0_scratch3 f PL y hy
theorem writes_miss4 (f : S128x128.Idx → Elt F .f32) (PL : List (View.Piece (Elt F) S128x128 .f32)) (y : S128x128.Idx)
    (hy : ∀ p ∈ PL, y ∉ p.1.set) : (b4V).view.writes (Elt F) f PL y = f y := writes_miss_whole cc0_scratch4 f PL y hy
theorem writes_miss5 (f : S128x128.Idx → Elt F .f32) (PL : List (View.Piece (Elt F) S128x128 .f32)) (y : S128x128.Idx)
    (hy : ∀ p ∈ PL, y ∉ p.1.set) : (b5V).view.writes (Elt F) f PL y = f y := writes_miss_whole cc0_scratch5 f PL y hy

/-! ## Sixteen-lane row stores -/

/-- An element of the [1, 16] window at offsets (o 0, o 1): row o 0, a lane from o 1 to o 1 + 15. -/
theorem mem_win (o : Fin 2 → Nat) (ho : ∀ a, o a + S1x16.size a ≤ S128x128.size a) (y : S128x128.Idx) :
    y ∈ (Rect.unit (s := S128x128) o S1x16.size ho).set ↔ (y 0).val = o 0 ∧ o 1 ≤ (y 1).val ∧ (y 1).val < o 1 + 16 := by
  rw [Rect.mem_set_unit]
  constructor
  · intro h
    have h0 : o 0 ≤ (y 0).val ∧ (y 0).val < o 0 + 1 := h 0
    have h1 : o 1 ≤ (y 1).val ∧ (y 1).val < o 1 + 16 := h 1
    omega
  · rintro ⟨h0, h1, h2⟩ a
    match a with
    | ⟨0, _⟩ => show o 0 ≤ (y 0).val ∧ (y 0).val < o 0 + 1; omega
    | ⟨1, _⟩ => show o 1 ≤ (y 1).val ∧ (y 1).val < o 1 + 16; omega

end Cert.Proof.KI

end
-- ==== Proof.KIReads.lean ====
/-
  What the tile's body reads through its views.

  A window of 128 words at offset o of a list reads, at position x, the list's word o + x.  The table named as a
  gather names it (the whole array as a rectangle at offset 0) reads as the table itself.  A tile's words of the
  flattened lists sit at 32768 s + 16384 c onward (neighbours) and 1024 s + 512 c onward (nodes).  The indirect
  gather delivers, at row r and lane l of its destination, the table's row named by word r of the offset list, at
  lane l.  Two windows of 128 words whose offsets are 128 apart or more share no element.
-/
import proofs.«210776_g5076651344590_cont_8to1_c_706_2_alg».proof.Proof.KITile
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)

variable {F : FTy → Type}

local notation "s0V" => (Memref.whole Cert.KernelIdeal.cc0_scratch0 : Memref Cert.KernelIdeal.sig Kind.scVector Space.vmem Cert.KernelIdeal.S16384 EltTy.i32)
local notation "s1V" => (Memref.whole Cert.KernelIdeal.cc0_scratch1 : Memref Cert.KernelIdeal.sig Kind.scVector Space.vmem Cert.KernelIdeal.S512 EltTy.i32)
local notation "featV" => (Memref.whole Cert.KernelIdeal.main_arg0_scv : Memref Cert.KernelIdeal.sig Kind.scVector Space.hbm Cert.KernelIdeal.S100000x128 EltTy.f32)
set_option quotPrecheck false in
local notation "featSl" => (featV).slice (Rect.unit (s := Cert.KernelIdeal.S100000x128) ![0, 0] Cert.KernelIdeal.S100000x128.size Cert.KernelIdeal.Gen.inb_S100000x128_S100000x128_0_0) (fun _ => rfl)

/-! ## The indirect gather's payload -/

/-- Entry r of the rows an offset list of 128 words names is word r of the list. -/
theorem rows_apply (idx : S128.Idx → Elt F .i32) (hn : S128.numel = S128x128.size gathers_S100000x128_S128x128.axis')
    (hin : ∀ x, (idx x).toNat < S100000x128.size gathers_S100000x128_S128x128.axis) (r : Fin 128) :
    (SparseCore.rows idx hn hin r).val = (idx (ix1 r)).toNat := by
  have e : S128.rowMajor.symm (Fin.cast hn.symm r) = ix1 r := by
    rw [Equiv.symm_apply_eq]
    apply Fin.ext
    rw [Shape.rowMajor_val_one]
    rfl
  show (idx (S128.rowMajor.symm (Fin.cast hn.symm r))).toNat = _
  rw [e]

/-- Row r, lane l of the gather's destination holds the table's row named by word r of the offset list, lane l. -/
theorem gather_apply (src : S100000x128.Idx → Elt F .f32) (idx : S128.Idx → Elt F .i32)
    (hn : S128.numel = S128x128.size gathers_S100000x128_S128x128.axis')
    (hin : ∀ x, (idx x).toNat < S100000x128.size gathers_S100000x128_S128x128.axis) (r l : Fin 128) :
    SparseCore.gatherPayload gathers_S100000x128_S128x128 src (SparseCore.rows idx hn hin) (ix2 r l)
      = src (ix2 (⟨(idx (ix1 r)).toNat, hin (ix1 r)⟩ : Fin 100000) l) := by
  unfold SparseCore.gatherPayload
  congr 1
  funext b
  apply Fin.ext
  match b with
  | ⟨0, hb⟩ =>
    have h0 := Shape.Gathers.idx_axis gathers_S100000x128_S128x128 (SparseCore.rows idx hn hin) (ix2 r l)
    show (gathers_S100000x128_S128x128.idx (SparseCore.rows idx hn hin) (ix2 r l) gathers_S100000x128_S128x128.axis).val = _
    rw [h0]
    exact rows_apply idx hn hin r
  | ⟨1, hb⟩ =>
    exact Shape.Gathers.idx_of_ne gathers_S100000x128_S128x128 (SparseCore.rows idx hn hin) (ix2 r l) ⟨1, hb⟩ Nat.one_ne_zero

/-! ## Reads through the windows -/

/-- A window of 128 words at offset o of the tile's neighbour words reads, at x, word o + x. -/
theorem lst_read (o : Fin 1 → Nat) (ho : ∀ a, o a + S128.size a ≤ S16384.size a) (g0 : S16384.Idx → Elt F .i32) (x : Fin 128) :
    ((s0V).slice (Rect.unit (s := S16384) o S128.size ho) (fun _ => rfl)).view.read (Elt F) g0 (ix1 x)
      = g0 (ix1 (⟨o 0 + x.val, by have h : o 0 + 128 ≤ 16384 := ho 0; have := x.isLt; omega⟩ : Fin 16384)) := by
  refine ((View.read_apply _ _).trans (cast_eq _ _)).trans (congrArg g0 ?_)
  refine funext fun (a : Fin 1) => Fin.ext ?_
  obtain rfl : a = 0 := Subsingleton.elim _ _
  show o 0 + 1 * x.val = o 0 + x.val
  omega

/-- A window of 128 words at offset o of the tile's node words reads, at x, word o + x. -/
theorem nlst_read (o : Fin 1 → Nat) (ho : ∀ a, o a + S128.size a ≤ S512.size a) (g1 : S512.Idx → Elt F .i32) (x : Fin 128) :
    ((s1V).slice (Rect.unit (s := S512) o S128.size ho) (fun _ => rfl)).view.read (Elt F) g1 (ix1 x)
      = g1 (ix1 (⟨o 0 + x.val, by have h : o 0 + 128 ≤ 512 := ho 0; have := x.isLt; omega⟩ : Fin 512)) := by
  refine ((View.read_apply _ _).trans (cast_eq _ _)).trans (congrArg g1 ?_)
  refine funext fun (a : Fin 1) => Fin.ext ?_
  obtain rfl : a = 0 := Subsingleton.elim _ _
  show o 0 + 1 * x.val = o 0 + x.val
  omega

/-- Every word read through a window is a word of the list: a bound on all the list's words bounds them. -/
theorem lst_hin (o : Fin 1 → Nat) (ho : ∀ a, o a + S128.size a ≤ S16384.size a) (g0 : S16384.Idx → Elt F .i32)
    (h : ∀ z, (g0 z).toNat < 100000) :
    ∀ x, (((s0V).slice (Rect.unit (s := S16384) o S128.size ho) (fun _ => rfl)).view.read (Elt F) g0 x).toNat
      < S100000x128.size gathers_S100000x128_S128x128.axis := by
  intro x
  rw [(View.read_apply _ _).trans (cast_eq _ _)]
  exact h _

theorem nlst_hin (o : Fin 1 → Nat) (ho : ∀ a, o a + S128.size a ≤ S512.size a) (g1 : S512.Idx → Elt F .i32)
    (h : ∀ z, (g1 z).toNat < 100000) :
    ∀ x, (((s1V).slice (Rect.unit (s := S512) o S128.size ho) (fun _ => rfl)).view.read (Elt F) g1 x).toNat
      < S100000x128.size gathers_S100000x128_S128x128.axis := by
  intro x
  rw [(View.read_apply _ _).trans (cast_eq _ _)]
  exact h _

/-- The table named as the whole rectangle at offset 0 reads as the table itself. -/
theorem featSl_read (ff : S100000x128.Idx → Elt F .f32) : (featSl).view.read (Elt F) ff = ff := by
  funext x
  refine ((View.read_apply _ _).trans (cast_eq _ _)).trans (congrArg ff ?_)
  funext a
  apply Fin.ext
  match a with
  | ⟨0, _⟩ => show 0 + 1 * (x 0).val = (x 0).val; omega
  | ⟨1, _⟩ => show 0 + 1 * (x 1).val = (x 1).val; omega

/-! ## Where a tile's words sit in the flattened lists -/

/-- Word y of the tile's neighbour words is word 32768 s + 16384 c + y of the flattened neighbour list. -/
theorem nfSl_emb (L : grid0.Coords) (y : Fin 16384) :
    (nfSl L).view.emb (ix1 y)
      = ix1 (⟨32768 * (L 1).val + 16384 * (L 0).val + y.val, by
          have h1 : (L 1).val < 16 := (L 1).isLt
          have h0 : (L 0).val < 2 := (L 0).isLt
          have := y.isLt; omega⟩ : Fin 524288) := by
  refine funext fun (a : Fin 1) => Fin.ext ?_
  obtain rfl : a = 0 := Subsingleton.elim _ _
  show k0_off1 L 0 + 1 * y.val = 32768 * (L 1).val + 16384 * (L 0).val + y.val
  rw [k0_off1_eq]
  show 32768 * (L 1).val + 16384 * (L 0).val + 1 * y.val = _
  omega

/-- Word y of the tile's node words is word 1024 s + 512 c + y of the flattened node list. -/
theorem ndSl_emb (L : grid0.Coords) (y : Fin 512) :
    (ndSl L).view.emb (ix1 y)
      = ix1 (⟨1024 * (L 1).val + 512 * (L 0).val + y.val, by
          have h1 : (L 1).val < 16 := (L 1).isLt
          have h0 : (L 0).val < 2 := (L 0).isLt
          have := y.isLt; omega⟩ : Fin 16384) := by
  refine funext fun (a : Fin 1) => Fin.ext ?_
  obtain rfl : a = 0 := Subsingleton.elim _ _
  show k0_off2 L 0 + 1 * y.val = 1024 * (L 1).val + 512 * (L 0).val + y.val
  rw [k0_off2_eq]
  show 1024 * (L 1).val + 512 * (L 0).val + 1 * y.val = _
  omega

/-! ## Windows apart -/

/-- Two windows of 128 neighbour words whose offsets are 128 apart or more share no element. -/
theorem lst_disjoint (o1 o2 : Fin 1 → Nat) (h1 : ∀ a, o1 a + S128.size a ≤ S16384.size a)
    (h2 : ∀ a, o2 a + S128.size a ≤ S16384.size a) (h : o1 0 + 128 ≤ o2 0 ∨ o2 0 + 128 ≤ o1 0) :
    Disjoint ((s0V).slice (Rect.unit (s := S16384) o1 S128.size h1) (fun _ => rfl)).view.set
      ((s0V).slice (Rect.unit (s := S16384) o2 S128.size h2) (fun _ => rfl)).view.set := by
  show Disjoint ((View.whole (cc0_scratch0 : Ref sig .scVector)).slice (Rect.unit (s := S16384) o1 S128.size h1)).set
    ((View.whole (cc0_scratch0 : Ref sig .scVector)).slice (Rect.unit (s := S16384) o2 S128.size h2)).set
  rw [View.set_slice_whole, View.set_slice_whole]
  exact Rect.unit_disjoint (0 : Fin 1) h

end Cert.Proof.KI

end
-- ==== Proof.KIVals.lean ====
/-
  What the tile's buffers hold, as mathematics.  Within superchunk `k` of a tile whose batch rows start at `gb0`,
  write `gb = gb0 + 128 k`.  The node buffer's row `r` is the table row the node list names for batch row `gb + r`;
  a neighbour slot filled for group `g` holds, in row `32 el + n`, the table row of neighbour `n` of batch row
  `gb + 4 g + el`; the output buffer's row `r` is to hold the aggregate of batch row `gb + r`.  A reduction over block
  `el` of a slot starts from the node buffer's row and adds the block's 32 rows in order, 16 lanes at a time in eight
  accumulators.
-/
import proofs.«210776_g5076651344590_cont_8to1_c_706_2_alg».proof.Proof.KILoads
import proofs.«210776_g5076651344590_cont_8to1_c_706_2_alg».proof.Proof.KIWrites
import proofs.«210776_g5076651344590_cont_8to1_c_706_2_alg».proof.Proof.KIReads

noncomputable section

namespace Cert.Proof.KI

open Cert.KernelIdeal Cert.KernelIdeal.Gen
open Idealize.ShloMosaic Idealize.ShloMosaic.ValueIdx Cert.Spec Cert.Proof.Sums

variable {F : FTy → Type}

/-- The eight 16-lane accumulators of a reduction. -/
abbrev Acc8 (F : FTy → Type) : Type := FVec F S16 .f32 × FVec F S16 .f32 × FVec F S16 .f32 × FVec F S16 .f32 × FVec F S16 .f32 × FVec F S16 .f32 × FVec F S16 .f32 × FVec F S16 .f32

/-- Accumulator `j`. -/
def comp (a : Acc8 F) : Fin 8 → FVec F S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2

/-- Row `row` of a 128 x 128 buffer as eight 16-lane vectors. -/
def initT (N2 : S128x128.Idx → Elt F .f32) (row : ℕ) (h : row < 128) : Acc8 F :=
  (rowVec N2 row 0 h (by omega), rowVec N2 row 16 h (by omega), rowVec N2 row 32 h (by omega), rowVec N2 row 48 h (by omega), rowVec N2 row 64 h (by omega), rowVec N2 row 80 h (by omega), rowVec N2 row 96 h (by omega), rowVec N2 row 112 h (by omega))

variable [FloatOps F]

/-- The eight accumulators after `n` rows of block `el` of buffer `B` have been added to `init`. -/
def redT (B : S128x128.Idx → Elt F .f32) (el : ℕ) (hel : 32 * el + 32 ≤ 128) (init : Acc8 F) (n : ℕ) : Acc8 F :=
  (redFold B (32 * el) 0 hel (by omega) init.1 n,
   redFold B (32 * el) 16 hel (by omega) init.2.1 n,
   redFold B (32 * el) 32 hel (by omega) init.2.2.1 n,
   redFold B (32 * el) 48 hel (by omega) init.2.2.2.1 n,
   redFold B (32 * el) 64 hel (by omega) init.2.2.2.2.1 n,
   redFold B (32 * el) 80 hel (by omega) init.2.2.2.2.2.1 n,
   redFold B (32 * el) 96 hel (by omega) init.2.2.2.2.2.2.1 n,
   redFold B (32 * el) 112 hel (by omega) init.2.2.2.2.2.2.2 n)

/-- What the output buffer is to hold in the superchunk whose batch rows start at `gb`: row `r` is the aggregate of batch row `gb + r`. -/
def TV (feat : SFeat.Idx → F .f32) (nd : SNodeFlat.Idx → BitVec 32) (nf : SNbrFlat.Idx → BitVec 32) (gb : ℕ) (hgb : gb + 128 ≤ 16384) :
    S128x128.Idx → Elt F .f32 :=
  fun y => partialSum feat nd nf ⟨gb + (y 0).val, by have := idx2_lt0 y; omega⟩ ⟨(y 1).val, idx2_lt1 y⟩ 32

/-- The node buffer holds the node rows of batch rows `gb …`. -/
def QN (feat : SFeat.Idx → F .f32) (nd : SNodeFlat.Idx → BitVec 32) (gb : ℕ) (hgb : gb + 128 ≤ 16384) (N2 : S128x128.Idx → Elt F .f32) : Prop :=
  ∀ r l : Fin 128, N2 (ix2 r l) = feat (ix2 (rowOf (nd (ix1 ⟨gb + r.val, by omega⟩))) l)

/-- A neighbour slot holds group `g`'s 128 neighbour rows: position `32 gb + 128 g + r` of the flattened list. -/
def QB (feat : SFeat.Idx → F .f32) (nf : SNbrFlat.Idx → BitVec 32) (gb : ℕ) (hgb : gb + 128 ≤ 16384) (g : ℕ) (hg : g < 32) (B : S128x128.Idx → Elt F .f32) : Prop :=
  ∀ r l : Fin 128, B (ix2 r l) = feat (ix2 (rowOf (nf (ix1 ⟨32 * gb + 128 * g + r.val, by omega⟩))) l)

/-- The first `n` rows of the output buffer hold what they are to hold. -/
def Q3 (T : S128x128.Idx → Elt F .f32) (n : ℕ) (f3 : S128x128.Idx → Elt F .f32) : Prop :=
  ∀ y : S128x128.Idx, (y 0).val < n → f3 y = T y

/-- The eight 16-lane stores of one finished reduction: row `8 k2 + 4 b2 + el` of the output buffer, last store first. -/
def rowPieces (k2 : Fin k0_t2_loop.trips) (b2 : Fin 2) (el : Fin 4) (a : Acc8 F) : List (View.Piece (Elt F) S128x128 .f32) :=
  [⟨Rect.unit (s := S128x128) (k0_off14 k2 (BitVec.ofNat 32 b2.val) (BitVec.ofNat 32 el.val)) S1x16.size (k0_off14_inb k2 b2 el), shapeCast S1x16 (a.2.2.2.2.2.2.2) shapeCasts_S16_S1x16⟩,
   ⟨Rect.unit (s := S128x128) (k0_off13 k2 (BitVec.ofNat 32 b2.val) (BitVec.ofNat 32 el.val)) S1x16.size (k0_off13_inb k2 b2 el), shapeCast S1x16 (a.2.2.2.2.2.2.1) shapeCasts_S16_S1x16⟩,
   ⟨Rect.unit (s := S128x128) (k0_off12 k2 (BitVec.ofNat 32 b2.val) (BitVec.ofNat 32 el.val)) S1x16.size (k0_off12_inb k2 b2 el), shapeCast S1x16 (a.2.2.2.2.2.1) shapeCasts_S16_S1x16⟩,
   ⟨Rect.unit (s := S128x128) (k0_off11 k2 (BitVec.ofNat 32 b2.val) (BitVec.ofNat 32 el.val)) S1x16.size (k0_off11_inb k2 b2 el), shapeCast S1x16 (a.2.2.2.2.1) shapeCasts_S16_S1x16⟩,
   ⟨Rect.unit (s := S128x128) (k0_off10 k2 (BitVec.ofNat 32 b2.val) (BitVec.ofNat 32 el.val)) S1x16.size (k0_off10_inb k2 b2 el), shapeCast S1x16 (a.2.2.2.1) shapeCasts_S16_S1x16⟩,
   ⟨Rect.unit (s := S128x128) (k0_off9 k2 (BitVec.ofNat 32 b2.val) (BitVec.ofNat 32 el.val)) S1x16.size (k0_off9_inb k2 b2 el), shapeCast S1x16 (a.2.2.1) shapeCasts_S16_S1x16⟩,
   ⟨Rect.unit (s := S128x128) (k0_off8 k2 (BitVec.ofNat 32 b2.val) (BitVec.ofNat 32 el.val)) S1x16.size (k0_off8_inb k2 b2 el), shapeCast S1x16 (a.2.1) shapeCasts_S16_S1x16⟩,
   ⟨Rect.unit (s := S128x128) (k0_off7 k2 (BitVec.ofNat 32 b2.val) (BitVec.ofNat 32 el.val)) S1x16.size (k0_off7_inb k2 b2 el), shapeCast S1x16 (a.1) shapeCasts_S16_S1x16⟩]

/-- The sixty-four stores of one pair trip, last store first. -/
def tripPieces (k2 : Fin k0_t2_loop.trips) (a1 a2 a3 a4 b1 b2 b3 b4 : Acc8 F) : List (View.Piece (Elt F) S128x128 .f32) :=
  rowPieces k2 1 3 b4 ++ rowPieces k2 1 2 b3 ++ rowPieces k2 1 1 b2 ++ rowPieces k2 1 0 b1
    ++ rowPieces k2 0 3 a4 ++ rowPieces k2 0 2 a3 ++ rowPieces k2 0 1 a2 ++ rowPieces k2 0 0 a1

end Cert.Proof.KI

end
-- ==== Proof.KIInv.lean ====
/-
  The invariants of the tile's three nested loops.  A reduction loop holds its slot buffer unchanged and its eight
  accumulators at the partial sums; the pair loop holds the node buffer at the node rows, the output buffer's first
  `8 k2` rows finished, slot 0's gather for group `2 k2` in flight (its destination already spoken of at the rows it
  will hold), slot 1 idle; the superchunk loop holds the tile's two index lists, the scratch buffers, and the result
  chunks, those of finished superchunks at the aggregate.
-/
import proofs.«210776_g5076651344590_cont_8to1_c_706_2_alg».proof.Proof.KIPay
import proofs.«210776_g5076651344590_cont_8to1_c_706_2_alg».proof.Proof.KIVals

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "featV" => (Memref.whole Cert.KernelIdeal.main_arg0_scv : Memref Cert.KernelIdeal.sig Kind.scVector Space.hbm Cert.KernelIdeal.S100000x128 EltTy.f32)
local notation "nfV" => (Memref.whole Cert.KernelIdeal.main_v0_scv : Memref Cert.KernelIdeal.sig Kind.scVector Space.hbm Cert.KernelIdeal.S524288 EltTy.i32)
local notation "ndV" => (Memref.whole Cert.KernelIdeal.main_v1_scv : Memref Cert.KernelIdeal.sig Kind.scVector Space.hbm Cert.KernelIdeal.S16384 EltTy.i32)
local notation "sumV" => (Memref.whole Cert.KernelIdeal.main_v2_scv : Memref Cert.KernelIdeal.sig Kind.scVector Space.hbm Cert.KernelIdeal.S16384x128 EltTy.f32)
local notation "s0V" => (Memref.whole Cert.KernelIdeal.cc0_scratch0 : Memref Cert.KernelIdeal.sig Kind.scVector Space.vmem Cert.KernelIdeal.S16384 EltTy.i32)
local notation "s1V" => (Memref.whole Cert.KernelIdeal.cc0_scratch1 : Memref Cert.KernelIdeal.sig Kind.scVector Space.vmem Cert.KernelIdeal.S512 EltTy.i32)
local notation "s2V" => (Memref.whole Cert.KernelIdeal.cc0_scratch2 : Memref Cert.KernelIdeal.sig Kind.scVector Space.vmem Cert.KernelIdeal.S128x128 EltTy.f32)
local notation "s3V" => (Memref.whole Cert.KernelIdeal.cc0_scratch3 : Memref Cert.KernelIdeal.sig Kind.scVector Space.vmem Cert.KernelIdeal.S128x128 EltTy.f32)
local notation "s4V" => (Memref.whole Cert.KernelIdeal.cc0_scratch4 : Memref Cert.KernelIdeal.sig Kind.scVector Space.vmem Cert.KernelIdeal.S128x128 EltTy.f32)
local notation "s5V" => (Memref.whole Cert.KernelIdeal.cc0_scratch5 : Memref Cert.KernelIdeal.sig Kind.scVector Space.vmem Cert.KernelIdeal.S128x128 EltTy.f32)

variable [FloatOps F] [Named F]
variable (d : Dev nD) (L : grid0.Coords)

/-- the table as a gather names it: the slice of the whole array by the whole rectangle -/
abbrev featSl : Memref sig .scVector .hbm S100000x128 .f32 :=
  (featV).slice (Rect.unit (s := S100000x128) ![0, 0] S100000x128.size inb_S100000x128_S100000x128_0_0) (fun _ => rfl)
/-- 128 consecutive words of the tile's neighbour list, from position `o` -/
abbrev lst (o : Fin 1 → Nat) (ho : ∀ a, o a + S128.size a ≤ S16384.size a) : Memref sig .scVector .vmem S128 .i32 :=
  (s0V).slice (Rect.unit (s := S16384) o S128.size ho) (fun _ => rfl)

omit [FloatOps F] [Named F] in
/-- a buffer's contents, named -/
theorem name_contents {ℓ : Loc nD τ sig} {I : Finset (Idx ℓ)} {q : PosShare TreeShare} (f : Buf (Elt F) ℓ) :
    (ℓ ↦[I]{q} f : sProp 𝕄) ⊢ iprop(∃ g, ⌜g = f⌝ ∗ ℓ ↦[I]{q} g) := by
  iintro H; iexists f; isplitr
  · ipureintro; rfl
  · iexact H

open Idealize.ShloMosaic.ValueIdx Cert.Spec Cert.Proof.Sums

omit [FloatOps F] [Named F] in
/-- The first batch row of tile `L`: `1024 s + 512 c`. -/
def gb0 (L : grid0.Coords) : ℕ := 1024 * (L 1).val + 512 * (L 0).val
omit [FloatOps F] [Named F] in
theorem gb0_le (L : grid0.Coords) : gb0 L + 512 ≤ 16384 := by
  have h0 : (L 0).val < 2 := (L 0).isLt
  have h1 : (L 1).val < 16 := (L 1).isLt
  unfold gb0; omega

/-- The tile's copy of its 512 node words, and of its 16384 neighbour words, are what the flattened lists hold there. -/
def G1ok (L : grid0.Coords) (g1 : S512.Idx → BitVec 32) (nd : SNodeFlat.Idx → BitVec 32) : Prop :=
  ∀ y : Fin 512, g1 (ix1 y) = nd (ix1 ⟨gb0 L + y.val, by have := gb0_le L; omega⟩)
def G0ok (L : grid0.Coords) (g0 : S16384.Idx → BitVec 32) (nf : SNbrFlat.Idx → BitVec 32) : Prop :=
  ∀ y : Fin 16384, g0 (ix1 y) = nf (ix1 ⟨32 * gb0 L + y.val, by have := gb0_le L; omega⟩)

/-- a reduction loop over slot 0's buffer: the buffer as it is, the accumulators at the partial sums -/
def invR4V (B0 : Buf (Elt F) ((s4V).view.loc (V d (cV L) (jV L)))) (el : ℕ) (hel : 32 * el + 32 ≤ 128) (init : Acc8 F) (r : Nat) (acc : Acc8 F) : sProp 𝕄 :=
  iprop(((s4V).view.loc (V d (cV L) (jV L)) ↦{fullShare} B0) ∗ ⌜acc = redT B0 el hel init r⌝)
def invR5V (B1 : Buf (Elt F) ((s5V).view.loc (V d (cV L) (jV L)))) (el : ℕ) (hel : 32 * el + 32 ≤ 128) (init : Acc8 F) (r : Nat) (acc : Acc8 F) : sProp 𝕄 :=
  iprop(((s5V).view.loc (V d (cV L) (jV L)) ↦{fullShare} B1) ∗ ⌜acc = redT B1 el hel init r⌝)

/-- slot 0 at the head of pair trip k2 of the superchunk at batch rows gb: its gather for group 2 k2 in flight, or (after the last trip) idle -/
def slot0V (qa : PosShare TreeShare) (ff : Buf (Elt F) ((featV).view.loc (V d (cV L) (jV L)))) (g0 : Buf (Elt F) ((s0V).view.loc (V d (cV L) (jV L))))
    (nf : SNbrFlat.Idx → BitVec 32) (gb : ℕ) (hgb : gb + 128 ≤ 16384) (k1 : Fin k0_t1_loop.trips) (k2 : Nat) : sProp 𝕄 :=
  if h : k2 < 16 then
    iprop(∃ (B0 : Buf (Elt F) ((s4V).view.loc (V d (cV L) (jV L)))) (o : Fin 1 → Nat) (ho : ∀ a, o a + S128.size a ≤ S16384.size a), ⌜o = ![4096 * k1.val + 256 * k2]⌝
        ∗ ⌜QB ff nf gb hgb (2 * k2) (by omega) B0⌝
        ∗ Transfers.Flight countersEmb (V d (cV L) (jV L)) (SemLoc.dma cc0_scratch7.sem) (default : HIx 1) 524288
            iprop((((s4V).view.loc (V d (cV L) (jV L)) ↦[(s4V).view.set]{fullShare} B0)
              ∗ ((s0V).view.loc (V d (cV L) (jV L)) ↦[(lst o ho).view.set]{fullShare} g0))
              ∗ ((featV).view.loc (V d (cV L) (jV L)) ↦[(featSl).view.set]{qa} ff))
        ∗ ((s4V).view.loc (V d (cV L) (jV L)) ↦[Finset.univ \ (s4V).view.set]{fullShare} B0)
        ∗ ((s0V).view.loc (V d (cV L) (jV L)) ↦[Finset.univ \ (lst o ho).view.set]{fullShare} g0)
        ∗ ((featV).view.loc (V d (cV L) (jV L)) ↦[Finset.univ \ (featSl).view.set]{qa} ff))
  else
    iprop((∃ B0, (s4V).view.loc (V d (cV L) (jV L)) ↦{fullShare} B0) ∗ ((s0V).view.loc (V d (cV L) (jV L)) ↦{fullShare} g0) ∗ ((featV).view.loc (V d (cV L) (jV L)) ↦{qa} ff)
      ∗ semVal ((V d (cV L) (jV L)), SemLoc.dma cc0_scratch7.sem) 0)

/-- the pair loop's invariant inside the superchunk at batch rows gb -/
def inv2V (qa qb : PosShare TreeShare) (O : CellTallies nD τ sig (HIx 1)) (W : Waits sig (HIx 1))
    (ff : Buf (Elt F) ((featV).view.loc (V d (cV L) (jV L)))) (g0 : Buf (Elt F) ((s0V).view.loc (V d (cV L) (jV L))))
    (nd : SNodeFlat.Idx → BitVec 32) (nf : SNbrFlat.Idx → BitVec 32) (gb : ℕ) (hgb : gb + 128 ≤ 16384)
    (k1 : Fin k0_t1_loop.trips) (k2 : Nat) (_ : PUnit) : sProp 𝕄 :=
  iprop(Transfers.MayWaits (V d (cV L) (jV L)) (default : HIx 1) O
    ∗ (∃ N2, ⌜QN ff nd gb hgb N2⌝ ∗ (s2V).view.loc (V d (cV L) (jV L)) ↦{fullShare} N2)
    ∗ (∃ f3, ⌜Q3 (TV ff nd nf gb hgb) (8 * k2) f3⌝ ∗ (s3V).view.loc (V d (cV L) (jV L)) ↦{fullShare} f3)
    ∗ slot0V d L qa ff g0 nf gb hgb k1 k2
    ∗ (∃ f5, (s5V).view.loc (V d (cV L) (jV L)) ↦{fullShare} f5) ∗ ((featV).view.loc (V d (cV L) (jV L)) ↦{qb} ff)
    ∗ semVal ((V d (cV L) (jV L)), SemLoc.dma cc0_scratch8.sem) 0
    ∗ ∃ W', ⌜∀ p ∈ W', p ∈ W ∨ p.2 = none⌝ ∗ owes (V d (cV L) (jV L)) O W')

/-- the superchunk loop's invariant: the chunks of finished superchunks hold the aggregate -/
def inv1V (qa qb : PosShare TreeShare) (O : CellTallies nD τ sig (HIx 1)) (W : Waits sig (HIx 1))
    (ff : Buf (Elt F) ((featV).view.loc (V d (cV L) (jV L)))) (g0 : Buf (Elt F) ((s0V).view.loc (V d (cV L) (jV L)))) (g1 : Buf (Elt F) ((s1V).view.loc (V d (cV L) (jV L))))
    (nd : SNodeFlat.Idx → BitVec 32) (nf : SNbrFlat.Idx → BitVec 32)
    (k1 : Nat) (_ : PUnit) : sProp 𝕄 :=
  iprop(Transfers.MayWaits (V d (cV L) (jV L)) (default : HIx 1) O
    ∗ ((featV).view.loc (V d (cV L) (jV L)) ↦{qa} ff) ∗ ((featV).view.loc (V d (cV L) (jV L)) ↦{qb} ff)
    ∗ ((s0V).view.loc (V d (cV L) (jV L)) ↦{fullShare} g0) ∗ ((s1V).view.loc (V d (cV L) (jV L)) ↦{fullShare} g1)
    ∗ (∃ f, (s2V).view.loc (V d (cV L) (jV L)) ↦{fullShare} f) ∗ (∃ f, (s3V).view.loc (V d (cV L) (jV L)) ↦{fullShare} f)
    ∗ (∃ f, (s4V).view.loc (V d (cV L) (jV L)) ↦{fullShare} f) ∗ (∃ f, (s5V).view.loc (V d (cV L) (jV L)) ↦{fullShare} f)
    ∗ (bigSep Finset.univ fun k' : Fin k0_t1_loop.trips => iprop(∃ fo, ⌜k'.val < k1 → ∀ y ∈ (outK L k').view.set, fo y = sums ff nd nf y⌝
        ∗ (outK L k').view.loc (V d (cV L) (jV L)) ↦[(outK L k').view.set]{fullShare} fo))
    ∗ semVal ((V d (cV L) (jV L)), SemLoc.dma cc0_scratch6.sem) 0 ∗ semVal ((V d (cV L) (jV L)), SemLoc.dma cc0_scratch7.sem) 0
    ∗ semVal ((V d (cV L) (jV L)), SemLoc.dma cc0_scratch8.sem) 0 ∗ semVal ((V d (cV L) (jV L)), SemLoc.dma cc0_scoped2.sem) 0
    ∗ ∃ W', ⌜∀ p ∈ W', p ∈ W ∨ p.2 = none⌝ ∗ owes (V d (cV L) (jV L)) O W')

end Cert.Proof.KI

end
-- ==== Proof.KITileSplit.lean ====
/-
  A tile's own storage, sorted: of the vector subcore's scoped semaphores at zero, the six the body names and the
  rest; of its scoped buffers, the six scratch buffers and the rest.
-/
import proofs.«210776_g5076651344590_cont_8to1_c_706_2_alg».proof.Proof.KIInv
import Idealize.ShloMosaic.Lib.SparseCore.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (c : Fin τ.nSC) (i : Fin τ.nSub)

/-- The six DMA semaphores the tile's body names. -/
def sems6 : Finset (DmaSem sig) :=
  {cc0_scratch6.sem, cc0_scratch7.sem, cc0_scratch8.sem, cc0_scoped0.sem, cc0_scoped1.sem, cc0_scoped2.sem}

theorem sems6_scoped : ∀ s ∈ sems6, (SemLoc.dma s : SemLoc sig).isScoped .scVector = true := by decide

/-- The subcore's own semaphores at zero: the six, and the rest. -/
theorem ownSems0_six :
    (ownSems0 (V d c i) : sProp 𝕄)
      = iprop((semVal ((V d c i, SemLoc.dma cc0_scratch6.sem) : GSem nD τ sig) 0 ∗ semVal ((V d c i, SemLoc.dma cc0_scratch7.sem) : GSem nD τ sig) 0
          ∗ semVal ((V d c i, SemLoc.dma cc0_scratch8.sem) : GSem nD τ sig) 0 ∗ semVal ((V d c i, SemLoc.dma cc0_scoped0.sem) : GSem nD τ sig) 0
          ∗ semVal ((V d c i, SemLoc.dma cc0_scoped1.sem) : GSem nD τ sig) 0 ∗ semVal ((V d c i, SemLoc.dma cc0_scoped2.sem) : GSem nD τ sig) 0)
          ∗ bigSep (ownCells (V d c i) \ sems6.image fun s => ((V d c i, SemLoc.dma s) : GSem nD τ sig)) fun g => semVal g 0) := by
  unfold SparseCore.Cfg.ownSems0
  have hsub : (sems6.image fun s => ((V d c i, SemLoc.dma s) : GSem nD τ sig)) ⊆ ownCells (V d c i) := by
    intro g hg
    obtain ⟨s, hs, rfl⟩ := Finset.mem_image.mp hg
    exact mem_ownCells.mpr ⟨rfl, sems6_scoped s hs⟩
  have hinj : Set.InjOn (fun s : DmaSem sig => ((V d c i, SemLoc.dma s) : GSem nD τ sig)) (sems6 : Set (DmaSem sig)) := by
    intro a _ b _ e
    exact SemLoc.dma.inj (Prod.mk.inj e).2
  rw [SparseCore.bigSep_sdiff_split' hsub, SparseCore.bigSep_image_of_injOn hinj]
  unfold sems6
  rw [SparseCore.bigSep_insert' (by decide), SparseCore.bigSep_insert' (by decide), SparseCore.bigSep_insert' (by decide),
    SparseCore.bigSep_insert' (by decide), SparseCore.bigSep_insert' (by decide), bigSep_singleton]

/-- The six scratch buffers. -/
def bufs6 : Finset (Ref sig .scVector) := {cc0_scratch0, cc0_scratch1, cc0_scratch2, cc0_scratch3, cc0_scratch4, cc0_scratch5}

/-- The subcore's own buffers, each at some contents: the six scratch buffers, and the rest. -/
theorem ownBufs_six :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f) ∗ (∃ f, (V d c i).loc cc0_scratch5 ↦{fullShare} f))
          ∗ bigSep (ownRefs (τ := τ) (.scVector c i) \ bufs6.image fun r => (Proc.scVector c i).devRef r)
              fun b => iprop(∃ f, ((d, b) : Loc nD τ sig) ↦{fullShare} f)) := by
  unfold SparseCore.Cfg.ownBufs
  have hsub : (bufs6.image fun r => ((Proc.scVector c i).devRef r : DevRef τ sig)) ⊆ ownRefs (τ := τ) (.scVector c i) := by
    intro b hb
    obtain ⟨r, hr, rfl⟩ := Finset.mem_image.mp hb
    unfold bufs6 at hr
    simp only [Finset.mem_insert, Finset.mem_singleton] at hr
    rcases hr with rfl | rfl | rfl | rfl | rfl | rfl <;>
      exact SparseCore.Cfg.mem_ownRefs_of_owner (p := Proc.scVector c i) rfl
  have hinj : Set.InjOn (fun r : Ref sig .scVector => ((Proc.scVector c i).devRef r : DevRef τ sig)) (bufs6 : Set (Ref sig .scVector)) :=
    fun a _ b _ e => Proc.devRef_injective _ e
  rw [show ((V d c i : Thread nD τ).2) = Proc.scVector c i from rfl, SparseCore.bigSep_sdiff_split' hsub, SparseCore.bigSep_image_of_injOn hinj]
  unfold bufs6
  rw [SparseCore.bigSep_insert' (by decide), SparseCore.bigSep_insert' (by decide), SparseCore.bigSep_insert' (by decide),
    SparseCore.bigSep_insert' (by decide), SparseCore.bigSep_insert' (by decide), bigSep_singleton]

end Cert.Proof.KI

end
-- ==== Proof.KIValsRed.lean ====
/-
  The reductions, as the tile's body runs them.

  A reduction over block el of a neighbour slot keeps eight sixteen-lane accumulators, one per lane group, and adds
  row 32 el + r of the slot to them at trip r.  Started from the node buffer's row for a batch row, after thirty-two
  trips accumulator j holds, at lane x, the node's table entry plus that batch row's thirty-two neighbours' entries at
  lane 16 j + x, summed left to right: the aggregate the output buffer is to hold there.
-/
import proofs.«210776_g5076651344590_cont_8to1_c_706_2_alg».proof.Proof.KIVals

noncomputable section

namespace Cert.Proof.KI

open Cert.KernelIdeal Cert.KernelIdeal.Gen
open Idealize.ShloMosaic Idealize.ShloMosaic.ValueIdx Cert.Spec Cert.Proof.Sums

variable {F : FTy → Type}

local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)

/-- Accumulator j of a buffer's row is the row's lanes 16 j … 16 j + 15. -/
theorem comp_initT (N2 : S128x128.Idx → Elt F .f32) (row : ℕ) (h : row < 128) (j : Fin 8) :
    comp (initT N2 row h) j = rowVec N2 row (16 * j.val) h (by have := j.isLt; omega) := by
  fin_cases j <;> rfl

variable [FloatOps F]

theorem redT_zero (B : S128x128.Idx → Elt F .f32) (el : ℕ) (hel : 32 * el + 32 ≤ 128) (init : Acc8 F) :
    redT B el hel init 0 = init := rfl

/-- Accumulator j of a reduction is the accumulation at lanes 16 j … 16 j + 15 started from accumulator j. -/
theorem comp_redT (B : S128x128.Idx → Elt F .f32) (el : ℕ) (hel : 32 * el + 32 ≤ 128) (init : Acc8 F) (n : ℕ) (j : Fin 8) :
    comp (redT B el hel init n) j = redFold B (32 * el) (16 * j.val) hel (by have := j.isLt; omega) (comp init j) n := by
  fin_cases j <;> rfl

/-- Equal rows and lanes give equal windows, whatever the evidence. -/
theorem rowVec_congr (B : S128x128.Idx → Elt F .f32) {r r' l l' : ℕ} (hr : r = r') (hl : l = l')
    (p : r < 128) (q : l + 16 ≤ 128) (p' : r' < 128) (q' : l' + 16 ≤ 128) : rowVec B r l p q = rowVec B r' l' p' q' := by
  subst hr hl; rfl

/-- One accumulator's step: adding the flattened window at offsets (row0 + r, lane0) is the accumulation's next stage. -/
theorem redFold_step (B : S128x128.Idx → Elt F .f32) (row0 lane0 : ℕ) (h : row0 + 32 ≤ 128) (hl : lane0 + 16 ≤ 128)
    (a0 : FVec F S16 .f32) (r : ℕ) (hr : r < 32) (o : Fin 2 → Nat) (ho : ∀ a, o a + S1x16.size a ≤ S128x128.size a)
    (e0 : o 0 = row0 + r) (e1 : o 1 = lane0) :
    addf (redFold B row0 lane0 h hl a0 r)
        (shapeCast S16 (fun y : S1x16.Idx => B ((Rect.unit (s := S128x128) o S1x16.size ho).toLoadRect.idx y)) shapeCasts_S1x16_S16)
      = redFold B row0 lane0 h hl a0 (r + 1) := by
  rw [redFold_succ B row0 lane0 h hl a0 r hr, ld_fun_eq, rowVec_congr B e0 e1]

/-- One trip of a reduction over buffer 4: each accumulator takes the row's sixteen lanes of its lane group. -/
theorem redT_step4 (B : S128x128.Idx → Elt F .f32) (el : ℕ) (hel : 32 * el + 32 ≤ 128) (init : Acc8 F) (r : ℕ) (hr : r < 32)
    (o0 o1 o2 o3 o4 o5 o6 o7 : Fin 2 → Nat)
    (h0 : ∀ a, o0 a + S1x16.size a ≤ S128x128.size a)
    (h1 : ∀ a, o1 a + S1x16.size a ≤ S128x128.size a)
    (h2 : ∀ a, o2 a + S1x16.size a ≤ S128x128.size a)
    (h3 : ∀ a, o3 a + S1x16.size a ≤ S128x128.size a)
    (h4 : ∀ a, o4 a + S1x16.size a ≤ S128x128.size a)
    (h5 : ∀ a, o5 a + S1x16.size a ≤ S128x128.size a)
    (h6 : ∀ a, o6 a + S1x16.size a ≤ S128x128.size a)
    (h7 : ∀ a, o7 a + S1x16.size a ≤ S128x128.size a)
    (e0 : o0 = ![r + 32 * el, 0])     (e1 : o1 = ![r + 32 * el, 16])     (e2 : o2 = ![r + 32 * el, 32])     (e3 : o3 = ![r + 32 * el, 48])     (e4 : o4 = ![r + 32 * el, 64])     (e5 : o5 = ![r + 32 * el, 80])     (e6 : o6 = ![r + 32 * el, 96])     (e7 : o7 = ![r + 32 * el, 112])
    (acc : Acc8 F) (hacc : acc = redT B el hel init r) :
    (addf acc.1 (shapeCast S16 (View.readAt (Elt F) (b4V).view (Rect.unit (s := S128x128) o0 S1x16.size h0).toLoadRect B) shapeCasts_S1x16_S16),
     addf acc.2.1 (shapeCast S16 (View.readAt (Elt F) (b4V).view (Rect.unit (s := S128x128) o1 S1x16.size h1).toLoadRect B) shapeCasts_S1x16_S16),
     addf acc.2.2.1 (shapeCast S16 (View.readAt (Elt F) (b4V).view (Rect.unit (s := S128x128) o2 S1x16.size h2).toLoadRect B) shapeCasts_S1x16_S16),
     addf acc.2.2.2.1 (shapeCast S16 (View.readAt (Elt F) (b4V).view (Rect.unit (s := S128x128) o3 S1x16.size h3).toLoadRect B) shapeCasts_S1x16_S16),
     addf acc.2.2.2.2.1 (shapeCast S16 (View.readAt (Elt F) (b4V).view (Rect.unit (s := S128x128) o4 S1x16.size h4).toLoadRect B) shapeCasts_S1x16_S16),
     addf acc.2.2.2.2.2.1 (shapeCast S16 (View.readAt (Elt F) (b4V).view (Rect.unit (s := S128x128) o5 S1x16.size h5).toLoadRect B) shapeCasts_S1x16_S16),
     addf acc.2.2.2.2.2.2.1 (shapeCast S16 (View.readAt (Elt F) (b4V).view (Rect.unit (s := S128x128) o6 S1x16.size h6).toLoadRect B) shapeCasts_S1x16_S16),
     addf acc.2.2.2.2.2.2.2 (shapeCast S16 (View.readAt (Elt F) (b4V).view (Rect.unit (s := S128x128) o7 S1x16.size h7).toLoadRect B) shapeCasts_S1x16_S16))
      = redT B el hel init (r + 1) := by
  subst hacc e0 e1 e2 e3 e4 e5 e6 e7
  have hc : r + 32 * el = 32 * el + r := Nat.add_comm _ _
  unfold redT
  refine Prod.ext ?_ (Prod.ext ?_ (Prod.ext ?_ (Prod.ext ?_ (Prod.ext ?_ (Prod.ext ?_ (Prod.ext ?_ ?_))))))
  all_goals exact redFold_step B _ _ _ _ _ r hr _ _ hc rfl

/-- One trip of a reduction over buffer 5: each accumulator takes the row's sixteen lanes of its lane group. -/
theorem redT_step5 (B : S128x128.Idx → Elt F .f32) (el : ℕ) (hel : 32 * el + 32 ≤ 128) (init : Acc8 F) (r : ℕ) (hr : r < 32)
    (o0 o1 o2 o3 o4 o5 o6 o7 : Fin 2 → Nat)
    (h0 : ∀ a, o0 a + S1x16.size a ≤ S128x128.size a)
    (h1 : ∀ a, o1 a + S1x16.size a ≤ S128x128.size a)
    (h2 : ∀ a, o2 a + S1x16.size a ≤ S128x128.size a)
    (h3 : ∀ a, o3 a + S1x16.size a ≤ S128x128.size a)
    (h4 : ∀ a, o4 a + S1x16.size a ≤ S128x128.size a)
    (h5 : ∀ a, o5 a + S1x16.size a ≤ S128x128.size a)
    (h6 : ∀ a, o6 a + S1x16.size a ≤ S128x128.size a)
    (h7 : ∀ a, o7 a + S1x16.size a ≤ S128x128.size a)
    (e0 : o0 = ![r + 32 * el, 0])     (e1 : o1 = ![r + 32 * el, 16])     (e2 : o2 = ![r + 32 * el, 32])     (e3 : o3 = ![r + 32 * el, 48])     (e4 : o4 = ![r + 32 * el, 64])     (e5 : o5 = ![r + 32 * el, 80])     (e6 : o6 = ![r + 32 * el, 96])     (e7 : o7 = ![r + 32 * el, 112])
    (acc : Acc8 F) (hacc : acc = redT B el hel init r) :
    (addf acc.1 (shapeCast S16 (View.readAt (Elt F) (b5V).view (Rect.unit (s := S128x128) o0 S1x16.size h0).toLoadRect B) shapeCasts_S1x16_S16),
     addf acc.2.1 (shapeCast S16 (View.readAt (Elt F) (b5V).view (Rect.unit (s := S128x128) o1 S1x16.size h1).toLoadRect B) shapeCasts_S1x16_S16),
     addf acc.2.2.1 (shapeCast S16 (View.readAt (Elt F) (b5V).view (Rect.unit (s := S128x128) o2 S1x16.size h2).toLoadRect B) shapeCasts_S1x16_S16),
     addf acc.2.2.2.1 (shapeCast S16 (View.readAt (Elt F) (b5V).view (Rect.unit (s := S128x128) o3 S1x16.size h3).toLoadRect B) shapeCasts_S1x16_S16),
     addf acc.2.2.2.2.1 (shapeCast S16 (View.readAt (Elt F) (b5V).view (Rect.unit (s := S128x128) o4 S1x16.size h4).toLoadRect B) shapeCasts_S1x16_S16),
     addf acc.2.2.2.2.2.1 (shapeCast S16 (View.readAt (Elt F) (b5V).view (Rect.unit (s := S128x128) o5 S1x16.size h5).toLoadRect B) shapeCasts_S1x16_S16),
     addf acc.2.2.2.2.2.2.1 (shapeCast S16 (View.readAt (Elt F) (b5V).view (Rect.unit (s := S128x128) o6 S1x16.size h6).toLoadRect B) shapeCasts_S1x16_S16),
     addf acc.2.2.2.2.2.2.2 (shapeCast S16 (View.readAt (Elt F) (b5V).view (Rect.unit (s := S128x128) o7 S1x16.size h7).toLoadRect B) shapeCasts_S1x16_S16))
      = redT B el hel init (r + 1) := by
  subst hacc e0 e1 e2 e3 e4 e5 e6 e7
  have hc : r + 32 * el = 32 * el + r := Nat.add_comm _ _
  unfold redT
  refine Prod.ext ?_ (Prod.ext ?_ (Prod.ext ?_ (Prod.ext ?_ (Prod.ext ?_ (Prod.ext ?_ (Prod.ext ?_ ?_))))))
  all_goals exact redFold_step B _ _ _ _ _ r hr _ _ hc rfl

local notation "b2V" => (Memref.whole Cert.KernelIdeal.cc0_scratch2 : Memref Cert.KernelIdeal.sig Kind.scVector Space.vmem Cert.KernelIdeal.S128x128 EltTy.f32)

/-- The eight loads that start a reduction are the node buffer's row. -/
theorem initT_of_loads (N2 : S128x128.Idx → Elt F .f32) (row : ℕ) (h : row < 128)
    (o0 o1 o2 o3 o4 o5 o6 o7 : Fin 2 → Nat)
    (h0 : ∀ a, o0 a + S1x16.size a ≤ S128x128.size a)
    (h1 : ∀ a, o1 a + S1x16.size a ≤ S128x128.size a)
    (h2 : ∀ a, o2 a + S1x16.size a ≤ S128x128.size a)
    (h3 : ∀ a, o3 a + S1x16.size a ≤ S128x128.size a)
    (h4 : ∀ a, o4 a + S1x16.size a ≤ S128x128.size a)
    (h5 : ∀ a, o5 a + S1x16.size a ≤ S128x128.size a)
    (h6 : ∀ a, o6 a + S1x16.size a ≤ S128x128.size a)
    (h7 : ∀ a, o7 a + S1x16.size a ≤ S128x128.size a)
    (e0 : o0 = ![row, 0])     (e1 : o1 = ![row, 16])     (e2 : o2 = ![row, 32])     (e3 : o3 = ![row, 48])     (e4 : o4 = ![row, 64])     (e5 : o5 = ![row, 80])     (e6 : o6 = ![row, 96])     (e7 : o7 = ![row, 112]) :
    (shapeCast S16 (View.readAt (Elt F) (b2V).view (Rect.unit (s := S128x128) o0 S1x16.size h0).toLoadRect N2) shapeCasts_S1x16_S16,
     shapeCast S16 (View.readAt (Elt F) (b2V).view (Rect.unit (s := S128x128) o1 S1x16.size h1).toLoadRect N2) shapeCasts_S1x16_S16,
     shapeCast S16 (View.readAt (Elt F) (b2V).view (Rect.unit (s := S128x128) o2 S1x16.size h2).toLoadRect N2) shapeCasts_S1x16_S16,
     shapeCast S16 (View.readAt (Elt F) (b2V).view (Rect.unit (s := S128x128) o3 S1x16.size h3).toLoadRect N2) shapeCasts_S1x16_S16,
     shapeCast S16 (View.readAt (Elt F) (b2V).view (Rect.unit (s := S128x128) o4 S1x16.size h4).toLoadRect N2) shapeCasts_S1x16_S16,
     shapeCast S16 (View.readAt (Elt F) (b2V).view (Rect.unit (s := S128x128) o5 S1x16.size h5).toLoadRect N2) shapeCasts_S1x16_S16,
     shapeCast S16 (View.readAt (Elt F) (b2V).view (Rect.unit (s := S128x128) o6 S1x16.size h6).toLoadRect N2) shapeCasts_S1x16_S16,
     shapeCast S16 (View.readAt (Elt F) (b2V).view (Rect.unit (s := S128x128) o7 S1x16.size h7).toLoadRect N2) shapeCasts_S1x16_S16)
      = initT N2 row h := by
  subst e0 e1 e2 e3 e4 e5 e6 e7
  unfold initT
  refine Prod.ext ?_ (Prod.ext ?_ (Prod.ext ?_ (Prod.ext ?_ (Prod.ext ?_ (Prod.ext ?_ (Prod.ext ?_ ?_))))))
  all_goals exact ld_fun_eq N2 _ _

/-- The finished accumulators hold the aggregate of their batch row. -/
theorem acc_final (feat : SFeat.Idx → F .f32) (nd : SNodeFlat.Idx → BitVec 32) (nf : SNbrFlat.Idx → BitVec 32)
    (gb : ℕ) (hgb : gb + 128 ≤ 16384) (N2 B : S128x128.Idx → Elt F .f32) (k2 : ℕ) (hk2 : k2 < 16) (b2 : Fin 2) (el : Fin 4)
    (hN : QN feat nd gb hgb N2) (hB : QB feat nf gb hgb (2 * k2 + b2.val) (by have := b2.isLt; omega) B) (j : Fin 8) (x : Fin 16) :
    comp (redT B el.val (by have := el.isLt; omega)
        (initT N2 (8 * k2 + 4 * b2.val + el.val) (by have := b2.isLt; have := el.isLt; omega)) 32) j (ix1 x)
      = TV feat nd nf gb hgb (ix2 (⟨8 * k2 + 4 * b2.val + el.val, by have := b2.isLt; have := el.isLt; omega⟩ : Fin 128)
          (⟨16 * j.val + x.val, by have := j.isLt; have := x.isLt; omega⟩ : Fin 128)) := by
  have hb2 := b2.isLt
  have hel := el.isLt
  have hj := j.isLt
  have hx := x.isLt
  rw [comp_redT, comp_initT]
  refine redFold_partialSum feat nd nf (⟨gb + (8 * k2 + 4 * b2.val + el.val), by omega⟩ : Fin 16384) B (32 * el.val) (16 * j.val)
    _ _ _ x ?_ ?_ 32 (Nat.le_refl _)
  · exact hN (⟨8 * k2 + 4 * b2.val + el.val, by omega⟩ : Fin 128) (⟨16 * j.val + x.val, by omega⟩ : Fin 128)
  · intro r
    have hr := r.isLt
    rw [hB (⟨32 * el.val + r.val, by omega⟩ : Fin 128) (⟨16 * j.val + x.val, by omega⟩ : Fin 128)]
    have e : (⟨32 * gb + 128 * (2 * k2 + b2.val) + (32 * el.val + r.val), by omega⟩ : Fin 524288)
        = nbrPos (⟨gb + (8 * k2 + 4 * b2.val + el.val), by omega⟩ : Fin 16384) r := by
      apply Fin.ext
      show 32 * gb + 128 * (2 * k2 + b2.val) + (32 * el.val + r.val) = 32 * (gb + (8 * k2 + 4 * b2.val + el.val)) + r.val
      omega
    rw [e]

end Cert.Proof.KI

end
-- ==== Proof.KIValsGather.lean ====
/-
  What the three transfers of a superchunk leave, as mathematics.  A gather through a window of 128 index words
  fills a 128 x 128 buffer whole: its row r is the table row that word r of the window names.  The node window at
  128 k of the tile's node words gives the node rows of batch rows gb … gb + 127 (gb = gb0 + 128 k); the neighbour
  window at 4096 k + 128 g gives group g's rows.  The write-out of the output buffer puts its 128 rows at rows
  gb … gb + 127 of the aggregate array, so if the buffer holds the aggregates of those batch rows the chunk of the
  array holds the aggregate function there.
-/
import proofs.«210776_g5076651344590_cont_8to1_c_706_2_alg».proof.Proof.KIVals

noncomputable section

namespace Cert.Proof.KI

open Cert.KernelIdeal Cert.KernelIdeal.Gen
open Idealize.ShloMosaic Idealize.ShloMosaic.ValueIdx Cert.Spec Cert.Proof.Sums
open Idealize.ShloMosaic.SparseCore (S V T)

variable {F : FTy → Type}

local notation "s0V" => (Memref.whole Cert.KernelIdeal.cc0_scratch0 : Memref Cert.KernelIdeal.sig Kind.scVector Space.vmem Cert.KernelIdeal.S16384 EltTy.i32)
local notation "s1V" => (Memref.whole Cert.KernelIdeal.cc0_scratch1 : Memref Cert.KernelIdeal.sig Kind.scVector Space.vmem Cert.KernelIdeal.S512 EltTy.i32)
local notation "featV" => (Memref.whole Cert.KernelIdeal.main_arg0_scv : Memref Cert.KernelIdeal.sig Kind.scVector Space.hbm Cert.KernelIdeal.S100000x128 EltTy.f32)
set_option quotPrecheck false in
local notation "featSl" => (featV).slice (Rect.unit (s := Cert.KernelIdeal.S100000x128) ![0, 0] Cert.KernelIdeal.S100000x128.size Cert.KernelIdeal.Gen.inb_S100000x128_S100000x128_0_0) (fun _ => rfl)
local notation "b2V" => (Memref.whole Cert.KernelIdeal.cc0_scratch2 : Memref Cert.KernelIdeal.sig Kind.scVector Space.vmem Cert.KernelIdeal.S128x128 EltTy.f32)
local notation "b3V" => (Memref.whole Cert.KernelIdeal.cc0_scratch3 : Memref Cert.KernelIdeal.sig Kind.scVector Space.vmem Cert.KernelIdeal.S128x128 EltTy.f32)
local notation "b4V" => (Memref.whole Cert.KernelIdeal.cc0_scratch4 : Memref Cert.KernelIdeal.sig Kind.scVector Space.vmem Cert.KernelIdeal.S128x128 EltTy.f32)
local notation "b5V" => (Memref.whole Cert.KernelIdeal.cc0_scratch5 : Memref Cert.KernelIdeal.sig Kind.scVector Space.vmem Cert.KernelIdeal.S128x128 EltTy.f32)

/-! ## One piece over the whole buffer -/

/-- The one piece's payload is itself at the piece's positions: the whole rectangle places index x at x. -/
theorem one_piece (w : S128x128.Idx → Elt F .f32) :
    ∀ p ∈ ([⟨Rect.whole S128x128, w⟩] : List (View.Piece (Elt F) S128x128 .f32)), ∀ x : p.1.shape.Idx, p.2 x = w (p.1.emb x) := by
  intro p hp x
  obtain rfl := List.mem_singleton.mp hp
  show w x = w ((Rect.whole S128x128).emb x)
  rw [Rect.emb_whole_apply]

/-- Every index is under the one piece. -/
theorem one_piece_mem (w : S128x128.Idx → Elt F .f32) (y : S128x128.Idx) :
    ∃ p ∈ ([⟨Rect.whole S128x128, w⟩] : List (View.Piece (Elt F) S128x128 .f32)), y ∈ p.1.set :=
  ⟨_, List.mem_singleton.mpr rfl, by show y ∈ (Rect.whole S128x128).set; rw [Rect.set_whole]; exact Finset.mem_univ y⟩

/-! ## The node gather -/

/-- The node buffer just filled by the gather through the window at `128 k` of the tile's node words holds the
    node rows of batch rows `gb0 + 128 k …`. -/
theorem qn_of_gather (ff : S100000x128.Idx → Elt F .f32) (g1 : S512.Idx → Elt F .i32) (nd : SNodeFlat.Idx → BitVec 32)
    (gb0 k : ℕ) (hk : k < 4) (hgb0 : gb0 + 512 ≤ 16384)
    (hg1 : ∀ y : Fin 512, g1 (ix1 y) = nd (ix1 ⟨gb0 + y.val, by omega⟩))
    (hnd : ∀ z, (nd z).toNat < 100000)
    (o : Fin 1 → Nat) (ho : ∀ a, o a + S128.size a ≤ S512.size a) (ho' : o = ![128 * k])
    (hn : S128.numel = S128x128.size gathers_S100000x128_S128x128.axis')
    (hin : ∀ x, (((s1V).slice (Rect.unit (s := S512) o S128.size ho) (fun _ => rfl)).view.read (Elt F) g1 x).toNat
      < S100000x128.size gathers_S100000x128_S128x128.axis)
    (junk : S128x128.Idx → Elt F .f32) :
    QN ff nd (gb0 + 128 * k) (by omega)
      ((b2V).view.writes (Elt F) junk [⟨Rect.whole _, SparseCore.gatherPayload gathers_S100000x128_S128x128
        ((featSl).view.read (Elt F) ff)
        (SparseCore.rows (((s1V).slice (Rect.unit (s := S512) o S128.size ho) (fun _ => rfl)).view.read (Elt F) g1) hn hin)⟩]) := by
  subst ho'
  intro r l
  refine (writes_hit2 junk _ _ (one_piece _) (ix2 r l) (one_piece_mem _ _)).trans ?_
  rw [gather_apply, featSl_read]
  refine congrArg ff (congrArg (fun q => ix2 q l) (Fin.ext ?_))
  have hw : ((s1V).slice (Rect.unit (s := S512) ![128 * k] S128.size ho) (fun _ => rfl)).view.read (Elt F) g1 (ix1 r)
      = nd (ix1 ⟨gb0 + 128 * k + r.val, by omega⟩) := by
    rw [nlst_read, hg1]
    refine congrArg nd (congrArg ix1 (Fin.ext ?_))
    show gb0 + (128 * k + r.val) = gb0 + 128 * k + r.val
    omega
  show (((s1V).slice (Rect.unit (s := S512) ![128 * k] S128.size ho) (fun _ => rfl)).view.read (Elt F) g1 (ix1 r)).toNat = _
  rw [hw, rowOf_val_of_lt (hnd _)]

/-! ## The neighbour gathers -/

/-- A neighbour slot (buffer 4) just filled by the gather through the window at `4096 k + 128 g` of the tile's
    neighbour words holds group `g`'s table rows. -/
theorem qb_of_gather4 (ff : S100000x128.Idx → Elt F .f32) (g0 : S16384.Idx → Elt F .i32) (nf : SNbrFlat.Idx → BitVec 32)
    (gb0 k g : ℕ) (hk : k < 4) (hg : g < 32) (hgb0 : gb0 + 512 ≤ 16384)
    (hg0 : ∀ y : Fin 16384, g0 (ix1 y) = nf (ix1 ⟨32 * gb0 + y.val, by omega⟩))
    (hnf : ∀ z, (nf z).toNat < 100000)
    (o : Fin 1 → Nat) (ho : ∀ a, o a + S128.size a ≤ S16384.size a) (ho' : o = ![4096 * k + 128 * g])
    (hn : S128.numel = S128x128.size gathers_S100000x128_S128x128.axis')
    (hin : ∀ x, (((s0V).slice (Rect.unit (s := S16384) o S128.size ho) (fun _ => rfl)).view.read (Elt F) g0 x).toNat
      < S100000x128.size gathers_S100000x128_S128x128.axis)
    (old : S128x128.Idx → Elt F .f32) :
    QB ff nf (gb0 + 128 * k) (by omega) g hg
      ((b4V).view.writes (Elt F) old [⟨Rect.whole _, SparseCore.gatherPayload gathers_S100000x128_S128x128
        ((featSl).view.read (Elt F) ff)
        (SparseCore.rows (((s0V).slice (Rect.unit (s := S16384) o S128.size ho) (fun _ => rfl)).view.read (Elt F) g0) hn hin)⟩]) := by
  subst ho'
  intro r l
  refine (writes_hit4 old _ _ (one_piece _) (ix2 r l) (one_piece_mem _ _)).trans ?_
  rw [gather_apply, featSl_read]
  refine congrArg ff (congrArg (fun q => ix2 q l) (Fin.ext ?_))
  have hw : ((s0V).slice (Rect.unit (s := S16384) ![4096 * k + 128 * g] S128.size ho) (fun _ => rfl)).view.read (Elt F) g0 (ix1 r)
      = nf (ix1 ⟨32 * (gb0 + 128 * k) + 128 * g + r.val, by omega⟩) := by
    rw [lst_read, hg0]
    refine congrArg nf (congrArg ix1 (Fin.ext ?_))
    show 32 * gb0 + (4096 * k + 128 * g + r.val) = 32 * (gb0 + 128 * k) + 128 * g + r.val
    omega
  show (((s0V).slice (Rect.unit (s := S16384) ![4096 * k + 128 * g] S128.size ho) (fun _ => rfl)).view.read (Elt F) g0 (ix1 r)).toNat = _
  rw [hw, rowOf_val_of_lt (hnf _)]

/-- A neighbour slot (buffer 5) just filled by the gather through the window at `4096 k + 128 g` of the tile's
    neighbour words holds group `g`'s table rows. -/
theorem qb_of_gather5 (ff : S100000x128.Idx → Elt F .f32) (g0 : S16384.Idx → Elt F .i32) (nf : SNbrFlat.Idx → BitVec 32)
    (gb0 k g : ℕ) (hk : k < 4) (hg : g < 32) (hgb0 : gb0 + 512 ≤ 16384)
    (hg0 : ∀ y : Fin 16384, g0 (ix1 y) = nf (ix1 ⟨32 * gb0 + y.val, by omega⟩))
    (hnf : ∀ z, (nf z).toNat < 100000)
    (o : Fin 1 → Nat) (ho : ∀ a, o a + S128.size a ≤ S16384.size a) (ho' : o = ![4096 * k + 128 * g])
    (hn : S128.numel = S128x128.size gathers_S100000x128_S128x128.axis')
    (hin : ∀ x, (((s0V).slice (Rect.unit (s := S16384) o S128.size ho) (fun _ => rfl)).view.read (Elt F) g0 x).toNat
      < S100000x128.size gathers_S100000x128_S128x128.axis)
    (old : S128x128.Idx → Elt F .f32) :
    QB ff nf (gb0 + 128 * k) (by omega) g hg
      ((b5V).view.writes (Elt F) old [⟨Rect.whole _, SparseCore.gatherPayload gathers_S100000x128_S128x128
        ((featSl).view.read (Elt F) ff)
        (SparseCore.rows (((s0V).slice (Rect.unit (s := S16384) o S128.size ho) (fun _ => rfl)).view.read (Elt F) g0) hn hin)⟩]) := by
  subst ho'
  intro r l
  refine (writes_hit5 old _ _ (one_piece _) (ix2 r l) (one_piece_mem _ _)).trans ?_
  rw [gather_apply, featSl_read]
  refine congrArg ff (congrArg (fun q => ix2 q l) (Fin.ext ?_))
  have hw : ((s0V).slice (Rect.unit (s := S16384) ![4096 * k + 128 * g] S128.size ho) (fun _ => rfl)).view.read (Elt F) g0 (ix1 r)
      = nf (ix1 ⟨32 * (gb0 + 128 * k) + 128 * g + r.val, by omega⟩) := by
    rw [lst_read, hg0]
    refine congrArg nf (congrArg ix1 (Fin.ext ?_))
    show 32 * gb0 + (4096 * k + 128 * g + r.val) = 32 * (gb0 + 128 * k) + 128 * g + r.val
    omega
  show (((s0V).slice (Rect.unit (s := S16384) ![4096 * k + 128 * g] S128.size ho) (fun _ => rfl)).view.read (Elt F) g0 (ix1 r)).toNat = _
  rw [hw, rowOf_val_of_lt (hnf _)]

/-! ## The write-out of a chunk -/

variable [FloatOps F]

/-- Chunk `k` of the tile's rows of the aggregate array, just written from an output buffer that holds the
    aggregates of batch rows `gb … gb + 127` (`gb = 1024 s + 512 c + 128 k`), holds the aggregate function. -/
theorem chunk_of_q3 (feat : SFeat.Idx → F .f32) (nd : SNodeFlat.Idx → BitVec 32) (nf : SNbrFlat.Idx → BitVec 32)
    (L : grid0.Coords) (k : Fin k0_t1_loop.trips)
    (hgb : 1024 * (L 1).val + 512 * (L 0).val + 128 * k.val + 128 ≤ 16384)
    (fo : S16384x128.Idx → Elt F .f32) (f3 : S128x128.Idx → Elt F .f32)
    (h3 : Q3 (TV feat nd nf (1024 * (L 1).val + 512 * (L 0).val + 128 * k.val) hgb) 128 f3) :
    ∀ y ∈ (outK L k).view.set,
      (outK L k).view.writes (Elt F) fo [⟨Rect.whole S128x128, ReadAs.same.apply (View.read (Elt F) (b3V).view f3)⟩] y
        = sums feat nd nf y := by
  intro y hy
  obtain ⟨x, -, rfl⟩ := Finset.mem_map.mp hy
  have e1 : (outK L k).view.writes (Elt F) fo [⟨Rect.whole S128x128, ReadAs.same.apply (View.read (Elt F) (b3V).view f3)⟩]
      ((outK L k).view.emb x) = f3 x := by
    have h := View.read_writes_cons_emb (outK L k).view fo (Rect.whole S128x128)
      (ReadAs.same.apply (View.read (Elt F) (b3V).view f3)) [] x
    rw [Rect.emb_whole_apply] at h
    exact ((View.read_apply _ _).trans (cast_eq _ _)).symm.trans h
  rw [e1, h3 x (idx2_lt0 x)]
  have h0 : ((outK L k).view.emb x 0).val = 1024 * (L 1).val + 512 * (L 0).val + 128 * k.val + (x 0).val := by
    show k0_off80 L k 0 + 1 * (x 0).val = _
    rw [k0_off80_eq]
    show 1024 * (L 1).val + 512 * (L 0).val + 128 * k.val + 1 * (x 0).val = _
    omega
  have h1 : ((outK L k).view.emb x 1).val = (x 1).val := by
    show k0_off80 L k 1 + 1 * (x 1).val = _
    rw [k0_off80_eq]
    show 0 + 1 * (x 1).val = _
    omega
  unfold TV sums
  congr 1
  · exact Fin.ext h0.symm
  · exact Fin.ext h1.symm

end Cert.Proof.KI

end
-- ==== Proof.KIValsQ3.lean ====
/-
  The output buffer, one pair trip at a time.

  A pair trip stores sixty-four sixteen-lane windows: for each of its eight finished reductions, the eight accumulators
  into the eight lane groups of one row, rows 8 k + 4 c + e for c below 2 and e below 4.  Each window lies in its one row;
  the eight windows of a row cover it.  So after the trip a row below 8 k holds what it held (no window touches it),
  and a row from 8 k to 8 k + 7 holds the accumulators of its reduction, lane group by lane group: if those are what the
  row is to hold, the first 8 (k + 1) rows hold what they are to hold.
-/
import proofs.«210776_g5076651344590_cont_8to1_c_706_2_alg».proof.Proof.KIVals

noncomputable section

namespace Cert.Proof.KI

open Cert.KernelIdeal Cert.KernelIdeal.Gen
open Idealize.ShloMosaic Idealize.ShloMosaic.ValueIdx Cert.Spec Cert.Proof.Sums

variable {F : FTy → Type}

local notation "b3V" => (Memref.whole Cert.KernelIdeal.cc0_scratch3 : Memref Cert.KernelIdeal.sig Kind.scVector Space.vmem Cert.KernelIdeal.S128x128 EltTy.f32)

/-- The eight accumulators hold row `row` of T, lane group by lane group. -/
def HoldsRow (T : S128x128.Idx → Elt F .f32) (a : Acc8 F) (row : ℕ) (hrow : row < 128) : Prop :=
  ∀ (j : Fin 8) (x : Fin 16), comp a j (ix1 x)
    = T (ix2 (⟨row, hrow⟩ : Fin 128) (⟨16 * j.val + x.val, by have := j.isLt; have := x.isLt; omega⟩ : Fin 128))

theorem q3_trips : k0_t2_loop.trips = 16 := by decide
theorem k2_lt (k2 : Fin k0_t2_loop.trips) : k2.val < 16 := lt_of_lt_of_eq k2.isLt q3_trips
theorem row_lt (k2 : Fin k0_t2_loop.trips) (c2 : Fin 2) (el : Fin 4) : 8 * k2.val + 4 * c2.val + el.val < 128 := by
  have := k2_lt k2; have := c2.isLt; have := el.isLt; omega

/-! ## One window -/

/-- The window at offsets (row, lane) lies in row `row`, lanes lane … lane + 15. -/
theorem piece_mem (o : Fin 2 → Nat) (ho : ∀ a, o a + S1x16.size a ≤ S128x128.size a) (row lane : ℕ) (e : o = ![row, lane])
    (y : S128x128.Idx) :
    y ∈ (Rect.unit (s := S128x128) o S1x16.size ho).set ↔ (y 0).val = row ∧ lane ≤ (y 1).val ∧ (y 1).val < lane + 16 := by
  subst e; exact mem_win _ ho y

/-- A stored vector that holds T's row `row` at lanes lane … lane + 15 agrees with T on its window. -/
theorem piece_val (T : S128x128.Idx → Elt F .f32) (o : Fin 2 → Nat) (ho : ∀ a, o a + S1x16.size a ≤ S128x128.size a)
    (row lane : ℕ) (e : o = ![row, lane]) (hrow : row < 128) (hlane : lane + 16 ≤ 128) (v : FVec F S16 .f32)
    (hv : ∀ x : Fin 16, v (ix1 x) = T (ix2 (⟨row, hrow⟩ : Fin 128) (⟨lane + x.val, by have := x.isLt; omega⟩ : Fin 128))) :
    ∀ x : S1x16.Idx, shapeCast S1x16 v shapeCasts_S16_S1x16 x = T ((Rect.unit (s := S128x128) o S1x16.size ho).emb x) := by
  subst e
  intro x
  have hx : x = ix2 (0 : Fin 1) (⟨(x 1).val, idx2_lt1 x⟩ : Fin 16) := by
    funext a
    match a with
    | ⟨0, _⟩ => exact Subsingleton.elim (α := Fin 1) _ _
    | ⟨1, _⟩ => rfl
  rw [hx, st_apply, hv]
  refine congrArg T ?_
  funext a
  apply Fin.ext
  match a with
  | ⟨0, _⟩ => show row = row + 1 * 0; omega
  | ⟨1, _⟩ => show lane + (x 1).val = lane + 1 * (x 1).val; omega

/-! ## The eight windows of one row -/

theorem rowPieces_vals (T : S128x128.Idx → Elt F .f32) (k2 : Fin k0_t2_loop.trips) (c2 : Fin 2) (el : Fin 4) (a : Acc8 F)
    (ha : HoldsRow T a (8 * k2.val + 4 * c2.val + el.val) (row_lt k2 c2 el)) :
    ∀ p ∈ rowPieces k2 c2 el a, ∀ x : p.1.shape.Idx, p.2 x = T (p.1.emb x) := by
  intro p hp
  simp only [rowPieces, List.mem_cons, List.not_mem_nil, or_false] at hp
  rcases hp with rfl | rfl | rfl | rfl | rfl | rfl | rfl | rfl
  · exact piece_val T _ (k0_off14_inb k2 c2 el) _ _ (k0_off14_eq k2 c2 el) (row_lt k2 c2 el) (by norm_num) _ (fun x => ha 7 x)
  · exact piece_val T _ (k0_off13_inb k2 c2 el) _ _ (k0_off13_eq k2 c2 el) (row_lt k2 c2 el) (by norm_num) _ (fun x => ha 6 x)
  · exact piece_val T _ (k0_off12_inb k2 c2 el) _ _ (k0_off12_eq k2 c2 el) (row_lt k2 c2 el) (by norm_num) _ (fun x => ha 5 x)
  · exact piece_val T _ (k0_off11_inb k2 c2 el) _ _ (k0_off11_eq k2 c2 el) (row_lt k2 c2 el) (by norm_num) _ (fun x => ha 4 x)
  · exact piece_val T _ (k0_off10_inb k2 c2 el) _ _ (k0_off10_eq k2 c2 el) (row_lt k2 c2 el) (by norm_num) _ (fun x => ha 3 x)
  · exact piece_val T _ (k0_off9_inb k2 c2 el) _ _ (k0_off9_eq k2 c2 el) (row_lt k2 c2 el) (by norm_num) _ (fun x => ha 2 x)
  · exact piece_val T _ (k0_off8_inb k2 c2 el) _ _ (k0_off8_eq k2 c2 el) (row_lt k2 c2 el) (by norm_num) _ (fun x => ha 1 x)
  · exact piece_val T _ (k0_off7_inb k2 c2 el) _ _ (k0_off7_eq k2 c2 el) (row_lt k2 c2 el) (by norm_num) _ (fun x => ha 0 x)

theorem rowPieces_rows (k2 : Fin k0_t2_loop.trips) (c2 : Fin 2) (el : Fin 4) (a : Acc8 F) :
    ∀ p ∈ rowPieces k2 c2 el a, ∀ y ∈ p.1.set, (y 0).val = 8 * k2.val + 4 * c2.val + el.val := by
  intro p hp y hy
  simp only [rowPieces, List.mem_cons, List.not_mem_nil, or_false] at hp
  rcases hp with rfl | rfl | rfl | rfl | rfl | rfl | rfl | rfl
  · exact ((piece_mem _ (k0_off14_inb k2 c2 el) _ _ (k0_off14_eq k2 c2 el) y).1 hy).1
  · exact ((piece_mem _ (k0_off13_inb k2 c2 el) _ _ (k0_off13_eq k2 c2 el) y).1 hy).1
  · exact ((piece_mem _ (k0_off12_inb k2 c2 el) _ _ (k0_off12_eq k2 c2 el) y).1 hy).1
  · exact ((piece_mem _ (k0_off11_inb k2 c2 el) _ _ (k0_off11_eq k2 c2 el) y).1 hy).1
  · exact ((piece_mem _ (k0_off10_inb k2 c2 el) _ _ (k0_off10_eq k2 c2 el) y).1 hy).1
  · exact ((piece_mem _ (k0_off9_inb k2 c2 el) _ _ (k0_off9_eq k2 c2 el) y).1 hy).1
  · exact ((piece_mem _ (k0_off8_inb k2 c2 el) _ _ (k0_off8_eq k2 c2 el) y).1 hy).1
  · exact ((piece_mem _ (k0_off7_inb k2 c2 el) _ _ (k0_off7_eq k2 c2 el) y).1 hy).1

theorem rowPieces_cover (k2 : Fin k0_t2_loop.trips) (c2 : Fin 2) (el : Fin 4) (a : Acc8 F) (y : S128x128.Idx)
    (h0 : (y 0).val = 8 * k2.val + 4 * c2.val + el.val) : ∃ p ∈ rowPieces k2 c2 el a, y ∈ p.1.set := by
  have h1 : (y 1).val < 128 := idx2_lt1 y
  unfold rowPieces
  rcases Nat.lt_or_ge (y 1).val 64 with hA | hA
  · rcases Nat.lt_or_ge (y 1).val 32 with hB | hB
    · rcases Nat.lt_or_ge (y 1).val 16 with hC | hC
      · exact ⟨(⟨Rect.unit (s := S128x128) (k0_off7 k2 (BitVec.ofNat 32 c2.val) (BitVec.ofNat 32 el.val)) S1x16.size (k0_off7_inb k2 c2 el), shapeCast S1x16 (a.1) shapeCasts_S16_S1x16⟩ : View.Piece (Elt F) S128x128 .f32), List.mem_cons_of_mem _ (List.mem_cons_of_mem _ (List.mem_cons_of_mem _ (List.mem_cons_of_mem _ (List.mem_cons_of_mem _ (List.mem_cons_of_mem _ (List.mem_cons_of_mem _ (List.mem_cons_self))))))), (piece_mem _ (k0_off7_inb k2 c2 el) _ _ (k0_off7_eq k2 c2 el) y).2 ⟨h0, by omega, by omega⟩⟩
      · exact ⟨(⟨Rect.unit (s := S128x128) (k0_off8 k2 (BitVec.ofNat 32 c2.val) (BitVec.ofNat 32 el.val)) S1x16.size (k0_off8_inb k2 c2 el), shapeCast S1x16 (a.2.1) shapeCasts_S16_S1x16⟩ : View.Piece (Elt F) S128x128 .f32), List.mem_cons_of_mem _ (List.mem_cons_of_mem _ (List.mem_cons_of_mem _ (List.mem_cons_of_mem _ (List.mem_cons_of_mem _ (List.mem_cons_of_mem _ (List.mem_cons_self)))))), (piece_mem _ (k0_off8_inb k2 c2 el) _ _ (k0_off8_eq k2 c2 el) y).2 ⟨h0, by omega, by omega⟩⟩
    · rcases Nat.lt_or_ge (y 1).val 48 with hC | hC
      · exact ⟨(⟨Rect.unit (s := S128x128) (k0_off9 k2 (BitVec.ofNat 32 c2.val) (BitVec.ofNat 32 el.val)) S1x16.size (k0_off9_inb k2 c2 el), shapeCast S1x16 (a.2.2.1) shapeCasts_S16_S1x16⟩ : View.Piece (Elt F) S128x128 .f32), List.mem_cons_of_mem _ (List.mem_cons_of_mem _ (List.mem_cons_of_mem _ (List.mem_cons_of_mem _ (List.mem_cons_of_mem _ (List.mem_cons_self))))), (piece_mem _ (k0_off9_inb k2 c2 el) _ _ (k0_off9_eq k2 c2 el) y).2 ⟨h0, by omega, by omega⟩⟩
      · exact ⟨(⟨Rect.unit (s := S128x128) (k0_off10 k2 (BitVec.ofNat 32 c2.val) (BitVec.ofNat 32 el.val)) S1x16.size (k0_off10_inb k2 c2 el), shapeCast S1x16 (a.2.2.2.1) shapeCasts_S16_S1x16⟩ : View.Piece (Elt F) S128x128 .f32), List.mem_cons_of_mem _ (List.mem_cons_of_mem _ (List.mem_cons_of_mem _ (List.mem_cons_of_mem _ (List.mem_cons_self)))), (piece_mem _ (k0_off10_inb k2 c2 el) _ _ (k0_off10_eq k2 c2 el) y).2 ⟨h0, by omega, by omega⟩⟩
  · rcases Nat.lt_or_ge (y 1).val 96 with hB | hB
    · rcases Nat.lt_or_ge (y 1).val 80 with hC | hC
      · exact ⟨(⟨Rect.unit (s := S128x128) (k0_off11 k2 (BitVec.ofNat 32 c2.val) (BitVec.ofNat 32 el.val)) S1x16.size (k0_off11_inb k2 c2 el), shapeCast S1x16 (a.2.2.2.2.1) shapeCasts_S16_S1x16⟩ : View.Piece (Elt F) S128x128 .f32), List.mem_cons_of_mem _ (List.mem_cons_of_mem _ (List.mem_cons_of_mem _ (List.mem_cons_self))), (piece_mem _ (k0_off11_inb k2 c2 el) _ _ (k0_off11_eq k2 c2 el) y).2 ⟨h0, by omega, by omega⟩⟩
      · exact ⟨(⟨Rect.unit (s := S128x128) (k0_off12 k2 (BitVec.ofNat 32 c2.val) (BitVec.ofNat 32 el.val)) S1x16.size (k0_off12_inb k2 c2 el), shapeCast S1x16 (a.2.2.2.2.2.1) shapeCasts_S16_S1x16⟩ : View.Piece (Elt F) S128x128 .f32), List.mem_cons_of_mem _ (List.mem_cons_of_mem _ (List.mem_cons_self)), (piece_mem _ (k0_off12_inb k2 c2 el) _ _ (k0_off12_eq k2 c2 el) y).2 ⟨h0, by omega, by omega⟩⟩
    · rcases Nat.lt_or_ge (y 1).val 112 with hC | hC
      · exact ⟨(⟨Rect.unit (s := S128x128) (k0_off13 k2 (BitVec.ofNat 32 c2.val) (BitVec.ofNat 32 el.val)) S1x16.size (k0_off13_inb k2 c2 el), shapeCast S1x16 (a.2.2.2.2.2.2.1) shapeCasts_S16_S1x16⟩ : View.Piece (Elt F) S128x128 .f32), List.mem_cons_of_mem _ (List.mem_cons_self), (piece_mem _ (k0_off13_inb k2 c2 el) _ _ (k0_off13_eq k2 c2 el) y).2 ⟨h0, by omega, by omega⟩⟩
      · exact ⟨(⟨Rect.unit (s := S128x128) (k0_off14 k2 (BitVec.ofNat 32 c2.val) (BitVec.ofNat 32 el.val)) S1x16.size (k0_off14_inb k2 c2 el), shapeCast S1x16 (a.2.2.2.2.2.2.2) shapeCasts_S16_S1x16⟩ : View.Piece (Elt F) S128x128 .f32), List.mem_cons_self, (piece_mem _ (k0_off14_inb k2 c2 el) _ _ (k0_off14_eq k2 c2 el) y).2 ⟨h0, by omega, by omega⟩⟩

/-! ## The sixty-four windows of a pair trip -/

theorem tripPieces_rows (k2 : Fin k0_t2_loop.trips) (a1 a2 a3 a4 b1 b2 b3 b4 : Acc8 F) :
    ∀ p ∈ tripPieces k2 a1 a2 a3 a4 b1 b2 b3 b4, ∀ y ∈ p.1.set, 8 * k2.val ≤ (y 0).val ∧ (y 0).val < 8 * k2.val + 8 := by
  intro p hp y hy
  simp only [tripPieces, List.mem_append] at hp
  rcases hp with ((((((hp | hp) | hp) | hp) | hp) | hp) | hp) | hp
  · have h : (y 0).val = 8 * k2.val + 4 * 1 + 3 := rowPieces_rows k2 1 3 b4 p hp y hy
    omega
  · have h : (y 0).val = 8 * k2.val + 4 * 1 + 2 := rowPieces_rows k2 1 2 b3 p hp y hy
    omega
  · have h : (y 0).val = 8 * k2.val + 4 * 1 + 1 := rowPieces_rows k2 1 1 b2 p hp y hy
    omega
  · have h : (y 0).val = 8 * k2.val + 4 * 1 + 0 := rowPieces_rows k2 1 0 b1 p hp y hy
    omega
  · have h : (y 0).val = 8 * k2.val + 4 * 0 + 3 := rowPieces_rows k2 0 3 a4 p hp y hy
    omega
  · have h : (y 0).val = 8 * k2.val + 4 * 0 + 2 := rowPieces_rows k2 0 2 a3 p hp y hy
    omega
  · have h : (y 0).val = 8 * k2.val + 4 * 0 + 1 := rowPieces_rows k2 0 1 a2 p hp y hy
    omega
  · have h : (y 0).val = 8 * k2.val + 4 * 0 + 0 := rowPieces_rows k2 0 0 a1 p hp y hy
    omega

theorem tripPieces_vals (T : S128x128.Idx → Elt F .f32) (k2 : Fin k0_t2_loop.trips) (a1 a2 a3 a4 b1 b2 b3 b4 : Acc8 F)
    (ha1 : HoldsRow T a1 (8 * k2.val + 4 * (0 : Fin 2).val + (0 : Fin 4).val) (row_lt k2 0 0))
    (ha2 : HoldsRow T a2 (8 * k2.val + 4 * (0 : Fin 2).val + (1 : Fin 4).val) (row_lt k2 0 1))
    (ha3 : HoldsRow T a3 (8 * k2.val + 4 * (0 : Fin 2).val + (2 : Fin 4).val) (row_lt k2 0 2))
    (ha4 : HoldsRow T a4 (8 * k2.val + 4 * (0 : Fin 2).val + (3 : Fin 4).val) (row_lt k2 0 3))
    (hb1 : HoldsRow T b1 (8 * k2.val + 4 * (1 : Fin 2).val + (0 : Fin 4).val) (row_lt k2 1 0))
    (hb2 : HoldsRow T b2 (8 * k2.val + 4 * (1 : Fin 2).val + (1 : Fin 4).val) (row_lt k2 1 1))
    (hb3 : HoldsRow T b3 (8 * k2.val + 4 * (1 : Fin 2).val + (2 : Fin 4).val) (row_lt k2 1 2))
    (hb4 : HoldsRow T b4 (8 * k2.val + 4 * (1 : Fin 2).val + (3 : Fin 4).val) (row_lt k2 1 3)) :
    ∀ p ∈ tripPieces k2 a1 a2 a3 a4 b1 b2 b3 b4, ∀ x : p.1.shape.Idx, p.2 x = T (p.1.emb x) := by
  intro p hp
  simp only [tripPieces, List.mem_append] at hp
  rcases hp with ((((((hp | hp) | hp) | hp) | hp) | hp) | hp) | hp
  · exact rowPieces_vals T k2 1 3 b4 hb4 p hp
  · exact rowPieces_vals T k2 1 2 b3 hb3 p hp
  · exact rowPieces_vals T k2 1 1 b2 hb2 p hp
  · exact rowPieces_vals T k2 1 0 b1 hb1 p hp
  · exact rowPieces_vals T k2 0 3 a4 ha4 p hp
  · exact rowPieces_vals T k2 0 2 a3 ha3 p hp
  · exact rowPieces_vals T k2 0 1 a2 ha2 p hp
  · exact rowPieces_vals T k2 0 0 a1 ha1 p hp

theorem tripPieces_cover (k2 : Fin k0_t2_loop.trips) (a1 a2 a3 a4 b1 b2 b3 b4 : Acc8 F) (y : S128x128.Idx)
    (hlo : 8 * k2.val ≤ (y 0).val) (hhi : (y 0).val < 8 * k2.val + 8) : ∃ p ∈ tripPieces k2 a1 a2 a3 a4 b1 b2 b3 b4, y ∈ p.1.set := by
  have h8 : (y 0).val = 8 * k2.val + 4 * 0 + 0 ∨ (y 0).val = 8 * k2.val + 4 * 0 + 1 ∨ (y 0).val = 8 * k2.val + 4 * 0 + 2 ∨ (y 0).val = 8 * k2.val + 4 * 0 + 3 ∨ (y 0).val = 8 * k2.val + 4 * 1 + 0 ∨ (y 0).val = 8 * k2.val + 4 * 1 + 1 ∨ (y 0).val = 8 * k2.val + 4 * 1 + 2 ∨ (y 0).val = 8 * k2.val + 4 * 1 + 3 := by omega
  unfold tripPieces
  rcases h8 with h | h | h | h | h | h | h | h
  · obtain ⟨p, hp, hy⟩ := rowPieces_cover k2 0 0 a1 y h
    exact ⟨p, List.mem_append_right _ hp, hy⟩
  · obtain ⟨p, hp, hy⟩ := rowPieces_cover k2 0 1 a2 y h
    exact ⟨p, List.mem_append_left _ (List.mem_append_right _ hp), hy⟩
  · obtain ⟨p, hp, hy⟩ := rowPieces_cover k2 0 2 a3 y h
    exact ⟨p, List.mem_append_left _ (List.mem_append_left _ (List.mem_append_right _ hp)), hy⟩
  · obtain ⟨p, hp, hy⟩ := rowPieces_cover k2 0 3 a4 y h
    exact ⟨p, List.mem_append_left _ (List.mem_append_left _ (List.mem_append_left _ (List.mem_append_right _ hp))), hy⟩
  · obtain ⟨p, hp, hy⟩ := rowPieces_cover k2 1 0 b1 y h
    exact ⟨p, List.mem_append_left _ (List.mem_append_left _ (List.mem_append_left _ (List.mem_append_left _ (List.mem_append_right _ hp)))), hy⟩
  · obtain ⟨p, hp, hy⟩ := rowPieces_cover k2 1 1 b2 y h
    exact ⟨p, List.mem_append_left _ (List.mem_append_left _ (List.mem_append_left _ (List.mem_append_left _ (List.mem_append_left _ (List.mem_append_right _ hp))))), hy⟩
  · obtain ⟨p, hp, hy⟩ := rowPieces_cover k2 1 2 b3 y h
    exact ⟨p, List.mem_append_left _ (List.mem_append_left _ (List.mem_append_left _ (List.mem_append_left _ (List.mem_append_left _ (List.mem_append_left _ (List.mem_append_right _ hp)))))), hy⟩
  · obtain ⟨p, hp, hy⟩ := rowPieces_cover k2 1 3 b4 y h
    exact ⟨p, List.mem_append_left _ (List.mem_append_left _ (List.mem_append_left _ (List.mem_append_left _ (List.mem_append_left _ (List.mem_append_left _ (List.mem_append_left _ (hp))))))), hy⟩

/-- One pair trip: eight more rows of the output buffer hold what they are to hold. -/
theorem q3_step (T f3 : S128x128.Idx → Elt F .f32) (k2 : Fin k0_t2_loop.trips) (a1 a2 a3 a4 b1 b2 b3 b4 : Acc8 F)
    (hq : Q3 T (8 * k2.val) f3)
    (ha1 : HoldsRow T a1 (8 * k2.val + 4 * (0 : Fin 2).val + (0 : Fin 4).val) (row_lt k2 0 0))
    (ha2 : HoldsRow T a2 (8 * k2.val + 4 * (0 : Fin 2).val + (1 : Fin 4).val) (row_lt k2 0 1))
    (ha3 : HoldsRow T a3 (8 * k2.val + 4 * (0 : Fin 2).val + (2 : Fin 4).val) (row_lt k2 0 2))
    (ha4 : HoldsRow T a4 (8 * k2.val + 4 * (0 : Fin 2).val + (3 : Fin 4).val) (row_lt k2 0 3))
    (hb1 : HoldsRow T b1 (8 * k2.val + 4 * (1 : Fin 2).val + (0 : Fin 4).val) (row_lt k2 1 0))
    (hb2 : HoldsRow T b2 (8 * k2.val + 4 * (1 : Fin 2).val + (1 : Fin 4).val) (row_lt k2 1 1))
    (hb3 : HoldsRow T b3 (8 * k2.val + 4 * (1 : Fin 2).val + (2 : Fin 4).val) (row_lt k2 1 2))
    (hb4 : HoldsRow T b4 (8 * k2.val + 4 * (1 : Fin 2).val + (3 : Fin 4).val) (row_lt k2 1 3)) :
    Q3 T (8 * (k2.val + 1)) ((b3V).view.writes (Elt F) f3 (tripPieces k2 a1 a2 a3 a4 b1 b2 b3 b4)) := by
  intro y hy
  by_cases hlo : (y 0).val < 8 * k2.val
  · rw [writes_miss3 f3 _ y (fun p hp hyp => by have := (tripPieces_rows k2 a1 a2 a3 a4 b1 b2 b3 b4 p hp y hyp).1; omega)]
    exact hq y hlo
  · exact writes_hit3 f3 T _ (tripPieces_vals T k2 a1 a2 a3 a4 b1 b2 b3 b4 ha1 ha2 ha3 ha4 hb1 hb2 hb3 hb4) y
      (tripPieces_cover k2 a1 a2 a3 a4 b1 b2 b3 b4 y (by omega) (by omega))

end Cert.Proof.KI

end
-- ==== Proof.KIBody.lean ====
/-
  One superchunk of one tile: 128 batch rows.  The tile gathers the 128 node rows into the node buffer and waits; then,
  sixteen times, it handles two groups of four batch rows: while the gather of the next group's 128 neighbour rows flies
  into the other slot, it waits for this group's slot and, for each of the four batch rows, starts eight 16-lane
  accumulators at the node's row and adds the row's 32 neighbour rows in order, storing the eight results into the output
  buffer's row.  Each slot has its own DMA semaphore and is read only between its wait and its next issue, so no access
  meets a pending copy.  The invariants say what each buffer holds (the node rows; a slot's 128 neighbour rows, already
  stated of the gather in flight; the output buffer's finished rows at the aggregate), and the finished buffer is copied out
  to the tile's chunk of the aggregate array.
-/
import proofs.«210776_g5076651344590_cont_8to1_c_706_2_alg».proof.Proof.KIInv
import proofs.«210776_g5076651344590_cont_8to1_c_706_2_alg».proof.Proof.KIValsRed
import proofs.«210776_g5076651344590_cont_8to1_c_706_2_alg».proof.Proof.KIValsGather
import proofs.«210776_g5076651344590_cont_8to1_c_706_2_alg».proof.Proof.KIValsQ3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "featV" => (Memref.whole Cert.KernelIdeal.main_arg0_scv : Memref Cert.KernelIdeal.sig Kind.scVector Space.hbm Cert.KernelIdeal.S100000x128 EltTy.f32)
local notation "nfV" => (Memref.whole Cert.KernelIdeal.main_v0_scv : Memref Cert.KernelIdeal.sig Kind.scVector Space.hbm Cert.KernelIdeal.S524288 EltTy.i32)
local notation "ndV" => (Memref.whole Cert.KernelIdeal.main_v1_scv : Memref Cert.KernelIdeal.sig Kind.scVector Space.hbm Cert.KernelIdeal.S16384 EltTy.i32)
local notation "sumV" => (Memref.whole Cert.KernelIdeal.main_v2_scv : Memref Cert.KernelIdeal.sig Kind.scVector Space.hbm Cert.KernelIdeal.S16384x128 EltTy.f32)
local notation "s0V" => (Memref.whole Cert.KernelIdeal.cc0_scratch0 : Memref Cert.KernelIdeal.sig Kind.scVector Space.vmem Cert.KernelIdeal.S16384 EltTy.i32)
local notation "s1V" => (Memref.whole Cert.KernelIdeal.cc0_scratch1 : Memref Cert.KernelIdeal.sig Kind.scVector Space.vmem Cert.KernelIdeal.S512 EltTy.i32)
local notation "s2V" => (Memref.whole Cert.KernelIdeal.cc0_scratch2 : Memref Cert.KernelIdeal.sig Kind.scVector Space.vmem Cert.KernelIdeal.S128x128 EltTy.f32)
local notation "s3V" => (Memref.whole Cert.KernelIdeal.cc0_scratch3 : Memref Cert.KernelIdeal.sig Kind.scVector Space.vmem Cert.KernelIdeal.S128x128 EltTy.f32)
local notation "s4V" => (Memref.whole Cert.KernelIdeal.cc0_scratch4 : Memref Cert.KernelIdeal.sig Kind.scVector Space.vmem Cert.KernelIdeal.S128x128 EltTy.f32)
local notation "s5V" => (Memref.whole Cert.KernelIdeal.cc0_scratch5 : Memref Cert.KernelIdeal.sig Kind.scVector Space.vmem Cert.KernelIdeal.S128x128 EltTy.f32)

variable [FloatOps F] [Named F]
variable (d : Dev nD) (L : grid0.Coords)

open Idealize.ShloMosaic.ValueIdx Cert.Spec Cert.Proof.Sums

omit [Named F] in
theorem chunk_mono1 (ff : Buf (Elt F) ((featV).view.loc (V d (cV L) (jV L)))) (nd : SNodeFlat.Idx → BitVec 32) (nf : SNbrFlat.Idx → BitVec 32) (k k' : Fin k0_t1_loop.trips) (hne : k' ≠ k) :
    (iprop(∃ fo, ⌜k'.val < k.val → ∀ y ∈ (outK L k').view.set, fo y = sums ff nd nf y⌝
        ∗ (outK L k').view.loc (V d (cV L) (jV L)) ↦[(outK L k').view.set]{fullShare} fo) : sProp 𝕄)
      ⊢ iprop(∃ fo, ⌜k'.val < k.val + 1 → ∀ y ∈ (outK L k').view.set, fo y = sums ff nd nf y⌝
        ∗ (outK L k').view.loc (V d (cV L) (jV L)) ↦[(outK L k').view.set]{fullShare} fo) := by
  iintro ⟨%fo, %h, H⟩
  iexists fo; isplitr
  · ipureintro; intro hlt
    exact h (lt_of_le_of_ne (Nat.lt_succ_iff.mp hlt) (fun e => hne (Fin.ext e)))
  · iexact H

omit [Named F] in
theorem chunks_mono (ff : Buf (Elt F) ((featV).view.loc (V d (cV L) (jV L)))) (nd : SNodeFlat.Idx → BitVec 32) (nf : SNbrFlat.Idx → BitVec 32) (k : Fin k0_t1_loop.trips) :
    (bigSep (Finset.univ.erase k) fun k' : Fin k0_t1_loop.trips => iprop(∃ fo, ⌜k'.val < k.val → ∀ y ∈ (outK L k').view.set, fo y = sums ff nd nf y⌝
        ∗ (outK L k').view.loc (V d (cV L) (jV L)) ↦[(outK L k').view.set]{fullShare} fo) : sProp 𝕄)
      ⊢ bigSep (Finset.univ.erase k) fun k' : Fin k0_t1_loop.trips => iprop(∃ fo, ⌜k'.val < k.val + 1 → ∀ y ∈ (outK L k').view.set, fo y = sums ff nd nf y⌝
        ∗ (outK L k').view.loc (V d (cV L) (jV L)) ↦[(outK L k').view.set]{fullShare} fo) :=
  bigSep_mono fun k' hk' => chunk_mono1 d L ff nd nf k k' (Finset.mem_erase.mp hk').1

set_option maxHeartbeats 16000000 in
theorem trip1V (qa qb : PosShare TreeShare) (O : CellTallies nD τ sig (HIx 1)) (W : Waits sig (HIx 1))
    (ff : Buf (Elt F) ((featV).view.loc (V d (cV L) (jV L)))) (g0 : Buf (Elt F) ((s0V).view.loc (V d (cV L) (jV L)))) (g1 : Buf (Elt F) ((s1V).view.loc (V d (cV L) (jV L))))
    (nd : SNodeFlat.Idx → BitVec 32) (nf : SNbrFlat.Idx → BitVec 32) (hg1 : G1ok L g1 nd) (hg0 : G0ok L g0 nf)
    (hnd : ∀ z, (nd z).toNat < 100000) (hnf : ∀ z, (nf z).toNat < 100000)
    (h0 : ∀ z, (g0 z).toNat < 100000) (h1 : ∀ z, (g1 z).toNat < 100000) (k : Fin k0_t1_loop.trips) :
    inv1V d L qa qb O W ff g0 g1 nd nf k.val ()
      ⊢ wp frame (wpE (defs₀ (F := F)) 𝒱₀ (V d (cV L) (jV L)) none) Set.univ
          (k0_t1_body L featV (Memref.isWhole_whole _) nfV (Memref.isWhole_whole _) ndV (Memref.isWhole_whole _) sumV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scratch7 cc0_scratch8 cc0_scoped0 cc0_scoped1 cc0_scoped2 k ())
          (fun _ => inv1V d L qa qb O W ff g0 g1 nd nf (k.val + 1) ()) := by
  delta k0_t1_body; beta_reduce
  unfold inv1V
  iintro ⟨Hmw, Hfa, Hfb, H0, H1, ⟨%f2, H2⟩, ⟨%f3, H3⟩, ⟨%f4, H4⟩, ⟨%f5, H5⟩, Hch, Hs6, Hs7, Hs8, Hc2, %W', %hW', HO⟩
  have hk4 : k.val < 4 := lt_of_lt_of_eq k.isLt trips1
  have hgb : gb0 L + 128 * k.val + 128 ≤ 16384 := by have := gb0_le L; omega
  have hinN : ∀ x, (((s1V).slice (Rect.unit (s := S512) (k0_off3 k) S128.size (k0_off3_inb k)) (fun _ => rfl)).view.read (Elt F) g1 x).toNat
      < S100000x128.size gathers_S100000x128_S128x128.axis := nlst_hin _ _ g1 h1
  have hinA : ∀ x, (((s0V).slice (Rect.unit (s := S16384) (k0_off4 k) S128.size (k0_off4_inb k)) (fun _ => rfl)).view.read (Elt F) g0 x).toNat
      < S100000x128.size gathers_S100000x128_S128x128.axis := lst_hin _ _ g0 h0
  ihave Hch' := (Entails.of_eq (SparseCore.bigSep_erase' (Finset.mem_univ k))) $$ Hch
  icases Hch' with ⟨⟨%fo, -, Hout⟩, Hrest⟩
  sl_exec
  sl_for (inv2V d L qb qa O W ff g0 nd nf (gb0 L + 128 * k.val) hgb k) $$ [Hmw H2 H3 Hs7 H4 H0 Hfb H5 Hfa Hs8 HO]
  case region =>
    have hc1 : ∀ k2 : Fin k0_t2_loop.trips, k0_cond1 k2 = 1#1 := by decide
    have hc2 : ∀ k2 : Fin k0_t2_loop.trips, k2.val < 15 → k0_cond2 k2 = 1#1 := by decide
    have hc2n : ∀ k2 : Fin k0_t2_loop.trips, ¬ k2.val < 15 → ¬ k0_cond2 k2 = 1#1 := by decide
    have ht2 : ∀ k2 : Fin k0_t2_loop.trips, k2.val < 16 := by decide
    intro k2 _
    have hk2 : k2.val < 16 := ht2 k2
    unfold inv2V slot0V
    rw [dif_pos hk2]
    iintro ⟨Hmw, ⟨%N2, %hQN, H2⟩, ⟨%f3', %hQ3, H3⟩, ⟨%B0, %o, %ho, %hoe, %hQB0, Hfl, H4r, H0r, Hfar⟩, ⟨%f5', H5⟩, Hfb, Hs8, %W2, %hW2, HO⟩
    subst hoe
    have k0_h1 : k0_cond1 k2 = 1#1 := hc1 k2
    have hinB : ∀ x, (((s0V).slice (Rect.unit (s := S16384) (k0_off5 k k2) S128.size (k0_off5_inb k k2 k0_h1)) (fun _ => rfl)).view.read (Elt F) g0 x).toNat
        < S100000x128.size gathers_S100000x128_S128x128.axis := lst_hin _ _ g0 h0
    have hdisjB : Disjoint ((s0V).slice (Rect.unit (s := S16384) (k0_off5 k k2) S128.size (k0_off5_inb k k2 k0_h1)) (fun _ => rfl)).view.set
        (lst ![4096 * k.val + 256 * k2.val] ho).view.set :=
      lst_disjoint _ _ _ _ (Or.inr (by rw [k0_off5_eq]; show 4096 * k.val + 256 * k2.val + 128 ≤ 4096 * k.val + 256 * k2.val + 128; exact le_rfl))
    sl_exec
    sl_for (invR4V d L B0 0 (by omega) (initT N2 (8 * k2.val + 4 * 0 + 0) (by omega))) $$ [H4r]
    case region =>
      intro r acc
      unfold invR4V
      iintro ⟨H, %hacc⟩
      sl_exec
      sl_step
      isplitl [H]; · iexact H
      ipureintro
      exact redT_step4 B0 0 (by omega) _ r.val r.isLt (k0_off15 r) (k0_off16 r) (k0_off17 r) (k0_off18 r) (k0_off19 r) (k0_off20 r) (k0_off21 r) (k0_off22 r) (k0_off15_inb r) (k0_off16_inb r) (k0_off17_inb r) (k0_off18_inb r) (k0_off19_inb r) (k0_off20_inb r) (k0_off21_inb r) (k0_off22_inb r) (k0_off15_eq r) (k0_off16_eq r) (k0_off17_eq r) (k0_off18_eq r) (k0_off19_eq r) (k0_off20_eq r) (k0_off21_eq r) (k0_off22_eq r) acc hacc
    · unfold invR4V
      isplitl [H4r]; · iexact H4r
      ipureintro
      exact (initT_of_loads N2 (8 * k2.val + 4 * 0 + 0) (by omega) (k0_off7 k2 0#32 0#32) (k0_off8 k2 0#32 0#32) (k0_off9 k2 0#32 0#32) (k0_off10 k2 0#32 0#32) (k0_off11 k2 0#32 0#32) (k0_off12 k2 0#32 0#32) (k0_off13 k2 0#32 0#32) (k0_off14 k2 0#32 0#32) (k0_off7_inb k2 0 0) (k0_off8_inb k2 0 0) (k0_off9_inb k2 0 0) (k0_off10_inb k2 0 0) (k0_off11_inb k2 0 0) (k0_off12_inb k2 0 0) (k0_off13_inb k2 0 0) (k0_off14_inb k2 0 0) (k0_off7_eq k2 0 0) (k0_off8_eq k2 0 0) (k0_off9_eq k2 0 0) (k0_off10_eq k2 0 0) (k0_off11_eq k2 0 0) (k0_off12_eq k2 0 0) (k0_off13_eq k2 0 0) (k0_off14_eq k2 0 0)).trans (redT_zero B0 0 (by omega) _).symm
    iintro %a1 HI
    unfold invR4V
    icases HI with ⟨H4r, %ha1⟩
    sl_exec
    sl_for (invR4V d L B0 1 (by omega) (initT N2 (8 * k2.val + 4 * 0 + 1) (by omega))) $$ [H4r]
    case region =>
      intro r acc
      unfold invR4V
      iintro ⟨H, %hacc⟩
      sl_exec
      sl_step
      isplitl [H]; · iexact H
      ipureintro
      exact redT_step4 B0 1 (by omega) _ r.val r.isLt (k0_off23 r) (k0_off24 r) (k0_off25 r) (k0_off26 r) (k0_off27 r) (k0_off28 r) (k0_off29 r) (k0_off30 r) (k0_off23_inb r) (k0_off24_inb r) (k0_off25_inb r) (k0_off26_inb r) (k0_off27_inb r) (k0_off28_inb r) (k0_off29_inb r) (k0_off30_inb r) (k0_off23_eq r) (k0_off24_eq r) (k0_off25_eq r) (k0_off26_eq r) (k0_off27_eq r) (k0_off28_eq r) (k0_off29_eq r) (k0_off30_eq r) acc hacc
    · unfold invR4V
      isplitl [H4r]; · iexact H4r
      ipureintro
      exact (initT_of_loads N2 (8 * k2.val + 4 * 0 + 1) (by omega) (k0_off7 k2 0#32 1#32) (k0_off8 k2 0#32 1#32) (k0_off9 k2 0#32 1#32) (k0_off10 k2 0#32 1#32) (k0_off11 k2 0#32 1#32) (k0_off12 k2 0#32 1#32) (k0_off13 k2 0#32 1#32) (k0_off14 k2 0#32 1#32) (k0_off7_inb k2 0 1) (k0_off8_inb k2 0 1) (k0_off9_inb k2 0 1) (k0_off10_inb k2 0 1) (k0_off11_inb k2 0 1) (k0_off12_inb k2 0 1) (k0_off13_inb k2 0 1) (k0_off14_inb k2 0 1) (k0_off7_eq k2 0 1) (k0_off8_eq k2 0 1) (k0_off9_eq k2 0 1) (k0_off10_eq k2 0 1) (k0_off11_eq k2 0 1) (k0_off12_eq k2 0 1) (k0_off13_eq k2 0 1) (k0_off14_eq k2 0 1)).trans (redT_zero B0 1 (by omega) _).symm
    iintro %a2 HI
    unfold invR4V
    icases HI with ⟨H4r, %ha2⟩
    sl_exec
    sl_for (invR4V d L B0 2 (by omega) (initT N2 (8 * k2.val + 4 * 0 + 2) (by omega))) $$ [H4r]
    case region =>
      intro r acc
      unfold invR4V
      iintro ⟨H, %hacc⟩
      sl_exec
      sl_step
      isplitl [H]; · iexact H
      ipureintro
      exact redT_step4 B0 2 (by omega) _ r.val r.isLt (k0_off31 r) (k0_off32 r) (k0_off33 r) (k0_off34 r) (k0_off35 r) (k0_off36 r) (k0_off37 r) (k0_off38 r) (k0_off31_inb r) (k0_off32_inb r) (k0_off33_inb r) (k0_off34_inb r) (k0_off35_inb r) (k0_off36_inb r) (k0_off37_inb r) (k0_off38_inb r) (k0_off31_eq r) (k0_off32_eq r) (k0_off33_eq r) (k0_off34_eq r) (k0_off35_eq r) (k0_off36_eq r) (k0_off37_eq r) (k0_off38_eq r) acc hacc
    · unfold invR4V
      isplitl [H4r]; · iexact H4r
      ipureintro
      exact (initT_of_loads N2 (8 * k2.val + 4 * 0 + 2) (by omega) (k0_off7 k2 0#32 2#32) (k0_off8 k2 0#32 2#32) (k0_off9 k2 0#32 2#32) (k0_off10 k2 0#32 2#32) (k0_off11 k2 0#32 2#32) (k0_off12 k2 0#32 2#32) (k0_off13 k2 0#32 2#32) (k0_off14 k2 0#32 2#32) (k0_off7_inb k2 0 2) (k0_off8_inb k2 0 2) (k0_off9_inb k2 0 2) (k0_off10_inb k2 0 2) (k0_off11_inb k2 0 2) (k0_off12_inb k2 0 2) (k0_off13_inb k2 0 2) (k0_off14_inb k2 0 2) (k0_off7_eq k2 0 2) (k0_off8_eq k2 0 2) (k0_off9_eq k2 0 2) (k0_off10_eq k2 0 2) (k0_off11_eq k2 0 2) (k0_off12_eq k2 0 2) (k0_off13_eq k2 0 2) (k0_off14_eq k2 0 2)).trans (redT_zero B0 2 (by omega) _).symm
    iintro %a3 HI
    unfold invR4V
    icases HI with ⟨H4r, %ha3⟩
    sl_exec
    sl_for (invR4V d L B0 3 (by omega) (initT N2 (8 * k2.val + 4 * 0 + 3) (by omega))) $$ [H4r]
    case region =>
      intro r acc
      unfold invR4V
      iintro ⟨H, %hacc⟩
      sl_exec
      sl_step
      isplitl [H]; · iexact H
      ipureintro
      exact redT_step4 B0 3 (by omega) _ r.val r.isLt (k0_off39 r) (k0_off40 r) (k0_off41 r) (k0_off42 r) (k0_off43 r) (k0_off44 r) (k0_off45 r) (k0_off46 r) (k0_off39_inb r) (k0_off40_inb r) (k0_off41_inb r) (k0_off42_inb r) (k0_off43_inb r) (k0_off44_inb r) (k0_off45_inb r) (k0_off46_inb r) (k0_off39_eq r) (k0_off40_eq r) (k0_off41_eq r) (k0_off42_eq r) (k0_off43_eq r) (k0_off44_eq r) (k0_off45_eq r) (k0_off46_eq r) acc hacc
    · unfold invR4V
      isplitl [H4r]; · iexact H4r
      ipureintro
      exact (initT_of_loads N2 (8 * k2.val + 4 * 0 + 3) (by omega) (k0_off7 k2 0#32 3#32) (k0_off8 k2 0#32 3#32) (k0_off9 k2 0#32 3#32) (k0_off10 k2 0#32 3#32) (k0_off11 k2 0#32 3#32) (k0_off12 k2 0#32 3#32) (k0_off13 k2 0#32 3#32) (k0_off14 k2 0#32 3#32) (k0_off7_inb k2 0 3) (k0_off8_inb k2 0 3) (k0_off9_inb k2 0 3) (k0_off10_inb k2 0 3) (k0_off11_inb k2 0 3) (k0_off12_inb k2 0 3) (k0_off13_inb k2 0 3) (k0_off14_inb k2 0 3) (k0_off7_eq k2 0 3) (k0_off8_eq k2 0 3) (k0_off9_eq k2 0 3) (k0_off10_eq k2 0 3) (k0_off11_eq k2 0 3) (k0_off12_eq k2 0 3) (k0_off13_eq k2 0 3) (k0_off14_eq k2 0 3)).trans (redT_zero B0 3 (by omega) _).symm
    iintro %a4 HI
    unfold invR4V
    icases HI with ⟨H4r, %ha4⟩
    sl_exec
    by_cases hlt : k2.val < 15
    ·
      have k0_h2 : k0_cond2 k2 = 1#1 := hc2 k2 hlt
      have hinC : ∀ x, (((s0V).slice (Rect.unit (s := S16384) (k0_off47 k k2) S128.size (k0_off47_inb k k2 k0_h2)) (fun _ => rfl)).view.read (Elt F) g0 x).toNat
          < S100000x128.size gathers_S100000x128_S128x128.axis := lst_hin _ _ g0 h0
      have hdisjC : Disjoint ((s0V).slice (Rect.unit (s := S16384) (k0_off47 k k2) S128.size (k0_off47_inb k k2 k0_h2)) (fun _ => rfl)).view.set
          ((s0V).slice (Rect.unit (s := S16384) (k0_off5 k k2) S128.size (k0_off5_inb k k2 k0_h1)) (fun _ => rfl)).view.set :=
        lst_disjoint _ _ _ _ (Or.inr (by rw [k0_off5_eq, k0_off47_eq]; show 4096 * k.val + 256 * k2.val + 128 + 128 ≤ 4096 * k.val + 256 * k2.val + 256; omega))
      sl_exec
      ihave Hn := (name_contents _) $$ H5
      icases Hn with ⟨%B1, %hB1, H5⟩
      have hQB1 : QB ff nf (gb0 L + 128 * k.val) hgb (2 * k2.val + 1) (by omega) B1 := by
        rw [hB1]
        exact qb_of_gather5 ff g0 nf (gb0 L) k.val (2 * k2.val + 1) hk4 (by omega) (gb0_le L) hg0 hnf (k0_off5 k k2) (k0_off5_inb k k2 k0_h1)
          (by rw [k0_off5_eq]; exact congrArg (fun n => ![n]) (by omega)) rfl hinB _
      sl_for (invR5V d L B1 0 (by omega) (initT N2 (8 * k2.val + 4 * 1 + 0) (by omega))) $$ [H5]
      case region =>
        intro r acc
        unfold invR5V
        iintro ⟨H, %hacc⟩
        sl_exec
        sl_step
        isplitl [H]; · iexact H
        ipureintro
        exact redT_step5 B1 0 (by omega) _ r.val r.isLt (k0_off48 r) (k0_off49 r) (k0_off50 r) (k0_off51 r) (k0_off52 r) (k0_off53 r) (k0_off54 r) (k0_off55 r) (k0_off48_inb r) (k0_off49_inb r) (k0_off50_inb r) (k0_off51_inb r) (k0_off52_inb r) (k0_off53_inb r) (k0_off54_inb r) (k0_off55_inb r) (k0_off48_eq r) (k0_off49_eq r) (k0_off50_eq r) (k0_off51_eq r) (k0_off52_eq r) (k0_off53_eq r) (k0_off54_eq r) (k0_off55_eq r) acc hacc
      · unfold invR5V
        isplitl [H5]; · iexact H5
        ipureintro
        exact (initT_of_loads N2 (8 * k2.val + 4 * 1 + 0) (by omega) (k0_off7 k2 1#32 0#32) (k0_off8 k2 1#32 0#32) (k0_off9 k2 1#32 0#32) (k0_off10 k2 1#32 0#32) (k0_off11 k2 1#32 0#32) (k0_off12 k2 1#32 0#32) (k0_off13 k2 1#32 0#32) (k0_off14 k2 1#32 0#32) (k0_off7_inb k2 1 0) (k0_off8_inb k2 1 0) (k0_off9_inb k2 1 0) (k0_off10_inb k2 1 0) (k0_off11_inb k2 1 0) (k0_off12_inb k2 1 0) (k0_off13_inb k2 1 0) (k0_off14_inb k2 1 0) (k0_off7_eq k2 1 0) (k0_off8_eq k2 1 0) (k0_off9_eq k2 1 0) (k0_off10_eq k2 1 0) (k0_off11_eq k2 1 0) (k0_off12_eq k2 1 0) (k0_off13_eq k2 1 0) (k0_off14_eq k2 1 0)).trans (redT_zero B1 0 (by omega) _).symm
      iintro %b1 HI
      unfold invR5V
      icases HI with ⟨H5, %hb1⟩
      sl_exec
      sl_for (invR5V d L B1 1 (by omega) (initT N2 (8 * k2.val + 4 * 1 + 1) (by omega))) $$ [H5]
      case region =>
        intro r acc
        unfold invR5V
        iintro ⟨H, %hacc⟩
        sl_exec
        sl_step
        isplitl [H]; · iexact H
        ipureintro
        exact redT_step5 B1 1 (by omega) _ r.val r.isLt (k0_off56 r) (k0_off57 r) (k0_off58 r) (k0_off59 r) (k0_off60 r) (k0_off61 r) (k0_off62 r) (k0_off63 r) (k0_off56_inb r) (k0_off57_inb r) (k0_off58_inb r) (k0_off59_inb r) (k0_off60_inb r) (k0_off61_inb r) (k0_off62_inb r) (k0_off63_inb r) (k0_off56_eq r) (k0_off57_eq r) (k0_off58_eq r) (k0_off59_eq r) (k0_off60_eq r) (k0_off61_eq r) (k0_off62_eq r) (k0_off63_eq r) acc hacc
      · unfold invR5V
        isplitl [H5]; · iexact H5
        ipureintro
        exact (initT_of_loads N2 (8 * k2.val + 4 * 1 + 1) (by omega) (k0_off7 k2 1#32 1#32) (k0_off8 k2 1#32 1#32) (k0_off9 k2 1#32 1#32) (k0_off10 k2 1#32 1#32) (k0_off11 k2 1#32 1#32) (k0_off12 k2 1#32 1#32) (k0_off13 k2 1#32 1#32) (k0_off14 k2 1#32 1#32) (k0_off7_inb k2 1 1) (k0_off8_inb k2 1 1) (k0_off9_inb k2 1 1) (k0_off10_inb k2 1 1) (k0_off11_inb k2 1 1) (k0_off12_inb k2 1 1) (k0_off13_inb k2 1 1) (k0_off14_inb k2 1 1) (k0_off7_eq k2 1 1) (k0_off8_eq k2 1 1) (k0_off9_eq k2 1 1) (k0_off10_eq k2 1 1) (k0_off11_eq k2 1 1) (k0_off12_eq k2 1 1) (k0_off13_eq k2 1 1) (k0_off14_eq k2 1 1)).trans (redT_zero B1 1 (by omega) _).symm
      iintro %b2 HI
      unfold invR5V
      icases HI with ⟨H5, %hb2⟩
      sl_exec
      sl_for (invR5V d L B1 2 (by omega) (initT N2 (8 * k2.val + 4 * 1 + 2) (by omega))) $$ [H5]
      case region =>
        intro r acc
        unfold invR5V
        iintro ⟨H, %hacc⟩
        sl_exec
        sl_step
        isplitl [H]; · iexact H
        ipureintro
        exact redT_step5 B1 2 (by omega) _ r.val r.isLt (k0_off64 r) (k0_off65 r) (k0_off66 r) (k0_off67 r) (k0_off68 r) (k0_off69 r) (k0_off70 r) (k0_off71 r) (k0_off64_inb r) (k0_off65_inb r) (k0_off66_inb r) (k0_off67_inb r) (k0_off68_inb r) (k0_off69_inb r) (k0_off70_inb r) (k0_off71_inb r) (k0_off64_eq r) (k0_off65_eq r) (k0_off66_eq r) (k0_off67_eq r) (k0_off68_eq r) (k0_off69_eq r) (k0_off70_eq r) (k0_off71_eq r) acc hacc
      · unfold invR5V
        isplitl [H5]; · iexact H5
        ipureintro
        exact (initT_of_loads N2 (8 * k2.val + 4 * 1 + 2) (by omega) (k0_off7 k2 1#32 2#32) (k0_off8 k2 1#32 2#32) (k0_off9 k2 1#32 2#32) (k0_off10 k2 1#32 2#32) (k0_off11 k2 1#32 2#32) (k0_off12 k2 1#32 2#32) (k0_off13 k2 1#32 2#32) (k0_off14 k2 1#32 2#32) (k0_off7_inb k2 1 2) (k0_off8_inb k2 1 2) (k0_off9_inb k2 1 2) (k0_off10_inb k2 1 2) (k0_off11_inb k2 1 2) (k0_off12_inb k2 1 2) (k0_off13_inb k2 1 2) (k0_off14_inb k2 1 2) (k0_off7_eq k2 1 2) (k0_off8_eq k2 1 2) (k0_off9_eq k2 1 2) (k0_off10_eq k2 1 2) (k0_off11_eq k2 1 2) (k0_off12_eq k2 1 2) (k0_off13_eq k2 1 2) (k0_off14_eq k2 1 2)).trans (redT_zero B1 2 (by omega) _).symm
      iintro %b3 HI
      unfold invR5V
      icases HI with ⟨H5, %hb3⟩
      sl_exec
      sl_for (invR5V d L B1 3 (by omega) (initT N2 (8 * k2.val + 4 * 1 + 3) (by omega))) $$ [H5]
      case region =>
        intro r acc
        unfold invR5V
        iintro ⟨H, %hacc⟩
        sl_exec
        sl_step
        isplitl [H]; · iexact H
        ipureintro
        exact redT_step5 B1 3 (by omega) _ r.val r.isLt (k0_off72 r) (k0_off73 r) (k0_off74 r) (k0_off75 r) (k0_off76 r) (k0_off77 r) (k0_off78 r) (k0_off79 r) (k0_off72_inb r) (k0_off73_inb r) (k0_off74_inb r) (k0_off75_inb r) (k0_off76_inb r) (k0_off77_inb r) (k0_off78_inb r) (k0_off79_inb r) (k0_off72_eq r) (k0_off73_eq r) (k0_off74_eq r) (k0_off75_eq r) (k0_off76_eq r) (k0_off77_eq r) (k0_off78_eq r) (k0_off79_eq r) acc hacc
      · unfold invR5V
        isplitl [H5]; · iexact H5
        ipureintro
        exact (initT_of_loads N2 (8 * k2.val + 4 * 1 + 3) (by omega) (k0_off7 k2 1#32 3#32) (k0_off8 k2 1#32 3#32) (k0_off9 k2 1#32 3#32) (k0_off10 k2 1#32 3#32) (k0_off11 k2 1#32 3#32) (k0_off12 k2 1#32 3#32) (k0_off13 k2 1#32 3#32) (k0_off14 k2 1#32 3#32) (k0_off7_inb k2 1 3) (k0_off8_inb k2 1 3) (k0_off9_inb k2 1 3) (k0_off10_inb k2 1 3) (k0_off11_inb k2 1 3) (k0_off12_inb k2 1 3) (k0_off13_inb k2 1 3) (k0_off14_inb k2 1 3) (k0_off7_eq k2 1 3) (k0_off8_eq k2 1 3) (k0_off9_eq k2 1 3) (k0_off10_eq k2 1 3) (k0_off11_eq k2 1 3) (k0_off12_eq k2 1 3) (k0_off13_eq k2 1 3) (k0_off14_eq k2 1 3)).trans (redT_zero B1 3 (by omega) _).symm
      iintro %b4 HI
      unfold invR5V
      icases HI with ⟨H5, %hb4⟩
      sl_exec
      sl_step
      rw [dif_pos (by omega : k2.val + 1 < 16)]
      isplitl [Hmw]; · iexact Hmw
      isplitl [H2]
      · iexists _; isplitr
        · ipureintro; exact hQN
        · iexact H2
      isplitl [H3]
      · iexists _; isplitr
        swap; · iexact H3
        ipureintro
        exact (q3_step _ f3' k2 a1 a2 a3 a4 b1 b2 b3 b4 hQ3
          (fun j x => by rw [ha1]; exact acc_final ff nd nf (gb0 L + 128 * k.val) hgb N2 B0 k2.val hk2 0 0 hQN hQB0 j x)
          (fun j x => by rw [ha2]; exact acc_final ff nd nf (gb0 L + 128 * k.val) hgb N2 B0 k2.val hk2 0 1 hQN hQB0 j x)
          (fun j x => by rw [ha3]; exact acc_final ff nd nf (gb0 L + 128 * k.val) hgb N2 B0 k2.val hk2 0 2 hQN hQB0 j x)
          (fun j x => by rw [ha4]; exact acc_final ff nd nf (gb0 L + 128 * k.val) hgb N2 B0 k2.val hk2 0 3 hQN hQB0 j x)
          (fun j x => by rw [hb1]; exact acc_final ff nd nf (gb0 L + 128 * k.val) hgb N2 B1 k2.val hk2 1 0 hQN hQB1 j x)
          (fun j x => by rw [hb2]; exact acc_final ff nd nf (gb0 L + 128 * k.val) hgb N2 B1 k2.val hk2 1 1 hQN hQB1 j x)
          (fun j x => by rw [hb3]; exact acc_final ff nd nf (gb0 L + 128 * k.val) hgb N2 B1 k2.val hk2 1 2 hQN hQB1 j x)
          (fun j x => by rw [hb4]; exact acc_final ff nd nf (gb0 L + 128 * k.val) hgb N2 B1 k2.val hk2 1 3 hQN hQB1 j x))
      isplitl [Hfl H4r H0r Hfar]
      · iexists _
        iexists (k0_off47 k k2)
        iexists (k0_off47_inb k k2 k0_h2)
        isplitr
        · ipureintro; rw [k0_off47_eq]; exact congrArg (fun n => ![n]) (by omega)
        isplitr
        swap
        · isplitl [Hfl]; · iexact Hfl
          isplitl [H4r]; · iexact H4r
          isplitl [H0r]; · iexact H0r
          iexact Hfar
        ipureintro
        exact qb_of_gather4 ff g0 nf (gb0 L) k.val (2 * (k2.val + 1)) hk4 (by omega) (gb0_le L) hg0 hnf (k0_off47 k k2) (k0_off47_inb k k2 k0_h2)
          (by rw [k0_off47_eq]; exact congrArg (fun n => ![n]) (by omega)) rfl hinC _
      isplitl [H5]; · iexists _; iexact H5
      isplitl [Hfb]; · iexact Hfb
      isplitl [Hs8]; · iexact Hs8
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW2 p hp
    ·
      have k0_h2 : ¬ k0_cond2 k2 = 1#1 := hc2n k2 hlt
      sl_exec
      ihave Hn := (name_contents _) $$ H5
      icases Hn with ⟨%B1, %hB1, H5⟩
      have hQB1 : QB ff nf (gb0 L + 128 * k.val) hgb (2 * k2.val + 1) (by omega) B1 := by
        rw [hB1]
        exact qb_of_gather5 ff g0 nf (gb0 L) k.val (2 * k2.val + 1) hk4 (by omega) (gb0_le L) hg0 hnf (k0_off5 k k2) (k0_off5_inb k k2 k0_h1)
          (by rw [k0_off5_eq]; exact congrArg (fun n => ![n]) (by omega)) rfl hinB _
      sl_for (invR5V d L B1 0 (by omega) (initT N2 (8 * k2.val + 4 * 1 + 0) (by omega))) $$ [H5]
      case region =>
        intro r acc
        unfold invR5V
        iintro ⟨H, %hacc⟩
        sl_exec
        sl_step
        isplitl [H]; · iexact H
        ipureintro
        exact redT_step5 B1 0 (by omega) _ r.val r.isLt (k0_off48 r) (k0_off49 r) (k0_off50 r) (k0_off51 r) (k0_off52 r) (k0_off53 r) (k0_off54 r) (k0_off55 r) (k0_off48_inb r) (k0_off49_inb r) (k0_off50_inb r) (k0_off51_inb r) (k0_off52_inb r) (k0_off53_inb r) (k0_off54_inb r) (k0_off55_inb r) (k0_off48_eq r) (k0_off49_eq r) (k0_off50_eq r) (k0_off51_eq r) (k0_off52_eq r) (k0_off53_eq r) (k0_off54_eq r) (k0_off55_eq r) acc hacc
      · unfold invR5V
        isplitl [H5]; · iexact H5
        ipureintro
        exact (initT_of_loads N2 (8 * k2.val + 4 * 1 + 0) (by omega) (k0_off7 k2 1#32 0#32) (k0_off8 k2 1#32 0#32) (k0_off9 k2 1#32 0#32) (k0_off10 k2 1#32 0#32) (k0_off11 k2 1#32 0#32) (k0_off12 k2 1#32 0#32) (k0_off13 k2 1#32 0#32) (k0_off14 k2 1#32 0#32) (k0_off7_inb k2 1 0) (k0_off8_inb k2 1 0) (k0_off9_inb k2 1 0) (k0_off10_inb k2 1 0) (k0_off11_inb k2 1 0) (k0_off12_inb k2 1 0) (k0_off13_inb k2 1 0) (k0_off14_inb k2 1 0) (k0_off7_eq k2 1 0) (k0_off8_eq k2 1 0) (k0_off9_eq k2 1 0) (k0_off10_eq k2 1 0) (k0_off11_eq k2 1 0) (k0_off12_eq k2 1 0) (k0_off13_eq k2 1 0) (k0_off14_eq k2 1 0)).trans (redT_zero B1 0 (by omega) _).symm
      iintro %b1 HI
      unfold invR5V
      icases HI with ⟨H5, %hb1⟩
      sl_exec
      sl_for (invR5V d L B1 1 (by omega) (initT N2 (8 * k2.val + 4 * 1 + 1) (by omega))) $$ [H5]
      case region =>
        intro r acc
        unfold invR5V
        iintro ⟨H, %hacc⟩
        sl_exec
        sl_step
        isplitl [H]; · iexact H
        ipureintro
        exact redT_step5 B1 1 (by omega) _ r.val r.isLt (k0_off56 r) (k0_off57 r) (k0_off58 r) (k0_off59 r) (k0_off60 r) (k0_off61 r) (k0_off62 r) (k0_off63 r) (k0_off56_inb r) (k0_off57_inb r) (k0_off58_inb r) (k0_off59_inb r) (k0_off60_inb r) (k0_off61_inb r) (k0_off62_inb r) (k0_off63_inb r) (k0_off56_eq r) (k0_off57_eq r) (k0_off58_eq r) (k0_off59_eq r) (k0_off60_eq r) (k0_off61_eq r) (k0_off62_eq r) (k0_off63_eq r) acc hacc
      · unfold invR5V
        isplitl [H5]; · iexact H5
        ipureintro
        exact (initT_of_loads N2 (8 * k2.val + 4 * 1 + 1) (by omega) (k0_off7 k2 1#32 1#32) (k0_off8 k2 1#32 1#32) (k0_off9 k2 1#32 1#32) (k0_off10 k2 1#32 1#32) (k0_off11 k2 1#32 1#32) (k0_off12 k2 1#32 1#32) (k0_off13 k2 1#32 1#32) (k0_off14 k2 1#32 1#32) (k0_off7_inb k2 1 1) (k0_off8_inb k2 1 1) (k0_off9_inb k2 1 1) (k0_off10_inb k2 1 1) (k0_off11_inb k2 1 1) (k0_off12_inb k2 1 1) (k0_off13_inb k2 1 1) (k0_off14_inb k2 1 1) (k0_off7_eq k2 1 1) (k0_off8_eq k2 1 1) (k0_off9_eq k2 1 1) (k0_off10_eq k2 1 1) (k0_off11_eq k2 1 1) (k0_off12_eq k2 1 1) (k0_off13_eq k2 1 1) (k0_off14_eq k2 1 1)).trans (redT_zero B1 1 (by omega) _).symm
      iintro %b2 HI
      unfold invR5V
      icases HI with ⟨H5, %hb2⟩
      sl_exec
      sl_for (invR5V d L B1 2 (by omega) (initT N2 (8 * k2.val + 4 * 1 + 2) (by omega))) $$ [H5]
      case region =>
        intro r acc
        unfold invR5V
        iintro ⟨H, %hacc⟩
        sl_exec
        sl_step
        isplitl [H]; · iexact H
        ipureintro
        exact redT_step5 B1 2 (by omega) _ r.val r.isLt (k0_off64 r) (k0_off65 r) (k0_off66 r) (k0_off67 r) (k0_off68 r) (k0_off69 r) (k0_off70 r) (k0_off71 r) (k0_off64_inb r) (k0_off65_inb r) (k0_off66_inb r) (k0_off67_inb r) (k0_off68_inb r) (k0_off69_inb r) (k0_off70_inb r) (k0_off71_inb r) (k0_off64_eq r) (k0_off65_eq r) (k0_off66_eq r) (k0_off67_eq r) (k0_off68_eq r) (k0_off69_eq r) (k0_off70_eq r) (k0_off71_eq r) acc hacc
      · unfold invR5V
        isplitl [H5]; · iexact H5
        ipureintro
        exact (initT_of_loads N2 (8 * k2.val + 4 * 1 + 2) (by omega) (k0_off7 k2 1#32 2#32) (k0_off8 k2 1#32 2#32) (k0_off9 k2 1#32 2#32) (k0_off10 k2 1#32 2#32) (k0_off11 k2 1#32 2#32) (k0_off12 k2 1#32 2#32) (k0_off13 k2 1#32 2#32) (k0_off14 k2 1#32 2#32) (k0_off7_inb k2 1 2) (k0_off8_inb k2 1 2) (k0_off9_inb k2 1 2) (k0_off10_inb k2 1 2) (k0_off11_inb k2 1 2) (k0_off12_inb k2 1 2) (k0_off13_inb k2 1 2) (k0_off14_inb k2 1 2) (k0_off7_eq k2 1 2) (k0_off8_eq k2 1 2) (k0_off9_eq k2 1 2) (k0_off10_eq k2 1 2) (k0_off11_eq k2 1 2) (k0_off12_eq k2 1 2) (k0_off13_eq k2 1 2) (k0_off14_eq k2 1 2)).trans (redT_zero B1 2 (by omega) _).symm
      iintro %b3 HI
      unfold invR5V
      icases HI with ⟨H5, %hb3⟩
      sl_exec
      sl_for (invR5V d L B1 3 (by omega) (initT N2 (8 * k2.val + 4 * 1 + 3) (by omega))) $$ [H5]
      case region =>
        intro r acc
        unfold invR5V
        iintro ⟨H, %hacc⟩
        sl_exec
        sl_step
        isplitl [H]; · iexact H
        ipureintro
        exact redT_step5 B1 3 (by omega) _ r.val r.isLt (k0_off72 r) (k0_off73 r) (k0_off74 r) (k0_off75 r) (k0_off76 r) (k0_off77 r) (k0_off78 r) (k0_off79 r) (k0_off72_inb r) (k0_off73_inb r) (k0_off74_inb r) (k0_off75_inb r) (k0_off76_inb r) (k0_off77_inb r) (k0_off78_inb r) (k0_off79_inb r) (k0_off72_eq r) (k0_off73_eq r) (k0_off74_eq r) (k0_off75_eq r) (k0_off76_eq r) (k0_off77_eq r) (k0_off78_eq r) (k0_off79_eq r) acc hacc
      · unfold invR5V
        isplitl [H5]; · iexact H5
        ipureintro
        exact (initT_of_loads N2 (8 * k2.val + 4 * 1 + 3) (by omega) (k0_off7 k2 1#32 3#32) (k0_off8 k2 1#32 3#32) (k0_off9 k2 1#32 3#32) (k0_off10 k2 1#32 3#32) (k0_off11 k2 1#32 3#32) (k0_off12 k2 1#32 3#32) (k0_off13 k2 1#32 3#32) (k0_off14 k2 1#32 3#32) (k0_off7_inb k2 1 3) (k0_off8_inb k2 1 3) (k0_off9_inb k2 1 3) (k0_off10_inb k2 1 3) (k0_off11_inb k2 1 3) (k0_off12_inb k2 1 3) (k0_off13_inb k2 1 3) (k0_off14_inb k2 1 3) (k0_off7_eq k2 1 3) (k0_off8_eq k2 1 3) (k0_off9_eq k2 1 3) (k0_off10_eq k2 1 3) (k0_off11_eq k2 1 3) (k0_off12_eq k2 1 3) (k0_off13_eq k2 1 3) (k0_off14_eq k2 1 3)).trans (redT_zero B1 3 (by omega) _).symm
      iintro %b4 HI
      unfold invR5V
      icases HI with ⟨H5, %hb4⟩
      sl_exec
      sl_step
      rw [dif_neg (by omega : ¬ k2.val + 1 < 16)]
      isplitl [Hmw]; · iexact Hmw
      isplitl [H2]
      · iexists _; isplitr
        · ipureintro; exact hQN
        · iexact H2
      isplitl [H3]
      · iexists _; isplitr
        swap; · iexact H3
        ipureintro
        exact (q3_step _ f3' k2 a1 a2 a3 a4 b1 b2 b3 b4 hQ3
          (fun j x => by rw [ha1]; exact acc_final ff nd nf (gb0 L + 128 * k.val) hgb N2 B0 k2.val hk2 0 0 hQN hQB0 j x)
          (fun j x => by rw [ha2]; exact acc_final ff nd nf (gb0 L + 128 * k.val) hgb N2 B0 k2.val hk2 0 1 hQN hQB0 j x)
          (fun j x => by rw [ha3]; exact acc_final ff nd nf (gb0 L + 128 * k.val) hgb N2 B0 k2.val hk2 0 2 hQN hQB0 j x)
          (fun j x => by rw [ha4]; exact acc_final ff nd nf (gb0 L + 128 * k.val) hgb N2 B0 k2.val hk2 0 3 hQN hQB0 j x)
          (fun j x => by rw [hb1]; exact acc_final ff nd nf (gb0 L + 128 * k.val) hgb N2 B1 k2.val hk2 1 0 hQN hQB1 j x)
          (fun j x => by rw [hb2]; exact acc_final ff nd nf (gb0 L + 128 * k.val) hgb N2 B1 k2.val hk2 1 1 hQN hQB1 j x)
          (fun j x => by rw [hb3]; exact acc_final ff nd nf (gb0 L + 128 * k.val) hgb N2 B1 k2.val hk2 1 2 hQN hQB1 j x)
          (fun j x => by rw [hb4]; exact acc_final ff nd nf (gb0 L + 128 * k.val) hgb N2 B1 k2.val hk2 1 3 hQN hQB1 j x))
      isplitl [Hfl H4r H0r Hfar]
      · isplitl [H4r]; · iexists _; iexact H4r
        isplitl [H0r]; · iexact H0r
        isplitl [Hfar]; · iexact Hfar
        iexact Hfl
      isplitl [H5]; · iexists _; iexact H5
      isplitl [Hfb]; · iexact Hfb
      isplitl [Hs8]; · iexact Hs8
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW2 p hp
  · -- the pair loop is entered with group 0's gather in flight
    unfold inv2V slot0V
    rw [dif_pos (by decide : (0 : ℕ) < 16)]
    isplitl [Hmw]; · iexact Hmw
    isplitl [H2]
    · iexists _; isplitr
      swap; · iexact H2
      ipureintro
      exact qn_of_gather ff g1 nd (gb0 L) k.val hk4 (gb0_le L) hg1 hnd (k0_off3 k) (k0_off3_inb k) (k0_off3_eq k) rfl hinN _
    isplitl [H3]
    · iexists _; isplitr
      swap; · iexact H3
      ipureintro; intro y hy; exact absurd hy (by omega)
    isplitl [Hs7 H4 H0 Hfb]
    · iexists _
      iexists (k0_off4 k)
      iexists (k0_off4_inb k)
      isplitr
      · ipureintro; rw [k0_off4_eq]; exact congrArg (fun n => ![n]) (by omega)
      isplitr
      swap
      · isplitl [Hs7]; · iexact Hs7
        isplitl [H4]; · iexact H4
        isplitl [H0]; · iexact H0
        iexact Hfb
      ipureintro
      exact qb_of_gather4 ff g0 nf (gb0 L) k.val (2 * 0) hk4 (by omega) (gb0_le L) hg0 hnf (k0_off4 k) (k0_off4_inb k)
        (by rw [k0_off4_eq]; exact congrArg (fun n => ![n]) (by omega)) rfl hinA _
    isplitl [H5]; · iexists _; iexact H5
    isplitl [Hfa]; · iexact Hfa
    isplitl [Hs8]; · iexact Hs8
    iexists _; isplitr
    swap; · iexact HO
    ipureintro; intro p hp
    rcases Finset.mem_insert.mp hp with hp | hp; · exact .inr (hp ▸ rfl)
    exact hW' p hp
  -- after the pair loop: the chunk's write-out
  iintro %_ HI
  unfold inv2V slot0V
  rw [dif_neg (by decide : ¬ Scf.trips k0_t2_loop.lb k0_t2_loop.ub k0_t2_loop.st < 16)]
  icases HI with ⟨Hmw, ⟨%N2, -, H2⟩, ⟨%f3', %hQ3, H3⟩, ⟨⟨%B0, H4⟩, H0, Hfb, Hs7⟩, ⟨%f5', H5⟩, Hfa, Hs8, %W2, %hW2, HO⟩
  sl_exec
  sl_step
  isplitl [Hmw]; · iexact Hmw
  isplitl [Hfa]; · iexact Hfa
  isplitl [Hfb]; · iexact Hfb
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [Hout Hrest]
  · iapply (Entails.of_eq (SparseCore.bigSep_erase' (Finset.mem_univ k)).symm)
    isplitl [Hout]
    · iexists _; isplitr
      swap; · iexact Hout
      ipureintro; intro _
      exact chunk_of_q3 ff nd nf L k hgb fo f3' hQ3
    · iapply (chunks_mono d L ff nd nf k) $$ Hrest
  isplitl [Hs6]; · iexact Hs6
  isplitl [Hs7]; · iexact Hs7
  isplitl [Hs8]; · iexact Hs8
  isplitl [Hc2]; · iexact Hc2
  iexists _; isplitr
  swap; · iexact HO
  ipureintro; intro p hp
  rcases Finset.mem_insert.mp hp with hp | hp; · exact .inr (hp ▸ rfl)
  exact hW2 p hp

end Cert.Proof.KI

end
-- ==== Proof.KITileObl.lean ====
/-
  One tile's task, whole. The tile copies its words of the two flattened index lists into its scratch lists and
  waits for them; the lists then hold exactly those words, each naming a table row. The superchunk loop runs from
  the invariant "the chunks of finished superchunks hold the aggregate" — one trip of it is the theorem of the loop's
  body —, and after its four trips every chunk holds the aggregate: the tile hands back its shares of the table and
  of the two lists, its four chunks at the aggregate array, its scratch storage and its semaphores at zero.
-/
import proofs.«210776_g5076651344590_cont_8to1_c_706_2_alg».proof.Proof.KITileSplit
import proofs.«210776_g5076651344590_cont_8to1_c_706_2_alg».proof.Proof.KIReads
import proofs.«210776_g5076651344590_cont_8to1_c_706_2_alg».proof.Proof.KIBody
import proofs.«210776_g5076651344590_cont_8to1_c_706_2_alg».proof.Proof.Gen.KernelIdeal.Skeleton
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Cert.Spec Cert.Proof.Sums

variable {F : FTy → Type}

local notation "𝕄" => MT nD τ sig (HIx 1) (Elt F) ℕ UU ℕ

local notation "featV" => (Memref.whole Cert.KernelIdeal.main_arg0_scv : Memref Cert.KernelIdeal.sig Kind.scVector Space.hbm Cert.KernelIdeal.S100000x128 EltTy.f32)
local notation "nfV" => (Memref.whole Cert.KernelIdeal.main_v0_scv : Memref Cert.KernelIdeal.sig Kind.scVector Space.hbm Cert.KernelIdeal.S524288 EltTy.i32)
local notation "ndV" => (Memref.whole Cert.KernelIdeal.main_v1_scv : Memref Cert.KernelIdeal.sig Kind.scVector Space.hbm Cert.KernelIdeal.S16384 EltTy.i32)
local notation "sumV" => (Memref.whole Cert.KernelIdeal.main_v2_scv : Memref Cert.KernelIdeal.sig Kind.scVector Space.hbm Cert.KernelIdeal.S16384x128 EltTy.f32)
local notation "s0V" => (Memref.whole Cert.KernelIdeal.cc0_scratch0 : Memref Cert.KernelIdeal.sig Kind.scVector Space.vmem Cert.KernelIdeal.S16384 EltTy.i32)
local notation "s1V" => (Memref.whole Cert.KernelIdeal.cc0_scratch1 : Memref Cert.KernelIdeal.sig Kind.scVector Space.vmem Cert.KernelIdeal.S512 EltTy.i32)
local notation "s2V" => (Memref.whole Cert.KernelIdeal.cc0_scratch2 : Memref Cert.KernelIdeal.sig Kind.scVector Space.vmem Cert.KernelIdeal.S128x128 EltTy.f32)
local notation "s3V" => (Memref.whole Cert.KernelIdeal.cc0_scratch3 : Memref Cert.KernelIdeal.sig Kind.scVector Space.vmem Cert.KernelIdeal.S128x128 EltTy.f32)
local notation "s4V" => (Memref.whole Cert.KernelIdeal.cc0_scratch4 : Memref Cert.KernelIdeal.sig Kind.scVector Space.vmem Cert.KernelIdeal.S128x128 EltTy.f32)
local notation "s5V" => (Memref.whole Cert.KernelIdeal.cc0_scratch5 : Memref Cert.KernelIdeal.sig Kind.scVector Space.vmem Cert.KernelIdeal.S128x128 EltTy.f32)

variable [FloatOps F] [Named F]

/-- One trip of the superchunk loop, taken as given. -/
abbrev TripHyp : Prop :=
  ∀ (d : Dev nD) (L : grid0.Coords) (qa qb : PosShare TreeShare) (O : CellTallies nD τ sig (HIx 1)) (W : Waits sig (HIx 1))
    (ff : Buf (Elt F) ((featV).view.loc (V d (cV L) (jV L)))) (g0 : Buf (Elt F) ((s0V).view.loc (V d (cV L) (jV L)))) (g1 : Buf (Elt F) ((s1V).view.loc (V d (cV L) (jV L))))
    (nd : SNodeFlat.Idx → BitVec 32) (nf : SNbrFlat.Idx → BitVec 32) (hg1 : G1ok L g1 nd) (hg0 : G0ok L g0 nf)
    (hnd : ∀ z, (nd z).toNat < 100000) (hnf : ∀ z, (nf z).toNat < 100000)
    (h0 : ∀ z, (g0 z).toNat < 100000) (h1 : ∀ z, (g1 z).toNat < 100000) (k : Fin k0_t1_loop.trips),
    inv1V d L qa qb O W ff g0 g1 nd nf k.val ()
      ⊢ wp frame (wpE (defs₀ (F := F)) 𝒱₀ (V d (cV L) (jV L)) none) Set.univ
          (k0_t1_body L featV (Memref.isWhole_whole _) nfV (Memref.isWhole_whole _) ndV (Memref.isWhole_whole _) sumV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scratch7 cc0_scratch8 cc0_scoped0 cc0_scoped1 cc0_scoped2 k ())
          (fun _ => inv1V d L qa qb O W ff g0 g1 nd nf (k.val + 1) ())

variable (m : (ℓ : Loc nD τ sig) → Buf (Elt F) ℓ) (d : Dev nD)

/-- A subcore's buffer held whole, named through the whole-buffer view. -/
theorem pts_whole (c : Fin τ.nSC) (i : Fin τ.nSub) (b : Ref sig .scVector) (q : PosShare TreeShare) (f : Buf (Elt F) ((V d c i).loc b)) :
    ((V d c i).loc b ↦{q} f : sProp 𝕄) = ((Memref.whole b).view.loc (V d c i) ↦{q} f) := rfl

/-- A chunk of the aggregate array enters the loop's invariant: nothing is yet said of its contents. -/
theorem chunk_in (L : grid0.Coords) (k' : Fin k0_t1_loop.trips) (n : ℕ) (hn : ¬ k'.val < n) (fs : Buf (Elt F) (sumsLoc d))
    (ff : SFeat.Idx → F .f32) (nd : SNodeFlat.Idx → BitVec 32) (nf : SNbrFlat.Idx → BitVec 32) :
    (sumsLoc d ↦[chunkSet L k']{fullShare} fs : sProp 𝕄)
      ⊢ iprop(∃ fo, ⌜k'.val < n → ∀ y ∈ (outK L k').view.set, fo y = sums ff nd nf y⌝
          ∗ (outK L k').view.loc (V d (cV L) (jV L)) ↦[(outK L k').view.set]{fullShare} fo) := by
  iintro H
  iexists fs
  isplitr; · ipureintro; exact fun h => absurd h hn
  iexact H

/-- A finished chunk holds the aggregate there. -/
theorem chunk_out (L : grid0.Coords) (k' : Fin k0_t1_loop.trips) (n : ℕ) (hn : k'.val < n) :
    iprop(∃ fo, ⌜k'.val < n → ∀ y ∈ (outK L k').view.set, fo y = sums (m (featLoc d)) (NDv m d) (NFv m d) y⌝
          ∗ (outK L k').view.loc (V d (cV L) (jV L)) ↦[(outK L k').view.set]{fullShare} fo)
      ⊢ (sumsLoc d ↦[chunkSet L k']{fullShare} SUMSv m d : sProp 𝕄) := by
  iintro ⟨%fo, %h, H⟩
  have e : ((outK L k').view.loc (V d (cV L) (jV L)) ↦[(outK L k').view.set]{fullShare} fo : sProp 𝕄)
      = (sumsLoc d ↦[chunkSet L k']{fullShare} SUMSv m d) := pointsTo_congr (h hn)
  iapply (Entails.of_eq e)
  iexact H

set_option maxHeartbeats 1000000 in
theorem tile_body (htrip : TripHyp (F := F)) (hF : (K (F := F)).Facts) (hpre : PreOK m) (c : Fin 2) (i : Fin 16)
    (O : CellTallies nD τ sig (HIx 1)) (W : Waits sig (HIx 1)) (hO : ∀ g, O g none = 0) :
    iprop(levAts (K (F := F)).L (K (F := F)).lev ∗ tileRes m d c i (m (sumsLoc d))
        ∗ scopedBufs (V d (cV (coordsV c i)) (jV (coordsV c i))) ∗ scopedSems0 (V d (cV (coordsV c i)) (jV (coordsV c i)))
        ∗ owes (V d (cV (coordsV c i)) (jV (coordsV c i))) O W)
      ⊢ wp frame (wpE (defs₀ (F := F)) 𝒱₀ (V d (cV (coordsV c i)) (jV (coordsV c i))) none) Set.univ
          (cc0__sc_body (coordsV c i) featV (Memref.isWhole_whole _) nfV (Memref.isWhole_whole _) ndV (Memref.isWhole_whole _) sumV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scratch7 cc0_scratch8 cc0_scoped0 cc0_scoped1 cc0_scoped2)
          fun _ => iprop(tileRes m d c i (SUMSv m d) ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  rw [cc0__sc_body_eq_skeleton]; delta cc0__sc_body_skel; beta_reduce
  rw [(K (F := F)).scopedBufs_V hF d _ _, SparseCore.Cfg.scopedSems0_V (Val := Elt F) d _ _, ownSems0_six, ownBufs_six]
  unfold tileRes
  iintro ⟨#Hlv, ⟨Hfeat, Hnf, Hnd, Hch⟩, ⟨⟨⟨%f0, H0⟩, ⟨%f1, H1⟩, ⟨%f2, H2⟩, ⟨%f3, H3⟩, ⟨%f4, H4⟩, ⟨%f5, H5⟩⟩, Hbrest⟩, ⟨⟨S6, S7, S8, Sc0, Sc1, Sc2⟩, Hsrest⟩, HO⟩
  ihave Hmw := ((K (F := F)).mayWaits_none (thr := V d (cV (coordsV c i)) (jV (coordsV c i))) hO) $$ Hlv
  ihave Hfeat := (Entails.of_eq (pts_featV (F := F) d (cV (coordsV c i)) (jV (coordsV c i)) _ _).symm) $$ Hfeat
  ihave Hnf := (Entails.of_eq (pts_nbrV (F := F) d (cV (coordsV c i)) (jV (coordsV c i)) _ _).symm) $$ Hnf
  ihave Hnd := (Entails.of_eq (pts_nodeV (F := F) d (cV (coordsV c i)) (jV (coordsV c i)) _ _).symm) $$ Hnd
  ihave H0 := (Entails.of_eq (pts_whole (F := F) d _ _ cc0_scratch0 _ _)) $$ H0
  ihave H1 := (Entails.of_eq (pts_whole (F := F) d _ _ cc0_scratch1 _ _)) $$ H1
  ihave H2 := (Entails.of_eq (pts_whole (F := F) d _ _ cc0_scratch2 _ _)) $$ H2
  ihave H3 := (Entails.of_eq (pts_whole (F := F) d _ _ cc0_scratch3 _ _)) $$ H3
  ihave H4 := (Entails.of_eq (pts_whole (F := F) d _ _ cc0_scratch4 _ _)) $$ H4
  ihave H5 := (Entails.of_eq (pts_whole (F := F) d _ _ cc0_scratch5 _ _)) $$ H5
  sl_exec
  ihave Hn0 := (name_contents _) $$ H0
  icases Hn0 with ⟨%g0, %hg0, H0⟩
  ihave Hn1 := (name_contents _) $$ H1
  icases Hn1 with ⟨%g1, %hg1, H1⟩
  have hG0 : G0ok (coordsV c i) g0 (NFv m d) := by
    intro y
    rw [hg0, View.write_whole_univ]
    unfold tile_body.sl.dma0
    show View.read (Elt F) (nfSl (coordsV c i)).view (NFv m d) (ix1 y) = _
    refine ((View.read_apply _ _).trans (cast_eq _ _)).trans ?_
    rw [nfSl_emb]
    refine congrArg (NFv m d) (congrArg ix1 (Fin.ext ?_))
    show 32768 * ((coordsV c i) 1).val + 16384 * ((coordsV c i) 0).val + y.val = 32 * gb0 (coordsV c i) + y.val
    unfold gb0; omega
  have hG1 : G1ok (coordsV c i) g1 (NDv m d) := by
    intro y
    rw [hg1, View.write_whole_univ]
    unfold tile_body.sl.dma0_1
    show View.read (Elt F) (ndSl (coordsV c i)).view (NDv m d) (ix1 y) = _
    refine ((View.read_apply _ _).trans (cast_eq _ _)).trans ?_
    rw [ndSl_emb]
    refine congrArg (NDv m d) (congrArg ix1 (Fin.ext ?_))
    show 1024 * ((coordsV c i) 1).val + 512 * ((coordsV c i) 0).val + y.val = gb0 (coordsV c i) + y.val
    unfold gb0; omega
  have hnd : ∀ z, (NDv m d z).toNat < 100000 := fun z => (hpre d).1 _
  have hnf : ∀ z, (NFv m d z).toNat < 100000 := fun z => (hpre d).2 _
  have h0 : ∀ z, (g0 z).toNat < 100000 := fun z => by
    have e := hG0 (z 0)
    have ez : g0 z = g0 (ix1 (z 0)) := congrArg g0 (eq_ix1 z)
    rw [ez, e]; exact hnf _
  have h1 : ∀ z, (g1 z).toNat < 100000 := fun z => by
    have e := hG1 (z 0)
    have ez : g1 z = g1 (ix1 (z 0)) := congrArg g1 (eq_ix1 z)
    rw [ez, e]; exact hnd _
  ihave Hf2 := (pointsTo_share (PosShare.mem_left_op_right (tileShare c i))).1 $$ Hfeat
  icases Hf2 with ⟨Hfa, Hfb⟩
  sl_for (inv1V d (coordsV c i) (tileShare c i).left (tileShare c i).right O W (m (featLoc d)) g0 g1 (NDv m d) (NFv m d)) $$ [Hfa Hfb H0 H1 H2 H3 H4 H5 Hch S6 S7 S8 Sc2 HO]
  case region => intro k _; exact htrip d (coordsV c i) _ _ O W _ g0 g1 _ _ hG1 hG0 hnd hnf h0 h1 k
  · unfold inv1V
    isplitr; · iexact Hmw
    isplitl [Hfa]; · iexact Hfa
    isplitl [Hfb]; · iexact Hfb
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [Hch]
    · iapply (SparseCore.ent (bigSep_mono fun k' _ => chunk_in (F := F) d (coordsV c i) k' 0 (Nat.not_lt_zero _) (m (sumsLoc d)) (m (featLoc d)) (NDv m d) (NFv m d)))
      iexact Hch
    isplitl [S6]; · iexact S6
    isplitl [S7]; · iexact S7
    isplitl [S8]; · iexact S8
    isplitl [Sc2]; · iexact Sc2
    iexists _; isplitr; swap; · iexact HO
    ipureintro
    intro p hp
    rcases Finset.mem_insert.mp hp with rfl | hp
    · exact Or.inr rfl
    rcases Finset.mem_insert.mp hp with rfl | hp
    · exact Or.inr rfl
    exact Or.inl hp
  iintro %a HI
  unfold inv1V
  icases HI with ⟨-, Hfa, Hfb, H0, H1, ⟨%e2, H2⟩, ⟨%e3, H3⟩, ⟨%e4, H4⟩, ⟨%e5, H5⟩, Hch, S6, S7, S8, Sc2, ⟨%W', %hW', HO⟩⟩
  sl_step
  ihave Hfeat := (pointsTo_share (PosShare.mem_left_op_right (tileShare c i))).2 $$ [Hfa Hfb]
  · isplitl [Hfa] <;> iassumption
  isplitl [Hfeat Hnf Hnd Hch]
  · isplitl [Hfeat]; · iapply (Entails.of_eq (pts_featV (F := F) d _ _ _ _)); iexact Hfeat
    isplitl [Hnf]; · iapply (Entails.of_eq (pts_nbrV (F := F) d _ _ _ _)); iexact Hnf
    isplitl [Hnd]; · iapply (Entails.of_eq (pts_nodeV (F := F) d _ _ _ _)); iexact Hnd
    iapply (SparseCore.ent (bigSep_mono fun k' _ => chunk_out (F := F) m d (coordsV c i) k' _ k'.isLt))
    iexact Hch
  isplitl [H0 H1 H2 H3 H4 H5 Hbrest]
  · isplitr [Hbrest]
    · isplitl [H0]; · iexists _; iapply (Entails.of_eq (pts_whole (F := F) d _ _ cc0_scratch0 _ _).symm); iexact H0
      isplitl [H1]; · iexists _; iapply (Entails.of_eq (pts_whole (F := F) d _ _ cc0_scratch1 _ _).symm); iexact H1
      isplitl [H2]; · iexists _; iapply (Entails.of_eq (pts_whole (F := F) d _ _ cc0_scratch2 _ _).symm); iexact H2
      isplitl [H3]; · iexists _; iapply (Entails.of_eq (pts_whole (F := F) d _ _ cc0_scratch3 _ _).symm); iexact H3
      isplitl [H4]; · iexists _; iapply (Entails.of_eq (pts_whole (F := F) d _ _ cc0_scratch4 _ _).symm); iexact H4
      iexists _; iapply (Entails.of_eq (pts_whole (F := F) d _ _ cc0_scratch5 _ _).symm); iexact H5
    · iexact Hbrest
  isplitl [S6 S7 S8 Sc0 Sc1 Sc2 Hsrest]
  · isplitr [Hsrest]
    · isplitl [S6]; · iexact S6
      isplitl [S7]; · iexact S7
      isplitl [S8]; · iexact S8
      isplitl [Sc0]; · iexact Sc0
      isplitl [Sc1]; · iexact Sc1
      iexact Sc2
    · iexact Hsrest
  iexists W'; isplitr
  · ipureintro; exact hW'
  iexact HO

/-! ## The launch theorem's obligation -/

theorem defs₀_vector (c : Fin τ.nSC) (s : Fin τ.nSub) :
    defs₀ (F := F) (.scVector c s) 0 ()
      = SparseCore.onTile hcore0 hsub0 (fun c s => cc0__sc_body (coordsV c s)
          featV (Memref.isWhole_whole _) nfV (Memref.isWhole_whole _) ndV (Memref.isWhole_whole _) sumV (Memref.isWhole_whole _)
          s0V (Memref.isWhole_whole _) s1V (Memref.isWhole_whole _) s2V (Memref.isWhole_whole _) s3V (Memref.isWhole_whole _)
          s4V (Memref.isWhole_whole _) s5V (Memref.isWhole_whole _) cc0_scratch6 cc0_scratch7 cc0_scratch8 cc0_scoped0 cc0_scoped1 cc0_scoped2) ⟨⟩ c s := rfl

/-- The recorded pairs of a run that waited only on the kernel's own semaphores are within the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl_of (htrip : TripHyp (F := F)) (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BIBase.Entails.trans ?_ ((tile_body m d htrip hF hpre ⟨_, hc.1⟩ ⟨_, hc.2⟩ O W hO).trans (wp_mono frame _ _ fun _ => obl_post))
  have hgo : (P m).go 0 d c i = tileRes m d ⟨_, hc.1⟩ ⟨_, hc.2⟩ (m (sumsLoc d)) := rfl
  iintro ⟨Hlv, -, Hgo, Hb, Hs, HO⟩
  isplitl [Hlv]; · iexact Hlv
  isplitl [Hgo]; · iapply (Entails.of_eq hgo); iexact Hgo
  isplitl [Hb]; · iexact Hb
  isplitl [Hs]; · iexact Hs
  iexact HO

/-- THE TILE'S OBLIGATION. -/
theorem tileObl (hpre : PreOK m) : (K (F := F)).TileObl (D (F := F)) 𝒱 (P m) v₀ 0 :=
  tileObl_of m (fun d L qa qb O W ff g0 g1 nd nf hg1 hg0 hnd hnf h0 h1 k =>
    trip1V d L qa qb O W ff g0 g1 nd nf hg1 hg0 hnd hnf h0 h1 k) facts hpre

/-- info: 'Cert.Proof.KI.tileObl' depends on axioms: [propext, Classical.choice, Quot.sound] -/
#guard_msgs in #print axioms tileObl

end Cert.Proof.KI

end
-- ==== Proof.KBLoads.lean ====
/-
  What a sixteen-lane load and store mean at an index, and the row-by-row accumulation.

  A load of a [1, 16] window at offsets (r, l0) of a 128 x 128 buffer, flattened to sixteen lanes, holds at lane x the
  buffer's entry (r, l0 + x); a sixteen-lane vector stored as a [1, 16] window holds lane x at (0, x).  Adding to a
  sixteen-lane accumulator the windows of rows row0, row0 + 1, … at lanes lane0 … lane0 + 15, one after the other, is,
  lane by lane, the left-to-right sum of the accumulator's start and those rows' entries.  When the start is the node's
  table row and the rows are the neighbours' table rows this is the tile's aggregate as the specification's partial sum
  spells it.
-/
import proofs.«210776_g5076651344590_cont_8to1_c_706_2_alg».proof.Proof.KBTile
import proofs.«210776_g5076651344590_cont_8to1_c_706_2_alg».proof.Proof.KISums
import Idealize.ShloMosaic.Lib.ValueIdx
import Idealize.ShloMosaic.Lib.ValueLayout

noncomputable section

namespace Cert.Proof.KB

open Cert.Kernel Cert.Kernel.Gen

open Idealize.ShloMosaic Idealize.ShloMosaic.ValueIdx
open Idealize.ShloMosaic.SparseCore (S V T)
open Cert.Spec

variable {F : FTy → Type}

/-! ## A sixteen-lane window of a 128 x 128 array -/

/-- Lanes l0 … l0 + 15 of row r of a 128 x 128 array, as a sixteen-lane vector. -/
def rowVec (B : S128x128.Idx → Elt F .f32) (r l0 : ℕ) (hr : r < 128) (hl : l0 + 16 ≤ 128) : FVec F S16 .f32 :=
  fun j => B (ix2 (⟨r, hr⟩ : Fin 128) (⟨l0 + (j 0).val, by have : (j 0).val < 16 := (j 0).isLt; omega⟩ : Fin 128))

theorem win_row (o : Fin 2 → Nat) (ho : ∀ a, o a + S1x16.size a ≤ S128x128.size a) : o 0 < 128 := by
  have h : o 0 + 1 ≤ 128 := ho 0
  omega
theorem win_lanes (o : Fin 2 → Nat) (ho : ∀ a, o a + S1x16.size a ≤ S128x128.size a) : o 1 + 16 ≤ 128 := ho 1

/-- A [1, 16] window of a function on the 128 x 128 indices, flattened, holds at lane x the entry (o 0, o 1 + x). -/
theorem ld_fun (R : S128x128.Idx → Elt F .f32) (o : Fin 2 → Nat) (ho : ∀ a, o a + S1x16.size a ≤ S128x128.size a) (x : Fin 16) :
    shapeCast S16 (fun y : S1x16.Idx => R ((Rect.unit (s := S128x128) o S1x16.size ho).toLoadRect.idx y)) shapeCasts_S1x16_S16 (ix1 x)
      = R (ix2 (⟨o 0, win_row o ho⟩ : Fin 128) (⟨o 1 + x.val, by have := win_lanes o ho; have := x.isLt; omega⟩ : Fin 128)) := by
  rw [shapeCast_1a_a_apply]
  refine congrArg R ?_
  funext a
  apply Fin.ext
  match a with
  | ⟨0, _⟩ => show o 0 + 1 * 0 = o 0; omega
  | ⟨1, _⟩ => show o 1 + 1 * x.val = o 1 + x.val; omega

/-- The same, as a vector: the flattened window is the row's sixteen lanes. -/
theorem ld_fun_eq (R : S128x128.Idx → Elt F .f32) (o : Fin 2 → Nat) (ho : ∀ a, o a + S1x16.size a ≤ S128x128.size a) :
    shapeCast S16 (fun y : S1x16.Idx => R ((Rect.unit (s := S128x128) o S1x16.size ho).toLoadRect.idx y)) shapeCasts_S1x16_S16
      = rowVec R (o 0) (o 1) (win_row o ho) (win_lanes o ho) := by
  funext j
  obtain ⟨x, rfl⟩ : ∃ x : Fin 16, j = ix1 x := ⟨j 0, eq_ix1 j⟩
  rw [ld_fun]
  rfl

/-! ## The four scratch buffers the gathers fill -/

local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)

/-- A sixteen-lane load from the buffer at offsets (o 0, o 1) holds at lane x the buffer's entry (o 0, o 1 + x). -/
theorem ld_apply2 (B : S128x128.Idx → Elt F .f32) (o : Fin 2 → Nat) (ho : ∀ a, o a + S1x16.size a ≤ S128x128.size a) (x : Fin 16) :
    shapeCast S16 (View.readAt (Elt F) (b2V).view (Rect.unit (s := S128x128) o S1x16.size ho).toLoadRect B) shapeCasts_S1x16_S16 (ix1 x)
      = B (ix2 (⟨o 0, win_row o ho⟩ : Fin 128) (⟨o 1 + x.val, by have := win_lanes o ho; have := x.isLt; omega⟩ : Fin 128)) :=
  ld_fun B o ho x
theorem ld_apply3 (B : S128x128.Idx → Elt F .f32) (o : Fin 2 → Nat) (ho : ∀ a, o a + S1x16.size a ≤ S128x128.size a) (x : Fin 16) :
    shapeCast S16 (View.readAt (Elt F) (b3V).view (Rect.unit (s := S128x128) o S1x16.size ho).toLoadRect B) shapeCasts_S1x16_S16 (ix1 x)
      = B (ix2 (⟨o 0, win_row o ho⟩ : Fin 128) (⟨o 1 + x.val, by have := win_lanes o ho; have := x.isLt; omega⟩ : Fin 128)) :=
  ld_fun B o ho x
theorem ld_apply4 (B : S128x128.Idx → Elt F .f32) (o : Fin 2 → Nat) (ho : ∀ a, o a + S1x16.size a ≤ S128x128.size a) (x : Fin 16) :
    shapeCast S16 (View.readAt (Elt F) (b4V).view (Rect.unit (s := S128x128) o S1x16.size ho).toLoadRect B) shapeCasts_S1x16_S16 (ix1 x)
      = B (ix2 (⟨o 0, win_row o ho⟩ : Fin 128) (⟨o 1 + x.val, by have := win_lanes o ho; have := x.isLt; omega⟩ : Fin 128)) :=
  ld_fun B o ho x
theorem ld_apply5 (B : S128x128.Idx → Elt F .f32) (o : Fin 2 → Nat) (ho : ∀ a, o a + S1x16.size a ≤ S128x128.size a) (x : Fin 16) :
    shapeCast S16 (View.readAt (Elt F) (b5V).view (Rect.unit (s := S128x128) o S1x16.size ho).toLoadRect B) shapeCasts_S1x16_S16 (ix1 x)
      = B (ix2 (⟨o 0, win_row o ho⟩ : Fin 128) (⟨o 1 + x.val, by have := win_lanes o ho; have := x.isLt; omega⟩ : Fin 128)) :=
  ld_fun B o ho x

/-- The same loads as vectors: row o 0's lanes o 1 … o 1 + 15. -/
theorem ld_eq2 (B : S128x128.Idx → Elt F .f32) (o : Fin 2 → Nat) (ho : ∀ a, o a + S1x16.size a ≤ S128x128.size a) :
    shapeCast S16 (View.readAt (Elt F) (b2V).view (Rect.unit (s := S128x128) o S1x16.size ho).toLoadRect B) shapeCasts_S1x16_S16
      = rowVec B (o 0) (o 1) (win_row o ho) (win_lanes o ho) := ld_fun_eq B o ho
theorem ld_eq3 (B : S128x128.Idx → Elt F .f32) (o : Fin 2 → Nat) (ho : ∀ a, o a + S1x16.size a ≤ S128x128.size a) :
    shapeCast S16 (View.readAt (Elt F) (b3V).view (Rect.unit (s := S128x128) o S1x16.size ho).toLoadRect B) shapeCasts_S1x16_S16
      = rowVec B (o 0) (o 1) (win_row o ho) (win_lanes o ho) := ld_fun_eq B o ho
theorem ld_eq4 (B : S128x128.Idx → Elt F .f32) (o : Fin 2 → Nat) (ho : ∀ a, o a + S1x16.size a ≤ S128x128.size a) :
    shapeCast S16 (View.readAt (Elt F) (b4V).view (Rect.unit (s := S128x128) o S1x16.size ho).toLoadRect B) shapeCasts_S1x16_S16
      = rowVec B (o 0) (o 1) (win_row o ho) (win_lanes o ho) := ld_fun_eq B o ho
theorem ld_eq5 (B : S128x128.Idx → Elt F .f32) (o : Fin 2 → Nat) (ho : ∀ a, o a + S1x16.size a ≤ S128x128.size a) :
    shapeCast S16 (View.readAt (Elt F) (b5V).view (Rect.unit (s := S128x128) o S1x16.size ho).toLoadRect B) shapeCasts_S1x16_S16
      = rowVec B (o 0) (o 1) (win_row o ho) (win_lanes o ho) := ld_fun_eq B o ho

/-- A sixteen-lane vector spread as a [1, 16] window holds lane x at (0, x). -/
theorem st_apply (a : FVec F S16 .f32) (x : Fin 16) :
    (shapeCast S1x16 a shapeCasts_S16_S1x16) (ix2 (0 : Fin 1) x) = a (ix1 x) :=
  shapeCast_a_1a_apply a shapeCasts_S16_S1x16 0 x

/-! ## The accumulation over rows -/

variable [FloatOps F]

/-- The accumulator after the first n rows (n ≤ 32): a0, then row row0's lanes added, then row row0 + 1's, …. -/
def redFold (B : S128x128.Idx → Elt F .f32) (row0 lane0 : ℕ) (h : row0 + 32 ≤ 128) (hl : lane0 + 16 ≤ 128) (a0 : FVec F S16 .f32) :
    ℕ → FVec F S16 .f32
  | 0 => a0
  | n + 1 => if hn : n < 32 then addf (redFold B row0 lane0 h hl a0 n) (rowVec B (row0 + n) lane0 (by omega) hl)
             else redFold B row0 lane0 h hl a0 n

theorem redFold_zero (B : S128x128.Idx → Elt F .f32) (row0 lane0 : ℕ) (h : row0 + 32 ≤ 128) (hl : lane0 + 16 ≤ 128)
    (a0 : FVec F S16 .f32) : redFold B row0 lane0 h hl a0 0 = a0 := rfl

theorem redFold_succ (B : S128x128.Idx → Elt F .f32) (row0 lane0 : ℕ) (h : row0 + 32 ≤ 128) (hl : lane0 + 16 ≤ 128)
    (a0 : FVec F S16 .f32) (n : ℕ) (hn : n < 32) :
    redFold B row0 lane0 h hl a0 (n + 1) = addf (redFold B row0 lane0 h hl a0 n) (rowVec B (row0 + n) lane0 (by omega) hl) := by
  rw [redFold, dif_pos hn]

/-- Lane by lane: one more row's entry added on the right. -/
theorem redFold_succ_apply (B : S128x128.Idx → Elt F .f32) (row0 lane0 : ℕ) (h : row0 + 32 ≤ 128) (hl : lane0 + 16 ≤ 128)
    (a0 : FVec F S16 .f32) (n : ℕ) (hn : n < 32) (x : Fin 16) :
    redFold B row0 lane0 h hl a0 (n + 1) (ix1 x)
      = FloatOps.addf (redFold B row0 lane0 h hl a0 n (ix1 x))
          (B (ix2 (⟨row0 + n, by omega⟩ : Fin 128) (⟨lane0 + x.val, by have := x.isLt; omega⟩ : Fin 128))) := by
  rw [redFold_succ B row0 lane0 h hl a0 n hn]
  rfl

/-- When the accumulator starts at the node's table row and the buffer's rows are the neighbours' table rows, the
    accumulation is the tile's partial aggregate. -/
theorem redFold_partialSum (feat : SFeat.Idx → F .f32) (nd : Cert.Proof.Sums.SNodeFlat.Idx → BitVec 32)
    (nf : Cert.Proof.Sums.SNbrFlat.Idx → BitVec 32) (b : Fin 16384)
    (B : S128x128.Idx → Elt F .f32) (row0 lane0 : ℕ) (h : row0 + 32 ≤ 128) (hl : lane0 + 16 ≤ 128) (a0 : FVec F S16 .f32) (x : Fin 16)
    (ha : a0 (ix1 x) = feat (ix2 (rowOf (nd (ix1 b))) (⟨lane0 + x.val, by have := x.isLt; omega⟩ : Fin 128)))
    (hB : ∀ r : Fin 32, B (ix2 (⟨row0 + r.val, by have := r.isLt; omega⟩ : Fin 128) (⟨lane0 + x.val, by have := x.isLt; omega⟩ : Fin 128))
      = feat (ix2 (rowOf (nf (ix1 (Cert.Proof.Sums.nbrPos b r)))) (⟨lane0 + x.val, by have := x.isLt; omega⟩ : Fin 128))) :
    ∀ n, n ≤ 32 → redFold B row0 lane0 h hl a0 n (ix1 x)
      = Cert.Proof.Sums.partialSum feat nd nf b (⟨lane0 + x.val, by have := x.isLt; omega⟩ : Fin 128) n := by
  intro n
  induction n with
  | zero => intro _; exact ha
  | succ n ih =>
    intro hn
    have hlt : n < 32 := by omega
    rw [redFold_succ_apply B row0 lane0 h hl a0 n hlt x, ih (by omega), hB ⟨n, hlt⟩]
    simp only [Cert.Proof.Sums.partialSum, dif_pos hlt]

end Cert.Proof.KB

end
-- ==== Proof.KBWrites.lean ====
/-
  Reading back a buffer written by several stores.

  The contents a run of unmasked stores through rectangles leaves are named as a list of pieces, the last store first.
  Through the whole buffer's view a read is the contents themselves.  So: an element that some piece covers, when every
  piece's payload agrees with one function G on the piece's rectangle, holds G there, whatever the buffer held before;
  an element that no piece covers holds what the buffer held before.
-/
import proofs.«210776_g5076651344590_cont_8to1_c_706_2_alg».proof.Proof.KBTile
import Idealize.ShloMosaic.Lib.Writes

noncomputable section

namespace Cert.Proof.KB

open Cert.Kernel Cert.Kernel.Gen

open Idealize.ShloMosaic
open Idealize.ShloMosaic.SparseCore (S V T)

variable {F : FTy → Type}

/-! ## Any whole buffer -/

/-- An element some piece covers, all pieces agreeing with G on their rectangles, holds G there. -/
theorem writes_hit_whole {sg : RefSig} {κ : Kind} (b : Ref sg κ) {Val : EltTy → Type} (f : b.ty.Contents Val)
    (G : b.ty.shape.Idx → Val b.ty.elt) (PL : List (View.Piece Val b.ty.shape b.ty.elt))
    (hG : ∀ p ∈ PL, ∀ x : p.1.shape.Idx, p.2 x = G (p.1.emb x)) (y : b.ty.shape.Idx) (hy : ∃ p ∈ PL, y ∈ p.1.set) :
    (View.whole b).writes Val f PL y = G y :=
  View.read_writes_apply_of_pieces (View.whole b) f G PL hG y hy

/-- An element no piece covers keeps what the buffer held. -/
theorem writes_miss_whole {sg : RefSig} {κ : Kind} (b : Ref sg κ) {Val : EltTy → Type} (f : b.ty.Contents Val)
    (PL : List (View.Piece Val b.ty.shape b.ty.elt)) (y : b.ty.shape.Idx) (hy : ∀ p ∈ PL, y ∉ p.1.set) :
    (View.whole b).writes Val f PL y = f y :=
  View.read_writes_apply_of_forall_not_mem (View.whole b) f y PL hy

/-! ## The 128 x 128 scratch buffers -/

local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)

theorem writes_hit2 (f G : S128x128.Idx → Elt F .f32) (PL : List (View.Piece (Elt F) S128x128 .f32))
    (hG : ∀ p ∈ PL, ∀ x : p.1.shape.Idx, p.2 x = G (p.1.emb x)) (y : S128x128.Idx) (hy : ∃ p ∈ PL, y ∈ p.1.set) :
    (b2V).view.writes (Elt F) f PL y = G y := writes_hit_whole cc0_scratch2 f G PL hG y hy
theorem writes_hit3 (f G : S128x128.Idx → Elt F .f32) (PL : List (View.Piece (Elt F) S128x128 .f32))
    (hG : ∀ p ∈ PL, ∀ x : p.1.shape.Idx, p.2 x = G (p.1.emb x)) (y : S128x128.Idx) (hy : ∃ p ∈ PL, y ∈ p.1.set) :
    (b3V).view.writes (Elt F) f PL y = G y := writes_hit_whole cc0_scratch3 f G PL hG y hy
theorem writes_hit4 (f G : S128x128.Idx → Elt F .f32) (PL : List (View.Piece (Elt F) S128x128 .f32))
    (hG : ∀ p ∈ PL, ∀ x : p.1.shape.Idx, p.2 x = G (p.1.emb x)) (y : S128x128.Idx) (hy : ∃ p ∈ PL, y ∈ p.1.set) :
    (b4V).view.writes (Elt F) f PL y = G y := writes_hit_whole cc0_scratch4 f G PL hG y hy
theorem writes_hit5 (f G : S128x128.Idx → Elt F .f32) (PL : List (View.Piece (Elt F) S128x128 .f32))
    (hG : ∀ p ∈ PL, ∀ x : p.1.shape.Idx, p.2 x = G (p.1.emb x)) (y : S128x128.Idx) (hy : ∃ p ∈ PL, y ∈ p.1.set) :
    (b5V).view.writes (Elt F) f PL y = G y := writes_hit_whole cc0_scratch5 f G PL hG y hy

theorem writes_miss2 (f : S128x128.Idx → Elt F .f32) (PL : List (View.Piece (Elt F) S128x128 .f32)) (y : S128x128.Idx)
    (hy : ∀ p ∈ PL, y ∉ p.1.set) : (b2V).view.writes (Elt F) f PL y = f y := writes_miss_whole cc0_scratch2 f PL y hy
theorem writes_miss3 (f : S128x128.Idx → Elt F .f32) (PL : List (View.Piece (Elt F) S128x128 .f32)) (y : S128x128.Idx)
    (hy : ∀ p ∈ PL, y ∉ p.1.set) : (b3V).view.writes (Elt F) f PL y = f y := writes_miss_whole cc0_scratch3 f PL y hy
theorem writes_miss4 (f : S128x128.Idx → Elt F .f32) (PL : List (View.Piece (Elt F) S128x128 .f32)) (y : S128x128.Idx)
    (hy : ∀ p ∈ PL, y ∉ p.1.set) : (b4V).view.writes (Elt F) f PL y = f y := writes_miss_whole cc0_scratch4 f PL y hy
theorem writes_miss5 (f : S128x128.Idx → Elt F .f32) (PL : List (View.Piece (Elt F) S128x128 .f32)) (y : S128x128.Idx)
    (hy : ∀ p ∈ PL, y ∉ p.1.set) : (b5V).view.writes (Elt F) f PL y = f y := writes_miss_whole cc0_scratch5 f PL y hy

/-! ## Sixteen-lane row stores -/

/-- An element of the [1, 16] window at offsets (o 0, o 1): row o 0, a lane from o 1 to o 1 + 15. -/
theorem mem_win (o : Fin 2 → Nat) (ho : ∀ a, o a + S1x16.size a ≤ S128x128.size a) (y : S128x128.Idx) :
    y ∈ (Rect.unit (s := S128x128) o S1x16.size ho).set ↔ (y 0).val = o 0 ∧ o 1 ≤ (y 1).val ∧ (y 1).val < o 1 + 16 := by
  rw [Rect.mem_set_unit]
  constructor
  · intro h
    have h0 : o 0 ≤ (y 0).val ∧ (y 0).val < o 0 + 1 := h 0
    have h1 : o 1 ≤ (y 1).val ∧ (y 1).val < o 1 + 16 := h 1
    omega
  · rintro ⟨h0, h1, h2⟩ a
    match a with
    | ⟨0, _⟩ => show o 0 ≤ (y 0).val ∧ (y 0).val < o 0 + 1; omega
    | ⟨1, _⟩ => show o 1 ≤ (y 1).val ∧ (y 1).val < o 1 + 16; omega

end Cert.Proof.KB

end
-- ==== Proof.KBReads.lean ====
/-
  What the tile's body reads through its views.

  A window of 128 words at offset o of a list reads, at position x, the list's word o + x.  The table named as a
  gather names it (the whole array as a rectangle at offset 0) reads as the table itself.  A tile's words of the
  flattened lists sit at 32768 s + 16384 c onward (neighbours) and 1024 s + 512 c onward (nodes).  The indirect
  gather delivers, at row r and lane l of its destination, the table's row named by word r of the offset list, at
  lane l.  Two windows of 128 words whose offsets are 128 apart or more share no element.
-/
import proofs.«210776_g5076651344590_cont_8to1_c_706_2_alg».proof.Proof.KBTile
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)

variable {F : FTy → Type}

local notation "s0V" => (Memref.whole Cert.Kernel.cc0_scratch0 : Memref Cert.Kernel.sig Kind.scVector Space.vmem Cert.Kernel.S16384 EltTy.i32)
local notation "s1V" => (Memref.whole Cert.Kernel.cc0_scratch1 : Memref Cert.Kernel.sig Kind.scVector Space.vmem Cert.Kernel.S512 EltTy.i32)
local notation "featV" => (Memref.whole Cert.Kernel.main_arg0_scv : Memref Cert.Kernel.sig Kind.scVector Space.hbm Cert.Kernel.S100000x128 EltTy.f32)
set_option quotPrecheck false in
local notation "featSl" => (featV).slice (Rect.unit (s := Cert.Kernel.S100000x128) ![0, 0] Cert.Kernel.S100000x128.size Cert.Kernel.Gen.inb_S100000x128_S100000x128_0_0) (fun _ => rfl)

/-! ## The indirect gather's payload -/

/-- Entry r of the rows an offset list of 128 words names is word r of the list. -/
theorem rows_apply (idx : S128.Idx → Elt F .i32) (hn : S128.numel = S128x128.size gathers_S100000x128_S128x128.axis')
    (hin : ∀ x, (idx x).toNat < S100000x128.size gathers_S100000x128_S128x128.axis) (r : Fin 128) :
    (SparseCore.rows idx hn hin r).val = (idx (ix1 r)).toNat := by
  have e : S128.rowMajor.symm (Fin.cast hn.symm r) = ix1 r := by
    rw [Equiv.symm_apply_eq]
    apply Fin.ext
    rw [Shape.rowMajor_val_one]
    rfl
  show (idx (S128.rowMajor.symm (Fin.cast hn.symm r))).toNat = _
  rw [e]

/-- Row r, lane l of the gather's destination holds the table's row named by word r of the offset list, lane l. -/
theorem gather_apply (src : S100000x128.Idx → Elt F .f32) (idx : S128.Idx → Elt F .i32)
    (hn : S128.numel = S128x128.size gathers_S100000x128_S128x128.axis')
    (hin : ∀ x, (idx x).toNat < S100000x128.size gathers_S100000x128_S128x128.axis) (r l : Fin 128) :
    SparseCore.gatherPayload gathers_S100000x128_S128x128 src (SparseCore.rows idx hn hin) (ix2 r l)
      = src (ix2 (⟨(idx (ix1 r)).toNat, hin (ix1 r)⟩ : Fin 100000) l) := by
  unfold SparseCore.gatherPayload
  congr 1
  funext b
  apply Fin.ext
  match b with
  | ⟨0, hb⟩ =>
    have h0 := Shape.Gathers.idx_axis gathers_S100000x128_S128x128 (SparseCore.rows idx hn hin) (ix2 r l)
    show (gathers_S100000x128_S128x128.idx (SparseCore.rows idx hn hin) (ix2 r l) gathers_S100000x128_S128x128.axis).val = _
    rw [h0]
    exact rows_apply idx hn hin r
  | ⟨1, hb⟩ =>
    exact Shape.Gathers.idx_of_ne gathers_S100000x128_S128x128 (SparseCore.rows idx hn hin) (ix2 r l) ⟨1, hb⟩ Nat.one_ne_zero

/-! ## Reads through the windows -/

/-- A window of 128 words at offset o of the tile's neighbour words reads, at x, word o + x. -/
theorem lst_read (o : Fin 1 → Nat) (ho : ∀ a, o a + S128.size a ≤ S16384.size a) (g0 : S16384.Idx → Elt F .i32) (x : Fin 128) :
    ((s0V).slice (Rect.unit (s := S16384) o S128.size ho) (fun _ => rfl)).view.read (Elt F) g0 (ix1 x)
      = g0 (ix1 (⟨o 0 + x.val, by have h : o 0 + 128 ≤ 16384 := ho 0; have := x.isLt; omega⟩ : Fin 16384)) := by
  refine ((View.read_apply _ _).trans (cast_eq _ _)).trans (congrArg g0 ?_)
  refine funext fun (a : Fin 1) => Fin.ext ?_
  obtain rfl : a = 0 := Subsingleton.elim _ _
  show o 0 + 1 * x.val = o 0 + x.val
  omega

/-- A window of 128 words at offset o of the tile's node words reads, at x, word o + x. -/
theorem nlst_read (o : Fin 1 → Nat) (ho : ∀ a, o a + S128.size a ≤ S512.size a) (g1 : S512.Idx → Elt F .i32) (x : Fin 128) :
    ((s1V).slice (Rect.unit (s := S512) o S128.size ho) (fun _ => rfl)).view.read (Elt F) g1 (ix1 x)
      = g1 (ix1 (⟨o 0 + x.val, by have h : o 0 + 128 ≤ 512 := ho 0; have := x.isLt; omega⟩ : Fin 512)) := by
  refine ((View.read_apply _ _).trans (cast_eq _ _)).trans (congrArg g1 ?_)
  refine funext fun (a : Fin 1) => Fin.ext ?_
  obtain rfl : a = 0 := Subsingleton.elim _ _
  show o 0 + 1 * x.val = o 0 + x.val
  omega

/-- Every word read through a window is a word of the list: a bound on all the list's words bounds them. -/
theorem lst_hin (o : Fin 1 → Nat) (ho : ∀ a, o a + S128.size a ≤ S16384.size a) (g0 : S16384.Idx → Elt F .i32)
    (h : ∀ z, (g0 z).toNat < 100000) :
    ∀ x, (((s0V).slice (Rect.unit (s := S16384) o S128.size ho) (fun _ => rfl)).view.read (Elt F) g0 x).toNat
      < S100000x128.size gathers_S100000x128_S128x128.axis := by
  intro x
  rw [(View.read_apply _ _).trans (cast_eq _ _)]
  exact h _

theorem nlst_hin (o : Fin 1 → Nat) (ho : ∀ a, o a + S128.size a ≤ S512.size a) (g1 : S512.Idx → Elt F .i32)
    (h : ∀ z, (g1 z).toNat < 100000) :
    ∀ x, (((s1V).slice (Rect.unit (s := S512) o S128.size ho) (fun _ => rfl)).view.read (Elt F) g1 x).toNat
      < S100000x128.size gathers_S100000x128_S128x128.axis := by
  intro x
  rw [(View.read_apply _ _).trans (cast_eq _ _)]
  exact h _

/-- The table named as the whole rectangle at offset 0 reads as the table itself. -/
theorem featSl_read (ff : S100000x128.Idx → Elt F .f32) : (featSl).view.read (Elt F) ff = ff := by
  funext x
  refine ((View.read_apply _ _).trans (cast_eq _ _)).trans (congrArg ff ?_)
  funext a
  apply Fin.ext
  match a with
  | ⟨0, _⟩ => show 0 + 1 * (x 0).val = (x 0).val; omega
  | ⟨1, _⟩ => show 0 + 1 * (x 1).val = (x 1).val; omega

/-! ## Where a tile's words sit in the flattened lists -/

/-- Word y of the tile's neighbour words is word 32768 s + 16384 c + y of the flattened neighbour list. -/
theorem nfSl_emb (L : grid0.Coords) (y : Fin 16384) :
    (nfSl L).view.emb (ix1 y)
      = ix1 (⟨32768 * (L 1).val + 16384 * (L 0).val + y.val, by
          have h1 : (L 1).val < 16 := (L 1).isLt
          have h0 : (L 0).val < 2 := (L 0).isLt
          have := y.isLt; omega⟩ : Fin 524288) := by
  refine funext fun (a : Fin 1) => Fin.ext ?_
  obtain rfl : a = 0 := Subsingleton.elim _ _
  show k0_off1 L 0 + 1 * y.val = 32768 * (L 1).val + 16384 * (L 0).val + y.val
  rw [k0_off1_eq]
  show 32768 * (L 1).val + 16384 * (L 0).val + 1 * y.val = _
  omega

/-- Word y of the tile's node words is word 1024 s + 512 c + y of the flattened node list. -/
theorem ndSl_emb (L : grid0.Coords) (y : Fin 512) :
    (ndSl L).view.emb (ix1 y)
      = ix1 (⟨1024 * (L 1).val + 512 * (L 0).val + y.val, by
          have h1 : (L 1).val < 16 := (L 1).isLt
          have h0 : (L 0).val < 2 := (L 0).isLt
          have := y.isLt; omega⟩ : Fin 16384) := by
  refine funext fun (a : Fin 1) => Fin.ext ?_
  obtain rfl : a = 0 := Subsingleton.elim _ _
  show k0_off2 L 0 + 1 * y.val = 1024 * (L 1).val + 512 * (L 0).val + y.val
  rw [k0_off2_eq]
  show 1024 * (L 1).val + 512 * (L 0).val + 1 * y.val = _
  omega

/-! ## Windows apart -/

/-- Two windows of 128 neighbour words whose offsets are 128 apart or more share no element. -/
theorem lst_disjoint (o1 o2 : Fin 1 → Nat) (h1 : ∀ a, o1 a + S128.size a ≤ S16384.size a)
    (h2 : ∀ a, o2 a + S128.size a ≤ S16384.size a) (h : o1 0 + 128 ≤ o2 0 ∨ o2 0 + 128 ≤ o1 0) :
    Disjoint ((s0V).slice (Rect.unit (s := S16384) o1 S128.size h1) (fun _ => rfl)).view.set
      ((s0V).slice (Rect.unit (s := S16384) o2 S128.size h2) (fun _ => rfl)).view.set := by
  show Disjoint ((View.whole (cc0_scratch0 : Ref sig .scVector)).slice (Rect.unit (s := S16384) o1 S128.size h1)).set
    ((View.whole (cc0_scratch0 : Ref sig .scVector)).slice (Rect.unit (s := S16384) o2 S128.size h2)).set
  rw [View.set_slice_whole, View.set_slice_whole]
  exact Rect.unit_disjoint (0 : Fin 1) h

end Cert.Proof.KB

end
-- ==== Proof.KBVals.lean ====
/-
  What the tile's buffers hold, as mathematics.  Within superchunk `k` of a tile whose batch rows start at `gb0`,
  write `gb = gb0 + 128 k`.  The node buffer's row `r` is the table row the node list names for batch row `gb + r`;
  a neighbour slot filled for group `g` holds, in row `32 el + n`, the table row of neighbour `n` of batch row
  `gb + 4 g + el`; the output buffer's row `r` is to hold the aggregate of batch row `gb + r`.  A reduction over block
  `el` of a slot starts from the node buffer's row and adds the block's 32 rows in order, 16 lanes at a time in eight
  accumulators.
-/
import proofs.«210776_g5076651344590_cont_8to1_c_706_2_alg».proof.Proof.KBLoads
import proofs.«210776_g5076651344590_cont_8to1_c_706_2_alg».proof.Proof.KBWrites
import proofs.«210776_g5076651344590_cont_8to1_c_706_2_alg».proof.Proof.KBReads

noncomputable section

namespace Cert.Proof.KB

open Cert.Kernel Cert.Kernel.Gen
open Idealize.ShloMosaic Idealize.ShloMosaic.ValueIdx Cert.Spec Cert.Proof.Sums

variable {F : FTy → Type}

/-- The eight 16-lane accumulators of a reduction. -/
abbrev Acc8 (F : FTy → Type) : Type := FVec F S16 .f32 × FVec F S16 .f32 × FVec F S16 .f32 × FVec F S16 .f32 × FVec F S16 .f32 × FVec F S16 .f32 × FVec F S16 .f32 × FVec F S16 .f32

/-- Accumulator `j`. -/
def comp (a : Acc8 F) : Fin 8 → FVec F S16 .f32
  | 0 => a.1 | 1 => a.2.1 | 2 => a.2.2.1 | 3 => a.2.2.2.1 | 4 => a.2.2.2.2.1 | 5 => a.2.2.2.2.2.1 | 6 => a.2.2.2.2.2.2.1 | 7 => a.2.2.2.2.2.2.2

/-- Row `row` of a 128 x 128 buffer as eight 16-lane vectors. -/
def initT (N2 : S128x128.Idx → Elt F .f32) (row : ℕ) (h : row < 128) : Acc8 F :=
  (rowVec N2 row 0 h (by omega), rowVec N2 row 16 h (by omega), rowVec N2 row 32 h (by omega), rowVec N2 row 48 h (by omega), rowVec N2 row 64 h (by omega), rowVec N2 row 80 h (by omega), rowVec N2 row 96 h (by omega), rowVec N2 row 112 h (by omega))

variable [FloatOps F]

/-- The eight accumulators after `n` rows of block `el` of buffer `B` have been added to `init`. -/
def redT (B : S128x128.Idx → Elt F .f32) (el : ℕ) (hel : 32 * el + 32 ≤ 128) (init : Acc8 F) (n : ℕ) : Acc8 F :=
  (redFold B (32 * el) 0 hel (by omega) init.1 n,
   redFold B (32 * el) 16 hel (by omega) init.2.1 n,
   redFold B (32 * el) 32 hel (by omega) init.2.2.1 n,
   redFold B (32 * el) 48 hel (by omega) init.2.2.2.1 n,
   redFold B (32 * el) 64 hel (by omega) init.2.2.2.2.1 n,
   redFold B (32 * el) 80 hel (by omega) init.2.2.2.2.2.1 n,
   redFold B (32 * el) 96 hel (by omega) init.2.2.2.2.2.2.1 n,
   redFold B (32 * el) 112 hel (by omega) init.2.2.2.2.2.2.2 n)

/-- What the output buffer is to hold in the superchunk whose batch rows start at `gb`: row `r` is the aggregate of batch row `gb + r`. -/
def TV (feat : SFeat.Idx → F .f32) (nd : SNodeFlat.Idx → BitVec 32) (nf : SNbrFlat.Idx → BitVec 32) (gb : ℕ) (hgb : gb + 128 ≤ 16384) :
    S128x128.Idx → Elt F .f32 :=
  fun y => partialSum feat nd nf ⟨gb + (y 0).val, by have := idx2_lt0 y; omega⟩ ⟨(y 1).val, idx2_lt1 y⟩ 32

/-- The node buffer holds the node rows of batch rows `gb …`. -/
def QN (feat : SFeat.Idx → F .f32) (nd : SNodeFlat.Idx → BitVec 32) (gb : ℕ) (hgb : gb + 128 ≤ 16384) (N2 : S128x128.Idx → Elt F .f32) : Prop :=
  ∀ r l : Fin 128, N2 (ix2 r l) = feat (ix2 (rowOf (nd (ix1 ⟨gb + r.val, by omega⟩))) l)

/-- A neighbour slot holds group `g`'s 128 neighbour rows: position `32 gb + 128 g + r` of the flattened list. -/
def QB (feat : SFeat.Idx → F .f32) (nf : SNbrFlat.Idx → BitVec 32) (gb : ℕ) (hgb : gb + 128 ≤ 16384) (g : ℕ) (hg : g < 32) (B : S128x128.Idx → Elt F .f32) : Prop :=
  ∀ r l : Fin 128, B (ix2 r l) = feat (ix2 (rowOf (nf (ix1 ⟨32 * gb + 128 * g + r.val, by omega⟩))) l)

/-- The first `n` rows of the output buffer hold what they are to hold. -/
def Q3 (T : S128x128.Idx → Elt F .f32) (n : ℕ) (f3 : S128x128.Idx → Elt F .f32) : Prop :=
  ∀ y : S128x128.Idx, (y 0).val < n → f3 y = T y

/-- The eight 16-lane stores of one finished reduction: row `8 k2 + 4 b2 + el` of the output buffer, last store first. -/
def rowPieces (k2 : Fin k0_t2_loop.trips) (b2 : Fin 2) (el : Fin 4) (a : Acc8 F) : List (View.Piece (Elt F) S128x128 .f32) :=
  [⟨Rect.unit (s := S128x128) (k0_off14 k2 (BitVec.ofNat 32 b2.val) (BitVec.ofNat 32 el.val)) S1x16.size (k0_off14_inb k2 b2 el), shapeCast S1x16 (a.2.2.2.2.2.2.2) shapeCasts_S16_S1x16⟩,
   ⟨Rect.unit (s := S128x128) (k0_off13 k2 (BitVec.ofNat 32 b2.val) (BitVec.ofNat 32 el.val)) S1x16.size (k0_off13_inb k2 b2 el), shapeCast S1x16 (a.2.2.2.2.2.2.1) shapeCasts_S16_S1x16⟩,
   ⟨Rect.unit (s := S128x128) (k0_off12 k2 (BitVec.ofNat 32 b2.val) (BitVec.ofNat 32 el.val)) S1x16.size (k0_off12_inb k2 b2 el), shapeCast S1x16 (a.2.2.2.2.2.1) shapeCasts_S16_S1x16⟩,
   ⟨Rect.unit (s := S128x128) (k0_off11 k2 (BitVec.ofNat 32 b2.val) (BitVec.ofNat 32 el.val)) S1x16.size (k0_off11_inb k2 b2 el), shapeCast S1x16 (a.2.2.2.2.1) shapeCasts_S16_S1x16⟩,
   ⟨Rect.unit (s := S128x128) (k0_off10 k2 (BitVec.ofNat 32 b2.val) (BitVec.ofNat 32 el.val)) S1x16.size (k0_off10_inb k2 b2 el), shapeCast S1x16 (a.2.2.2.1) shapeCasts_S16_S1x16⟩,
   ⟨Rect.unit (s := S128x128) (k0_off9 k2 (BitVec.ofNat 32 b2.val) (BitVec.ofNat 32 el.val)) S1x16.size (k0_off9_inb k2 b2 el), shapeCast S1x16 (a.2.2.1) shapeCasts_S16_S1x16⟩,
   ⟨Rect.unit (s := S128x128) (k0_off8 k2 (BitVec.ofNat 32 b2.val) (BitVec.ofNat 32 el.val)) S1x16.size (k0_off8_inb k2 b2 el), shapeCast S1x16 (a.2.1) shapeCasts_S16_S1x16⟩,
   ⟨Rect.unit (s := S128x128) (k0_off7 k2 (BitVec.ofNat 32 b2.val) (BitVec.ofNat 32 el.val)) S1x16.size (k0_off7_inb k2 b2 el), shapeCast S1x16 (a.1) shapeCasts_S16_S1x16⟩]

/-- The sixty-four stores of one pair trip, last store first. -/
def tripPieces (k2 : Fin k0_t2_loop.trips) (a1 a2 a3 a4 b1 b2 b3 b4 : Acc8 F) : List (View.Piece (Elt F) S128x128 .f32) :=
  rowPieces k2 1 3 b4 ++ rowPieces k2 1 2 b3 ++ rowPieces k2 1 1 b2 ++ rowPieces k2 1 0 b1
    ++ rowPieces k2 0 3 a4 ++ rowPieces k2 0 2 a3 ++ rowPieces k2 0 1 a2 ++ rowPieces k2 0 0 a1

end Cert.Proof.KB

end
-- ==== Proof.KBInv.lean ====
/-
  The invariants of the tile's three nested loops.  A reduction loop holds its slot buffer unchanged and its eight
  accumulators at the partial sums; the pair loop holds the node buffer at the node rows, the output buffer's first
  `8 k2` rows finished, slot 0's gather for group `2 k2` in flight (its destination already spoken of at the rows it
  will hold), slot 1 idle; the superchunk loop holds the tile's two index lists, the scratch buffers, and the result
  chunks, those of finished superchunks at the aggregate.
-/
import proofs.«210776_g5076651344590_cont_8to1_c_706_2_alg».proof.Proof.KBPay
import proofs.«210776_g5076651344590_cont_8to1_c_706_2_alg».proof.Proof.KBVals

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "featV" => (Memref.whole Cert.Kernel.main_arg0_scv : Memref Cert.Kernel.sig Kind.scVector Space.hbm Cert.Kernel.S100000x128 EltTy.f32)
local notation "nfV" => (Memref.whole Cert.Kernel.main_v0_scv : Memref Cert.Kernel.sig Kind.scVector Space.hbm Cert.Kernel.S524288 EltTy.i32)
local notation "ndV" => (Memref.whole Cert.Kernel.main_v1_scv : Memref Cert.Kernel.sig Kind.scVector Space.hbm Cert.Kernel.S16384 EltTy.i32)
local notation "sumV" => (Memref.whole Cert.Kernel.main_v2_scv : Memref Cert.Kernel.sig Kind.scVector Space.hbm Cert.Kernel.S16384x128 EltTy.f32)
local notation "s0V" => (Memref.whole Cert.Kernel.cc0_scratch0 : Memref Cert.Kernel.sig Kind.scVector Space.vmem Cert.Kernel.S16384 EltTy.i32)
local notation "s1V" => (Memref.whole Cert.Kernel.cc0_scratch1 : Memref Cert.Kernel.sig Kind.scVector Space.vmem Cert.Kernel.S512 EltTy.i32)
local notation "s2V" => (Memref.whole Cert.Kernel.cc0_scratch2 : Memref Cert.Kernel.sig Kind.scVector Space.vmem Cert.Kernel.S128x128 EltTy.f32)
local notation "s3V" => (Memref.whole Cert.Kernel.cc0_scratch3 : Memref Cert.Kernel.sig Kind.scVector Space.vmem Cert.Kernel.S128x128 EltTy.f32)
local notation "s4V" => (Memref.whole Cert.Kernel.cc0_scratch4 : Memref Cert.Kernel.sig Kind.scVector Space.vmem Cert.Kernel.S128x128 EltTy.f32)
local notation "s5V" => (Memref.whole Cert.Kernel.cc0_scratch5 : Memref Cert.Kernel.sig Kind.scVector Space.vmem Cert.Kernel.S128x128 EltTy.f32)

variable [FloatOps F]
variable (d : Dev nD) (L : grid0.Coords)

/-- the table as a gather names it: the slice of the whole array by the whole rectangle -/
abbrev featSl : Memref sig .scVector .hbm S100000x128 .f32 :=
  (featV).slice (Rect.unit (s := S100000x128) ![0, 0] S100000x128.size inb_S100000x128_S100000x128_0_0) (fun _ => rfl)
/-- 128 consecutive words of the tile's neighbour list, from position `o` -/
abbrev lst (o : Fin 1 → Nat) (ho : ∀ a, o a + S128.size a ≤ S16384.size a) : Memref sig .scVector .vmem S128 .i32 :=
  (s0V).slice (Rect.unit (s := S16384) o S128.size ho) (fun _ => rfl)

omit [FloatOps F] in
/-- a buffer's contents, named -/
theorem name_contents {ℓ : Loc nD τ sig} {I : Finset (Idx ℓ)} {q : PosShare TreeShare} (f : Buf (Elt F) ℓ) :
    (ℓ ↦[I]{q} f : sProp 𝕄) ⊢ iprop(∃ g, ⌜g = f⌝ ∗ ℓ ↦[I]{q} g) := by
  iintro H; iexists f; isplitr
  · ipureintro; rfl
  · iexact H

open Idealize.ShloMosaic.ValueIdx Cert.Spec Cert.Proof.Sums

omit [FloatOps F] in
/-- The first batch row of tile `L`: `1024 s + 512 c`. -/
def gb0 (L : grid0.Coords) : ℕ := 1024 * (L 1).val + 512 * (L 0).val
omit [FloatOps F] in
theorem gb0_le (L : grid0.Coords) : gb0 L + 512 ≤ 16384 := by
  have h0 : (L 0).val < 2 := (L 0).isLt
  have h1 : (L 1).val < 16 := (L 1).isLt
  unfold gb0; omega

/-- The tile's copy of its 512 node words, and of its 16384 neighbour words, are what the flattened lists hold there. -/
def G1ok (L : grid0.Coords) (g1 : S512.Idx → BitVec 32) (nd : SNodeFlat.Idx → BitVec 32) : Prop :=
  ∀ y : Fin 512, g1 (ix1 y) = nd (ix1 ⟨gb0 L + y.val, by have := gb0_le L; omega⟩)
def G0ok (L : grid0.Coords) (g0 : S16384.Idx → BitVec 32) (nf : SNbrFlat.Idx → BitVec 32) : Prop :=
  ∀ y : Fin 16384, g0 (ix1 y) = nf (ix1 ⟨32 * gb0 L + y.val, by have := gb0_le L; omega⟩)

/-- a reduction loop over slot 0's buffer: the buffer as it is, the accumulators at the partial sums -/
def invR4V (B0 : Buf (Elt F) ((s4V).view.loc (V d (cV L) (jV L)))) (el : ℕ) (hel : 32 * el + 32 ≤ 128) (init : Acc8 F) (r : Nat) (acc : Acc8 F) : sProp 𝕄 :=
  iprop(((s4V).view.loc (V d (cV L) (jV L)) ↦{fullShare} B0) ∗ ⌜acc = redT B0 el hel init r⌝)
def invR5V (B1 : Buf (Elt F) ((s5V).view.loc (V d (cV L) (jV L)))) (el : ℕ) (hel : 32 * el + 32 ≤ 128) (init : Acc8 F) (r : Nat) (acc : Acc8 F) : sProp 𝕄 :=
  iprop(((s5V).view.loc (V d (cV L) (jV L)) ↦{fullShare} B1) ∗ ⌜acc = redT B1 el hel init r⌝)

/-- slot 0 at the head of pair trip k2 of the superchunk at batch rows gb: its gather for group 2 k2 in flight, or (after the last trip) idle -/
def slot0V (qa : PosShare TreeShare) (ff : Buf (Elt F) ((featV).view.loc (V d (cV L) (jV L)))) (g0 : Buf (Elt F) ((s0V).view.loc (V d (cV L) (jV L))))
    (nf : SNbrFlat.Idx → BitVec 32) (gb : ℕ) (hgb : gb + 128 ≤ 16384) (k1 : Fin k0_t1_loop.trips) (k2 : Nat) : sProp 𝕄 :=
  if h : k2 < 16 then
    iprop(∃ (B0 : Buf (Elt F) ((s4V).view.loc (V d (cV L) (jV L)))) (o : Fin 1 → Nat) (ho : ∀ a, o a + S128.size a ≤ S16384.size a), ⌜o = ![4096 * k1.val + 256 * k2]⌝
        ∗ ⌜QB ff nf gb hgb (2 * k2) (by omega) B0⌝
        ∗ Transfers.Flight countersEmb (V d (cV L) (jV L)) (SemLoc.dma cc0_scratch7.sem) (default : HIx 1) 524288
            iprop((((s4V).view.loc (V d (cV L) (jV L)) ↦[(s4V).view.set]{fullShare} B0)
              ∗ ((s0V).view.loc (V d (cV L) (jV L)) ↦[(lst o ho).view.set]{fullShare} g0))
              ∗ ((featV).view.loc (V d (cV L) (jV L)) ↦[(featSl).view.set]{qa} ff))
        ∗ ((s4V).view.loc (V d (cV L) (jV L)) ↦[Finset.univ \ (s4V).view.set]{fullShare} B0)
        ∗ ((s0V).view.loc (V d (cV L) (jV L)) ↦[Finset.univ \ (lst o ho).view.set]{fullShare} g0)
        ∗ ((featV).view.loc (V d (cV L) (jV L)) ↦[Finset.univ \ (featSl).view.set]{qa} ff))
  else
    iprop((∃ B0, (s4V).view.loc (V d (cV L) (jV L)) ↦{fullShare} B0) ∗ ((s0V).view.loc (V d (cV L) (jV L)) ↦{fullShare} g0) ∗ ((featV).view.loc (V d (cV L) (jV L)) ↦{qa} ff)
      ∗ semVal ((V d (cV L) (jV L)), SemLoc.dma cc0_scratch7.sem) 0)

/-- the pair loop's invariant inside the superchunk at batch rows gb -/
def inv2V (qa qb : PosShare TreeShare) (O : CellTallies nD τ sig (HIx 1)) (W : Waits sig (HIx 1))
    (ff : Buf (Elt F) ((featV).view.loc (V d (cV L) (jV L)))) (g0 : Buf (Elt F) ((s0V).view.loc (V d (cV L) (jV L))))
    (nd : SNodeFlat.Idx → BitVec 32) (nf : SNbrFlat.Idx → BitVec 32) (gb : ℕ) (hgb : gb + 128 ≤ 16384)
    (k1 : Fin k0_t1_loop.trips) (k2 : Nat) (_ : PUnit) : sProp 𝕄 :=
  iprop(Transfers.MayWaits (V d (cV L) (jV L)) (default : HIx 1) O
    ∗ (∃ N2, ⌜QN ff nd gb hgb N2⌝ ∗ (s2V).view.loc (V d (cV L) (jV L)) ↦{fullShare} N2)
    ∗ (∃ f3, ⌜Q3 (TV ff nd nf gb hgb) (8 * k2) f3⌝ ∗ (s3V).view.loc (V d (cV L) (jV L)) ↦{fullShare} f3)
    ∗ slot0V d L qa ff g0 nf gb hgb k1 k2
    ∗ (∃ f5, (s5V).view.loc (V d (cV L) (jV L)) ↦{fullShare} f5) ∗ ((featV).view.loc (V d (cV L) (jV L)) ↦{qb} ff)
    ∗ semVal ((V d (cV L) (jV L)), SemLoc.dma cc0_scratch8.sem) 0
    ∗ ∃ W', ⌜∀ p ∈ W', p ∈ W ∨ p.2 = none⌝ ∗ owes (V d (cV L) (jV L)) O W')

/-- the superchunk loop's invariant: the chunks of finished superchunks hold the aggregate -/
def inv1V (qa qb : PosShare TreeShare) (O : CellTallies nD τ sig (HIx 1)) (W : Waits sig (HIx 1))
    (ff : Buf (Elt F) ((featV).view.loc (V d (cV L) (jV L)))) (g0 : Buf (Elt F) ((s0V).view.loc (V d (cV L) (jV L)))) (g1 : Buf (Elt F) ((s1V).view.loc (V d (cV L) (jV L))))
    (nd : SNodeFlat.Idx → BitVec 32) (nf : SNbrFlat.Idx → BitVec 32)
    (k1 : Nat) (_ : PUnit) : sProp 𝕄 :=
  iprop(Transfers.MayWaits (V d (cV L) (jV L)) (default : HIx 1) O
    ∗ ((featV).view.loc (V d (cV L) (jV L)) ↦{qa} ff) ∗ ((featV).view.loc (V d (cV L) (jV L)) ↦{qb} ff)
    ∗ ((s0V).view.loc (V d (cV L) (jV L)) ↦{fullShare} g0) ∗ ((s1V).view.loc (V d (cV L) (jV L)) ↦{fullShare} g1)
    ∗ (∃ f, (s2V).view.loc (V d (cV L) (jV L)) ↦{fullShare} f) ∗ (∃ f, (s3V).view.loc (V d (cV L) (jV L)) ↦{fullShare} f)
    ∗ (∃ f, (s4V).view.loc (V d (cV L) (jV L)) ↦{fullShare} f) ∗ (∃ f, (s5V).view.loc (V d (cV L) (jV L)) ↦{fullShare} f)
    ∗ (bigSep Finset.univ fun k' : Fin k0_t1_loop.trips => iprop(∃ fo, ⌜k'.val < k1 → ∀ y ∈ (outK L k').view.set, fo y = sums ff nd nf y⌝
        ∗ (outK L k').view.loc (V d (cV L) (jV L)) ↦[(outK L k').view.set]{fullShare} fo))
    ∗ semVal ((V d (cV L) (jV L)), SemLoc.dma cc0_scratch6.sem) 0 ∗ semVal ((V d (cV L) (jV L)), SemLoc.dma cc0_scratch7.sem) 0
    ∗ semVal ((V d (cV L) (jV L)), SemLoc.dma cc0_scratch8.sem) 0 ∗ semVal ((V d (cV L) (jV L)), SemLoc.dma cc0_scoped2.sem) 0
    ∗ ∃ W', ⌜∀ p ∈ W', p ∈ W ∨ p.2 = none⌝ ∗ owes (V d (cV L) (jV L)) O W')

end Cert.Proof.KB

end
-- ==== Proof.KBTileSplit.lean ====
/-
  A tile's own storage, sorted: of the vector subcore's scoped semaphores at zero, the six the body names and the
  rest; of its scoped buffers, the six scratch buffers and the rest.
-/
import proofs.«210776_g5076651344590_cont_8to1_c_706_2_alg».proof.Proof.KBInv
import Idealize.ShloMosaic.Lib.SparseCore.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (c : Fin τ.nSC) (i : Fin τ.nSub)

/-- The six DMA semaphores the tile's body names. -/
def sems6 : Finset (DmaSem sig) :=
  {cc0_scratch6.sem, cc0_scratch7.sem, cc0_scratch8.sem, cc0_scoped0.sem, cc0_scoped1.sem, cc0_scoped2.sem}

theorem sems6_scoped : ∀ s ∈ sems6, (SemLoc.dma s : SemLoc sig).isScoped .scVector = true := by decide

/-- The subcore's own semaphores at zero: the six, and the rest. -/
theorem ownSems0_six :
    (ownSems0 (V d c i) : sProp 𝕄)
      = iprop((semVal ((V d c i, SemLoc.dma cc0_scratch6.sem) : GSem nD τ sig) 0 ∗ semVal ((V d c i, SemLoc.dma cc0_scratch7.sem) : GSem nD τ sig) 0
          ∗ semVal ((V d c i, SemLoc.dma cc0_scratch8.sem) : GSem nD τ sig) 0 ∗ semVal ((V d c i, SemLoc.dma cc0_scoped0.sem) : GSem nD τ sig) 0
          ∗ semVal ((V d c i, SemLoc.dma cc0_scoped1.sem) : GSem nD τ sig) 0 ∗ semVal ((V d c i, SemLoc.dma cc0_scoped2.sem) : GSem nD τ sig) 0)
          ∗ bigSep (ownCells (V d c i) \ sems6.image fun s => ((V d c i, SemLoc.dma s) : GSem nD τ sig)) fun g => semVal g 0) := by
  unfold SparseCore.Cfg.ownSems0
  have hsub : (sems6.image fun s => ((V d c i, SemLoc.dma s) : GSem nD τ sig)) ⊆ ownCells (V d c i) := by
    intro g hg
    obtain ⟨s, hs, rfl⟩ := Finset.mem_image.mp hg
    exact mem_ownCells.mpr ⟨rfl, sems6_scoped s hs⟩
  have hinj : Set.InjOn (fun s : DmaSem sig => ((V d c i, SemLoc.dma s) : GSem nD τ sig)) (sems6 : Set (DmaSem sig)) := by
    intro a _ b _ e
    exact SemLoc.dma.inj (Prod.mk.inj e).2
  rw [SparseCore.bigSep_sdiff_split' hsub, SparseCore.bigSep_image_of_injOn hinj]
  unfold sems6
  rw [SparseCore.bigSep_insert' (by decide), SparseCore.bigSep_insert' (by decide), SparseCore.bigSep_insert' (by decide),
    SparseCore.bigSep_insert' (by decide), SparseCore.bigSep_insert' (by decide), bigSep_singleton]

/-- The six scratch buffers. -/
def bufs6 : Finset (Ref sig .scVector) := {cc0_scratch0, cc0_scratch1, cc0_scratch2, cc0_scratch3, cc0_scratch4, cc0_scratch5}

/-- The subcore's own buffers, each at some contents: the six scratch buffers, and the rest. -/
theorem ownBufs_six :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f) ∗ (∃ f, (V d c i).loc cc0_scratch5 ↦{fullShare} f))
          ∗ bigSep (ownRefs (τ := τ) (.scVector c i) \ bufs6.image fun r => (Proc.scVector c i).devRef r)
              fun b => iprop(∃ f, ((d, b) : Loc nD τ sig) ↦{fullShare} f)) := by
  unfold SparseCore.Cfg.ownBufs
  have hsub : (bufs6.image fun r => ((Proc.scVector c i).devRef r : DevRef τ sig)) ⊆ ownRefs (τ := τ) (.scVector c i) := by
    intro b hb
    obtain ⟨r, hr, rfl⟩ := Finset.mem_image.mp hb
    unfold bufs6 at hr
    simp only [Finset.mem_insert, Finset.mem_singleton] at hr
    rcases hr with rfl | rfl | rfl | rfl | rfl | rfl <;>
      exact SparseCore.Cfg.mem_ownRefs_of_owner (p := Proc.scVector c i) rfl
  have hinj : Set.InjOn (fun r : Ref sig .scVector => ((Proc.scVector c i).devRef r : DevRef τ sig)) (bufs6 : Set (Ref sig .scVector)) :=
    fun a _ b _ e => Proc.devRef_injective _ e
  rw [show ((V d c i : Thread nD τ).2) = Proc.scVector c i from rfl, SparseCore.bigSep_sdiff_split' hsub, SparseCore.bigSep_image_of_injOn hinj]
  unfold bufs6
  rw [SparseCore.bigSep_insert' (by decide), SparseCore.bigSep_insert' (by decide), SparseCore.bigSep_insert' (by decide),
    SparseCore.bigSep_insert' (by decide), SparseCore.bigSep_insert' (by decide), bigSep_singleton]

end Cert.Proof.KB

end
-- ==== Proof.KBValsRed.lean ====
/-
  The reductions, as the tile's body runs them.

  A reduction over block el of a neighbour slot keeps eight sixteen-lane accumulators, one per lane group, and adds
  row 32 el + r of the slot to them at trip r.  Started from the node buffer's row for a batch row, after thirty-two
  trips accumulator j holds, at lane x, the node's table entry plus that batch row's thirty-two neighbours' entries at
  lane 16 j + x, summed left to right: the aggregate the output buffer is to hold there.
-/
import proofs.«210776_g5076651344590_cont_8to1_c_706_2_alg».proof.Proof.KBVals

noncomputable section

namespace Cert.Proof.KB

open Cert.Kernel Cert.Kernel.Gen
open Idealize.ShloMosaic Idealize.ShloMosaic.ValueIdx Cert.Spec Cert.Proof.Sums

variable {F : FTy → Type}

local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)

/-- Accumulator j of a buffer's row is the row's lanes 16 j … 16 j + 15. -/
theorem comp_initT (N2 : S128x128.Idx → Elt F .f32) (row : ℕ) (h : row < 128) (j : Fin 8) :
    comp (initT N2 row h) j = rowVec N2 row (16 * j.val) h (by have := j.isLt; omega) := by
  fin_cases j <;> rfl

variable [FloatOps F]

theorem redT_zero (B : S128x128.Idx → Elt F .f32) (el : ℕ) (hel : 32 * el + 32 ≤ 128) (init : Acc8 F) :
    redT B el hel init 0 = init := rfl

/-- Accumulator j of a reduction is the accumulation at lanes 16 j … 16 j + 15 started from accumulator j. -/
theorem comp_redT (B : S128x128.Idx → Elt F .f32) (el : ℕ) (hel : 32 * el + 32 ≤ 128) (init : Acc8 F) (n : ℕ) (j : Fin 8) :
    comp (redT B el hel init n) j = redFold B (32 * el) (16 * j.val) hel (by have := j.isLt; omega) (comp init j) n := by
  fin_cases j <;> rfl

/-- Equal rows and lanes give equal windows, whatever the evidence. -/
theorem rowVec_congr (B : S128x128.Idx → Elt F .f32) {r r' l l' : ℕ} (hr : r = r') (hl : l = l')
    (p : r < 128) (q : l + 16 ≤ 128) (p' : r' < 128) (q' : l' + 16 ≤ 128) : rowVec B r l p q = rowVec B r' l' p' q' := by
  subst hr hl; rfl

/-- One accumulator's step: adding the flattened window at offsets (row0 + r, lane0) is the accumulation's next stage. -/
theorem redFold_step (B : S128x128.Idx → Elt F .f32) (row0 lane0 : ℕ) (h : row0 + 32 ≤ 128) (hl : lane0 + 16 ≤ 128)
    (a0 : FVec F S16 .f32) (r : ℕ) (hr : r < 32) (o : Fin 2 → Nat) (ho : ∀ a, o a + S1x16.size a ≤ S128x128.size a)
    (e0 : o 0 = row0 + r) (e1 : o 1 = lane0) :
    addf (redFold B row0 lane0 h hl a0 r)
        (shapeCast S16 (fun y : S1x16.Idx => B ((Rect.unit (s := S128x128) o S1x16.size ho).toLoadRect.idx y)) shapeCasts_S1x16_S16)
      = redFold B row0 lane0 h hl a0 (r + 1) := by
  rw [redFold_succ B row0 lane0 h hl a0 r hr, ld_fun_eq, rowVec_congr B e0 e1]

/-- One trip of a reduction over buffer 4: each accumulator takes the row's sixteen lanes of its lane group. -/
theorem redT_step4 (B : S128x128.Idx → Elt F .f32) (el : ℕ) (hel : 32 * el + 32 ≤ 128) (init : Acc8 F) (r : ℕ) (hr : r < 32)
    (o0 o1 o2 o3 o4 o5 o6 o7 : Fin 2 → Nat)
    (h0 : ∀ a, o0 a + S1x16.size a ≤ S128x128.size a)
    (h1 : ∀ a, o1 a + S1x16.size a ≤ S128x128.size a)
    (h2 : ∀ a, o2 a + S1x16.size a ≤ S128x128.size a)
    (h3 : ∀ a, o3 a + S1x16.size a ≤ S128x128.size a)
    (h4 : ∀ a, o4 a + S1x16.size a ≤ S128x128.size a)
    (h5 : ∀ a, o5 a + S1x16.size a ≤ S128x128.size a)
    (h6 : ∀ a, o6 a + S1x16.size a ≤ S128x128.size a)
    (h7 : ∀ a, o7 a + S1x16.size a ≤ S128x128.size a)
    (e0 : o0 = ![r + 32 * el, 0])     (e1 : o1 = ![r + 32 * el, 16])     (e2 : o2 = ![r + 32 * el, 32])     (e3 : o3 = ![r + 32 * el, 48])     (e4 : o4 = ![r + 32 * el, 64])     (e5 : o5 = ![r + 32 * el, 80])     (e6 : o6 = ![r + 32 * el, 96])     (e7 : o7 = ![r + 32 * el, 112])
    (acc : Acc8 F) (hacc : acc = redT B el hel init r) :
    (addf acc.1 (shapeCast S16 (View.readAt (Elt F) (b4V).view (Rect.unit (s := S128x128) o0 S1x16.size h0).toLoadRect B) shapeCasts_S1x16_S16),
     addf acc.2.1 (shapeCast S16 (View.readAt (Elt F) (b4V).view (Rect.unit (s := S128x128) o1 S1x16.size h1).toLoadRect B) shapeCasts_S1x16_S16),
     addf acc.2.2.1 (shapeCast S16 (View.readAt (Elt F) (b4V).view (Rect.unit (s := S128x128) o2 S1x16.size h2).toLoadRect B) shapeCasts_S1x16_S16),
     addf acc.2.2.2.1 (shapeCast S16 (View.readAt (Elt F) (b4V).view (Rect.unit (s := S128x128) o3 S1x16.size h3).toLoadRect B) shapeCasts_S1x16_S16),
     addf acc.2.2.2.2.1 (shapeCast S16 (View.readAt (Elt F) (b4V).view (Rect.unit (s := S128x128) o4 S1x16.size h4).toLoadRect B) shapeCasts_S1x16_S16),
     addf acc.2.2.2.2.2.1 (shapeCast S16 (View.readAt (Elt F) (b4V).view (Rect.unit (s := S128x128) o5 S1x16.size h5).toLoadRect B) shapeCasts_S1x16_S16),
     addf acc.2.2.2.2.2.2.1 (shapeCast S16 (View.readAt (Elt F) (b4V).view (Rect.unit (s := S128x128) o6 S1x16.size h6).toLoadRect B) shapeCasts_S1x16_S16),
     addf acc.2.2.2.2.2.2.2 (shapeCast S16 (View.readAt (Elt F) (b4V).view (Rect.unit (s := S128x128) o7 S1x16.size h7).toLoadRect B) shapeCasts_S1x16_S16))
      = redT B el hel init (r + 1) := by
  subst hacc e0 e1 e2 e3 e4 e5 e6 e7
  have hc : r + 32 * el = 32 * el + r := Nat.add_comm _ _
  unfold redT
  refine Prod.ext ?_ (Prod.ext ?_ (Prod.ext ?_ (Prod.ext ?_ (Prod.ext ?_ (Prod.ext ?_ (Prod.ext ?_ ?_))))))
  all_goals exact redFold_step B _ _ _ _ _ r hr _ _ hc rfl

/-- One trip of a reduction over buffer 5: each accumulator takes the row's sixteen lanes of its lane group. -/
theorem redT_step5 (B : S128x128.Idx → Elt F .f32) (el : ℕ) (hel : 32 * el + 32 ≤ 128) (init : Acc8 F) (r : ℕ) (hr : r < 32)
    (o0 o1 o2 o3 o4 o5 o6 o7 : Fin 2 → Nat)
    (h0 : ∀ a, o0 a + S1x16.size a ≤ S128x128.size a)
    (h1 : ∀ a, o1 a + S1x16.size a ≤ S128x128.size a)
    (h2 : ∀ a, o2 a + S1x16.size a ≤ S128x128.size a)
    (h3 : ∀ a, o3 a + S1x16.size a ≤ S128x128.size a)
    (h4 : ∀ a, o4 a + S1x16.size a ≤ S128x128.size a)
    (h5 : ∀ a, o5 a + S1x16.size a ≤ S128x128.size a)
    (h6 : ∀ a, o6 a + S1x16.size a ≤ S128x128.size a)
    (h7 : ∀ a, o7 a + S1x16.size a ≤ S128x128.size a)
    (e0 : o0 = ![r + 32 * el, 0])     (e1 : o1 = ![r + 32 * el, 16])     (e2 : o2 = ![r + 32 * el, 32])     (e3 : o3 = ![r + 32 * el, 48])     (e4 : o4 = ![r + 32 * el, 64])     (e5 : o5 = ![r + 32 * el, 80])     (e6 : o6 = ![r + 32 * el, 96])     (e7 : o7 = ![r + 32 * el, 112])
    (acc : Acc8 F) (hacc : acc = redT B el hel init r) :
    (addf acc.1 (shapeCast S16 (View.readAt (Elt F) (b5V).view (Rect.unit (s := S128x128) o0 S1x16.size h0).toLoadRect B) shapeCasts_S1x16_S16),
     addf acc.2.1 (shapeCast S16 (View.readAt (Elt F) (b5V).view (Rect.unit (s := S128x128) o1 S1x16.size h1).toLoadRect B) shapeCasts_S1x16_S16),
     addf acc.2.2.1 (shapeCast S16 (View.readAt (Elt F) (b5V).view (Rect.unit (s := S128x128) o2 S1x16.size h2).toLoadRect B) shapeCasts_S1x16_S16),
     addf acc.2.2.2.1 (shapeCast S16 (View.readAt (Elt F) (b5V).view (Rect.unit (s := S128x128) o3 S1x16.size h3).toLoadRect B) shapeCasts_S1x16_S16),
     addf acc.2.2.2.2.1 (shapeCast S16 (View.readAt (Elt F) (b5V).view (Rect.unit (s := S128x128) o4 S1x16.size h4).toLoadRect B) shapeCasts_S1x16_S16),
     addf acc.2.2.2.2.2.1 (shapeCast S16 (View.readAt (Elt F) (b5V).view (Rect.unit (s := S128x128) o5 S1x16.size h5).toLoadRect B) shapeCasts_S1x16_S16),
     addf acc.2.2.2.2.2.2.1 (shapeCast S16 (View.readAt (Elt F) (b5V).view (Rect.unit (s := S128x128) o6 S1x16.size h6).toLoadRect B) shapeCasts_S1x16_S16),
     addf acc.2.2.2.2.2.2.2 (shapeCast S16 (View.readAt (Elt F) (b5V).view (Rect.unit (s := S128x128) o7 S1x16.size h7).toLoadRect B) shapeCasts_S1x16_S16))
      = redT B el hel init (r + 1) := by
  subst hacc e0 e1 e2 e3 e4 e5 e6 e7
  have hc : r + 32 * el = 32 * el + r := Nat.add_comm _ _
  unfold redT
  refine Prod.ext ?_ (Prod.ext ?_ (Prod.ext ?_ (Prod.ext ?_ (Prod.ext ?_ (Prod.ext ?_ (Prod.ext ?_ ?_))))))
  all_goals exact redFold_step B _ _ _ _ _ r hr _ _ hc rfl

local notation "b2V" => (Memref.whole Cert.Kernel.cc0_scratch2 : Memref Cert.Kernel.sig Kind.scVector Space.vmem Cert.Kernel.S128x128 EltTy.f32)

/-- The eight loads that start a reduction are the node buffer's row. -/
theorem initT_of_loads (N2 : S128x128.Idx → Elt F .f32) (row : ℕ) (h : row < 128)
    (o0 o1 o2 o3 o4 o5 o6 o7 : Fin 2 → Nat)
    (h0 : ∀ a, o0 a + S1x16.size a ≤ S128x128.size a)
    (h1 : ∀ a, o1 a + S1x16.size a ≤ S128x128.size a)
    (h2 : ∀ a, o2 a + S1x16.size a ≤ S128x128.size a)
    (h3 : ∀ a, o3 a + S1x16.size a ≤ S128x128.size a)
    (h4 : ∀ a, o4 a + S1x16.size a ≤ S128x128.size a)
    (h5 : ∀ a, o5 a + S1x16.size a ≤ S128x128.size a)
    (h6 : ∀ a, o6 a + S1x16.size a ≤ S128x128.size a)
    (h7 : ∀ a, o7 a + S1x16.size a ≤ S128x128.size a)
    (e0 : o0 = ![row, 0])     (e1 : o1 = ![row, 16])     (e2 : o2 = ![row, 32])     (e3 : o3 = ![row, 48])     (e4 : o4 = ![row, 64])     (e5 : o5 = ![row, 80])     (e6 : o6 = ![row, 96])     (e7 : o7 = ![row, 112]) :
    (shapeCast S16 (View.readAt (Elt F) (b2V).view (Rect.unit (s := S128x128) o0 S1x16.size h0).toLoadRect N2) shapeCasts_S1x16_S16,
     shapeCast S16 (View.readAt (Elt F) (b2V).view (Rect.unit (s := S128x128) o1 S1x16.size h1).toLoadRect N2) shapeCasts_S1x16_S16,
     shapeCast S16 (View.readAt (Elt F) (b2V).view (Rect.unit (s := S128x128) o2 S1x16.size h2).toLoadRect N2) shapeCasts_S1x16_S16,
     shapeCast S16 (View.readAt (Elt F) (b2V).view (Rect.unit (s := S128x128) o3 S1x16.size h3).toLoadRect N2) shapeCasts_S1x16_S16,
     shapeCast S16 (View.readAt (Elt F) (b2V).view (Rect.unit (s := S128x128) o4 S1x16.size h4).toLoadRect N2) shapeCasts_S1x16_S16,
     shapeCast S16 (View.readAt (Elt F) (b2V).view (Rect.unit (s := S128x128) o5 S1x16.size h5).toLoadRect N2) shapeCasts_S1x16_S16,
     shapeCast S16 (View.readAt (Elt F) (b2V).view (Rect.unit (s := S128x128) o6 S1x16.size h6).toLoadRect N2) shapeCasts_S1x16_S16,
     shapeCast S16 (View.readAt (Elt F) (b2V).view (Rect.unit (s := S128x128) o7 S1x16.size h7).toLoadRect N2) shapeCasts_S1x16_S16)
      = initT N2 row h := by
  subst e0 e1 e2 e3 e4 e5 e6 e7
  unfold initT
  refine Prod.ext ?_ (Prod.ext ?_ (Prod.ext ?_ (Prod.ext ?_ (Prod.ext ?_ (Prod.ext ?_ (Prod.ext ?_ ?_))))))
  all_goals exact ld_fun_eq N2 _ _

/-- The finished accumulators hold the aggregate of their batch row. -/
theorem acc_final (feat : SFeat.Idx → F .f32) (nd : SNodeFlat.Idx → BitVec 32) (nf : SNbrFlat.Idx → BitVec 32)
    (gb : ℕ) (hgb : gb + 128 ≤ 16384) (N2 B : S128x128.Idx → Elt F .f32) (k2 : ℕ) (hk2 : k2 < 16) (b2 : Fin 2) (el : Fin 4)
    (hN : QN feat nd gb hgb N2) (hB : QB feat nf gb hgb (2 * k2 + b2.val) (by have := b2.isLt; omega) B) (j : Fin 8) (x : Fin 16) :
    comp (redT B el.val (by have := el.isLt; omega)
        (initT N2 (8 * k2 + 4 * b2.val + el.val) (by have := b2.isLt; have := el.isLt; omega)) 32) j (ix1 x)
      = TV feat nd nf gb hgb (ix2 (⟨8 * k2 + 4 * b2.val + el.val, by have := b2.isLt; have := el.isLt; omega⟩ : Fin 128)
          (⟨16 * j.val + x.val, by have := j.isLt; have := x.isLt; omega⟩ : Fin 128)) := by
  have hb2 := b2.isLt
  have hel := el.isLt
  have hj := j.isLt
  have hx := x.isLt
  rw [comp_redT, comp_initT]
  refine redFold_partialSum feat nd nf (⟨gb + (8 * k2 + 4 * b2.val + el.val), by omega⟩ : Fin 16384) B (32 * el.val) (16 * j.val)
    _ _ _ x ?_ ?_ 32 (Nat.le_refl _)
  · exact hN (⟨8 * k2 + 4 * b2.val + el.val, by omega⟩ : Fin 128) (⟨16 * j.val + x.val, by omega⟩ : Fin 128)
  · intro r
    have hr := r.isLt
    rw [hB (⟨32 * el.val + r.val, by omega⟩ : Fin 128) (⟨16 * j.val + x.val, by omega⟩ : Fin 128)]
    have e : (⟨32 * gb + 128 * (2 * k2 + b2.val) + (32 * el.val + r.val), by omega⟩ : Fin 524288)
        = nbrPos (⟨gb + (8 * k2 + 4 * b2.val + el.val), by omega⟩ : Fin 16384) r := by
      apply Fin.ext
      show 32 * gb + 128 * (2 * k2 + b2.val) + (32 * el.val + r.val) = 32 * (gb + (8 * k2 + 4 * b2.val + el.val)) + r.val
      omega
    rw [e]

end Cert.Proof.KB

end
-- ==== Proof.KBValsGather.lean ====
/-
  What the three transfers of a superchunk leave, as mathematics.  A gather through a window of 128 index words
  fills a 128 x 128 buffer whole: its row r is the table row that word r of the window names.  The node window at
  128 k of the tile's node words gives the node rows of batch rows gb … gb + 127 (gb = gb0 + 128 k); the neighbour
  window at 4096 k + 128 g gives group g's rows.  The write-out of the output buffer puts its 128 rows at rows
  gb … gb + 127 of the aggregate array, so if the buffer holds the aggregates of those batch rows the chunk of the
  array holds the aggregate function there.
-/
import proofs.«210776_g5076651344590_cont_8to1_c_706_2_alg».proof.Proof.KBVals

noncomputable section

namespace Cert.Proof.KB

open Cert.Kernel Cert.Kernel.Gen
open Idealize.ShloMosaic Idealize.ShloMosaic.ValueIdx Cert.Spec Cert.Proof.Sums
open Idealize.ShloMosaic.SparseCore (S V T)

variable {F : FTy → Type}

local notation "s0V" => (Memref.whole Cert.Kernel.cc0_scratch0 : Memref Cert.Kernel.sig Kind.scVector Space.vmem Cert.Kernel.S16384 EltTy.i32)
local notation "s1V" => (Memref.whole Cert.Kernel.cc0_scratch1 : Memref Cert.Kernel.sig Kind.scVector Space.vmem Cert.Kernel.S512 EltTy.i32)
local notation "featV" => (Memref.whole Cert.Kernel.main_arg0_scv : Memref Cert.Kernel.sig Kind.scVector Space.hbm Cert.Kernel.S100000x128 EltTy.f32)
set_option quotPrecheck false in
local notation "featSl" => (featV).slice (Rect.unit (s := Cert.Kernel.S100000x128) ![0, 0] Cert.Kernel.S100000x128.size Cert.Kernel.Gen.inb_S100000x128_S100000x128_0_0) (fun _ => rfl)
local notation "b2V" => (Memref.whole Cert.Kernel.cc0_scratch2 : Memref Cert.Kernel.sig Kind.scVector Space.vmem Cert.Kernel.S128x128 EltTy.f32)
local notation "b3V" => (Memref.whole Cert.Kernel.cc0_scratch3 : Memref Cert.Kernel.sig Kind.scVector Space.vmem Cert.Kernel.S128x128 EltTy.f32)
local notation "b4V" => (Memref.whole Cert.Kernel.cc0_scratch4 : Memref Cert.Kernel.sig Kind.scVector Space.vmem Cert.Kernel.S128x128 EltTy.f32)
local notation "b5V" => (Memref.whole Cert.Kernel.cc0_scratch5 : Memref Cert.Kernel.sig Kind.scVector Space.vmem Cert.Kernel.S128x128 EltTy.f32)

/-! ## One piece over the whole buffer -/

/-- The one piece's payload is itself at the piece's positions: the whole rectangle places index x at x. -/
theorem one_piece (w : S128x128.Idx → Elt F .f32) :
    ∀ p ∈ ([⟨Rect.whole S128x128, w⟩] : List (View.Piece (Elt F) S128x128 .f32)), ∀ x : p.1.shape.Idx, p.2 x = w (p.1.emb x) := by
  intro p hp x
  obtain rfl := List.mem_singleton.mp hp
  show w x = w ((Rect.whole S128x128).emb x)
  rw [Rect.emb_whole_apply]

/-- Every index is under the one piece. -/
theorem one_piece_mem (w : S128x128.Idx → Elt F .f32) (y : S128x128.Idx) :
    ∃ p ∈ ([⟨Rect.whole S128x128, w⟩] : List (View.Piece (Elt F) S128x128 .f32)), y ∈ p.1.set :=
  ⟨_, List.mem_singleton.mpr rfl, by show y ∈ (Rect.whole S128x128).set; rw [Rect.set_whole]; exact Finset.mem_univ y⟩

/-! ## The node gather -/

/-- The node buffer just filled by the gather through the window at `128 k` of the tile's node words holds the
    node rows of batch rows `gb0 + 128 k …`. -/
theorem qn_of_gather (ff : S100000x128.Idx → Elt F .f32) (g1 : S512.Idx → Elt F .i32) (nd : SNodeFlat.Idx → BitVec 32)
    (gb0 k : ℕ) (hk : k < 4) (hgb0 : gb0 + 512 ≤ 16384)
    (hg1 : ∀ y : Fin 512, g1 (ix1 y) = nd (ix1 ⟨gb0 + y.val, by omega⟩))
    (hnd : ∀ z, (nd z).toNat < 100000)
    (o : Fin 1 → Nat) (ho : ∀ a, o a + S128.size a ≤ S512.size a) (ho' : o = ![128 * k])
    (hn : S128.numel = S128x128.size gathers_S100000x128_S128x128.axis')
    (hin : ∀ x, (((s1V).slice (Rect.unit (s := S512) o S128.size ho) (fun _ => rfl)).view.read (Elt F) g1 x).toNat
      < S100000x128.size gathers_S100000x128_S128x128.axis)
    (junk : S128x128.Idx → Elt F .f32) :
    QN ff nd (gb0 + 128 * k) (by omega)
      ((b2V).view.writes (Elt F) junk [⟨Rect.whole _, SparseCore.gatherPayload gathers_S100000x128_S128x128
        ((featSl).view.read (Elt F) ff)
        (SparseCore.rows (((s1V).slice (Rect.unit (s := S512) o S128.size ho) (fun _ => rfl)).view.read (Elt F) g1) hn hin)⟩]) := by
  subst ho'
  intro r l
  refine (writes_hit2 junk _ _ (one_piece _) (ix2 r l) (one_piece_mem _ _)).trans ?_
  rw [gather_apply, featSl_read]
  refine congrArg ff (congrArg (fun q => ix2 q l) (Fin.ext ?_))
  have hw : ((s1V).slice (Rect.unit (s := S512) ![128 * k] S128.size ho) (fun _ => rfl)).view.read (Elt F) g1 (ix1 r)
      = nd (ix1 ⟨gb0 + 128 * k + r.val, by omega⟩) := by
    rw [nlst_read, hg1]
    refine congrArg nd (congrArg ix1 (Fin.ext ?_))
    show gb0 + (128 * k + r.val) = gb0 + 128 * k + r.val
    omega
  show (((s1V).slice (Rect.unit (s := S512) ![128 * k] S128.size ho) (fun _ => rfl)).view.read (Elt F) g1 (ix1 r)).toNat = _
  rw [hw, rowOf_val_of_lt (hnd _)]

/-! ## The neighbour gathers -/

/-- A neighbour slot (buffer 4) just filled by the gather through the window at `4096 k + 128 g` of the tile's
    neighbour words holds group `g`'s table rows. -/
theorem qb_of_gather4 (ff : S100000x128.Idx → Elt F .f32) (g0 : S16384.Idx → Elt F .i32) (nf : SNbrFlat.Idx → BitVec 32)
    (gb0 k g : ℕ) (hk : k < 4) (hg : g < 32) (hgb0 : gb0 + 512 ≤ 16384)
    (hg0 : ∀ y : Fin 16384, g0 (ix1 y) = nf (ix1 ⟨32 * gb0 + y.val, by omega⟩))
    (hnf : ∀ z, (nf z).toNat < 100000)
    (o : Fin 1 → Nat) (ho : ∀ a, o a + S128.size a ≤ S16384.size a) (ho' : o = ![4096 * k + 128 * g])
    (hn : S128.numel = S128x128.size gathers_S100000x128_S128x128.axis')
    (hin : ∀ x, (((s0V).slice (Rect.unit (s := S16384) o S128.size ho) (fun _ => rfl)).view.read (Elt F) g0 x).toNat
      < S100000x128.size gathers_S100000x128_S128x128.axis)
    (old : S128x128.Idx → Elt F .f32) :
    QB ff nf (gb0 + 128 * k) (by omega) g hg
      ((b4V).view.writes (Elt F) old [⟨Rect.whole _, SparseCore.gatherPayload gathers_S100000x128_S128x128
        ((featSl).view.read (Elt F) ff)
        (SparseCore.rows (((s0V).slice (Rect.unit (s := S16384) o S128.size ho) (fun _ => rfl)).view.read (Elt F) g0) hn hin)⟩]) := by
  subst ho'
  intro r l
  refine (writes_hit4 old _ _ (one_piece _) (ix2 r l) (one_piece_mem _ _)).trans ?_
  rw [gather_apply, featSl_read]
  refine congrArg ff (congrArg (fun q => ix2 q l) (Fin.ext ?_))
  have hw : ((s0V).slice (Rect.unit (s := S16384) ![4096 * k + 128 * g] S128.size ho) (fun _ => rfl)).view.read (Elt F) g0 (ix1 r)
      = nf (ix1 ⟨32 * (gb0 + 128 * k) + 128 * g + r.val, by omega⟩) := by
    rw [lst_read, hg0]
    refine congrArg nf (congrArg ix1 (Fin.ext ?_))
    show 32 * gb0 + (4096 * k + 128 * g + r.val) = 32 * (gb0 + 128 * k) + 128 * g + r.val
    omega
  show (((s0V).slice (Rect.unit (s := S16384) ![4096 * k + 128 * g] S128.size ho) (fun _ => rfl)).view.read (Elt F) g0 (ix1 r)).toNat = _
  rw [hw, rowOf_val_of_lt (hnf _)]

/-- A neighbour slot (buffer 5) just filled by the gather through the window at `4096 k + 128 g` of the tile's
    neighbour words holds group `g`'s table rows. -/
theorem qb_of_gather5 (ff : S100000x128.Idx → Elt F .f32) (g0 : S16384.Idx → Elt F .i32) (nf : SNbrFlat.Idx → BitVec 32)
    (gb0 k g : ℕ) (hk : k < 4) (hg : g < 32) (hgb0 : gb0 + 512 ≤ 16384)
    (hg0 : ∀ y : Fin 16384, g0 (ix1 y) = nf (ix1 ⟨32 * gb0 + y.val, by omega⟩))
    (hnf : ∀ z, (nf z).toNat < 100000)
    (o : Fin 1 → Nat) (ho : ∀ a, o a + S128.size a ≤ S16384.size a) (ho' : o = ![4096 * k + 128 * g])
    (hn : S128.numel = S128x128.size gathers_S100000x128_S128x128.axis')
    (hin : ∀ x, (((s0V).slice (Rect.unit (s := S16384) o S128.size ho) (fun _ => rfl)).view.read (Elt F) g0 x).toNat
      < S100000x128.size gathers_S100000x128_S128x128.axis)
    (old : S128x128.Idx → Elt F .f32) :
    QB ff nf (gb0 + 128 * k) (by omega) g hg
      ((b5V).view.writes (Elt F) old [⟨Rect.whole _, SparseCore.gatherPayload gathers_S100000x128_S128x128
        ((featSl).view.read (Elt F) ff)
        (SparseCore.rows (((s0V).slice (Rect.unit (s := S16384) o S128.size ho) (fun _ => rfl)).view.read (Elt F) g0) hn hin)⟩]) := by
  subst ho'
  intro r l
  refine (writes_hit5 old _ _ (one_piece _) (ix2 r l) (one_piece_mem _ _)).trans ?_
  rw [gather_apply, featSl_read]
  refine congrArg ff (congrArg (fun q => ix2 q l) (Fin.ext ?_))
  have hw : ((s0V).slice (Rect.unit (s := S16384) ![4096 * k + 128 * g] S128.size ho) (fun _ => rfl)).view.read (Elt F) g0 (ix1 r)
      = nf (ix1 ⟨32 * (gb0 + 128 * k) + 128 * g + r.val, by omega⟩) := by
    rw [lst_read, hg0]
    refine congrArg nf (congrArg ix1 (Fin.ext ?_))
    show 32 * gb0 + (4096 * k + 128 * g + r.val) = 32 * (gb0 + 128 * k) + 128 * g + r.val
    omega
  show (((s0V).slice (Rect.unit (s := S16384) ![4096 * k + 128 * g] S128.size ho) (fun _ => rfl)).view.read (Elt F) g0 (ix1 r)).toNat = _
  rw [hw, rowOf_val_of_lt (hnf _)]

/-! ## The write-out of a chunk -/

variable [FloatOps F]

/-- Chunk `k` of the tile's rows of the aggregate array, just written from an output buffer that holds the
    aggregates of batch rows `gb … gb + 127` (`gb = 1024 s + 512 c + 128 k`), holds the aggregate function. -/
theorem chunk_of_q3 (feat : SFeat.Idx → F .f32) (nd : SNodeFlat.Idx → BitVec 32) (nf : SNbrFlat.Idx → BitVec 32)
    (L : grid0.Coords) (k : Fin k0_t1_loop.trips)
    (hgb : 1024 * (L 1).val + 512 * (L 0).val + 128 * k.val + 128 ≤ 16384)
    (fo : S16384x128.Idx → Elt F .f32) (f3 : S128x128.Idx → Elt F .f32)
    (h3 : Q3 (TV feat nd nf (1024 * (L 1).val + 512 * (L 0).val + 128 * k.val) hgb) 128 f3) :
    ∀ y ∈ (outK L k).view.set,
      (outK L k).view.writes (Elt F) fo [⟨Rect.whole S128x128, ReadAs.same.apply (View.read (Elt F) (b3V).view f3)⟩] y
        = sums feat nd nf y := by
  intro y hy
  obtain ⟨x, -, rfl⟩ := Finset.mem_map.mp hy
  have e1 : (outK L k).view.writes (Elt F) fo [⟨Rect.whole S128x128, ReadAs.same.apply (View.read (Elt F) (b3V).view f3)⟩]
      ((outK L k).view.emb x) = f3 x := by
    have h := View.read_writes_cons_emb (outK L k).view fo (Rect.whole S128x128)
      (ReadAs.same.apply (View.read (Elt F) (b3V).view f3)) [] x
    rw [Rect.emb_whole_apply] at h
    exact ((View.read_apply _ _).trans (cast_eq _ _)).symm.trans h
  rw [e1, h3 x (idx2_lt0 x)]
  have h0 : ((outK L k).view.emb x 0).val = 1024 * (L 1).val + 512 * (L 0).val + 128 * k.val + (x 0).val := by
    show k0_off80 L k 0 + 1 * (x 0).val = _
    rw [k0_off80_eq]
    show 1024 * (L 1).val + 512 * (L 0).val + 128 * k.val + 1 * (x 0).val = _
    omega
  have h1 : ((outK L k).view.emb x 1).val = (x 1).val := by
    show k0_off80 L k 1 + 1 * (x 1).val = _
    rw [k0_off80_eq]
    show 0 + 1 * (x 1).val = _
    omega
  unfold TV sums
  congr 1
  · exact Fin.ext h0.symm
  · exact Fin.ext h1.symm

end Cert.Proof.KB

end
-- ==== Proof.KBValsQ3.lean ====
/-
  The output buffer, one pair trip at a time.

  A pair trip stores sixty-four sixteen-lane windows: for each of its eight finished reductions, the eight accumulators
  into the eight lane groups of one row, rows 8 k + 4 c + e for c below 2 and e below 4.  Each window lies in its one row;
  the eight windows of a row cover it.  So after the trip a row below 8 k holds what it held (no window touches it),
  and a row from 8 k to 8 k + 7 holds the accumulators of its reduction, lane group by lane group: if those are what the
  row is to hold, the first 8 (k + 1) rows hold what they are to hold.
-/
import proofs.«210776_g5076651344590_cont_8to1_c_706_2_alg».proof.Proof.KBVals

noncomputable section

namespace Cert.Proof.KB

open Cert.Kernel Cert.Kernel.Gen
open Idealize.ShloMosaic Idealize.ShloMosaic.ValueIdx Cert.Spec Cert.Proof.Sums

variable {F : FTy → Type}

local notation "b3V" => (Memref.whole Cert.Kernel.cc0_scratch3 : Memref Cert.Kernel.sig Kind.scVector Space.vmem Cert.Kernel.S128x128 EltTy.f32)

/-- The eight accumulators hold row `row` of T, lane group by lane group. -/
def HoldsRow (T : S128x128.Idx → Elt F .f32) (a : Acc8 F) (row : ℕ) (hrow : row < 128) : Prop :=
  ∀ (j : Fin 8) (x : Fin 16), comp a j (ix1 x)
    = T (ix2 (⟨row, hrow⟩ : Fin 128) (⟨16 * j.val + x.val, by have := j.isLt; have := x.isLt; omega⟩ : Fin 128))

theorem q3_trips : k0_t2_loop.trips = 16 := by decide
theorem k2_lt (k2 : Fin k0_t2_loop.trips) : k2.val < 16 := lt_of_lt_of_eq k2.isLt q3_trips
theorem row_lt (k2 : Fin k0_t2_loop.trips) (c2 : Fin 2) (el : Fin 4) : 8 * k2.val + 4 * c2.val + el.val < 128 := by
  have := k2_lt k2; have := c2.isLt; have := el.isLt; omega

/-! ## One window -/

/-- The window at offsets (row, lane) lies in row `row`, lanes lane … lane + 15. -/
theorem piece_mem (o : Fin 2 → Nat) (ho : ∀ a, o a + S1x16.size a ≤ S128x128.size a) (row lane : ℕ) (e : o = ![row, lane])
    (y : S128x128.Idx) :
    y ∈ (Rect.unit (s := S128x128) o S1x16.size ho).set ↔ (y 0).val = row ∧ lane ≤ (y 1).val ∧ (y 1).val < lane + 16 := by
  subst e; exact mem_win _ ho y

/-- A stored vector that holds T's row `row` at lanes lane … lane + 15 agrees with T on its window. -/
theorem piece_val (T : S128x128.Idx → Elt F .f32) (o : Fin 2 → Nat) (ho : ∀ a, o a + S1x16.size a ≤ S128x128.size a)
    (row lane : ℕ) (e : o = ![row, lane]) (hrow : row < 128) (hlane : lane + 16 ≤ 128) (v : FVec F S16 .f32)
    (hv : ∀ x : Fin 16, v (ix1 x) = T (ix2 (⟨row, hrow⟩ : Fin 128) (⟨lane + x.val, by have := x.isLt; omega⟩ : Fin 128))) :
    ∀ x : S1x16.Idx, shapeCast S1x16 v shapeCasts_S16_S1x16 x = T ((Rect.unit (s := S128x128) o S1x16.size ho).emb x) := by
  subst e
  intro x
  have hx : x = ix2 (0 : Fin 1) (⟨(x 1).val, idx2_lt1 x⟩ : Fin 16) := by
    funext a
    match a with
    | ⟨0, _⟩ => exact Subsingleton.elim (α := Fin 1) _ _
    | ⟨1, _⟩ => rfl
  rw [hx, st_apply, hv]
  refine congrArg T ?_
  funext a
  apply Fin.ext
  match a with
  | ⟨0, _⟩ => show row = row + 1 * 0; omega
  | ⟨1, _⟩ => show lane + (x 1).val = lane + 1 * (x 1).val; omega

/-! ## The eight windows of one row -/

theorem rowPieces_vals (T : S128x128.Idx → Elt F .f32) (k2 : Fin k0_t2_loop.trips) (c2 : Fin 2) (el : Fin 4) (a : Acc8 F)
    (ha : HoldsRow T a (8 * k2.val + 4 * c2.val + el.val) (row_lt k2 c2 el)) :
    ∀ p ∈ rowPieces k2 c2 el a, ∀ x : p.1.shape.Idx, p.2 x = T (p.1.emb x) := by
  intro p hp
  simp only [rowPieces, List.mem_cons, List.not_mem_nil, or_false] at hp
  rcases hp with rfl | rfl | rfl | rfl | rfl | rfl | rfl | rfl
  · exact piece_val T _ (k0_off14_inb k2 c2 el) _ _ (k0_off14_eq k2 c2 el) (row_lt k2 c2 el) (by norm_num) _ (fun x => ha 7 x)
  · exact piece_val T _ (k0_off13_inb k2 c2 el) _ _ (k0_off13_eq k2 c2 el) (row_lt k2 c2 el) (by norm_num) _ (fun x => ha 6 x)
  · exact piece_val T _ (k0_off12_inb k2 c2 el) _ _ (k0_off12_eq k2 c2 el) (row_lt k2 c2 el) (by norm_num) _ (fun x => ha 5 x)
  · exact piece_val T _ (k0_off11_inb k2 c2 el) _ _ (k0_off11_eq k2 c2 el) (row_lt k2 c2 el) (by norm_num) _ (fun x => ha 4 x)
  · exact piece_val T _ (k0_off10_inb k2 c2 el) _ _ (k0_off10_eq k2 c2 el) (row_lt k2 c2 el) (by norm_num) _ (fun x => ha 3 x)
  · exact piece_val T _ (k0_off9_inb k2 c2 el) _ _ (k0_off9_eq k2 c2 el) (row_lt k2 c2 el) (by norm_num) _ (fun x => ha 2 x)
  · exact piece_val T _ (k0_off8_inb k2 c2 el) _ _ (k0_off8_eq k2 c2 el) (row_lt k2 c2 el) (by norm_num) _ (fun x => ha 1 x)
  · exact piece_val T _ (k0_off7_inb k2 c2 el) _ _ (k0_off7_eq k2 c2 el) (row_lt k2 c2 el) (by norm_num) _ (fun x => ha 0 x)

theorem rowPieces_rows (k2 : Fin k0_t2_loop.trips) (c2 : Fin 2) (el : Fin 4) (a : Acc8 F) :
    ∀ p ∈ rowPieces k2 c2 el a, ∀ y ∈ p.1.set, (y 0).val = 8 * k2.val + 4 * c2.val + el.val := by
  intro p hp y hy
  simp only [rowPieces, List.mem_cons, List.not_mem_nil, or_false] at hp
  rcases hp with rfl | rfl | rfl | rfl | rfl | rfl | rfl | rfl
  · exact ((piece_mem _ (k0_off14_inb k2 c2 el) _ _ (k0_off14_eq k2 c2 el) y).1 hy).1
  · exact ((piece_mem _ (k0_off13_inb k2 c2 el) _ _ (k0_off13_eq k2 c2 el) y).1 hy).1
  · exact ((piece_mem _ (k0_off12_inb k2 c2 el) _ _ (k0_off12_eq k2 c2 el) y).1 hy).1
  · exact ((piece_mem _ (k0_off11_inb k2 c2 el) _ _ (k0_off11_eq k2 c2 el) y).1 hy).1
  · exact ((piece_mem _ (k0_off10_inb k2 c2 el) _ _ (k0_off10_eq k2 c2 el) y).1 hy).1
  · exact ((piece_mem _ (k0_off9_inb k2 c2 el) _ _ (k0_off9_eq k2 c2 el) y).1 hy).1
  · exact ((piece_mem _ (k0_off8_inb k2 c2 el) _ _ (k0_off8_eq k2 c2 el) y).1 hy).1
  · exact ((piece_mem _ (k0_off7_inb k2 c2 el) _ _ (k0_off7_eq k2 c2 el) y).1 hy).1

theorem rowPieces_cover (k2 : Fin k0_t2_loop.trips) (c2 : Fin 2) (el : Fin 4) (a : Acc8 F) (y : S128x128.Idx)
    (h0 : (y 0).val = 8 * k2.val + 4 * c2.val + el.val) : ∃ p ∈ rowPieces k2 c2 el a, y ∈ p.1.set := by
  have h1 : (y 1).val < 128 := idx2_lt1 y
  unfold rowPieces
  rcases Nat.lt_or_ge (y 1).val 64 with hA | hA
  · rcases Nat.lt_or_ge (y 1).val 32 with hB | hB
    · rcases Nat.lt_or_ge (y 1).val 16 with hC | hC
      · exact ⟨(⟨Rect.unit (s := S128x128) (k0_off7 k2 (BitVec.ofNat 32 c2.val) (BitVec.ofNat 32 el.val)) S1x16.size (k0_off7_inb k2 c2 el), shapeCast S1x16 (a.1) shapeCasts_S16_S1x16⟩ : View.Piece (Elt F) S128x128 .f32), List.mem_cons_of_mem _ (List.mem_cons_of_mem _ (List.mem_cons_of_mem _ (List.mem_cons_of_mem _ (List.mem_cons_of_mem _ (List.mem_cons_of_mem _ (List.mem_cons_of_mem _ (List.mem_cons_self))))))), (piece_mem _ (k0_off7_inb k2 c2 el) _ _ (k0_off7_eq k2 c2 el) y).2 ⟨h0, by omega, by omega⟩⟩
      · exact ⟨(⟨Rect.unit (s := S128x128) (k0_off8 k2 (BitVec.ofNat 32 c2.val) (BitVec.ofNat 32 el.val)) S1x16.size (k0_off8_inb k2 c2 el), shapeCast S1x16 (a.2.1) shapeCasts_S16_S1x16⟩ : View.Piece (Elt F) S128x128 .f32), List.mem_cons_of_mem _ (List.mem_cons_of_mem _ (List.mem_cons_of_mem _ (List.mem_cons_of_mem _ (List.mem_cons_of_mem _ (List.mem_cons_of_mem _ (List.mem_cons_self)))))), (piece_mem _ (k0_off8_inb k2 c2 el) _ _ (k0_off8_eq k2 c2 el) y).2 ⟨h0, by omega, by omega⟩⟩
    · rcases Nat.lt_or_ge (y 1).val 48 with hC | hC
      · exact ⟨(⟨Rect.unit (s := S128x128) (k0_off9 k2 (BitVec.ofNat 32 c2.val) (BitVec.ofNat 32 el.val)) S1x16.size (k0_off9_inb k2 c2 el), shapeCast S1x16 (a.2.2.1) shapeCasts_S16_S1x16⟩ : View.Piece (Elt F) S128x128 .f32), List.mem_cons_of_mem _ (List.mem_cons_of_mem _ (List.mem_cons_of_mem _ (List.mem_cons_of_mem _ (List.mem_cons_of_mem _ (List.mem_cons_self))))), (piece_mem _ (k0_off9_inb k2 c2 el) _ _ (k0_off9_eq k2 c2 el) y).2 ⟨h0, by omega, by omega⟩⟩
      · exact ⟨(⟨Rect.unit (s := S128x128) (k0_off10 k2 (BitVec.ofNat 32 c2.val) (BitVec.ofNat 32 el.val)) S1x16.size (k0_off10_inb k2 c2 el), shapeCast S1x16 (a.2.2.2.1) shapeCasts_S16_S1x16⟩ : View.Piece (Elt F) S128x128 .f32), List.mem_cons_of_mem _ (List.mem_cons_of_mem _ (List.mem_cons_of_mem _ (List.mem_cons_of_mem _ (List.mem_cons_self)))), (piece_mem _ (k0_off10_inb k2 c2 el) _ _ (k0_off10_eq k2 c2 el) y).2 ⟨h0, by omega, by omega⟩⟩
  · rcases Nat.lt_or_ge (y 1).val 96 with hB | hB
    · rcases Nat.lt_or_ge (y 1).val 80 with hC | hC
      · exact ⟨(⟨Rect.unit (s := S128x128) (k0_off11 k2 (BitVec.ofNat 32 c2.val) (BitVec.ofNat 32 el.val)) S1x16.size (k0_off11_inb k2 c2 el), shapeCast S1x16 (a.2.2.2.2.1) shapeCasts_S16_S1x16⟩ : View.Piece (Elt F) S128x128 .f32), List.mem_cons_of_mem _ (List.mem_cons_of_mem _ (List.mem_cons_of_mem _ (List.mem_cons_self))), (piece_mem _ (k0_off11_inb k2 c2 el) _ _ (k0_off11_eq k2 c2 el) y).2 ⟨h0, by omega, by omega⟩⟩
      · exact ⟨(⟨Rect.unit (s := S128x128) (k0_off12 k2 (BitVec.ofNat 32 c2.val) (BitVec.ofNat 32 el.val)) S1x16.size (k0_off12_inb k2 c2 el), shapeCast S1x16 (a.2.2.2.2.2.1) shapeCasts_S16_S1x16⟩ : View.Piece (Elt F) S128x128 .f32), List.mem_cons_of_mem _ (List.mem_cons_of_mem _ (List.mem_cons_self)), (piece_mem _ (k0_off12_inb k2 c2 el) _ _ (k0_off12_eq k2 c2 el) y).2 ⟨h0, by omega, by omega⟩⟩
    · rcases Nat.lt_or_ge (y 1).val 112 with hC | hC
      · exact ⟨(⟨Rect.unit (s := S128x128) (k0_off13 k2 (BitVec.ofNat 32 c2.val) (BitVec.ofNat 32 el.val)) S1x16.size (k0_off13_inb k2 c2 el), shapeCast S1x16 (a.2.2.2.2.2.2.1) shapeCasts_S16_S1x16⟩ : View.Piece (Elt F) S128x128 .f32), List.mem_cons_of_mem _ (List.mem_cons_self), (piece_mem _ (k0_off13_inb k2 c2 el) _ _ (k0_off13_eq k2 c2 el) y).2 ⟨h0, by omega, by omega⟩⟩
      · exact ⟨(⟨Rect.unit (s := S128x128) (k0_off14 k2 (BitVec.ofNat 32 c2.val) (BitVec.ofNat 32 el.val)) S1x16.size (k0_off14_inb k2 c2 el), shapeCast S1x16 (a.2.2.2.2.2.2.2) shapeCasts_S16_S1x16⟩ : View.Piece (Elt F) S128x128 .f32), List.mem_cons_self, (piece_mem _ (k0_off14_inb k2 c2 el) _ _ (k0_off14_eq k2 c2 el) y).2 ⟨h0, by omega, by omega⟩⟩

/-! ## The sixty-four windows of a pair trip -/

theorem tripPieces_rows (k2 : Fin k0_t2_loop.trips) (a1 a2 a3 a4 b1 b2 b3 b4 : Acc8 F) :
    ∀ p ∈ tripPieces k2 a1 a2 a3 a4 b1 b2 b3 b4, ∀ y ∈ p.1.set, 8 * k2.val ≤ (y 0).val ∧ (y 0).val < 8 * k2.val + 8 := by
  intro p hp y hy
  simp only [tripPieces, List.mem_append] at hp
  rcases hp with ((((((hp | hp) | hp) | hp) | hp) | hp) | hp) | hp
  · have h : (y 0).val = 8 * k2.val + 4 * 1 + 3 := rowPieces_rows k2 1 3 b4 p hp y hy
    omega
  · have h : (y 0).val = 8 * k2.val + 4 * 1 + 2 := rowPieces_rows k2 1 2 b3 p hp y hy
    omega
  · have h : (y 0).val = 8 * k2.val + 4 * 1 + 1 := rowPieces_rows k2 1 1 b2 p hp y hy
    omega
  · have h : (y 0).val = 8 * k2.val + 4 * 1 + 0 := rowPieces_rows k2 1 0 b1 p hp y hy
    omega
  · have h : (y 0).val = 8 * k2.val + 4 * 0 + 3 := rowPieces_rows k2 0 3 a4 p hp y hy
    omega
  · have h : (y 0).val = 8 * k2.val + 4 * 0 + 2 := rowPieces_rows k2 0 2 a3 p hp y hy
    omega
  · have h : (y 0).val = 8 * k2.val + 4 * 0 + 1 := rowPieces_rows k2 0 1 a2 p hp y hy
    omega
  · have h : (y 0).val = 8 * k2.val + 4 * 0 + 0 := rowPieces_rows k2 0 0 a1 p hp y hy
    omega

theorem tripPieces_vals (T : S128x128.Idx → Elt F .f32) (k2 : Fin k0_t2_loop.trips) (a1 a2 a3 a4 b1 b2 b3 b4 : Acc8 F)
    (ha1 : HoldsRow T a1 (8 * k2.val + 4 * (0 : Fin 2).val + (0 : Fin 4).val) (row_lt k2 0 0))
    (ha2 : HoldsRow T a2 (8 * k2.val + 4 * (0 : Fin 2).val + (1 : Fin 4).val) (row_lt k2 0 1))
    (ha3 : HoldsRow T a3 (8 * k2.val + 4 * (0 : Fin 2).val + (2 : Fin 4).val) (row_lt k2 0 2))
    (ha4 : HoldsRow T a4 (8 * k2.val + 4 * (0 : Fin 2).val + (3 : Fin 4).val) (row_lt k2 0 3))
    (hb1 : HoldsRow T b1 (8 * k2.val + 4 * (1 : Fin 2).val + (0 : Fin 4).val) (row_lt k2 1 0))
    (hb2 : HoldsRow T b2 (8 * k2.val + 4 * (1 : Fin 2).val + (1 : Fin 4).val) (row_lt k2 1 1))
    (hb3 : HoldsRow T b3 (8 * k2.val + 4 * (1 : Fin 2).val + (2 : Fin 4).val) (row_lt k2 1 2))
    (hb4 : HoldsRow T b4 (8 * k2.val + 4 * (1 : Fin 2).val + (3 : Fin 4).val) (row_lt k2 1 3)) :
    ∀ p ∈ tripPieces k2 a1 a2 a3 a4 b1 b2 b3 b4, ∀ x : p.1.shape.Idx, p.2 x = T (p.1.emb x) := by
  intro p hp
  simp only [tripPieces, List.mem_append] at hp
  rcases hp with ((((((hp | hp) | hp) | hp) | hp) | hp) | hp) | hp
  · exact rowPieces_vals T k2 1 3 b4 hb4 p hp
  · exact rowPieces_vals T k2 1 2 b3 hb3 p hp
  · exact rowPieces_vals T k2 1 1 b2 hb2 p hp
  · exact rowPieces_vals T k2 1 0 b1 hb1 p hp
  · exact rowPieces_vals T k2 0 3 a4 ha4 p hp
  · exact rowPieces_vals T k2 0 2 a3 ha3 p hp
  · exact rowPieces_vals T k2 0 1 a2 ha2 p hp
  · exact rowPieces_vals T k2 0 0 a1 ha1 p hp

theorem tripPieces_cover (k2 : Fin k0_t2_loop.trips) (a1 a2 a3 a4 b1 b2 b3 b4 : Acc8 F) (y : S128x128.Idx)
    (hlo : 8 * k2.val ≤ (y 0).val) (hhi : (y 0).val < 8 * k2.val + 8) : ∃ p ∈ tripPieces k2 a1 a2 a3 a4 b1 b2 b3 b4, y ∈ p.1.set := by
  have h8 : (y 0).val = 8 * k2.val + 4 * 0 + 0 ∨ (y 0).val = 8 * k2.val + 4 * 0 + 1 ∨ (y 0).val = 8 * k2.val + 4 * 0 + 2 ∨ (y 0).val = 8 * k2.val + 4 * 0 + 3 ∨ (y 0).val = 8 * k2.val + 4 * 1 + 0 ∨ (y 0).val = 8 * k2.val + 4 * 1 + 1 ∨ (y 0).val = 8 * k2.val + 4 * 1 + 2 ∨ (y 0).val = 8 * k2.val + 4 * 1 + 3 := by omega
  unfold tripPieces
  rcases h8 with h | h | h | h | h | h | h | h
  · obtain ⟨p, hp, hy⟩ := rowPieces_cover k2 0 0 a1 y h
    exact ⟨p, List.mem_append_right _ hp, hy⟩
  · obtain ⟨p, hp, hy⟩ := rowPieces_cover k2 0 1 a2 y h
    exact ⟨p, List.mem_append_left _ (List.mem_append_right _ hp), hy⟩
  · obtain ⟨p, hp, hy⟩ := rowPieces_cover k2 0 2 a3 y h
    exact ⟨p, List.mem_append_left _ (List.mem_append_left _ (List.mem_append_right _ hp)), hy⟩
  · obtain ⟨p, hp, hy⟩ := rowPieces_cover k2 0 3 a4 y h
    exact ⟨p, List.mem_append_left _ (List.mem_append_left _ (List.mem_append_left _ (List.mem_append_right _ hp))), hy⟩
  · obtain ⟨p, hp, hy⟩ := rowPieces_cover k2 1 0 b1 y h
    exact ⟨p, List.mem_append_left _ (List.mem_append_left _ (List.mem_append_left _ (List.mem_append_left _ (List.mem_append_right _ hp)))), hy⟩
  · obtain ⟨p, hp, hy⟩ := rowPieces_cover k2 1 1 b2 y h
    exact ⟨p, List.mem_append_left _ (List.mem_append_left _ (List.mem_append_left _ (List.mem_append_left _ (List.mem_append_left _ (List.mem_append_right _ hp))))), hy⟩
  · obtain ⟨p, hp, hy⟩ := rowPieces_cover k2 1 2 b3 y h
    exact ⟨p, List.mem_append_left _ (List.mem_append_left _ (List.mem_append_left _ (List.mem_append_left _ (List.mem_append_left _ (List.mem_append_left _ (List.mem_append_right _ hp)))))), hy⟩
  · obtain ⟨p, hp, hy⟩ := rowPieces_cover k2 1 3 b4 y h
    exact ⟨p, List.mem_append_left _ (List.mem_append_left _ (List.mem_append_left _ (List.mem_append_left _ (List.mem_append_left _ (List.mem_append_left _ (List.mem_append_left _ (hp))))))), hy⟩

/-- One pair trip: eight more rows of the output buffer hold what they are to hold. -/
theorem q3_step (T f3 : S128x128.Idx → Elt F .f32) (k2 : Fin k0_t2_loop.trips) (a1 a2 a3 a4 b1 b2 b3 b4 : Acc8 F)
    (hq : Q3 T (8 * k2.val) f3)
    (ha1 : HoldsRow T a1 (8 * k2.val + 4 * (0 : Fin 2).val + (0 : Fin 4).val) (row_lt k2 0 0))
    (ha2 : HoldsRow T a2 (8 * k2.val + 4 * (0 : Fin 2).val + (1 : Fin 4).val) (row_lt k2 0 1))
    (ha3 : HoldsRow T a3 (8 * k2.val + 4 * (0 : Fin 2).val + (2 : Fin 4).val) (row_lt k2 0 2))
    (ha4 : HoldsRow T a4 (8 * k2.val + 4 * (0 : Fin 2).val + (3 : Fin 4).val) (row_lt k2 0 3))
    (hb1 : HoldsRow T b1 (8 * k2.val + 4 * (1 : Fin 2).val + (0 : Fin 4).val) (row_lt k2 1 0))
    (hb2 : HoldsRow T b2 (8 * k2.val + 4 * (1 : Fin 2).val + (1 : Fin 4).val) (row_lt k2 1 1))
    (hb3 : HoldsRow T b3 (8 * k2.val + 4 * (1 : Fin 2).val + (2 : Fin 4).val) (row_lt k2 1 2))
    (hb4 : HoldsRow T b4 (8 * k2.val + 4 * (1 : Fin 2).val + (3 : Fin 4).val) (row_lt k2 1 3)) :
    Q3 T (8 * (k2.val + 1)) ((b3V).view.writes (Elt F) f3 (tripPieces k2 a1 a2 a3 a4 b1 b2 b3 b4)) := by
  intro y hy
  by_cases hlo : (y 0).val < 8 * k2.val
  · rw [writes_miss3 f3 _ y (fun p hp hyp => by have := (tripPieces_rows k2 a1 a2 a3 a4 b1 b2 b3 b4 p hp y hyp).1; omega)]
    exact hq y hlo
  · exact writes_hit3 f3 T _ (tripPieces_vals T k2 a1 a2 a3 a4 b1 b2 b3 b4 ha1 ha2 ha3 ha4 hb1 hb2 hb3 hb4) y
      (tripPieces_cover k2 a1 a2 a3 a4 b1 b2 b3 b4 y (by omega) (by omega))

end Cert.Proof.KB

end
-- ==== Proof.KBBody.lean ====
/-
  One superchunk of one tile: 128 batch rows.  The tile gathers the 128 node rows into the node buffer and waits; then,
  sixteen times, it handles two groups of four batch rows: while the gather of the next group's 128 neighbour rows flies
  into the other slot, it waits for this group's slot and, for each of the four batch rows, starts eight 16-lane
  accumulators at the node's row and adds the row's 32 neighbour rows in order, storing the eight results into the output
  buffer's row.  Each slot has its own DMA semaphore and is read only between its wait and its next issue, so no access
  meets a pending copy.  The invariants say what each buffer holds (the node rows; a slot's 128 neighbour rows, already
  stated of the gather in flight; the output buffer's finished rows at the aggregate), and the finished buffer is copied out
  to the tile's chunk of the aggregate array.
-/
import proofs.«210776_g5076651344590_cont_8to1_c_706_2_alg».proof.Proof.KBInv
import proofs.«210776_g5076651344590_cont_8to1_c_706_2_alg».proof.Proof.KBValsRed
import proofs.«210776_g5076651344590_cont_8to1_c_706_2_alg».proof.Proof.KBValsGather
import proofs.«210776_g5076651344590_cont_8to1_c_706_2_alg».proof.Proof.KBValsQ3

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "featV" => (Memref.whole Cert.Kernel.main_arg0_scv : Memref Cert.Kernel.sig Kind.scVector Space.hbm Cert.Kernel.S100000x128 EltTy.f32)
local notation "nfV" => (Memref.whole Cert.Kernel.main_v0_scv : Memref Cert.Kernel.sig Kind.scVector Space.hbm Cert.Kernel.S524288 EltTy.i32)
local notation "ndV" => (Memref.whole Cert.Kernel.main_v1_scv : Memref Cert.Kernel.sig Kind.scVector Space.hbm Cert.Kernel.S16384 EltTy.i32)
local notation "sumV" => (Memref.whole Cert.Kernel.main_v2_scv : Memref Cert.Kernel.sig Kind.scVector Space.hbm Cert.Kernel.S16384x128 EltTy.f32)
local notation "s0V" => (Memref.whole Cert.Kernel.cc0_scratch0 : Memref Cert.Kernel.sig Kind.scVector Space.vmem Cert.Kernel.S16384 EltTy.i32)
local notation "s1V" => (Memref.whole Cert.Kernel.cc0_scratch1 : Memref Cert.Kernel.sig Kind.scVector Space.vmem Cert.Kernel.S512 EltTy.i32)
local notation "s2V" => (Memref.whole Cert.Kernel.cc0_scratch2 : Memref Cert.Kernel.sig Kind.scVector Space.vmem Cert.Kernel.S128x128 EltTy.f32)
local notation "s3V" => (Memref.whole Cert.Kernel.cc0_scratch3 : Memref Cert.Kernel.sig Kind.scVector Space.vmem Cert.Kernel.S128x128 EltTy.f32)
local notation "s4V" => (Memref.whole Cert.Kernel.cc0_scratch4 : Memref Cert.Kernel.sig Kind.scVector Space.vmem Cert.Kernel.S128x128 EltTy.f32)
local notation "s5V" => (Memref.whole Cert.Kernel.cc0_scratch5 : Memref Cert.Kernel.sig Kind.scVector Space.vmem Cert.Kernel.S128x128 EltTy.f32)

variable [FloatOps F]
variable (d : Dev nD) (L : grid0.Coords)

open Idealize.ShloMosaic.ValueIdx Cert.Spec Cert.Proof.Sums

theorem chunk_mono1 (ff : Buf (Elt F) ((featV).view.loc (V d (cV L) (jV L)))) (nd : SNodeFlat.Idx → BitVec 32) (nf : SNbrFlat.Idx → BitVec 32) (k k' : Fin k0_t1_loop.trips) (hne : k' ≠ k) :
    (iprop(∃ fo, ⌜k'.val < k.val → ∀ y ∈ (outK L k').view.set, fo y = sums ff nd nf y⌝
        ∗ (outK L k').view.loc (V d (cV L) (jV L)) ↦[(outK L k').view.set]{fullShare} fo) : sProp 𝕄)
      ⊢ iprop(∃ fo, ⌜k'.val < k.val + 1 → ∀ y ∈ (outK L k').view.set, fo y = sums ff nd nf y⌝
        ∗ (outK L k').view.loc (V d (cV L) (jV L)) ↦[(outK L k').view.set]{fullShare} fo) := by
  iintro ⟨%fo, %h, H⟩
  iexists fo; isplitr
  · ipureintro; intro hlt
    exact h (lt_of_le_of_ne (Nat.lt_succ_iff.mp hlt) (fun e => hne (Fin.ext e)))
  · iexact H

theorem chunks_mono (ff : Buf (Elt F) ((featV).view.loc (V d (cV L) (jV L)))) (nd : SNodeFlat.Idx → BitVec 32) (nf : SNbrFlat.Idx → BitVec 32) (k : Fin k0_t1_loop.trips) :
    (bigSep (Finset.univ.erase k) fun k' : Fin k0_t1_loop.trips => iprop(∃ fo, ⌜k'.val < k.val → ∀ y ∈ (outK L k').view.set, fo y = sums ff nd nf y⌝
        ∗ (outK L k').view.loc (V d (cV L) (jV L)) ↦[(outK L k').view.set]{fullShare} fo) : sProp 𝕄)
      ⊢ bigSep (Finset.univ.erase k) fun k' : Fin k0_t1_loop.trips => iprop(∃ fo, ⌜k'.val < k.val + 1 → ∀ y ∈ (outK L k').view.set, fo y = sums ff nd nf y⌝
        ∗ (outK L k').view.loc (V d (cV L) (jV L)) ↦[(outK L k').view.set]{fullShare} fo) :=
  bigSep_mono fun k' hk' => chunk_mono1 d L ff nd nf k k' (Finset.mem_erase.mp hk').1

set_option maxHeartbeats 16000000 in
theorem trip1V (qa qb : PosShare TreeShare) (O : CellTallies nD τ sig (HIx 1)) (W : Waits sig (HIx 1))
    (ff : Buf (Elt F) ((featV).view.loc (V d (cV L) (jV L)))) (g0 : Buf (Elt F) ((s0V).view.loc (V d (cV L) (jV L)))) (g1 : Buf (Elt F) ((s1V).view.loc (V d (cV L) (jV L))))
    (nd : SNodeFlat.Idx → BitVec 32) (nf : SNbrFlat.Idx → BitVec 32) (hg1 : G1ok L g1 nd) (hg0 : G0ok L g0 nf)
    (hnd : ∀ z, (nd z).toNat < 100000) (hnf : ∀ z, (nf z).toNat < 100000)
    (h0 : ∀ z, (g0 z).toNat < 100000) (h1 : ∀ z, (g1 z).toNat < 100000) (k : Fin k0_t1_loop.trips) :
    inv1V d L qa qb O W ff g0 g1 nd nf k.val ()
      ⊢ wp frame (wpE (defs₀ (F := F)) 𝒱₀ (V d (cV L) (jV L)) none) Set.univ
          (k0_t1_body L featV (Memref.isWhole_whole _) nfV (Memref.isWhole_whole _) ndV (Memref.isWhole_whole _) sumV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scratch7 cc0_scratch8 cc0_scoped0 cc0_scoped1 cc0_scoped2 k ())
          (fun _ => inv1V d L qa qb O W ff g0 g1 nd nf (k.val + 1) ()) := by
  delta k0_t1_body; beta_reduce
  unfold inv1V
  iintro ⟨Hmw, Hfa, Hfb, H0, H1, ⟨%f2, H2⟩, ⟨%f3, H3⟩, ⟨%f4, H4⟩, ⟨%f5, H5⟩, Hch, Hs6, Hs7, Hs8, Hc2, %W', %hW', HO⟩
  have hk4 : k.val < 4 := lt_of_lt_of_eq k.isLt trips1
  have hgb : gb0 L + 128 * k.val + 128 ≤ 16384 := by have := gb0_le L; omega
  have hinN : ∀ x, (((s1V).slice (Rect.unit (s := S512) (k0_off3 k) S128.size (k0_off3_inb k)) (fun _ => rfl)).view.read (Elt F) g1 x).toNat
      < S100000x128.size gathers_S100000x128_S128x128.axis := nlst_hin _ _ g1 h1
  have hinA : ∀ x, (((s0V).slice (Rect.unit (s := S16384) (k0_off4 k) S128.size (k0_off4_inb k)) (fun _ => rfl)).view.read (Elt F) g0 x).toNat
      < S100000x128.size gathers_S100000x128_S128x128.axis := lst_hin _ _ g0 h0
  ihave Hch' := (Entails.of_eq (SparseCore.bigSep_erase' (Finset.mem_univ k))) $$ Hch
  icases Hch' with ⟨⟨%fo, -, Hout⟩, Hrest⟩
  sl_exec
  sl_for (inv2V d L qb qa O W ff g0 nd nf (gb0 L + 128 * k.val) hgb k) $$ [Hmw H2 H3 Hs7 H4 H0 Hfb H5 Hfa Hs8 HO]
  case region =>
    have hc1 : ∀ k2 : Fin k0_t2_loop.trips, k0_cond1 k2 = 1#1 := by decide
    have hc2 : ∀ k2 : Fin k0_t2_loop.trips, k2.val < 15 → k0_cond2 k2 = 1#1 := by decide
    have hc2n : ∀ k2 : Fin k0_t2_loop.trips, ¬ k2.val < 15 → ¬ k0_cond2 k2 = 1#1 := by decide
    have ht2 : ∀ k2 : Fin k0_t2_loop.trips, k2.val < 16 := by decide
    intro k2 _
    have hk2 : k2.val < 16 := ht2 k2
    unfold inv2V slot0V
    rw [dif_pos hk2]
    iintro ⟨Hmw, ⟨%N2, %hQN, H2⟩, ⟨%f3', %hQ3, H3⟩, ⟨%B0, %o, %ho, %hoe, %hQB0, Hfl, H4r, H0r, Hfar⟩, ⟨%f5', H5⟩, Hfb, Hs8, %W2, %hW2, HO⟩
    subst hoe
    have k0_h1 : k0_cond1 k2 = 1#1 := hc1 k2
    have hinB : ∀ x, (((s0V).slice (Rect.unit (s := S16384) (k0_off5 k k2) S128.size (k0_off5_inb k k2 k0_h1)) (fun _ => rfl)).view.read (Elt F) g0 x).toNat
        < S100000x128.size gathers_S100000x128_S128x128.axis := lst_hin _ _ g0 h0
    have hdisjB : Disjoint ((s0V).slice (Rect.unit (s := S16384) (k0_off5 k k2) S128.size (k0_off5_inb k k2 k0_h1)) (fun _ => rfl)).view.set
        (lst ![4096 * k.val + 256 * k2.val] ho).view.set :=
      lst_disjoint _ _ _ _ (Or.inr (by rw [k0_off5_eq]; show 4096 * k.val + 256 * k2.val + 128 ≤ 4096 * k.val + 256 * k2.val + 128; exact le_rfl))
    sl_exec
    sl_for (invR4V d L B0 0 (by omega) (initT N2 (8 * k2.val + 4 * 0 + 0) (by omega))) $$ [H4r]
    case region =>
      intro r acc
      unfold invR4V
      iintro ⟨H, %hacc⟩
      sl_exec
      sl_step
      isplitl [H]; · iexact H
      ipureintro
      exact redT_step4 B0 0 (by omega) _ r.val r.isLt (k0_off15 r) (k0_off16 r) (k0_off17 r) (k0_off18 r) (k0_off19 r) (k0_off20 r) (k0_off21 r) (k0_off22 r) (k0_off15_inb r) (k0_off16_inb r) (k0_off17_inb r) (k0_off18_inb r) (k0_off19_inb r) (k0_off20_inb r) (k0_off21_inb r) (k0_off22_inb r) (k0_off15_eq r) (k0_off16_eq r) (k0_off17_eq r) (k0_off18_eq r) (k0_off19_eq r) (k0_off20_eq r) (k0_off21_eq r) (k0_off22_eq r) acc hacc
    · unfold invR4V
      isplitl [H4r]; · iexact H4r
      ipureintro
      exact (initT_of_loads N2 (8 * k2.val + 4 * 0 + 0) (by omega) (k0_off7 k2 0#32 0#32) (k0_off8 k2 0#32 0#32) (k0_off9 k2 0#32 0#32) (k0_off10 k2 0#32 0#32) (k0_off11 k2 0#32 0#32) (k0_off12 k2 0#32 0#32) (k0_off13 k2 0#32 0#32) (k0_off14 k2 0#32 0#32) (k0_off7_inb k2 0 0) (k0_off8_inb k2 0 0) (k0_off9_inb k2 0 0) (k0_off10_inb k2 0 0) (k0_off11_inb k2 0 0) (k0_off12_inb k2 0 0) (k0_off13_inb k2 0 0) (k0_off14_inb k2 0 0) (k0_off7_eq k2 0 0) (k0_off8_eq k2 0 0) (k0_off9_eq k2 0 0) (k0_off10_eq k2 0 0) (k0_off11_eq k2 0 0) (k0_off12_eq k2 0 0) (k0_off13_eq k2 0 0) (k0_off14_eq k2 0 0)).trans (redT_zero B0 0 (by omega) _).symm
    iintro %a1 HI
    unfold invR4V
    icases HI with ⟨H4r, %ha1⟩
    sl_exec
    sl_for (invR4V d L B0 1 (by omega) (initT N2 (8 * k2.val + 4 * 0 + 1) (by omega))) $$ [H4r]
    case region =>
      intro r acc
      unfold invR4V
      iintro ⟨H, %hacc⟩
      sl_exec
      sl_step
      isplitl [H]; · iexact H
      ipureintro
      exact redT_step4 B0 1 (by omega) _ r.val r.isLt (k0_off23 r) (k0_off24 r) (k0_off25 r) (k0_off26 r) (k0_off27 r) (k0_off28 r) (k0_off29 r) (k0_off30 r) (k0_off23_inb r) (k0_off24_inb r) (k0_off25_inb r) (k0_off26_inb r) (k0_off27_inb r) (k0_off28_inb r) (k0_off29_inb r) (k0_off30_inb r) (k0_off23_eq r) (k0_off24_eq r) (k0_off25_eq r) (k0_off26_eq r) (k0_off27_eq r) (k0_off28_eq r) (k0_off29_eq r) (k0_off30_eq r) acc hacc
    · unfold invR4V
      isplitl [H4r]; · iexact H4r
      ipureintro
      exact (initT_of_loads N2 (8 * k2.val + 4 * 0 + 1) (by omega) (k0_off7 k2 0#32 1#32) (k0_off8 k2 0#32 1#32) (k0_off9 k2 0#32 1#32) (k0_off10 k2 0#32 1#32) (k0_off11 k2 0#32 1#32) (k0_off12 k2 0#32 1#32) (k0_off13 k2 0#32 1#32) (k0_off14 k2 0#32 1#32) (k0_off7_inb k2 0 1) (k0_off8_inb k2 0 1) (k0_off9_inb k2 0 1) (k0_off10_inb k2 0 1) (k0_off11_inb k2 0 1) (k0_off12_inb k2 0 1) (k0_off13_inb k2 0 1) (k0_off14_inb k2 0 1) (k0_off7_eq k2 0 1) (k0_off8_eq k2 0 1) (k0_off9_eq k2 0 1) (k0_off10_eq k2 0 1) (k0_off11_eq k2 0 1) (k0_off12_eq k2 0 1) (k0_off13_eq k2 0 1) (k0_off14_eq k2 0 1)).trans (redT_zero B0 1 (by omega) _).symm
    iintro %a2 HI
    unfold invR4V
    icases HI with ⟨H4r, %ha2⟩
    sl_exec
    sl_for (invR4V d L B0 2 (by omega) (initT N2 (8 * k2.val + 4 * 0 + 2) (by omega))) $$ [H4r]
    case region =>
      intro r acc
      unfold invR4V
      iintro ⟨H, %hacc⟩
      sl_exec
      sl_step
      isplitl [H]; · iexact H
      ipureintro
      exact redT_step4 B0 2 (by omega) _ r.val r.isLt (k0_off31 r) (k0_off32 r) (k0_off33 r) (k0_off34 r) (k0_off35 r) (k0_off36 r) (k0_off37 r) (k0_off38 r) (k0_off31_inb r) (k0_off32_inb r) (k0_off33_inb r) (k0_off34_inb r) (k0_off35_inb r) (k0_off36_inb r) (k0_off37_inb r) (k0_off38_inb r) (k0_off31_eq r) (k0_off32_eq r) (k0_off33_eq r) (k0_off34_eq r) (k0_off35_eq r) (k0_off36_eq r) (k0_off37_eq r) (k0_off38_eq r) acc hacc
    · unfold invR4V
      isplitl [H4r]; · iexact H4r
      ipureintro
      exact (initT_of_loads N2 (8 * k2.val + 4 * 0 + 2) (by omega) (k0_off7 k2 0#32 2#32) (k0_off8 k2 0#32 2#32) (k0_off9 k2 0#32 2#32) (k0_off10 k2 0#32 2#32) (k0_off11 k2 0#32 2#32) (k0_off12 k2 0#32 2#32) (k0_off13 k2 0#32 2#32) (k0_off14 k2 0#32 2#32) (k0_off7_inb k2 0 2) (k0_off8_inb k2 0 2) (k0_off9_inb k2 0 2) (k0_off10_inb k2 0 2) (k0_off11_inb k2 0 2) (k0_off12_inb k2 0 2) (k0_off13_inb k2 0 2) (k0_off14_inb k2 0 2) (k0_off7_eq k2 0 2) (k0_off8_eq k2 0 2) (k0_off9_eq k2 0 2) (k0_off10_eq k2 0 2) (k0_off11_eq k2 0 2) (k0_off12_eq k2 0 2) (k0_off13_eq k2 0 2) (k0_off14_eq k2 0 2)).trans (redT_zero B0 2 (by omega) _).symm
    iintro %a3 HI
    unfold invR4V
    icases HI with ⟨H4r, %ha3⟩
    sl_exec
    sl_for (invR4V d L B0 3 (by omega) (initT N2 (8 * k2.val + 4 * 0 + 3) (by omega))) $$ [H4r]
    case region =>
      intro r acc
      unfold invR4V
      iintro ⟨H, %hacc⟩
      sl_exec
      sl_step
      isplitl [H]; · iexact H
      ipureintro
      exact redT_step4 B0 3 (by omega) _ r.val r.isLt (k0_off39 r) (k0_off40 r) (k0_off41 r) (k0_off42 r) (k0_off43 r) (k0_off44 r) (k0_off45 r) (k0_off46 r) (k0_off39_inb r) (k0_off40_inb r) (k0_off41_inb r) (k0_off42_inb r) (k0_off43_inb r) (k0_off44_inb r) (k0_off45_inb r) (k0_off46_inb r) (k0_off39_eq r) (k0_off40_eq r) (k0_off41_eq r) (k0_off42_eq r) (k0_off43_eq r) (k0_off44_eq r) (k0_off45_eq r) (k0_off46_eq r) acc hacc
    · unfold invR4V
      isplitl [H4r]; · iexact H4r
      ipureintro
      exact (initT_of_loads N2 (8 * k2.val + 4 * 0 + 3) (by omega) (k0_off7 k2 0#32 3#32) (k0_off8 k2 0#32 3#32) (k0_off9 k2 0#32 3#32) (k0_off10 k2 0#32 3#32) (k0_off11 k2 0#32 3#32) (k0_off12 k2 0#32 3#32) (k0_off13 k2 0#32 3#32) (k0_off14 k2 0#32 3#32) (k0_off7_inb k2 0 3) (k0_off8_inb k2 0 3) (k0_off9_inb k2 0 3) (k0_off10_inb k2 0 3) (k0_off11_inb k2 0 3) (k0_off12_inb k2 0 3) (k0_off13_inb k2 0 3) (k0_off14_inb k2 0 3) (k0_off7_eq k2 0 3) (k0_off8_eq k2 0 3) (k0_off9_eq k2 0 3) (k0_off10_eq k2 0 3) (k0_off11_eq k2 0 3) (k0_off12_eq k2 0 3) (k0_off13_eq k2 0 3) (k0_off14_eq k2 0 3)).trans (redT_zero B0 3 (by omega) _).symm
    iintro %a4 HI
    unfold invR4V
    icases HI with ⟨H4r, %ha4⟩
    sl_exec
    by_cases hlt : k2.val < 15
    ·
      have k0_h2 : k0_cond2 k2 = 1#1 := hc2 k2 hlt
      have hinC : ∀ x, (((s0V).slice (Rect.unit (s := S16384) (k0_off47 k k2) S128.size (k0_off47_inb k k2 k0_h2)) (fun _ => rfl)).view.read (Elt F) g0 x).toNat
          < S100000x128.size gathers_S100000x128_S128x128.axis := lst_hin _ _ g0 h0
      have hdisjC : Disjoint ((s0V).slice (Rect.unit (s := S16384) (k0_off47 k k2) S128.size (k0_off47_inb k k2 k0_h2)) (fun _ => rfl)).view.set
          ((s0V).slice (Rect.unit (s := S16384) (k0_off5 k k2) S128.size (k0_off5_inb k k2 k0_h1)) (fun _ => rfl)).view.set :=
        lst_disjoint _ _ _ _ (Or.inr (by rw [k0_off5_eq, k0_off47_eq]; show 4096 * k.val + 256 * k2.val + 128 + 128 ≤ 4096 * k.val + 256 * k2.val + 256; omega))
      sl_exec
      ihave Hn := (name_contents _) $$ H5
      icases Hn with ⟨%B1, %hB1, H5⟩
      have hQB1 : QB ff nf (gb0 L + 128 * k.val) hgb (2 * k2.val + 1) (by omega) B1 := by
        rw [hB1]
        exact qb_of_gather5 ff g0 nf (gb0 L) k.val (2 * k2.val + 1) hk4 (by omega) (gb0_le L) hg0 hnf (k0_off5 k k2) (k0_off5_inb k k2 k0_h1)
          (by rw [k0_off5_eq]; exact congrArg (fun n => ![n]) (by omega)) rfl hinB _
      sl_for (invR5V d L B1 0 (by omega) (initT N2 (8 * k2.val + 4 * 1 + 0) (by omega))) $$ [H5]
      case region =>
        intro r acc
        unfold invR5V
        iintro ⟨H, %hacc⟩
        sl_exec
        sl_step
        isplitl [H]; · iexact H
        ipureintro
        exact redT_step5 B1 0 (by omega) _ r.val r.isLt (k0_off48 r) (k0_off49 r) (k0_off50 r) (k0_off51 r) (k0_off52 r) (k0_off53 r) (k0_off54 r) (k0_off55 r) (k0_off48_inb r) (k0_off49_inb r) (k0_off50_inb r) (k0_off51_inb r) (k0_off52_inb r) (k0_off53_inb r) (k0_off54_inb r) (k0_off55_inb r) (k0_off48_eq r) (k0_off49_eq r) (k0_off50_eq r) (k0_off51_eq r) (k0_off52_eq r) (k0_off53_eq r) (k0_off54_eq r) (k0_off55_eq r) acc hacc
      · unfold invR5V
        isplitl [H5]; · iexact H5
        ipureintro
        exact (initT_of_loads N2 (8 * k2.val + 4 * 1 + 0) (by omega) (k0_off7 k2 1#32 0#32) (k0_off8 k2 1#32 0#32) (k0_off9 k2 1#32 0#32) (k0_off10 k2 1#32 0#32) (k0_off11 k2 1#32 0#32) (k0_off12 k2 1#32 0#32) (k0_off13 k2 1#32 0#32) (k0_off14 k2 1#32 0#32) (k0_off7_inb k2 1 0) (k0_off8_inb k2 1 0) (k0_off9_inb k2 1 0) (k0_off10_inb k2 1 0) (k0_off11_inb k2 1 0) (k0_off12_inb k2 1 0) (k0_off13_inb k2 1 0) (k0_off14_inb k2 1 0) (k0_off7_eq k2 1 0) (k0_off8_eq k2 1 0) (k0_off9_eq k2 1 0) (k0_off10_eq k2 1 0) (k0_off11_eq k2 1 0) (k0_off12_eq k2 1 0) (k0_off13_eq k2 1 0) (k0_off14_eq k2 1 0)).trans (redT_zero B1 0 (by omega) _).symm
      iintro %b1 HI
      unfold invR5V
      icases HI with ⟨H5, %hb1⟩
      sl_exec
      sl_for (invR5V d L B1 1 (by omega) (initT N2 (8 * k2.val + 4 * 1 + 1) (by omega))) $$ [H5]
      case region =>
        intro r acc
        unfold invR5V
        iintro ⟨H, %hacc⟩
        sl_exec
        sl_step
        isplitl [H]; · iexact H
        ipureintro
        exact redT_step5 B1 1 (by omega) _ r.val r.isLt (k0_off56 r) (k0_off57 r) (k0_off58 r) (k0_off59 r) (k0_off60 r) (k0_off61 r) (k0_off62 r) (k0_off63 r) (k0_off56_inb r) (k0_off57_inb r) (k0_off58_inb r) (k0_off59_inb r) (k0_off60_inb r) (k0_off61_inb r) (k0_off62_inb r) (k0_off63_inb r) (k0_off56_eq r) (k0_off57_eq r) (k0_off58_eq r) (k0_off59_eq r) (k0_off60_eq r) (k0_off61_eq r) (k0_off62_eq r) (k0_off63_eq r) acc hacc
      · unfold invR5V
        isplitl [H5]; · iexact H5
        ipureintro
        exact (initT_of_loads N2 (8 * k2.val + 4 * 1 + 1) (by omega) (k0_off7 k2 1#32 1#32) (k0_off8 k2 1#32 1#32) (k0_off9 k2 1#32 1#32) (k0_off10 k2 1#32 1#32) (k0_off11 k2 1#32 1#32) (k0_off12 k2 1#32 1#32) (k0_off13 k2 1#32 1#32) (k0_off14 k2 1#32 1#32) (k0_off7_inb k2 1 1) (k0_off8_inb k2 1 1) (k0_off9_inb k2 1 1) (k0_off10_inb k2 1 1) (k0_off11_inb k2 1 1) (k0_off12_inb k2 1 1) (k0_off13_inb k2 1 1) (k0_off14_inb k2 1 1) (k0_off7_eq k2 1 1) (k0_off8_eq k2 1 1) (k0_off9_eq k2 1 1) (k0_off10_eq k2 1 1) (k0_off11_eq k2 1 1) (k0_off12_eq k2 1 1) (k0_off13_eq k2 1 1) (k0_off14_eq k2 1 1)).trans (redT_zero B1 1 (by omega) _).symm
      iintro %b2 HI
      unfold invR5V
      icases HI with ⟨H5, %hb2⟩
      sl_exec
      sl_for (invR5V d L B1 2 (by omega) (initT N2 (8 * k2.val + 4 * 1 + 2) (by omega))) $$ [H5]
      case region =>
        intro r acc
        unfold invR5V
        iintro ⟨H, %hacc⟩
        sl_exec
        sl_step
        isplitl [H]; · iexact H
        ipureintro
        exact redT_step5 B1 2 (by omega) _ r.val r.isLt (k0_off64 r) (k0_off65 r) (k0_off66 r) (k0_off67 r) (k0_off68 r) (k0_off69 r) (k0_off70 r) (k0_off71 r) (k0_off64_inb r) (k0_off65_inb r) (k0_off66_inb r) (k0_off67_inb r) (k0_off68_inb r) (k0_off69_inb r) (k0_off70_inb r) (k0_off71_inb r) (k0_off64_eq r) (k0_off65_eq r) (k0_off66_eq r) (k0_off67_eq r) (k0_off68_eq r) (k0_off69_eq r) (k0_off70_eq r) (k0_off71_eq r) acc hacc
      · unfold invR5V
        isplitl [H5]; · iexact H5
        ipureintro
        exact (initT_of_loads N2 (8 * k2.val + 4 * 1 + 2) (by omega) (k0_off7 k2 1#32 2#32) (k0_off8 k2 1#32 2#32) (k0_off9 k2 1#32 2#32) (k0_off10 k2 1#32 2#32) (k0_off11 k2 1#32 2#32) (k0_off12 k2 1#32 2#32) (k0_off13 k2 1#32 2#32) (k0_off14 k2 1#32 2#32) (k0_off7_inb k2 1 2) (k0_off8_inb k2 1 2) (k0_off9_inb k2 1 2) (k0_off10_inb k2 1 2) (k0_off11_inb k2 1 2) (k0_off12_inb k2 1 2) (k0_off13_inb k2 1 2) (k0_off14_inb k2 1 2) (k0_off7_eq k2 1 2) (k0_off8_eq k2 1 2) (k0_off9_eq k2 1 2) (k0_off10_eq k2 1 2) (k0_off11_eq k2 1 2) (k0_off12_eq k2 1 2) (k0_off13_eq k2 1 2) (k0_off14_eq k2 1 2)).trans (redT_zero B1 2 (by omega) _).symm
      iintro %b3 HI
      unfold invR5V
      icases HI with ⟨H5, %hb3⟩
      sl_exec
      sl_for (invR5V d L B1 3 (by omega) (initT N2 (8 * k2.val + 4 * 1 + 3) (by omega))) $$ [H5]
      case region =>
        intro r acc
        unfold invR5V
        iintro ⟨H, %hacc⟩
        sl_exec
        sl_step
        isplitl [H]; · iexact H
        ipureintro
        exact redT_step5 B1 3 (by omega) _ r.val r.isLt (k0_off72 r) (k0_off73 r) (k0_off74 r) (k0_off75 r) (k0_off76 r) (k0_off77 r) (k0_off78 r) (k0_off79 r) (k0_off72_inb r) (k0_off73_inb r) (k0_off74_inb r) (k0_off75_inb r) (k0_off76_inb r) (k0_off77_inb r) (k0_off78_inb r) (k0_off79_inb r) (k0_off72_eq r) (k0_off73_eq r) (k0_off74_eq r) (k0_off75_eq r) (k0_off76_eq r) (k0_off77_eq r) (k0_off78_eq r) (k0_off79_eq r) acc hacc
      · unfold invR5V
        isplitl [H5]; · iexact H5
        ipureintro
        exact (initT_of_loads N2 (8 * k2.val + 4 * 1 + 3) (by omega) (k0_off7 k2 1#32 3#32) (k0_off8 k2 1#32 3#32) (k0_off9 k2 1#32 3#32) (k0_off10 k2 1#32 3#32) (k0_off11 k2 1#32 3#32) (k0_off12 k2 1#32 3#32) (k0_off13 k2 1#32 3#32) (k0_off14 k2 1#32 3#32) (k0_off7_inb k2 1 3) (k0_off8_inb k2 1 3) (k0_off9_inb k2 1 3) (k0_off10_inb k2 1 3) (k0_off11_inb k2 1 3) (k0_off12_inb k2 1 3) (k0_off13_inb k2 1 3) (k0_off14_inb k2 1 3) (k0_off7_eq k2 1 3) (k0_off8_eq k2 1 3) (k0_off9_eq k2 1 3) (k0_off10_eq k2 1 3) (k0_off11_eq k2 1 3) (k0_off12_eq k2 1 3) (k0_off13_eq k2 1 3) (k0_off14_eq k2 1 3)).trans (redT_zero B1 3 (by omega) _).symm
      iintro %b4 HI
      unfold invR5V
      icases HI with ⟨H5, %hb4⟩
      sl_exec
      sl_step
      rw [dif_pos (by omega : k2.val + 1 < 16)]
      isplitl [Hmw]; · iexact Hmw
      isplitl [H2]
      · iexists _; isplitr
        · ipureintro; exact hQN
        · iexact H2
      isplitl [H3]
      · iexists _; isplitr
        swap; · iexact H3
        ipureintro
        exact (q3_step _ f3' k2 a1 a2 a3 a4 b1 b2 b3 b4 hQ3
          (fun j x => by rw [ha1]; exact acc_final ff nd nf (gb0 L + 128 * k.val) hgb N2 B0 k2.val hk2 0 0 hQN hQB0 j x)
          (fun j x => by rw [ha2]; exact acc_final ff nd nf (gb0 L + 128 * k.val) hgb N2 B0 k2.val hk2 0 1 hQN hQB0 j x)
          (fun j x => by rw [ha3]; exact acc_final ff nd nf (gb0 L + 128 * k.val) hgb N2 B0 k2.val hk2 0 2 hQN hQB0 j x)
          (fun j x => by rw [ha4]; exact acc_final ff nd nf (gb0 L + 128 * k.val) hgb N2 B0 k2.val hk2 0 3 hQN hQB0 j x)
          (fun j x => by rw [hb1]; exact acc_final ff nd nf (gb0 L + 128 * k.val) hgb N2 B1 k2.val hk2 1 0 hQN hQB1 j x)
          (fun j x => by rw [hb2]; exact acc_final ff nd nf (gb0 L + 128 * k.val) hgb N2 B1 k2.val hk2 1 1 hQN hQB1 j x)
          (fun j x => by rw [hb3]; exact acc_final ff nd nf (gb0 L + 128 * k.val) hgb N2 B1 k2.val hk2 1 2 hQN hQB1 j x)
          (fun j x => by rw [hb4]; exact acc_final ff nd nf (gb0 L + 128 * k.val) hgb N2 B1 k2.val hk2 1 3 hQN hQB1 j x))
      isplitl [Hfl H4r H0r Hfar]
      · iexists _
        iexists (k0_off47 k k2)
        iexists (k0_off47_inb k k2 k0_h2)
        isplitr
        · ipureintro; rw [k0_off47_eq]; exact congrArg (fun n => ![n]) (by omega)
        isplitr
        swap
        · isplitl [Hfl]; · iexact Hfl
          isplitl [H4r]; · iexact H4r
          isplitl [H0r]; · iexact H0r
          iexact Hfar
        ipureintro
        exact qb_of_gather4 ff g0 nf (gb0 L) k.val (2 * (k2.val + 1)) hk4 (by omega) (gb0_le L) hg0 hnf (k0_off47 k k2) (k0_off47_inb k k2 k0_h2)
          (by rw [k0_off47_eq]; exact congrArg (fun n => ![n]) (by omega)) rfl hinC _
      isplitl [H5]; · iexists _; iexact H5
      isplitl [Hfb]; · iexact Hfb
      isplitl [Hs8]; · iexact Hs8
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW2 p hp
    ·
      have k0_h2 : ¬ k0_cond2 k2 = 1#1 := hc2n k2 hlt
      sl_exec
      ihave Hn := (name_contents _) $$ H5
      icases Hn with ⟨%B1, %hB1, H5⟩
      have hQB1 : QB ff nf (gb0 L + 128 * k.val) hgb (2 * k2.val + 1) (by omega) B1 := by
        rw [hB1]
        exact qb_of_gather5 ff g0 nf (gb0 L) k.val (2 * k2.val + 1) hk4 (by omega) (gb0_le L) hg0 hnf (k0_off5 k k2) (k0_off5_inb k k2 k0_h1)
          (by rw [k0_off5_eq]; exact congrArg (fun n => ![n]) (by omega)) rfl hinB _
      sl_for (invR5V d L B1 0 (by omega) (initT N2 (8 * k2.val + 4 * 1 + 0) (by omega))) $$ [H5]
      case region =>
        intro r acc
        unfold invR5V
        iintro ⟨H, %hacc⟩
        sl_exec
        sl_step
        isplitl [H]; · iexact H
        ipureintro
        exact redT_step5 B1 0 (by omega) _ r.val r.isLt (k0_off48 r) (k0_off49 r) (k0_off50 r) (k0_off51 r) (k0_off52 r) (k0_off53 r) (k0_off54 r) (k0_off55 r) (k0_off48_inb r) (k0_off49_inb r) (k0_off50_inb r) (k0_off51_inb r) (k0_off52_inb r) (k0_off53_inb r) (k0_off54_inb r) (k0_off55_inb r) (k0_off48_eq r) (k0_off49_eq r) (k0_off50_eq r) (k0_off51_eq r) (k0_off52_eq r) (k0_off53_eq r) (k0_off54_eq r) (k0_off55_eq r) acc hacc
      · unfold invR5V
        isplitl [H5]; · iexact H5
        ipureintro
        exact (initT_of_loads N2 (8 * k2.val + 4 * 1 + 0) (by omega) (k0_off7 k2 1#32 0#32) (k0_off8 k2 1#32 0#32) (k0_off9 k2 1#32 0#32) (k0_off10 k2 1#32 0#32) (k0_off11 k2 1#32 0#32) (k0_off12 k2 1#32 0#32) (k0_off13 k2 1#32 0#32) (k0_off14 k2 1#32 0#32) (k0_off7_inb k2 1 0) (k0_off8_inb k2 1 0) (k0_off9_inb k2 1 0) (k0_off10_inb k2 1 0) (k0_off11_inb k2 1 0) (k0_off12_inb k2 1 0) (k0_off13_inb k2 1 0) (k0_off14_inb k2 1 0) (k0_off7_eq k2 1 0) (k0_off8_eq k2 1 0) (k0_off9_eq k2 1 0) (k0_off10_eq k2 1 0) (k0_off11_eq k2 1 0) (k0_off12_eq k2 1 0) (k0_off13_eq k2 1 0) (k0_off14_eq k2 1 0)).trans (redT_zero B1 0 (by omega) _).symm
      iintro %b1 HI
      unfold invR5V
      icases HI with ⟨H5, %hb1⟩
      sl_exec
      sl_for (invR5V d L B1 1 (by omega) (initT N2 (8 * k2.val + 4 * 1 + 1) (by omega))) $$ [H5]
      case region =>
        intro r acc
        unfold invR5V
        iintro ⟨H, %hacc⟩
        sl_exec
        sl_step
        isplitl [H]; · iexact H
        ipureintro
        exact redT_step5 B1 1 (by omega) _ r.val r.isLt (k0_off56 r) (k0_off57 r) (k0_off58 r) (k0_off59 r) (k0_off60 r) (k0_off61 r) (k0_off62 r) (k0_off63 r) (k0_off56_inb r) (k0_off57_inb r) (k0_off58_inb r) (k0_off59_inb r) (k0_off60_inb r) (k0_off61_inb r) (k0_off62_inb r) (k0_off63_inb r) (k0_off56_eq r) (k0_off57_eq r) (k0_off58_eq r) (k0_off59_eq r) (k0_off60_eq r) (k0_off61_eq r) (k0_off62_eq r) (k0_off63_eq r) acc hacc
      · unfold invR5V
        isplitl [H5]; · iexact H5
        ipureintro
        exact (initT_of_loads N2 (8 * k2.val + 4 * 1 + 1) (by omega) (k0_off7 k2 1#32 1#32) (k0_off8 k2 1#32 1#32) (k0_off9 k2 1#32 1#32) (k0_off10 k2 1#32 1#32) (k0_off11 k2 1#32 1#32) (k0_off12 k2 1#32 1#32) (k0_off13 k2 1#32 1#32) (k0_off14 k2 1#32 1#32) (k0_off7_inb k2 1 1) (k0_off8_inb k2 1 1) (k0_off9_inb k2 1 1) (k0_off10_inb k2 1 1) (k0_off11_inb k2 1 1) (k0_off12_inb k2 1 1) (k0_off13_inb k2 1 1) (k0_off14_inb k2 1 1) (k0_off7_eq k2 1 1) (k0_off8_eq k2 1 1) (k0_off9_eq k2 1 1) (k0_off10_eq k2 1 1) (k0_off11_eq k2 1 1) (k0_off12_eq k2 1 1) (k0_off13_eq k2 1 1) (k0_off14_eq k2 1 1)).trans (redT_zero B1 1 (by omega) _).symm
      iintro %b2 HI
      unfold invR5V
      icases HI with ⟨H5, %hb2⟩
      sl_exec
      sl_for (invR5V d L B1 2 (by omega) (initT N2 (8 * k2.val + 4 * 1 + 2) (by omega))) $$ [H5]
      case region =>
        intro r acc
        unfold invR5V
        iintro ⟨H, %hacc⟩
        sl_exec
        sl_step
        isplitl [H]; · iexact H
        ipureintro
        exact redT_step5 B1 2 (by omega) _ r.val r.isLt (k0_off64 r) (k0_off65 r) (k0_off66 r) (k0_off67 r) (k0_off68 r) (k0_off69 r) (k0_off70 r) (k0_off71 r) (k0_off64_inb r) (k0_off65_inb r) (k0_off66_inb r) (k0_off67_inb r) (k0_off68_inb r) (k0_off69_inb r) (k0_off70_inb r) (k0_off71_inb r) (k0_off64_eq r) (k0_off65_eq r) (k0_off66_eq r) (k0_off67_eq r) (k0_off68_eq r) (k0_off69_eq r) (k0_off70_eq r) (k0_off71_eq r) acc hacc
      · unfold invR5V
        isplitl [H5]; · iexact H5
        ipureintro
        exact (initT_of_loads N2 (8 * k2.val + 4 * 1 + 2) (by omega) (k0_off7 k2 1#32 2#32) (k0_off8 k2 1#32 2#32) (k0_off9 k2 1#32 2#32) (k0_off10 k2 1#32 2#32) (k0_off11 k2 1#32 2#32) (k0_off12 k2 1#32 2#32) (k0_off13 k2 1#32 2#32) (k0_off14 k2 1#32 2#32) (k0_off7_inb k2 1 2) (k0_off8_inb k2 1 2) (k0_off9_inb k2 1 2) (k0_off10_inb k2 1 2) (k0_off11_inb k2 1 2) (k0_off12_inb k2 1 2) (k0_off13_inb k2 1 2) (k0_off14_inb k2 1 2) (k0_off7_eq k2 1 2) (k0_off8_eq k2 1 2) (k0_off9_eq k2 1 2) (k0_off10_eq k2 1 2) (k0_off11_eq k2 1 2) (k0_off12_eq k2 1 2) (k0_off13_eq k2 1 2) (k0_off14_eq k2 1 2)).trans (redT_zero B1 2 (by omega) _).symm
      iintro %b3 HI
      unfold invR5V
      icases HI with ⟨H5, %hb3⟩
      sl_exec
      sl_for (invR5V d L B1 3 (by omega) (initT N2 (8 * k2.val + 4 * 1 + 3) (by omega))) $$ [H5]
      case region =>
        intro r acc
        unfold invR5V
        iintro ⟨H, %hacc⟩
        sl_exec
        sl_step
        isplitl [H]; · iexact H
        ipureintro
        exact redT_step5 B1 3 (by omega) _ r.val r.isLt (k0_off72 r) (k0_off73 r) (k0_off74 r) (k0_off75 r) (k0_off76 r) (k0_off77 r) (k0_off78 r) (k0_off79 r) (k0_off72_inb r) (k0_off73_inb r) (k0_off74_inb r) (k0_off75_inb r) (k0_off76_inb r) (k0_off77_inb r) (k0_off78_inb r) (k0_off79_inb r) (k0_off72_eq r) (k0_off73_eq r) (k0_off74_eq r) (k0_off75_eq r) (k0_off76_eq r) (k0_off77_eq r) (k0_off78_eq r) (k0_off79_eq r) acc hacc
      · unfold invR5V
        isplitl [H5]; · iexact H5
        ipureintro
        exact (initT_of_loads N2 (8 * k2.val + 4 * 1 + 3) (by omega) (k0_off7 k2 1#32 3#32) (k0_off8 k2 1#32 3#32) (k0_off9 k2 1#32 3#32) (k0_off10 k2 1#32 3#32) (k0_off11 k2 1#32 3#32) (k0_off12 k2 1#32 3#32) (k0_off13 k2 1#32 3#32) (k0_off14 k2 1#32 3#32) (k0_off7_inb k2 1 3) (k0_off8_inb k2 1 3) (k0_off9_inb k2 1 3) (k0_off10_inb k2 1 3) (k0_off11_inb k2 1 3) (k0_off12_inb k2 1 3) (k0_off13_inb k2 1 3) (k0_off14_inb k2 1 3) (k0_off7_eq k2 1 3) (k0_off8_eq k2 1 3) (k0_off9_eq k2 1 3) (k0_off10_eq k2 1 3) (k0_off11_eq k2 1 3) (k0_off12_eq k2 1 3) (k0_off13_eq k2 1 3) (k0_off14_eq k2 1 3)).trans (redT_zero B1 3 (by omega) _).symm
      iintro %b4 HI
      unfold invR5V
      icases HI with ⟨H5, %hb4⟩
      sl_exec
      sl_step
      rw [dif_neg (by omega : ¬ k2.val + 1 < 16)]
      isplitl [Hmw]; · iexact Hmw
      isplitl [H2]
      · iexists _; isplitr
        · ipureintro; exact hQN
        · iexact H2
      isplitl [H3]
      · iexists _; isplitr
        swap; · iexact H3
        ipureintro
        exact (q3_step _ f3' k2 a1 a2 a3 a4 b1 b2 b3 b4 hQ3
          (fun j x => by rw [ha1]; exact acc_final ff nd nf (gb0 L + 128 * k.val) hgb N2 B0 k2.val hk2 0 0 hQN hQB0 j x)
          (fun j x => by rw [ha2]; exact acc_final ff nd nf (gb0 L + 128 * k.val) hgb N2 B0 k2.val hk2 0 1 hQN hQB0 j x)
          (fun j x => by rw [ha3]; exact acc_final ff nd nf (gb0 L + 128 * k.val) hgb N2 B0 k2.val hk2 0 2 hQN hQB0 j x)
          (fun j x => by rw [ha4]; exact acc_final ff nd nf (gb0 L + 128 * k.val) hgb N2 B0 k2.val hk2 0 3 hQN hQB0 j x)
          (fun j x => by rw [hb1]; exact acc_final ff nd nf (gb0 L + 128 * k.val) hgb N2 B1 k2.val hk2 1 0 hQN hQB1 j x)
          (fun j x => by rw [hb2]; exact acc_final ff nd nf (gb0 L + 128 * k.val) hgb N2 B1 k2.val hk2 1 1 hQN hQB1 j x)
          (fun j x => by rw [hb3]; exact acc_final ff nd nf (gb0 L + 128 * k.val) hgb N2 B1 k2.val hk2 1 2 hQN hQB1 j x)
          (fun j x => by rw [hb4]; exact acc_final ff nd nf (gb0 L + 128 * k.val) hgb N2 B1 k2.val hk2 1 3 hQN hQB1 j x))
      isplitl [Hfl H4r H0r Hfar]
      · isplitl [H4r]; · iexists _; iexact H4r
        isplitl [H0r]; · iexact H0r
        isplitl [Hfar]; · iexact Hfar
        iexact Hfl
      isplitl [H5]; · iexists _; iexact H5
      isplitl [Hfb]; · iexact Hfb
      isplitl [Hs8]; · iexact Hs8
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW2 p hp
  · -- the pair loop is entered with group 0's gather in flight
    unfold inv2V slot0V
    rw [dif_pos (by decide : (0 : ℕ) < 16)]
    isplitl [Hmw]; · iexact Hmw
    isplitl [H2]
    · iexists _; isplitr
      swap; · iexact H2
      ipureintro
      exact qn_of_gather ff g1 nd (gb0 L) k.val hk4 (gb0_le L) hg1 hnd (k0_off3 k) (k0_off3_inb k) (k0_off3_eq k) rfl hinN _
    isplitl [H3]
    · iexists _; isplitr
      swap; · iexact H3
      ipureintro; intro y hy; exact absurd hy (by omega)
    isplitl [Hs7 H4 H0 Hfb]
    · iexists _
      iexists (k0_off4 k)
      iexists (k0_off4_inb k)
      isplitr
      · ipureintro; rw [k0_off4_eq]; exact congrArg (fun n => ![n]) (by omega)
      isplitr
      swap
      · isplitl [Hs7]; · iexact Hs7
        isplitl [H4]; · iexact H4
        isplitl [H0]; · iexact H0
        iexact Hfb
      ipureintro
      exact qb_of_gather4 ff g0 nf (gb0 L) k.val (2 * 0) hk4 (by omega) (gb0_le L) hg0 hnf (k0_off4 k) (k0_off4_inb k)
        (by rw [k0_off4_eq]; exact congrArg (fun n => ![n]) (by omega)) rfl hinA _
    isplitl [H5]; · iexists _; iexact H5
    isplitl [Hfa]; · iexact Hfa
    isplitl [Hs8]; · iexact Hs8
    iexists _; isplitr
    swap; · iexact HO
    ipureintro; intro p hp
    rcases Finset.mem_insert.mp hp with hp | hp; · exact .inr (hp ▸ rfl)
    exact hW' p hp
  -- after the pair loop: the chunk's write-out
  iintro %_ HI
  unfold inv2V slot0V
  rw [dif_neg (by decide : ¬ Scf.trips k0_t2_loop.lb k0_t2_loop.ub k0_t2_loop.st < 16)]
  icases HI with ⟨Hmw, ⟨%N2, -, H2⟩, ⟨%f3', %hQ3, H3⟩, ⟨⟨%B0, H4⟩, H0, Hfb, Hs7⟩, ⟨%f5', H5⟩, Hfa, Hs8, %W2, %hW2, HO⟩
  sl_exec
  sl_step
  isplitl [Hmw]; · iexact Hmw
  isplitl [Hfa]; · iexact Hfa
  isplitl [Hfb]; · iexact Hfb
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [Hout Hrest]
  · iapply (Entails.of_eq (SparseCore.bigSep_erase' (Finset.mem_univ k)).symm)
    isplitl [Hout]
    · iexists _; isplitr
      swap; · iexact Hout
      ipureintro; intro _
      exact chunk_of_q3 ff nd nf L k hgb fo f3' hQ3
    · iapply (chunks_mono d L ff nd nf k) $$ Hrest
  isplitl [Hs6]; · iexact Hs6
  isplitl [Hs7]; · iexact Hs7
  isplitl [Hs8]; · iexact Hs8
  isplitl [Hc2]; · iexact Hc2
  iexists _; isplitr
  swap; · iexact HO
  ipureintro; intro p hp
  rcases Finset.mem_insert.mp hp with hp | hp; · exact .inr (hp ▸ rfl)
  exact hW2 p hp

end Cert.Proof.KB

end
-- ==== Proof.KBTileObl.lean ====
/-
  One tile's task, whole. The tile copies its words of the two flattened index lists into its scratch lists and
  waits for them; the lists then hold exactly those words, each naming a table row. The superchunk loop runs from
  the invariant "the chunks of finished superchunks hold the aggregate" — one trip of it is the theorem of the loop's
  body —, and after its four trips every chunk holds the aggregate: the tile hands back its shares of the table and
  of the two lists, its four chunks at the aggregate array, its scratch storage and its semaphores at zero.
-/
import proofs.«210776_g5076651344590_cont_8to1_c_706_2_alg».proof.Proof.KBTileSplit
import proofs.«210776_g5076651344590_cont_8to1_c_706_2_alg».proof.Proof.KBReads
import proofs.«210776_g5076651344590_cont_8to1_c_706_2_alg».proof.Proof.KBBody
import proofs.«210776_g5076651344590_cont_8to1_c_706_2_alg».proof.Proof.Gen.Kernel.Skeleton
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx Cert.Spec Cert.Proof.Sums

variable {F : FTy → Type}

local notation "𝕄" => MT nD τ sig (HIx 1) (Elt F) ℕ UU ℕ

local notation "featV" => (Memref.whole Cert.Kernel.main_arg0_scv : Memref Cert.Kernel.sig Kind.scVector Space.hbm Cert.Kernel.S100000x128 EltTy.f32)
local notation "nfV" => (Memref.whole Cert.Kernel.main_v0_scv : Memref Cert.Kernel.sig Kind.scVector Space.hbm Cert.Kernel.S524288 EltTy.i32)
local notation "ndV" => (Memref.whole Cert.Kernel.main_v1_scv : Memref Cert.Kernel.sig Kind.scVector Space.hbm Cert.Kernel.S16384 EltTy.i32)
local notation "sumV" => (Memref.whole Cert.Kernel.main_v2_scv : Memref Cert.Kernel.sig Kind.scVector Space.hbm Cert.Kernel.S16384x128 EltTy.f32)
local notation "s0V" => (Memref.whole Cert.Kernel.cc0_scratch0 : Memref Cert.Kernel.sig Kind.scVector Space.vmem Cert.Kernel.S16384 EltTy.i32)
local notation "s1V" => (Memref.whole Cert.Kernel.cc0_scratch1 : Memref Cert.Kernel.sig Kind.scVector Space.vmem Cert.Kernel.S512 EltTy.i32)
local notation "s2V" => (Memref.whole Cert.Kernel.cc0_scratch2 : Memref Cert.Kernel.sig Kind.scVector Space.vmem Cert.Kernel.S128x128 EltTy.f32)
local notation "s3V" => (Memref.whole Cert.Kernel.cc0_scratch3 : Memref Cert.Kernel.sig Kind.scVector Space.vmem Cert.Kernel.S128x128 EltTy.f32)
local notation "s4V" => (Memref.whole Cert.Kernel.cc0_scratch4 : Memref Cert.Kernel.sig Kind.scVector Space.vmem Cert.Kernel.S128x128 EltTy.f32)
local notation "s5V" => (Memref.whole Cert.Kernel.cc0_scratch5 : Memref Cert.Kernel.sig Kind.scVector Space.vmem Cert.Kernel.S128x128 EltTy.f32)

variable [FloatOps F]

/-- One trip of the superchunk loop, taken as given. -/
abbrev TripHyp : Prop :=
  ∀ (d : Dev nD) (L : grid0.Coords) (qa qb : PosShare TreeShare) (O : CellTallies nD τ sig (HIx 1)) (W : Waits sig (HIx 1))
    (ff : Buf (Elt F) ((featV).view.loc (V d (cV L) (jV L)))) (g0 : Buf (Elt F) ((s0V).view.loc (V d (cV L) (jV L)))) (g1 : Buf (Elt F) ((s1V).view.loc (V d (cV L) (jV L))))
    (nd : SNodeFlat.Idx → BitVec 32) (nf : SNbrFlat.Idx → BitVec 32) (hg1 : G1ok L g1 nd) (hg0 : G0ok L g0 nf)
    (hnd : ∀ z, (nd z).toNat < 100000) (hnf : ∀ z, (nf z).toNat < 100000)
    (h0 : ∀ z, (g0 z).toNat < 100000) (h1 : ∀ z, (g1 z).toNat < 100000) (k : Fin k0_t1_loop.trips),
    inv1V d L qa qb O W ff g0 g1 nd nf k.val ()
      ⊢ wp frame (wpE (defs₀ (F := F)) 𝒱₀ (V d (cV L) (jV L)) none) Set.univ
          (k0_t1_body L featV (Memref.isWhole_whole _) nfV (Memref.isWhole_whole _) ndV (Memref.isWhole_whole _) sumV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scratch7 cc0_scratch8 cc0_scoped0 cc0_scoped1 cc0_scoped2 k ())
          (fun _ => inv1V d L qa qb O W ff g0 g1 nd nf (k.val + 1) ())

variable (m : (ℓ : Loc nD τ sig) → Buf (Elt F) ℓ) (d : Dev nD)

/-- A subcore's buffer held whole, named through the whole-buffer view. -/
theorem pts_whole (c : Fin τ.nSC) (i : Fin τ.nSub) (b : Ref sig .scVector) (q : PosShare TreeShare) (f : Buf (Elt F) ((V d c i).loc b)) :
    ((V d c i).loc b ↦{q} f : sProp 𝕄) = ((Memref.whole b).view.loc (V d c i) ↦{q} f) := rfl

/-- A chunk of the aggregate array enters the loop's invariant: nothing is yet said of its contents. -/
theorem chunk_in (L : grid0.Coords) (k' : Fin k0_t1_loop.trips) (n : ℕ) (hn : ¬ k'.val < n) (fs : Buf (Elt F) (sumsLoc d))
    (ff : SFeat.Idx → F .f32) (nd : SNodeFlat.Idx → BitVec 32) (nf : SNbrFlat.Idx → BitVec 32) :
    (sumsLoc d ↦[chunkSet L k']{fullShare} fs : sProp 𝕄)
      ⊢ iprop(∃ fo, ⌜k'.val < n → ∀ y ∈ (outK L k').view.set, fo y = sums ff nd nf y⌝
          ∗ (outK L k').view.loc (V d (cV L) (jV L)) ↦[(outK L k').view.set]{fullShare} fo) := by
  iintro H
  iexists fs
  isplitr; · ipureintro; exact fun h => absurd h hn
  iexact H

/-- A finished chunk holds the aggregate there. -/
theorem chunk_out (L : grid0.Coords) (k' : Fin k0_t1_loop.trips) (n : ℕ) (hn : k'.val < n) :
    iprop(∃ fo, ⌜k'.val < n → ∀ y ∈ (outK L k').view.set, fo y = sums (m (featLoc d)) (NDv m d) (NFv m d) y⌝
          ∗ (outK L k').view.loc (V d (cV L) (jV L)) ↦[(outK L k').view.set]{fullShare} fo)
      ⊢ (sumsLoc d ↦[chunkSet L k']{fullShare} SUMSv m d : sProp 𝕄) := by
  iintro ⟨%fo, %h, H⟩
  have e : ((outK L k').view.loc (V d (cV L) (jV L)) ↦[(outK L k').view.set]{fullShare} fo : sProp 𝕄)
      = (sumsLoc d ↦[chunkSet L k']{fullShare} SUMSv m d) := pointsTo_congr (h hn)
  iapply (Entails.of_eq e)
  iexact H

set_option maxHeartbeats 1000000 in
theorem tile_body (htrip : TripHyp (F := F)) (hF : (K (F := F)).Facts) (hpre : PreOK m) (c : Fin 2) (i : Fin 16)
    (O : CellTallies nD τ sig (HIx 1)) (W : Waits sig (HIx 1)) (hO : ∀ g, O g none = 0) :
    iprop(levAts (K (F := F)).L (K (F := F)).lev ∗ tileRes m d c i (m (sumsLoc d))
        ∗ scopedBufs (V d (cV (coordsV c i)) (jV (coordsV c i))) ∗ scopedSems0 (V d (cV (coordsV c i)) (jV (coordsV c i)))
        ∗ owes (V d (cV (coordsV c i)) (jV (coordsV c i))) O W)
      ⊢ wp frame (wpE (defs₀ (F := F)) 𝒱₀ (V d (cV (coordsV c i)) (jV (coordsV c i))) none) Set.univ
          (cc0__sc_body (coordsV c i) featV (Memref.isWhole_whole _) nfV (Memref.isWhole_whole _) ndV (Memref.isWhole_whole _) sumV (Memref.isWhole_whole _)
            s0V (Memref.isWhole_whole _) s1V (Memref.isWhole_whole _) s2V (Memref.isWhole_whole _) s3V (Memref.isWhole_whole _)
            s4V (Memref.isWhole_whole _) s5V (Memref.isWhole_whole _) cc0_scratch6 cc0_scratch7 cc0_scratch8 cc0_scoped0 cc0_scoped1 cc0_scoped2)
          fun _ => iprop(tileRes m d c i (SUMSv m d) ∗ scopedBufs (V d (cV (coordsV c i)) (jV (coordsV c i))) ∗ scopedSems0 (V d (cV (coordsV c i)) (jV (coordsV c i)))
            ∗ ∃ W', ⌜∀ p ∈ W', p ∈ W ∨ p.2 = none⌝ ∗ owes (V d (cV (coordsV c i)) (jV (coordsV c i))) O W') := by
  rw [cc0__sc_body_eq_skeleton]; delta cc0__sc_body_skel; beta_reduce
  rw [(K (F := F)).scopedBufs_V hF d _ _, SparseCore.Cfg.scopedSems0_V (Val := Elt F) d _ _, ownSems0_six, ownBufs_six]
  unfold tileRes
  iintro ⟨#Hlv, ⟨Hfeat, Hnf, Hnd, Hch⟩, ⟨⟨⟨%f0, H0⟩, ⟨%f1, H1⟩, ⟨%f2, H2⟩, ⟨%f3, H3⟩, ⟨%f4, H4⟩, ⟨%f5, H5⟩⟩, Hbrest⟩, ⟨⟨S6, S7, S8, Sc0, Sc1, Sc2⟩, Hsrest⟩, HO⟩
  ihave Hmw := ((K (F := F)).mayWaits_none (thr := V d (cV (coordsV c i)) (jV (coordsV c i))) hO) $$ Hlv
  ihave Hfeat := (Entails.of_eq (pts_featV (F := F) d (cV (coordsV c i)) (jV (coordsV c i)) _ _).symm) $$ Hfeat
  ihave Hnf := (Entails.of_eq (pts_nbrV (F := F) d (cV (coordsV c i)) (jV (coordsV c i)) _ _).symm) $$ Hnf
  ihave Hnd := (Entails.of_eq (pts_nodeV (F := F) d (cV (coordsV c i)) (jV (coordsV c i)) _ _).symm) $$ Hnd
  ihave H0 := (Entails.of_eq (pts_whole (F := F) d _ _ cc0_scratch0 _ _)) $$ H0
  ihave H1 := (Entails.of_eq (pts_whole (F := F) d _ _ cc0_scratch1 _ _)) $$ H1
  ihave H2 := (Entails.of_eq (pts_whole (F := F) d _ _ cc0_scratch2 _ _)) $$ H2
  ihave H3 := (Entails.of_eq (pts_whole (F := F) d _ _ cc0_scratch3 _ _)) $$ H3
  ihave H4 := (Entails.of_eq (pts_whole (F := F) d _ _ cc0_scratch4 _ _)) $$ H4
  ihave H5 := (Entails.of_eq (pts_whole (F := F) d _ _ cc0_scratch5 _ _)) $$ H5
  sl_exec
  ihave Hn0 := (name_contents _) $$ H0
  icases Hn0 with ⟨%g0, %hg0, H0⟩
  ihave Hn1 := (name_contents _) $$ H1
  icases Hn1 with ⟨%g1, %hg1, H1⟩
  have hG0 : G0ok (coordsV c i) g0 (NFv m d) := by
    intro y
    rw [hg0, View.write_whole_univ]
    unfold tile_body.sl.dma0
    show View.read (Elt F) (nfSl (coordsV c i)).view (NFv m d) (ix1 y) = _
    refine ((View.read_apply _ _).trans (cast_eq _ _)).trans ?_
    rw [nfSl_emb]
    refine congrArg (NFv m d) (congrArg ix1 (Fin.ext ?_))
    show 32768 * ((coordsV c i) 1).val + 16384 * ((coordsV c i) 0).val + y.val = 32 * gb0 (coordsV c i) + y.val
    unfold gb0; omega
  have hG1 : G1ok (coordsV c i) g1 (NDv m d) := by
    intro y
    rw [hg1, View.write_whole_univ]
    unfold tile_body.sl.dma0_1
    show View.read (Elt F) (ndSl (coordsV c i)).view (NDv m d) (ix1 y) = _
    refine ((View.read_apply _ _).trans (cast_eq _ _)).trans ?_
    rw [ndSl_emb]
    refine congrArg (NDv m d) (congrArg ix1 (Fin.ext ?_))
    show 1024 * ((coordsV c i) 1).val + 512 * ((coordsV c i) 0).val + y.val = gb0 (coordsV c i) + y.val
    unfold gb0; omega
  have hnd : ∀ z, (NDv m d z).toNat < 100000 := fun z => (hpre d).1 _
  have hnf : ∀ z, (NFv m d z).toNat < 100000 := fun z => (hpre d).2 _
  have h0 : ∀ z, (g0 z).toNat < 100000 := fun z => by
    have e := hG0 (z 0)
    have ez : g0 z = g0 (ix1 (z 0)) := congrArg g0 (eq_ix1 z)
    rw [ez, e]; exact hnf _
  have h1 : ∀ z, (g1 z).toNat < 100000 := fun z => by
    have e := hG1 (z 0)
    have ez : g1 z = g1 (ix1 (z 0)) := congrArg g1 (eq_ix1 z)
    rw [ez, e]; exact hnd _
  ihave Hf2 := (pointsTo_share (PosShare.mem_left_op_right (tileShare c i))).1 $$ Hfeat
  icases Hf2 with ⟨Hfa, Hfb⟩
  sl_for (inv1V d (coordsV c i) (tileShare c i).left (tileShare c i).right O W (m (featLoc d)) g0 g1 (NDv m d) (NFv m d)) $$ [Hfa Hfb H0 H1 H2 H3 H4 H5 Hch S6 S7 S8 Sc2 HO]
  case region => intro k _; exact htrip d (coordsV c i) _ _ O W _ g0 g1 _ _ hG1 hG0 hnd hnf h0 h1 k
  · unfold inv1V
    isplitr; · iexact Hmw
    isplitl [Hfa]; · iexact Hfa
    isplitl [Hfb]; · iexact Hfb
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [Hch]
    · iapply (SparseCore.ent (bigSep_mono fun k' _ => chunk_in (F := F) d (coordsV c i) k' 0 (Nat.not_lt_zero _) (m (sumsLoc d)) (m (featLoc d)) (NDv m d) (NFv m d)))
      iexact Hch
    isplitl [S6]; · iexact S6
    isplitl [S7]; · iexact S7
    isplitl [S8]; · iexact S8
    isplitl [Sc2]; · iexact Sc2
    iexists _; isplitr; swap; · iexact HO
    ipureintro
    intro p hp
    rcases Finset.mem_insert.mp hp with rfl | hp
    · exact Or.inr rfl
    rcases Finset.mem_insert.mp hp with rfl | hp
    · exact Or.inr rfl
    exact Or.inl hp
  iintro %a HI
  unfold inv1V
  icases HI with ⟨-, Hfa, Hfb, H0, H1, ⟨%e2, H2⟩, ⟨%e3, H3⟩, ⟨%e4, H4⟩, ⟨%e5, H5⟩, Hch, S6, S7, S8, Sc2, ⟨%W', %hW', HO⟩⟩
  sl_step
  ihave Hfeat := (pointsTo_share (PosShare.mem_left_op_right (tileShare c i))).2 $$ [Hfa Hfb]
  · isplitl [Hfa] <;> iassumption
  isplitl [Hfeat Hnf Hnd Hch]
  · isplitl [Hfeat]; · iapply (Entails.of_eq (pts_featV (F := F) d _ _ _ _)); iexact Hfeat
    isplitl [Hnf]; · iapply (Entails.of_eq (pts_nbrV (F := F) d _ _ _ _)); iexact Hnf
    isplitl [Hnd]; · iapply (Entails.of_eq (pts_nodeV (F := F) d _ _ _ _)); iexact Hnd
    iapply (SparseCore.ent (bigSep_mono fun k' _ => chunk_out (F := F) m d (coordsV c i) k' _ k'.isLt))
    iexact Hch
  isplitl [H0 H1 H2 H3 H4 H5 Hbrest]
  · isplitr [Hbrest]
    · isplitl [H0]; · iexists _; iapply (Entails.of_eq (pts_whole (F := F) d _ _ cc0_scratch0 _ _).symm); iexact H0
      isplitl [H1]; · iexists _; iapply (Entails.of_eq (pts_whole (F := F) d _ _ cc0_scratch1 _ _).symm); iexact H1
      isplitl [H2]; · iexists _; iapply (Entails.of_eq (pts_whole (F := F) d _ _ cc0_scratch2 _ _).symm); iexact H2
      isplitl [H3]; · iexists _; iapply (Entails.of_eq (pts_whole (F := F) d _ _ cc0_scratch3 _ _).symm); iexact H3
      isplitl [H4]; · iexists _; iapply (Entails.of_eq (pts_whole (F := F) d _ _ cc0_scratch4 _ _).symm); iexact H4
      iexists _; iapply (Entails.of_eq (pts_whole (F := F) d _ _ cc0_scratch5 _ _).symm); iexact H5
    · iexact Hbrest
  isplitl [S6 S7 S8 Sc0 Sc1 Sc2 Hsrest]
  · isplitr [Hsrest]
    · isplitl [S6]; · iexact S6
      isplitl [S7]; · iexact S7
      isplitl [S8]; · iexact S8
      isplitl [Sc0]; · iexact Sc0
      isplitl [Sc1]; · iexact Sc1
      iexact Sc2
    · iexact Hsrest
  iexists W'; isplitr
  · ipureintro; exact hW'
  iexact HO

/-! ## The launch theorem's obligation -/

theorem defs₀_vector (c : Fin τ.nSC) (s : Fin τ.nSub) :
    defs₀ (F := F) (.scVector c s) 0 ()
      = SparseCore.onTile hcore0 hsub0 (fun c s => cc0__sc_body (coordsV c s)
          featV (Memref.isWhole_whole _) nfV (Memref.isWhole_whole _) ndV (Memref.isWhole_whole _) sumV (Memref.isWhole_whole _)
          s0V (Memref.isWhole_whole _) s1V (Memref.isWhole_whole _) s2V (Memref.isWhole_whole _) s3V (Memref.isWhole_whole _)
          s4V (Memref.isWhole_whole _) s5V (Memref.isWhole_whole _) cc0_scratch6 cc0_scratch7 cc0_scratch8 cc0_scoped0 cc0_scoped1 cc0_scoped2) ⟨⟩ c s := rfl

/-- The recorded pairs of a run that waited only on the kernel's own semaphores are within the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl_of (htrip : TripHyp (F := F)) (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BIBase.Entails.trans ?_ ((tile_body m d htrip hF hpre ⟨_, hc.1⟩ ⟨_, hc.2⟩ O W hO).trans (wp_mono frame _ _ fun _ => obl_post))
  have hgo : (P m).go 0 d c i = tileRes m d ⟨_, hc.1⟩ ⟨_, hc.2⟩ (m (sumsLoc d)) := rfl
  iintro ⟨Hlv, -, Hgo, Hb, Hs, HO⟩
  isplitl [Hlv]; · iexact Hlv
  isplitl [Hgo]; · iapply (Entails.of_eq hgo); iexact Hgo
  isplitl [Hb]; · iexact Hb
  isplitl [Hs]; · iexact Hs
  iexact HO

/-- THE TILE'S OBLIGATION. -/
theorem tileObl (hpre : PreOK m) : (K (F := F)).TileObl (D (F := F)) 𝒱 (P m) v₀ 0 :=
  tileObl_of m (fun d L qa qb O W ff g0 g1 nd nf hg1 hg0 hnd hnf h0 h1 k =>
    trip1V d L qa qb O W ff g0 g1 nd nf hg1 hg0 hnd hnf h0 h1 k) facts hpre

/-- info: 'Cert.Proof.KB.tileObl' depends on axioms: [propext, Classical.choice, Quot.sound] -/
#guard_msgs in #print axioms tileObl

end Cert.Proof.KB

end
-- ==== Proof.lean ====
/-
  The certificate of a neighbourhood-aggregation layer.  For each of 16384 batch rows the programs take one table row
  named by `node` and thirty-two named by `neighbours`, and return `max (mean · W) 0`, where `mean` is the lane-wise
  mean of those 33 rows and `W` the 128 x 128 weight matrix; `raw_features` is returned untouched.

  The kernel computes it in two steps.  Thirty-two SparseCore tiles each take 512 batch rows: a tile copies its words of
  the two flattened index lists, and per superchunk of 128 rows gathers the node rows, then — double-buffered, one DMA
  semaphore per slot, a slot read only between its wait and its next issue — the neighbour rows, adding each row's 32
  neighbour rows to its node row in sixteen-lane accumulators, and copies the 128 finished rows out.  A TensorCore
  pipeline then multiplies the aggregates into `W`, clips at zero and scales by 1/33.  The reference takes the mean first
  and multiplies after.

  Over the extended reals the two agree when the table and the weights are finite (the scale 1/33 moves across the finite
  sums by distributivity and across the clip because it is positive) and the index words name table rows, which the
  precondition says.  The word-level kernel and its idealization run to the end, fault nowhere and leave their arguments
  unchanged (the same proof at both float instances); the idealization's one rewrite reads the literal f32(1/33), which the
  source writes as 1.0 / (K + 1) with K = 32, as the exact 1/33.
-/
import proofs.«210776_g5076651344590_cont_8to1_c_706_2_alg».proof.Defs
import proofs.«210776_g5076651344590_cont_8to1_c_706_2_alg».proof.Proof.Gen.Kernel
import proofs.«210776_g5076651344590_cont_8to1_c_706_2_alg».proof.Proof.Gen.KernelIdeal
import proofs.«210776_g5076651344590_cont_8to1_c_706_2_alg».proof.Proof.Gen.ReferenceIdeal
import proofs.«210776_g5076651344590_cont_8to1_c_706_2_alg».proof.Proof.Gen.Pre_input_domain
import proofs.«210776_g5076651344590_cont_8to1_c_706_2_alg».proof.Proof.KIClaims
import proofs.«210776_g5076651344590_cont_8to1_c_706_2_alg».proof.Proof.KBClaims
import proofs.«210776_g5076651344590_cont_8to1_c_706_2_alg».proof.Proof.KITileObl
import proofs.«210776_g5076651344590_cont_8to1_c_706_2_alg».proof.Proof.KBTileObl
import Idealize.ShloMosaic.Adequacy
import Idealize.ShloMosaic.Init

noncomputable section

namespace Cert.Proof

open Idealize.ShloMosaic Idealize.SL.Sem

/-- The five conjuncts: the word-level kernel's frame, the idealized kernel's, the reference's, the one sanctioned
    rewrite, and the equality of results at the ideal instance. -/
theorem claim : Cert.Claim :=
  ⟨Cert.Kernel.Gen.facts, Cert.KernelIdeal.Gen.facts, Cert.ReferenceIdeal.Gen.facts, Cert.Pre_input_domain.Gen.facts,
    Cert.Proof.KB.frame_KB (fun m hpre => Cert.Proof.KB.tileObl m hpre),
    Cert.Proof.KI.frame_KI (fun m hpre => Cert.Proof.KI.tileObl m hpre),
    Cert.Proof.KI.frame_RI, Cert.Proof.KI.preserves,
    Cert.Proof.KI.algebraic (fun m hpre => Cert.Proof.KI.tileObl m hpre)⟩

end Cert.Proof

end
